-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S2x524288 : Shape := ⟨2, ![2, 524288]⟩
abbrev S524288 : Shape := ⟨1, ![524288]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S524288 : S_.BroadcastsInDim S524288 (![] : Fin 0 → Fin S524288.rank)
  reducesTo_S524288_S_d0 : S524288.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part7 {F : FTy → Type} [FloatOps F] (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  main_v123

def fn_part6 {F : FTy → Type} [FloatOps F] (main_arg25 : FVec F S128 .f32) (main_arg26 : FVec F S128 .f32) (main_arg27 : FVec F S128 .f32) (main_arg28 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg25
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg26
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg27
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg28
  fn_part7 (F := F) main_v118 main_v119

def fn_part5 {F : FTy → Type} [FloatOps F] (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg23
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg24
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg25 main_arg26 main_arg27 main_arg28 main_v98 main_v101 main_c_39

def fn_part4 {F : FTy → Type} [FloatOps F] (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg19
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg21
  let main_cst_32 : FVec F S_ .f32 := constant S_ .f32 0x7F800000#32
  fn_part5 (F := F) main_arg22 main_arg23 main_arg24 main_arg25 main_arg26 main_arg27 main_arg28 main_v83 main_v84 main_cst_32

def fn_part3 {F : FTy → Type} [FloatOps F] (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg18 main_arg19 main_arg20 main_arg21 main_arg22 main_arg23 main_arg24 main_arg25 main_arg26 main_arg27 main_arg28 main_v63 main_v67

def fn_part2 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg8 : FVec F S524288 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_v13 : IVec S_ 1) (main_v16 : IVec S524288 1) : IVec S_ 1 :=
  let main_c_5 : IVec S_ 1 := constantI S_ 1 1#1
  let main_v17 : IVec S_ 1 := (fun x v => Host.reduce IntOp.andi x v reducesTo_S524288_S_d0 h_S_) main_v16 main_c_5
  let main_v18 : IVec S_ 1 := andi main_v13 main_v17
  let main_v19 : FVec F S524288 .f32 := Host.absf main_arg8
  let main_cst_6 : FVec F S_ .f32 := constant S_ .f32 0x7F800000#32
  let main_v20 : FVec F S524288 .f32 := broadcastInDim S524288 ![] bcast_S_S524288 main_cst_6
  let main_v21 : IVec S524288 1 := cmpf .olt main_v19 main_v20
  let main_c_7 : IVec S_ 1 := constantI S_ 1 1#1
  let main_v22 : IVec S_ 1 := (fun x v => Host.reduce IntOp.andi x v reducesTo_S524288_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S131072x128 .f32) (main_arg1 : IVec S2x524288 32) (main_arg2 : IVec S2x524288 32) (main_arg3 : IVec S2x524288 32) (main_arg4 : IVec S2x524288 32) (main_arg5 : FVec F S524288 .f32) (main_arg6 : FVec F S524288 .f32) (main_arg7 : FVec F S524288 .f32) (main_arg8 : FVec F S524288 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S524288 .f32 := Host.absf main_arg5
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S524288 .f32 := Host.absf main_arg6
  let main_cst_2 : FVec F S_ .f32 := constant S_ .f32 0x7F800000#32
  let main_v10 : FVec F S524288 .f32 := broadcastInDim S524288 ![] bcast_S_S524288 main_cst_2
  let main_v11 : IVec S524288 1 := cmpf .olt main_v9 main_v10
  let main_c_3 : IVec S_ 1 := constantI S_ 1 1#1
  let main_v12 : IVec S_ 1 := (fun x v => Host.reduce IntOp.andi x v reducesTo_S524288_S_d0 h_S_) main_v11 main_c_3
  let main_v13 : IVec S_ 1 := andi main_v8 main_v12
  let main_v14 : FVec F S524288 .f32 := Host.absf main_arg7
  let main_cst_4 : FVec F S_ .f32 := constant S_ .f32 0x7F800000#32
  let main_v15 : FVec F S524288 .f32 := broadcastInDim S524288 ![] bcast_S_S524288 main_cst_4
  let main_v16 : IVec S524288 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S131072x128 : Shape := ⟨2, ![131072, 128]⟩
abbrev S2x524288 : Shape := ⟨2, ![2, 524288]⟩
abbrev S524288 : Shape := ⟨1, ![524288]⟩
abbrev S128x128 : Shape := ⟨2, ![128, 128]⟩
abbrev S128 : Shape := ⟨1, ![128]⟩
abbrev S128x512 : Shape := ⟨2, ![128, 512]⟩
abbrev S131072x512 : Shape := ⟨2, ![131072, 512]⟩
abbrev S4096x128 : Shape := ⟨2, ![4096, 128]⟩
abbrev S4096x512 : Shape := ⟨2, ![4096, 512]⟩
abbrev S_ : Shape := ⟨0, ![]⟩
abbrev S1x524288 : Shape := ⟨2, ![1, 524288]⟩
abbrev S524288x1 : Shape := ⟨2, ![524288, 1]⟩
abbrev S524288x128 : Shape := ⟨2, ![524288, 128]⟩
abbrev S1x128 : Shape := ⟨2, ![1, 128]⟩
abbrev S4096 : Shape := ⟨1, ![4096]⟩
abbrev S4096x1 : Shape := ⟨2, ![4096, 1]⟩

abbrev nBuf : Space → Nat
  | .hbm => 239
  | .vmem => 22
  | .smem => 0
  | _ => 0

abbrev hbmTy0_0 (i : Nat) : BufTy := match i % 128 with
  | 0 => ⟨S131072x128, .f32⟩
  | 1 => ⟨S2x524288, .i32⟩
  | 2 => ⟨S2x524288, .i32⟩
  | 3 => ⟨S2x524288, .i32⟩
  | 4 => ⟨S2x524288, .i32⟩
  | 5 => ⟨S524288, .f32⟩
  | 6 => ⟨S524288, .f32⟩
  | 7 => ⟨S524288, .f32⟩
  | 8 => ⟨S524288, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128, .f32⟩
  | 26 => ⟨S128, .f32⟩
  | 27 => ⟨S128, .f32⟩
  | 28 => ⟨S128, .f32⟩
  | 29 => ⟨S128x512, .f32⟩
  | 30 => ⟨S131072x512, .f32⟩
  | 31 => ⟨S131072x128, .f32⟩
  | 32 => ⟨S131072x128, .f32⟩
  | 33 => ⟨S131072x128, .f32⟩
  | 34 => ⟨S131072x128, .f32⟩
  | 35 => ⟨S_, .f32⟩
  | 36 => ⟨S131072x128, .f32⟩
  | 37 => ⟨S1x524288, .i32⟩
  | 38 => ⟨S524288, .i32⟩
  | 39 => ⟨S1x524288, .i32⟩
  | 40 => ⟨S524288, .i32⟩
  | 41 => ⟨S_, .i32⟩
  | 42 => ⟨S524288, .i32⟩
  | 43 => ⟨S524288, .i1⟩
  | 44 => ⟨S_, .i32⟩
  | 45 => ⟨S524288, .i32⟩
  | 46 => ⟨S524288, .i32⟩
  | 47 => ⟨S524288, .i32⟩
  | 48 => ⟨S524288x1, .i32⟩
  | 49 => ⟨S524288x128, .f32⟩
  | 50 => ⟨S524288x1, .f32⟩
  | 51 => ⟨S524288x128, .f32⟩
  | 52 => ⟨S524288x128, .f32⟩
  | 53 => ⟨S_, .f32⟩
  | 54 => ⟨S131072x128, .f32⟩
  | 55 => ⟨S524288x1, .i32⟩
  | 56 => ⟨S131072x128, .f32⟩
  | 57 => ⟨S131072x128, .f32⟩
  | 58 => ⟨S1x128, .f32⟩
  | 59 => ⟨S131072x128, .f32⟩
  | 60 => ⟨S131072x128, .f32⟩
  | 61 => ⟨S1x524288, .i32⟩
  | 62 => ⟨S524288, .i32⟩
  | 63 => ⟨S1x524288, .i32⟩
  | 64 => ⟨S524288, .i32⟩
  | 65 => ⟨S_, .i32⟩
  | 66 => ⟨S524288, .i32⟩
  | 67 => ⟨S524288, .i1⟩
  | 68 => ⟨S_, .i32⟩
  | 69 => ⟨S524288, .i32⟩
  | 70 => ⟨S524288, .i32⟩
  | 71 => ⟨S524288, .i32⟩
  | 72 => ⟨S524288x1, .i32⟩
  | 73 => ⟨S524288x128, .f32⟩
  | 74 => ⟨S524288x1, .f32⟩
  | 75 => ⟨S524288x128, .f32⟩
  | 76 => ⟨S524288x128, .f32⟩
  | 77 => ⟨S_, .f32⟩
  | 78 => ⟨S131072x128, .f32⟩
  | 79 => ⟨S524288x1, .i32⟩
  | 80 => ⟨S131072x128, .f32⟩
  | 81 => ⟨S131072x128, .f32⟩
  | 82 => ⟨S1x128, .f32⟩
  | 83 => ⟨S131072x128, .f32⟩
  | 84 => ⟨S131072x128, .f32⟩
  | 85 => ⟨S1x524288, .i32⟩
  | 86 => ⟨S524288, .i32⟩
  | 87 => ⟨S1x524288, .i32⟩
  | 88 => ⟨S524288, .i32⟩
  | 89 => ⟨S_, .i32⟩
  | 90 => ⟨S524288, .i32⟩
  | 91 => ⟨S524288, .i1⟩
  | 92 => ⟨S_, .i32⟩
  | 93 => ⟨S524288, .i32⟩
  | 94 => ⟨S524288, .i32⟩
  | 95 => ⟨S524288, .i32⟩
  | 96 => ⟨S524288x1, .i32⟩
  | 97 => ⟨S524288x128, .f32⟩
  | 98 => ⟨S524288x1, .f32⟩
  | 99 => ⟨S524288x128, .f32⟩
  | 100 => ⟨S524288x128, .f32⟩
  | 101 => ⟨S_, .f32⟩
  | 102 => ⟨S131072x128, .f32⟩
  | 103 => ⟨S524288x1, .i32⟩
  | 104 => ⟨S131072x128, .f32⟩
  | 105 => ⟨S131072x128, .f32⟩
  | 106 => ⟨S1x128, .f32⟩
  | 107 => ⟨S131072x128, .f32⟩
  | 108 => ⟨S131072x128, .f32⟩
  | 109 => ⟨S1x524288, .i32⟩
  | 110 => ⟨S524288, .i32⟩
  | 111 => ⟨S1x524288, .i32⟩
  | 112 => ⟨S524288, .i32⟩
  | 113 => ⟨S_, .i32⟩
  | 114 => ⟨S524288, .i32⟩
  | 115 => ⟨S524288, .i1⟩
  | 116 => ⟨S_, .i32⟩
  | 117 => ⟨S524288, .i32⟩
  | 118 => ⟨S524288, .i32⟩
  | 119 => ⟨S524288, .i32⟩
  | 120 => ⟨S524288x1, .i32⟩
  | 121 => ⟨S524288x128, .f32⟩
  | 122 => ⟨S524288x1, .f32⟩
  | 123 => ⟨S524288x128, .f32⟩
  | 124 => ⟨S524288x128, .f32⟩
  | 125 => ⟨S_, .f32⟩
  | 126 => ⟨S131072x128, .f32⟩
  | 127 => ⟨S524288x1, .i32⟩
  | _ => ⟨S131072x128, .f32⟩

abbrev hbmTy0_1 (i : Nat) : BufTy := match i % 128 with
  | 0 => ⟨S131072x128, .f32⟩
  | 1 => ⟨S131072x128, .f32⟩
  | 2 => ⟨S1x128, .f32⟩
  | 3 => ⟨S131072x128, .f32⟩
  | 4 => ⟨S131072x128, .f32⟩
  | 5 => ⟨S131072x128, .f32⟩
  | 6 => ⟨S128x512, .f32⟩
  | 7 => ⟨S131072x512, .f32⟩
  | 8 => ⟨S131072x128, .f32⟩
  | 9 => ⟨S131072x128, .f32⟩
  | 10 => ⟨S131072x128, .f32⟩
  | 11 => ⟨S131072x128, .f32⟩
  | 12 => ⟨S_, .f32⟩
  | 13 => ⟨S131072x128, .f32⟩
  | 14 => ⟨S1x524288, .i32⟩
  | 15 => ⟨S524288, .i32⟩
  | 16 => ⟨S1x524288, .i32⟩
  | 17 => ⟨S524288, .i32⟩
  | 18 => ⟨S_, .i32⟩
  | 19 => ⟨S524288, .i32⟩
  | 20 => ⟨S524288, .i1⟩
  | 21 => ⟨S_, .i32⟩
  | 22 => ⟨S524288, .i32⟩
  | 23 => ⟨S524288, .i32⟩
  | 24 => ⟨S524288, .i32⟩
  | 25 => ⟨S524288x1, .i32⟩
  | 26 => ⟨S524288x128, .f32⟩
  | 27 => ⟨S524288x1, .f32⟩
  | 28 => ⟨S524288x128, .f32⟩
  | 29 => ⟨S524288x128, .f32⟩
  | 30 => ⟨S_, .f32⟩
  | 31 => ⟨S131072x128, .f32⟩
  | 32 => ⟨S524288x1, .i32⟩
  | 33 => ⟨S131072x128, .f32⟩
  | 34 => ⟨S131072x128, .f32⟩
  | 35 => ⟨S1x128, .f32⟩
  | 36 => ⟨S131072x128, .f32⟩
  | 37 => ⟨S131072x128, .f32⟩
  | 38 => ⟨S1x524288, .i32⟩
  | 39 => ⟨S524288, .i32⟩
  | 40 => ⟨S1x524288, .i32⟩
  | 41 => ⟨S524288, .i32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288x128, .f32⟩
  | 51 => ⟨S524288x1, .f32⟩
  | 52 => ⟨S524288x128, .f32⟩
  | 53 => ⟨S524288x128, .f32⟩
  | 54 => ⟨S_, .f32⟩
  | 55 => ⟨S131072x128, .f32⟩
  | 56 => ⟨S524288x1, .i32⟩
  | 57 => ⟨S131072x128, .f32⟩
  | 58 => ⟨S131072x128, .f32⟩
  | 59 => ⟨S1x128, .f32⟩
  | 60 => ⟨S131072x128, .f32⟩
  | 61 => ⟨S131072x128, .f32⟩
  | 62 => ⟨S1x524288, .i32⟩
  | 63 => ⟨S524288, .i32⟩
  | 64 => ⟨S1x524288, .i32⟩
  | 65 => ⟨S524288, .i32⟩
  | 66 => ⟨S_, .i32⟩
  | 67 => ⟨S524288, .i32⟩
  | 68 => ⟨S524288, .i1⟩
  | 69 => ⟨S_, .i32⟩
  | 70 => ⟨S524288, .i32⟩
  | 71 => ⟨S524288, .i32⟩
  | 72 => ⟨S524288, .i32⟩
  | 73 => ⟨S524288x1, .i32⟩
  | 74 => ⟨S524288x128, .f32⟩
  | 75 => ⟨S524288x1, .f32⟩
  | 76 => ⟨S524288x128, .f32⟩
  | 77 => ⟨S524288x128, .f32⟩
  | 78 => ⟨S_, .f32⟩
  | 79 => ⟨S131072x128, .f32⟩
  | 80 => ⟨S524288x1, .i32⟩
  | 81 => ⟨S131072x128, .f32⟩
  | 82 => ⟨S131072x128, .f32⟩
  | 83 => ⟨S1x128, .f32⟩
  | 84 => ⟨S131072x128, .f32⟩
  | 85 => ⟨S131072x128, .f32⟩
  | 86 => ⟨S1x524288, .i32⟩
  | 87 => ⟨S524288, .i32⟩
  | 88 => ⟨S1x524288, .i32⟩
  | 89 => ⟨S524288, .i32⟩
  | 90 => ⟨S_, .i32⟩
  | 91 => ⟨S524288, .i32⟩
  | 92 => ⟨S524288, .i1⟩
  | 93 => ⟨S_, .i32⟩
  | 94 => ⟨S524288, .i32⟩
  | 95 => ⟨S524288, .i32⟩
  | 96 => ⟨S524288, .i32⟩
  | 97 => ⟨S524288x1, .i32⟩
  | 98 => ⟨S524288x128, .f32⟩
  | 99 => ⟨S524288x1, .f32⟩
  | 100 => ⟨S524288x128, .f32⟩
  | 101 => ⟨S524288x128, .f32⟩
  | 102 => ⟨S_, .f32⟩
  | 103 => ⟨S131072x128, .f32⟩
  | 104 => ⟨S524288x1, .i32⟩
  | 105 => ⟨S131072x128, .f32⟩
  | 106 => ⟨S131072x128, .f32⟩
  | 107 => ⟨S1x128, .f32⟩
  | 108 => ⟨S131072x128, .f32⟩
  | 109 => ⟨S131072x128, .f32⟩
  | 110 => ⟨S131072x128, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x512, .f32⟩
  | .local _ .vmem, ⟨3, _⟩ => ⟨S4096x512, .f32⟩
  | .local _ .vmem, ⟨4, _⟩ => ⟨S4096x512, .f32⟩
  | .local _ .vmem, ⟨5, _⟩ => ⟨S4096x128, .f32⟩
  | .local _ .vmem, ⟨6, _⟩ => ⟨S4096x128, .f32⟩
  | .local _ .vmem, ⟨7, _⟩ => ⟨S128, .f32⟩
  | .local _ .vmem, ⟨8, _⟩ => ⟨S128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S128x512, .f32⟩
  | .local _ .vmem, ⟨14, _⟩ => ⟨S4096x512, .f32⟩
  | .local _ .vmem, ⟨15, _⟩ => ⟨S4096x512, .f32⟩
  | .local _ .vmem, ⟨16, _⟩ => ⟨S4096x128, .f32⟩
  | .local _ .vmem, ⟨17, _⟩ => ⟨S4096x128, .f32⟩
  | .local _ .vmem, ⟨18, _⟩ => ⟨S128, .f32⟩
  | .local _ .vmem, ⟨19, _⟩ => ⟨S128, .f32⟩
  | .local _ .vmem, ⟨20, _⟩ => ⟨S4096x128, .f32⟩
  | .local _ .vmem, ⟨21, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_cst : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c : Ref sig .tc := ⟨.hbm, 41, rfl⟩
abbrev main_v11 : Ref sig .tc := ⟨.hbm, 42, rfl⟩
abbrev main_v12 : Ref sig .tc := ⟨.hbm, 43, rfl⟩
abbrev main_c_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_1 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_2 : Ref sig .tc := ⟨.hbm, 65, rfl⟩
abbrev main_v32 : Ref sig .tc := ⟨.hbm, 66, rfl⟩
abbrev main_v33 : Ref sig .tc := ⟨.hbm, 67, rfl⟩
abbrev main_c_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_4 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_5 : Ref sig .tc := ⟨.hbm, 89, rfl⟩
abbrev main_v53 : Ref sig .tc := ⟨.hbm, 90, rfl⟩
abbrev main_v54 : Ref sig .tc := ⟨.hbm, 91, rfl⟩
abbrev main_c_6 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_7 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_8 : Ref sig .tc := ⟨.hbm, 113, rfl⟩
abbrev main_v74 : Ref sig .tc := ⟨.hbm, 114, rfl⟩
abbrev main_v75 : Ref sig .tc := ⟨.hbm, 115, rfl⟩
abbrev main_c_9 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_10 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_11 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_12 : Ref sig .tc := ⟨.hbm, 146, rfl⟩
abbrev main_v103 : Ref sig .tc := ⟨.hbm, 147, rfl⟩
abbrev main_v104 : Ref sig .tc := ⟨.hbm, 148, rfl⟩
abbrev main_c_13 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_14 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_c_15 : Ref sig .tc := ⟨.hbm, 170, rfl⟩
abbrev main_v124 : Ref sig .tc := ⟨.hbm, 171, rfl⟩
abbrev main_v125 : Ref sig .tc := ⟨.hbm, 172, rfl⟩
abbrev main_c_16 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_17 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_18 : Ref sig .tc := ⟨.hbm, 194, rfl⟩
abbrev main_v145 : Ref sig .tc := ⟨.hbm, 195, rfl⟩
abbrev main_v146 : Ref sig .tc := ⟨.hbm, 196, rfl⟩
abbrev main_c_19 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_20 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_c_21 : Ref sig .tc := ⟨.hbm, 218, rfl⟩
abbrev main_v166 : Ref sig .tc := ⟨.hbm, 219, rfl⟩
abbrev main_v167 : Ref sig .tc := ⟨.hbm, 220, rfl⟩
abbrev main_c_22 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_23 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S128x128_S128x128_S128x128_S128x128_S128x512_d1 : Shape.Concatenates [S128x128, S128x128, S128x128, S128x128] S128x512 1
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S4096x512_S4096x512_0_0 : ∀ a, (![0, 0] : Fin 2 → Nat) a + S4096x512.size a ≤ S4096x512.size a
  h_S4096x512 : 0 < S4096x512.numel
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S4096x128_S4096x128 : S4096x128.ShapeCasts S4096x128
  reduces_S4096x128_S4096 : S4096x128.Reduces [1] S4096
  shapeCasts_S4096_S4096x1 : S4096.ShapeCasts S4096x1
  broadcasts_S4096x1_S4096x128 : S4096x1.Broadcasts S4096x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  dot_S4096x128_S128x512_S4096x512_1_0_0_1_n_n_wf : DotDims.WF S4096x128 S128x512 S4096x512 [1] [0] [0] [1] [] []
  gather_S131072x128_S524288x1_S524288x128_1_0_n_n_0_1_1128_wf : GatherDims.WF S131072x128 S524288x1 S524288x128 [1] [0] [] [0] [] 1 ![1, 128]
  scatter_S131072x128_S524288x1_S524288x128_1_0_0_1_wf : ScatterDims.WF S131072x128 S524288x1 S524288x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S131072x128.size a
  hwx1_3 : ∀ i : grid1.Coords, EltTy.bits .f32 = 32 ∨ (Rect.block (s := S131072x128) S4096x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S131072x128.size a
  hwx2_0 : ∀ i : grid2.Coords, EltTy.bits .f32 = 32 ∨ (Rect.block (s := S131072x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .f32 = 32 ∨ (Rect.block (s := S128x512) S128x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x512.size a ≤ S131072x512.size a
  hwx2_2 : ∀ i : grid2.Coords, EltTy.bits .f32 = 32 ∨ (Rect.block (s := S131072x512) S4096x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S131072x128.size a
  hwx3_0 : ∀ i : grid3.Coords, EltTy.bits .f32 = 32 ∨ (Rect.block (s := S131072x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S131072x128.size a
  hwx3_3 : ∀ i : grid3.Coords, EltTy.bits .f32 = 32 ∨ (Rect.block (s := S131072x128) S4096x128.size (cc3_transform_3 i) (hinb3_3 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def gather_S131072x128_S524288x1_S524288x128_1_0_n_n_0_1_1128 : GatherDims S131072x128 S524288x1 S524288x128 where
  offsetDims := [1]
  collapsedSliceDims := [0]
  operandBatchingDims := []
  startIndicesBatchingDims := []
  startIndexMap := [0]
  indexVectorDim := 1
  sliceSizes := ![1, 128]
  wf := gather_S131072x128_S524288x1_S524288x128_1_0_n_n_0_1_1128_wf
def scatter_S131072x128_S524288x1_S524288x128_1_0_0_1 : ScatterDims S131072x128 S524288x1 S524288x128 where
  updateWindowDims := [1]
  insertedWindowDims := [0]
  scatterDimsToOperandDims := [0]
  indexVectorDim := 1
  wf := scatter_S131072x128_S524288x1_S524288x128_1_0_0_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v90) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg25) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg26) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v91) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v91) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S4096x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v182) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg27) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg28) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v183) S4096x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S131072x128 : Shape := ⟨2, ![131072, 128]⟩
abbrev S2x524288 : Shape := ⟨2, ![2, 524288]⟩
abbrev S524288 : Shape := ⟨1, ![524288]⟩
abbrev S128x128 : Shape := ⟨2, ![128, 128]⟩
abbrev S128 : Shape := ⟨1, ![128]⟩
abbrev S1x524288 : Shape := ⟨2, ![1, 524288]⟩
abbrev S_ : Shape := ⟨0, ![]⟩
abbrev S524288x1 : Shape := ⟨2, ![524288, 1]⟩
abbrev S524288x128 : Shape := ⟨2, ![524288, 128]⟩
abbrev S1x128 : Shape := ⟨2, ![1, 128]⟩
abbrev S131072 : Shape := ⟨1, ![131072]⟩
abbrev S131072x1 : Shape := ⟨2, ![131072, 1]⟩

abbrev nBuf : Space → Nat
  | .hbm => 321
  | .vmem => 0
  | .smem => 0
  | _ => 0

abbrev hbmTy0_0 (i : Nat) : BufTy := match i % 128 with
  | 0 => ⟨S131072x128, .f32⟩
  | 1 => ⟨S2x524288, .i32⟩
  | 2 => ⟨S2x524288, .i32⟩
  | 3 => ⟨S2x524288, .i32⟩
  | 4 => ⟨S2x524288, .i32⟩
  | 5 => ⟨S524288, .f32⟩
  | 6 => ⟨S524288, .f32⟩
  | 7 => ⟨S524288, .f32⟩
  | 8 => ⟨S524288, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128, .f32⟩
  | 26 => ⟨S128, .f32⟩
  | 27 => ⟨S128, .f32⟩
  | 28 => ⟨S128, .f32⟩
  | 29 => ⟨S1x524288, .i32⟩
  | 30 => ⟨S524288, .i32⟩
  | 31 => ⟨S1x524288, .i32⟩
  | 32 => ⟨S524288, .i32⟩
  | 33 => ⟨S131072x128, .f32⟩
  | 34 => ⟨S_, .i32⟩
  | 35 => ⟨S524288, .i32⟩
  | 36 => ⟨S524288, .i1⟩
  | 37 => ⟨S_, .i32⟩
  | 38 => ⟨S524288, .i32⟩
  | 39 => ⟨S524288, .i32⟩
  | 40 => ⟨S524288, .i32⟩
  | 41 => ⟨S524288x1, .i32⟩
  | 42 => ⟨S524288x128, .f32⟩
  | 43 => ⟨S524288x1, .f32⟩
  | 44 => ⟨S524288x128, .f32⟩
  | 45 => ⟨S524288x128, .f32⟩
  | 46 => ⟨S_, .f32⟩
  | 47 => ⟨S131072x128, .f32⟩
  | 48 => ⟨S524288x1, .i32⟩
  | 49 => ⟨S131072x128, .f32⟩
  | 50 => ⟨S1x128, .f32⟩
  | 51 => ⟨S131072x128, .f32⟩
  | 52 => ⟨S131072x128, .f32⟩
  | 53 => ⟨S_, .f32⟩
  | 54 => ⟨S131072x128, .f32⟩
  | 55 => ⟨S131072x128, .f32⟩
  | 56 => ⟨S1x524288, .i32⟩
  | 57 => ⟨S524288, .i32⟩
  | 58 => ⟨S1x524288, .i32⟩
  | 59 => ⟨S524288, .i32⟩
  | 60 => ⟨S131072x128, .f32⟩
  | 61 => ⟨S_, .i32⟩
  | 62 => ⟨S524288, .i32⟩
  | 63 => ⟨S524288, .i1⟩
  | 64 => ⟨S_, .i32⟩
  | 65 => ⟨S524288, .i32⟩
  | 66 => ⟨S524288, .i32⟩
  | 67 => ⟨S524288, .i32⟩
  | 68 => ⟨S524288x1, .i32⟩
  | 69 => ⟨S524288x128, .f32⟩
  | 70 => ⟨S524288x1, .f32⟩
  | 71 => ⟨S524288x128, .f32⟩
  | 72 => ⟨S524288x128, .f32⟩
  | 73 => ⟨S_, .f32⟩
  | 74 => ⟨S131072x128, .f32⟩
  | 75 => ⟨S524288x1, .i32⟩
  | 76 => ⟨S131072x128, .f32⟩
  | 77 => ⟨S1x128, .f32⟩
  | 78 => ⟨S131072x128, .f32⟩
  | 79 => ⟨S131072x128, .f32⟩
  | 80 => ⟨S131072x128, .f32⟩
  | 81 => ⟨S1x524288, .i32⟩
  | 82 => ⟨S524288, .i32⟩
  | 83 => ⟨S1x524288, .i32⟩
  | 84 => ⟨S524288, .i32⟩
  | 85 => ⟨S131072x128, .f32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S524288x1, .i32⟩
  | 94 => ⟨S524288x128, .f32⟩
  | 95 => ⟨S524288x1, .f32⟩
  | 96 => ⟨S524288x128, .f32⟩
  | 97 => ⟨S524288x128, .f32⟩
  | 98 => ⟨S_, .f32⟩
  | 99 => ⟨S131072x128, .f32⟩
  | 100 => ⟨S524288x1, .i32⟩
  | 101 => ⟨S131072x128, .f32⟩
  | 102 => ⟨S1x128, .f32⟩
  | 103 => ⟨S131072x128, .f32⟩
  | 104 => ⟨S131072x128, .f32⟩
  | 105 => ⟨S131072x128, .f32⟩
  | 106 => ⟨S1x524288, .i32⟩
  | 107 => ⟨S524288, .i32⟩
  | 108 => ⟨S1x524288, .i32⟩
  | 109 => ⟨S524288, .i32⟩
  | 110 => ⟨S131072x128, .f32⟩
  | 111 => ⟨S_, .i32⟩
  | 112 => ⟨S524288, .i32⟩
  | 113 => ⟨S524288, .i1⟩
  | 114 => ⟨S_, .i32⟩
  | 115 => ⟨S524288, .i32⟩
  | 116 => ⟨S524288, .i32⟩
  | 117 => ⟨S524288, .i32⟩
  | 118 => ⟨S524288x1, .i32⟩
  | 119 => ⟨S524288x128, .f32⟩
  | 120 => ⟨S524288x1, .f32⟩
  | 121 => ⟨S524288x128, .f32⟩
  | 122 => ⟨S524288x128, .f32⟩
  | 123 => ⟨S_, .f32⟩
  | 124 => ⟨S131072x128, .f32⟩
  | 125 => ⟨S524288x1, .i32⟩
  | 126 => ⟨S131072x128, .f32⟩
  | 127 => ⟨S1x128, .f32⟩
  | _ => ⟨S131072x128, .f32⟩

abbrev hbmTy0_1 (i : Nat) : BufTy := match i % 128 with
  | 0 => ⟨S131072x128, .f32⟩
  | 1 => ⟨S131072x128, .f32⟩
  | 2 => ⟨S131072x128, .f32⟩
  | 3 => ⟨S_, .f32⟩
  | 4 => ⟨S131072, .f32⟩
  | 5 => ⟨S131072x1, .f32⟩
  | 6 => ⟨S_, .f32⟩
  | 7 => ⟨S131072x1, .f32⟩
  | 8 => ⟨S131072x1, .f32⟩
  | 9 => ⟨S_, .i32⟩
  | 10 => ⟨S_, .f32⟩
  | 11 => ⟨S131072, .f32⟩
  | 12 => ⟨S131072x1, .f32⟩
  | 13 => ⟨S_, .f32⟩
  | 14 => ⟨S131072x1, .f32⟩
  | 15 => ⟨S131072x1, .f32⟩
  | 16 => ⟨S131072x128, .f32⟩
  | 17 => ⟨S131072x128, .f32⟩
  | 18 => ⟨S131072x128, .f32⟩
  | 19 => ⟨S_, .f32⟩
  | 20 => ⟨S_, .f32⟩
  | 21 => ⟨S_, .f32⟩
  | 22 => ⟨S_, .f32⟩
  | 23 => ⟨S131072, .f32⟩
  | 24 => ⟨S131072x1, .f32⟩
  | 25 => ⟨S131072x1, .f32⟩
  | 26 => ⟨S131072x1, .f32⟩
  | 27 => ⟨S_, .f32⟩
  | 28 => ⟨S_, .i1⟩
  | 29 => ⟨S_, .f32⟩
  | 30 => ⟨S_, .f32⟩
  | 31 => ⟨S131072x1, .f32⟩
  | 32 => ⟨S131072x1, .f32⟩
  | 33 => ⟨S131072x128, .f32⟩
  | 34 => ⟨S131072x128, .f32⟩
  | 35 => ⟨S_, .f32⟩
  | 36 => ⟨S131072x1, .f32⟩
  | 37 => ⟨S131072x1, .f32⟩
  | 38 => ⟨S131072x1, .f32⟩
  | 39 => ⟨S131072x128, .f32⟩
  | 40 => ⟨S131072x128, .f32⟩
  | 41 => ⟨S1x128, .f32⟩
  | 42 => ⟨S131072x128, .f32⟩
  | 43 => ⟨S131072x128, .f32⟩
  | 44 => ⟨S1x128, .f32⟩
  | 45 => ⟨S131072x128, .f32⟩
  | 46 => ⟨S131072x128, .f32⟩
  | 47 => ⟨S1x524288, .i32⟩
  | 48 => ⟨S524288, .i32⟩
  | 49 => ⟨S1x524288, .i32⟩
  | 50 => ⟨S524288, .i32⟩
  | 51 => ⟨S131072x128, .f32⟩
  | 52 => ⟨S_, .i32⟩
  | 53 => ⟨S524288, .i32⟩
  | 54 => ⟨S524288, .i1⟩
  | 55 => ⟨S_, .i32⟩
  | 56 => ⟨S524288, .i32⟩
  | 57 => ⟨S524288, .i32⟩
  | 58 => ⟨S524288, .i32⟩
  | 59 => ⟨S524288x1, .i32⟩
  | 60 => ⟨S524288x128, .f32⟩
  | 61 => ⟨S524288x1, .f32⟩
  | 62 => ⟨S524288x128, .f32⟩
  | 63 => ⟨S524288x128, .f32⟩
  | 64 => ⟨S_, .f32⟩
  | 65 => ⟨S131072x128, .f32⟩
  | 66 => ⟨S524288x1, .i32⟩
  | 67 => ⟨S131072x128, .f32⟩
  | 68 => ⟨S1x128, .f32⟩
  | 69 => ⟨S131072x128, .f32⟩
  | 70 => ⟨S131072x128, .f32⟩
  | 71 => ⟨S_, .f32⟩
  | 72 => ⟨S131072x128, .f32⟩
  | 73 => ⟨S131072x128, .f32⟩
  | 74 => ⟨S1x524288, .i32⟩
  | 75 => ⟨S524288, .i32⟩
  | 76 => ⟨S1x524288, .i32⟩
  | 77 => ⟨S524288, .i32⟩
  | 78 => ⟨S131072x128, .f32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S524288x1, .i32⟩
  | 87 => ⟨S524288x128, .f32⟩
  | 88 => ⟨S524288x1, .f32⟩
  | 89 => ⟨S524288x128, .f32⟩
  | 90 => ⟨S524288x128, .f32⟩
  | 91 => ⟨S_, .f32⟩
  | 92 => ⟨S131072x128, .f32⟩
  | 93 => ⟨S524288x1, .i32⟩
  | 94 => ⟨S131072x128, .f32⟩
  | 95 => ⟨S1x128, .f32⟩
  | 96 => ⟨S131072x128, .f32⟩
  | 97 => ⟨S131072x128, .f32⟩
  | 98 => ⟨S131072x128, .f32⟩
  | 99 => ⟨S1x524288, .i32⟩
  | 100 => ⟨S524288, .i32⟩
  | 101 => ⟨S1x524288, .i32⟩
  | 102 => ⟨S524288, .i32⟩
  | 103 => ⟨S131072x128, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x128, .f32⟩
  | 113 => ⟨S524288x1, .f32⟩
  | 114 => ⟨S524288x128, .f32⟩
  | 115 => ⟨S524288x128, .f32⟩
  | 116 => ⟨S_, .f32⟩
  | 117 => ⟨S131072x128, .f32⟩
  | 118 => ⟨S524288x1, .i32⟩
  | 119 => ⟨S131072x128, .f32⟩
  | 120 => ⟨S1x128, .f32⟩
  | 121 => ⟨S131072x128, .f32⟩
  | 122 => ⟨S131072x128, .f32⟩
  | 123 => ⟨S131072x128, .f32⟩
  | 124 => ⟨S1x524288, .i32⟩
  | 125 => ⟨S524288, .i32⟩
  | 126 => ⟨S1x524288, .i32⟩
  | 127 => ⟨S524288, .i32⟩
  | _ => ⟨S131072x128, .f32⟩

abbrev hbmTy0_2 (i : Nat) : BufTy := match i % 128 with
  | 0 => ⟨S131072x128, .f32⟩
  | 1 => ⟨S_, .i32⟩
  | 2 => ⟨S524288, .i32⟩
  | 3 => ⟨S524288, .i1⟩
  | 4 => ⟨S_, .i32⟩
  | 5 => ⟨S524288, .i32⟩
  | 6 => ⟨S524288, .i32⟩
  | 7 => ⟨S524288, .i32⟩
  | 8 => ⟨S524288x1, .i32⟩
  | 9 => ⟨S524288x128, .f32⟩
  | 10 => ⟨S524288x1, .f32⟩
  | 11 => ⟨S524288x128, .f32⟩
  | 12 => ⟨S524288x128, .f32⟩
  | 13 => ⟨S_, .f32⟩
  | 14 => ⟨S131072x128, .f32⟩
  | 15 => ⟨S524288x1, .i32⟩
  | 16 => ⟨S131072x128, .f32⟩
  | 17 => ⟨S1x128, .f32⟩
  | 18 => ⟨S131072x128, .f32⟩
  | 19 => ⟨S131072x128, .f32⟩
  | 20 => ⟨S131072x128, .f32⟩
  | 21 => ⟨S_, .f32⟩
  | 22 => ⟨S131072, .f32⟩
  | 23 => ⟨S131072x1, .f32⟩
  | 24 => ⟨S_, .f32⟩
  | 25 => ⟨S131072x1, .f32⟩
  | 26 => ⟨S131072x1, .f32⟩
  | 27 => ⟨S_, .i32⟩
  | 28 => ⟨S_, .f32⟩
  | 29 => ⟨S131072, .f32⟩
  | 30 => ⟨S131072x1, .f32⟩
  | 31 => ⟨S_, .f32⟩
  | 32 => ⟨S131072x1, .f32⟩
  | 33 => ⟨S131072x1, .f32⟩
  | 34 => ⟨S131072x128, .f32⟩
  | 35 => ⟨S131072x128, .f32⟩
  | 36 => ⟨S131072x128, .f32⟩
  | 37 => ⟨S_, .f32⟩
  | 38 => ⟨S_, .f32⟩
  | 39 => ⟨S_, .f32⟩
  | 40 => ⟨S_, .f32⟩
  | 41 => ⟨S131072, .f32⟩
  | 42 => ⟨S131072x1, .f32⟩
  | 43 => ⟨S131072x1, .f32⟩
  | 44 => ⟨S131072x1, .f32⟩
  | 45 => ⟨S_, .f32⟩
  | 46 => ⟨S_, .i1⟩
  | 47 => ⟨S_, .f32⟩
  | 48 => ⟨S_, .f32⟩
  | 49 => ⟨S131072x1, .f32⟩
  | 50 => ⟨S131072x1, .f32⟩
  | 51 => ⟨S131072x128, .f32⟩
  | 52 => ⟨S131072x128, .f32⟩
  | 53 => ⟨S_, .f32⟩
  | 54 => ⟨S131072x1, .f32⟩
  | 55 => ⟨S131072x1, .f32⟩
  | 56 => ⟨S131072x1, .f32⟩
  | 57 => ⟨S131072x128, .f32⟩
  | 58 => ⟨S131072x128, .f32⟩
  | 59 => ⟨S1x128, .f32⟩
  | 60 => ⟨S131072x128, .f32⟩
  | 61 => ⟨S131072x128, .f32⟩
  | 62 => ⟨S1x128, .f32⟩
  | 63 => ⟨S131072x128, .f32⟩
  | 64 => ⟨S131072x128, .f32⟩
  | _ => ⟨S131072x128, .f32⟩

abbrev hbmTy (i : Nat) : BufTy := match i / 128 with
  | 0 => hbmTy0_0 i
  | 1 => hbmTy0_1 i
  | 2 => hbmTy0_2 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_1 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_2 : Ref sig .tc := ⟨.hbm, 61, rfl⟩
abbrev main_v28 : Ref sig .tc := ⟨.hbm, 62, rfl⟩
abbrev main_v29 : Ref sig .tc := ⟨.hbm, 63, rfl⟩
abbrev main_c_3 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_4 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_5 : Ref sig .tc := ⟨.hbm, 86, rfl⟩
abbrev main_v50 : Ref sig .tc := ⟨.hbm, 87, rfl⟩
abbrev main_v51 : Ref sig .tc := ⟨.hbm, 88, rfl⟩
abbrev main_c_6 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_7 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_8 : Ref sig .tc := ⟨.hbm, 111, rfl⟩
abbrev main_v72 : Ref sig .tc := ⟨.hbm, 112, rfl⟩
abbrev main_v73 : Ref sig .tc := ⟨.hbm, 113, rfl⟩
abbrev main_c_9 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_10 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_11 : Ref sig .tc := ⟨.hbm, 131, rfl⟩
abbrev main_v89 : Ref sig .tc := ⟨.hbm, 132, rfl⟩
abbrev main_v90 : Ref sig .tc := ⟨.hbm, 133, rfl⟩
abbrev main_cst_12 : Ref sig .tc := ⟨.hbm, 134, rfl⟩
abbrev main_v91 : Ref sig .tc := ⟨.hbm, 135, rfl⟩
abbrev main_v92 : Ref sig .tc := ⟨.hbm, 136, rfl⟩
abbrev main_c_13 : Ref sig .tc := ⟨.hbm, 137, rfl⟩
abbrev main_call0_cst : Ref sig .tc := ⟨.hbm, 138, rfl⟩
abbrev main_call0_v0 : Ref sig .tc := ⟨.hbm, 139, rfl⟩
abbrev main_call0_v1 : Ref sig .tc := ⟨.hbm, 140, rfl⟩
abbrev main_call0_cst_0 : Ref sig .tc := ⟨.hbm, 141, rfl⟩
abbrev main_call0_v2 : Ref sig .tc := ⟨.hbm, 142, rfl⟩
abbrev main_call0_v3 : Ref sig .tc := ⟨.hbm, 143, rfl⟩
abbrev main_call0_v4 : Ref sig .tc := ⟨.hbm, 144, rfl⟩
abbrev main_call0_v5 : Ref sig .tc := ⟨.hbm, 145, rfl⟩
abbrev main_call0_v6 : Ref sig .tc := ⟨.hbm, 146, rfl⟩
abbrev main_call0_v7 : Ref sig .tc := ⟨.hbm, 147, rfl⟩
abbrev main_call0_cst_1 : Ref sig .tc := ⟨.hbm, 148, rfl⟩
abbrev main_call0_v8 : Ref sig .tc := ⟨.hbm, 149, rfl⟩
abbrev main_call0_cst_2 : Ref sig .tc := ⟨.hbm, 150, rfl⟩
abbrev main_call0_v9 : Ref sig .tc := ⟨.hbm, 151, rfl⟩
abbrev main_call0_v10 : Ref sig .tc := ⟨.hbm, 152, rfl⟩
abbrev main_call0_v11 : Ref sig .tc := ⟨.hbm, 153, rfl⟩
abbrev main_call0_v12 : Ref sig .tc := ⟨.hbm, 154, rfl⟩
abbrev main_call0_cst_3 : Ref sig .tc := ⟨.hbm, 155, rfl⟩
abbrev main_call0_v13 : Ref sig .tc := ⟨.hbm, 156, rfl⟩
abbrev main_call0_cst_4 : Ref sig .tc := ⟨.hbm, 157, rfl⟩
abbrev main_call0_call0_v0 : Ref sig .tc := ⟨.hbm, 158, rfl⟩
abbrev main_call0_call0_v1 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_cst_14 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_c_15 : Ref sig .tc := ⟨.hbm, 180, rfl⟩
abbrev main_v112 : Ref sig .tc := ⟨.hbm, 181, rfl⟩
abbrev main_v113 : Ref sig .tc := ⟨.hbm, 182, rfl⟩
abbrev main_c_16 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_cst_17 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_cst_18 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_c_19 : Ref sig .tc := ⟨.hbm, 207, rfl⟩
abbrev main_v135 : Ref sig .tc := ⟨.hbm, 208, rfl⟩
abbrev main_v136 : Ref sig .tc := ⟨.hbm, 209, rfl⟩
abbrev main_c_20 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_21 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_c_22 : Ref sig .tc := ⟨.hbm, 232, rfl⟩
abbrev main_v157 : Ref sig .tc := ⟨.hbm, 233, rfl⟩
abbrev main_v158 : Ref sig .tc := ⟨.hbm, 234, rfl⟩
abbrev main_c_23 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_cst_24 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_c_25 : Ref sig .tc := ⟨.hbm, 257, rfl⟩
abbrev main_v179 : Ref sig .tc := ⟨.hbm, 258, rfl⟩
abbrev main_v180 : Ref sig .tc := ⟨.hbm, 259, rfl⟩
abbrev main_c_26 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_cst_27 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_cst_28 : Ref sig .tc := ⟨.hbm, 277, rfl⟩
abbrev main_v196 : Ref sig .tc := ⟨.hbm, 278, rfl⟩
abbrev main_v197 : Ref sig .tc := ⟨.hbm, 279, rfl⟩
abbrev main_cst_29 : Ref sig .tc := ⟨.hbm, 280, rfl⟩
abbrev main_v198 : Ref sig .tc := ⟨.hbm, 281, rfl⟩
abbrev main_v199 : Ref sig .tc := ⟨.hbm, 282, rfl⟩
abbrev main_c_30 : Ref sig .tc := ⟨.hbm, 283, rfl⟩
abbrev main_call1_cst : Ref sig .tc := ⟨.hbm, 284, rfl⟩
abbrev main_call1_v0 : Ref sig .tc := ⟨.hbm, 285, rfl⟩
abbrev main_call1_v1 : Ref sig .tc := ⟨.hbm, 286, rfl⟩
abbrev main_call1_cst_0 : Ref sig .tc := ⟨.hbm, 287, rfl⟩
abbrev main_call1_v2 : Ref sig .tc := ⟨.hbm, 288, rfl⟩
abbrev main_call1_v3 : Ref sig .tc := ⟨.hbm, 289, rfl⟩
abbrev main_call1_v4 : Ref sig .tc := ⟨.hbm, 290, rfl⟩
abbrev main_call1_v5 : Ref sig .tc := ⟨.hbm, 291, rfl⟩
abbrev main_call1_v6 : Ref sig .tc := ⟨.hbm, 292, rfl⟩
abbrev main_call1_v7 : Ref sig .tc := ⟨.hbm, 293, rfl⟩
abbrev main_call1_cst_1 : Ref sig .tc := ⟨.hbm, 294, rfl⟩
abbrev main_call1_v8 : Ref sig .tc := ⟨.hbm, 295, rfl⟩
abbrev main_call1_cst_2 : Ref sig .tc := ⟨.hbm, 296, rfl⟩
abbrev main_call1_v9 : Ref sig .tc := ⟨.hbm, 297, rfl⟩
abbrev main_call1_v10 : Ref sig .tc := ⟨.hbm, 298, rfl⟩
abbrev main_call1_v11 : Ref sig .tc := ⟨.hbm, 299, rfl⟩
abbrev main_call1_v12 : Ref sig .tc := ⟨.hbm, 300, rfl⟩
abbrev main_call1_cst_3 : Ref sig .tc := ⟨.hbm, 301, rfl⟩
abbrev main_call1_v13 : Ref sig .tc := ⟨.hbm, 302, rfl⟩
abbrev main_call1_cst_4 : Ref sig .tc := ⟨.hbm, 303, rfl⟩
abbrev main_call1_call0_v0 : Ref sig .tc := ⟨.hbm, 304, rfl⟩
abbrev main_call1_call0_v1 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_cst_31 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S131072x128 : S_.BroadcastsInDim S131072x128 (![] : Fin 0 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  dot_S131072x128_S128x128_S131072x128_1_0_0_1_n_n_wf : DotDims.WF S131072x128 S128x128 S131072x128 [1] [0] [0] [1] [] []
  gather_S131072x128_S524288x1_S524288x128_1_0_n_n_0_1_1128_wf : GatherDims.WF S131072x128 S524288x1 S524288x128 [1] [0] [] [0] [] 1 ![1, 128]
  scatter_S131072x128_S524288x1_S524288x128_1_0_0_1_wf : ScatterDims.WF S131072x128 S524288x1 S524288x128 [1] [0] [0] 1

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def gather_S131072x128_S524288x1_S524288x128_1_0_n_n_0_1_1128 : GatherDims S131072x128 S524288x1 S524288x128 where
  offsetDims := [1]
  collapsedSliceDims := [0]
  operandBatchingDims := []
  startIndicesBatchingDims := []
  startIndexMap := [0]
  indexVectorDim := 1
  sliceSizes := ![1, 128]
  wf := gather_S131072x128_S524288x1_S524288x128_1_0_n_n_0_1_1128_wf
def scatter_S131072x128_S524288x1_S524288x128_1_0_0_1 : ScatterDims S131072x128 S524288x1 S524288x128 where
  updateWindowDims := [1]
  insertedWindowDims := [0]
  scatterDimsToOperandDims := [0]
  indexVectorDim := 1
  wf := scatter_S131072x128_S524288x1_S524288x128_1_0_0_1_wf

class Facts : Prop extends Facts₀ where

variable [Facts]
-- ==== Proof.Kernel.Bodies.lean ====
import proofs.«145608_j2035814499086_1_alg».proof.Proof.Gen.Kernel.Launch
import proofs.«145608_j2035814499086_1_alg».proof.Proof.Gen.Kernel.Skeleton
import proofs.«145608_j2035814499086_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The four TensorCore kernels of `@main`, each as the body of its pipeline: at a parameter `V` (the
    TensorCore's buffer contents when the region is entered) the block every window holds at a grid point, the
    contents the body leaves in the output window's staging buffer as a function of the input blocks, the body's
    triple, the pipeline's proof data and the body obligation at every point. Regions 0 and 2 are the row-block
    matrix products (three windows: a 4096x128 row block, the whole 128x512 weight array, the 4096x512 output
    block); regions 1 and 3 are the row-block layer normalizations (four windows: a 4096x128 row block, the
    scale and the shift of 128 entries each, the 4096x128 output block). -/

-- membership in a rectangle of these extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 0 of @main: `cc0__linear_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block, fetched at every point) holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, fetched at the first point only: the block index never moves) holds its block at
    every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every window whole -/

abbrev r0_0 : Rect S4096x128 := Rect.unit (s := S4096x128) ![0, 0] S4096x128.size inb_S4096x128_S4096x128_0_0
abbrev r0_1 : Rect S128x512 := Rect.unit (s := S128x512) ![0, 0] S128x512.size inb_S128x512_S128x512_0_0
abbrev r0_2 : Rect S4096x512 := Rect.unit (s := S4096x512) ![0, 0] S4096x512.size inb_S4096x512_S4096x512_0_0

/-- The output window's staging buffer after the body, from the input windows' blocks: its one store, of the
    product of the row block by the weights (both rounded to bf16), over the whole buffer. -/
def out0_2 (x0 : Vec F S4096x128 .f32) (x1 : Vec F S128x512 .f32) : Vec F S4096x512 .f32 :=
  View.canon [⟨r0_2, k0_pay1 (View.ld x0 r0_0) (View.ld x1 r0_1)⟩]

/-- The store is of the whole buffer, so it covers it. -/
theorem cover0_2 (p0 : Vec F S4096x512 .f32) (y : S4096x512.Idx) :
    ∃ pc ∈ ([⟨r0_2, p0⟩] : List (View.Piece (Elt F) S4096x512 .f32)), y ∈ pc.1.set :=
  View.cover_of_tiled [⟨r0_2, p0⟩] S4096x512.size (by rfl) y

/-! ## The body's triple -/

set_option maxHeartbeats 1000000 in
/-- The kernel body on whole staging memrefs, the inputs' at read contents `x0`, `x1` and the output's at anything
    (the body reads it, then overwrites every entry of it), runs to the continuation holding the inputs' as they
    were and the output's at `out0_2` of the inputs'. -/
theorem sound_kernel0 (c : Dev nD) (E : Set ℕ) (i : grid0.Coords) (arg1 : Memref sig .tc .vmem S4096x128 .f32) (harg1 : arg1.IsWhole) (arg2 : Memref sig .tc .vmem S128x512 .f32) (harg2 : arg2.IsWhole) (arg3 : Memref sig .tc .vmem S4096x512 .f32) (harg3 : arg3.IsWhole)
    (x0 : Vec F S4096x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: `cc1__ln_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block, fetched at every point) holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the scale, fetched at the first point only: the block index never moves) holds its block at
    every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the shift, fetched at the first point only) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every window whole -/

abbrev r1_0 : Rect S4096x128 := Rect.unit (s := S4096x128) ![0, 0] S4096x128.size inb_S4096x128_S4096x128_0_0
abbrev r1_1 : Rect S128 := Rect.unit (s := S128) ![0] S128.size inb_S128_S128_0
abbrev r1_2 : Rect S128 := Rect.unit (s := S128) ![0] S128.size inb_S128_S128_0
abbrev r1_3 : Rect S4096x128 := Rect.unit (s := S4096x128) ![0, 0] S4096x128.size inb_S4096x128_S4096x128_0_0

/-- The output window's staging buffer after the body, from the input windows' blocks: its one store, of the
    row-wise normalization of the row block scaled by window 1 and shifted by window 2, over the whole buffer. -/
def out1_3 (x0 : Vec F S4096x128 .f32) (x1 : Vec F S128 .f32) (x2 : Vec F S128 .f32) : Vec F S4096x128 .f32 :=
  View.canon [⟨r1_3, k1_pay1 (View.ld x0 r1_0) (View.ld x1 r1_1) (View.ld x2 r1_2)⟩]

/-- The store is of the whole buffer, so it covers it. -/
theorem cover1_3 (p0 : Vec F S4096x128 .f32) (y : S4096x128.Idx) :
    ∃ pc ∈ ([⟨r1_3, p0⟩] : List (View.Piece (Elt F) S4096x128 .f32)), y ∈ pc.1.set :=
  View.cover_of_tiled [⟨r1_3, p0⟩] S4096x128.size (by rfl) y

/-! ## The body's triple -/

set_option maxHeartbeats 1000000 in
/-- The kernel body on whole staging memrefs, the inputs' at read contents `x0`, `x1`, `x2` and the output's at
    anything (the body reads it, then overwrites every entry of it), runs to the continuation holding the inputs' as
    they were and the output's at `out1_3` of the inputs'. -/
theorem sound_kernel1 (c : Dev nD) (E : Set ℕ) (i : grid1.Coords) (arg1 : Memref sig .tc .vmem S4096x128 .f32) (harg1 : arg1.IsWhole) (arg2 : Memref sig .tc .vmem S128 .f32) (harg2 : arg2.IsWhole) (arg3 : Memref sig .tc .vmem S128 .f32) (harg3 : arg3.IsWhole) (arg4 : Memref sig .tc .vmem S4096x128 .f32) (harg4 : arg4.IsWhole)
    (x0 : Vec F S4096x128 .f32) (x1 : Vec F S128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__ln_kernel i arg1 harg1 arg2 harg2 arg3 harg3 arg4 harg4) K := by
  simp only [cc1__ln_kernel_eq_skeleton]; unfold cc1__ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 of @main: `cc2__linear_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block, fetched at every point) holds its block at every point, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weights, fetched at the first point only: the block index never moves) holds its block at
    every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every window whole -/

abbrev r2_0 : Rect S4096x128 := Rect.unit (s := S4096x128) ![0, 0] S4096x128.size inb_S4096x128_S4096x128_0_0
abbrev r2_1 : Rect S128x512 := Rect.unit (s := S128x512) ![0, 0] S128x512.size inb_S128x512_S128x512_0_0
abbrev r2_2 : Rect S4096x512 := Rect.unit (s := S4096x512) ![0, 0] S4096x512.size inb_S4096x512_S4096x512_0_0

/-- The output window's staging buffer after the body, from the input windows' blocks: its one store, of the
    product of the row block by the weights (both rounded to bf16), over the whole buffer. -/
def out2_2 (x0 : Vec F S4096x128 .f32) (x1 : Vec F S128x512 .f32) : Vec F S4096x512 .f32 :=
  View.canon [⟨r2_2, k2_pay1 (View.ld x0 r2_0) (View.ld x1 r2_1)⟩]

/-- The store is of the whole buffer, so it covers it. -/
theorem cover2_2 (p0 : Vec F S4096x512 .f32) (y : S4096x512.Idx) :
    ∃ pc ∈ ([⟨r2_2, p0⟩] : List (View.Piece (Elt F) S4096x512 .f32)), y ∈ pc.1.set :=
  View.cover_of_tiled [⟨r2_2, p0⟩] S4096x512.size (by rfl) y

/-! ## The body's triple -/

set_option maxHeartbeats 1000000 in
/-- The kernel body on whole staging memrefs, the inputs' at read contents `x0`, `x1` and the output's at anything
    (the body reads it, then overwrites every entry of it), runs to the continuation holding the inputs' as they
    were and the output's at `out2_2` of the inputs'. -/
theorem sound_kernel2 (c : Dev nD) (E : Set ℕ) (i : grid2.Coords) (arg1 : Memref sig .tc .vmem S4096x128 .f32) (harg1 : arg1.IsWhole) (arg2 : Memref sig .tc .vmem S128x512 .f32) (harg2 : arg2.IsWhole) (arg3 : Memref sig .tc .vmem S4096x512 .f32) (harg3 : arg3.IsWhole)
    (x0 : Vec F S4096x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3 of @main: `cc3__ln_kernel` (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block, fetched at every point) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the scale, fetched at the first point only: the block index never moves) holds its block at
    every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the shift, fetched at the first point only) likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every window whole -/

abbrev r3_0 : Rect S4096x128 := Rect.unit (s := S4096x128) ![0, 0] S4096x128.size inb_S4096x128_S4096x128_0_0
abbrev r3_1 : Rect S128 := Rect.unit (s := S128) ![0] S128.size inb_S128_S128_0
abbrev r3_2 : Rect S128 := Rect.unit (s := S128) ![0] S128.size inb_S128_S128_0
abbrev r3_3 : Rect S4096x128 := Rect.unit (s := S4096x128) ![0, 0] S4096x128.size inb_S4096x128_S4096x128_0_0

/-- The output window's staging buffer after the body, from the input windows' blocks: its one store, of the
    row-wise normalization of the row block scaled by window 1 and shifted by window 2, over the whole buffer. -/
def out3_3 (x0 : Vec F S4096x128 .f32) (x1 : Vec F S128 .f32) (x2 : Vec F S128 .f32) : Vec F S4096x128 .f32 :=
  View.canon [⟨r3_3, k3_pay1 (View.ld x0 r3_0) (View.ld x1 r3_1) (View.ld x2 r3_2)⟩]

/-- The store is of the whole buffer, so it covers it. -/
theorem cover3_3 (p0 : Vec F S4096x128 .f32) (y : S4096x128.Idx) :
    ∃ pc ∈ ([⟨r3_3, p0⟩] : List (View.Piece (Elt F) S4096x128 .f32)), y ∈ pc.1.set :=
  View.cover_of_tiled [⟨r3_3, p0⟩] S4096x128.size (by rfl) y

/-! ## The body's triple -/

set_option maxHeartbeats 1000000 in
/-- The kernel body on whole staging memrefs, the inputs' at read contents `x0`, `x1`, `x2` and the output's at
    anything (the body reads it, then overwrites every entry of it), runs to the continuation holding the inputs' as
    they were and the output's at `out3_3` of the inputs'. -/
theorem sound_kernel3 (c : Dev nD) (E : Set ℕ) (i : grid3.Coords) (arg1 : Memref sig .tc .vmem S4096x128 .f32) (harg1 : arg1.IsWhole) (arg2 : Memref sig .tc .vmem S128 .f32) (harg2 : arg2.IsWhole) (arg3 : Memref sig .tc .vmem S128 .f32) (harg3 : arg3.IsWhole) (arg4 : Memref sig .tc .vmem S4096x128 .f32) (harg4 : arg4.IsWhole)
    (x0 : Vec F S4096x128 .f32) (x1 : Vec F S128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__ln_kernel i arg1 harg1 arg2 harg2 arg3 harg3 arg4 harg4) K := by
  simp only [cc3__ln_kernel_eq_skeleton]; unfold cc3__ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Run

end
-- ==== Proof.Kernel.Segments.lean ====
import proofs.«145608_j2035814499086_1_alg».proof.Proof.Gen.Kernel.Launch
import proofs.«145608_j2035814499086_1_alg».proof.Proof.Gen.Kernel.Skeleton
import proofs.«145608_j2035814499086_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«145608_j2035814499086_1_alg».proof.Proof.Kernel.Bodies

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the host stretches allocate and write -/

/-- No operation of `hostOps0` allocates a buffer. -/
theorem hostOps0_fresh : (hostOps0 : List (HloOp τ sig (Elt F))).Forall fun op => op.fresh = ∅ := by
  simp only [List.Forall]; repeat' constructor
/-- The references `hostOps0`'s operations write: each operation's one result, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The references `hostOps1`'s operations write: each operation's one result, in order. -/
abbrev hostOps1_W : List (Ref sig .tc) := [main_v2, main_v3, main_v4, main_v5, main_cst, main_v6, main_v7, main_v8, main_v9, main_v10, main_c, main_v11, main_v12, main_c_0, main_v13, main_v14, main_v15, main_v16, main_v17, main_v18, main_v19, main_v20, main_cst_1, main_v21, main_v22, main_v23, main_v24, main_v25, main_v26, main_v27, main_v28, main_v29, main_v30, main_v31, main_c_2, main_v32, main_v33, main_c_3, main_v34, main_v35, main_v36, main_v37, main_v38, main_v39, main_v40, main_v41, main_cst_4, main_v42, main_v43, main_v44, main_v45, main_v46, main_v47, main_v48, main_v49, main_v50, main_v51, main_v52, main_c_5, main_v53, main_v54, main_c_6, main_v55, main_v56, main_v57, main_v58, main_v59, main_v60, main_v61, main_v62, main_cst_7, main_v63, main_v64, main_v65, main_v66, main_v67, main_v68, main_v69, main_v70, main_v71, main_v72, main_v73, main_c_8, main_v74, main_v75, main_c_9, main_v76, main_v77, main_v78, main_v79, main_v80, main_v81, main_v82, main_v83, main_cst_10, main_v84, main_v85, main_v86, main_v87, main_v88, main_v89, main_v90]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps2` allocates a buffer. -/
theorem hostOps2_fresh : (hostOps2 : List (HloOp τ sig (Elt F))).Forall fun op => op.fresh = ∅ := by
  simp only [List.Forall]; repeat' constructor
/-- The references `hostOps2`'s operations write: each operation's one result, in order. -/
abbrev hostOps2_W : List (Ref sig .tc) := [main_v92]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3` allocates a buffer. -/
theorem hostOps3_fresh : (hostOps3 : List (HloOp τ sig (Elt F))).Forall fun op => op.fresh = ∅ := by
  simp only [List.Forall]; repeat' constructor
/-- The references `hostOps3`'s operations write: each operation's one result, in order. -/
abbrev hostOps3_W : List (Ref sig .tc) := [main_v94, main_v95, main_v96, main_v97, main_cst_11, main_v98, main_v99, main_v100, main_v101, main_v102, main_c_12, main_v103, main_v104, main_c_13, main_v105, main_v106, main_v107, main_v108, main_v109, main_v110, main_v111, main_v112, main_cst_14, main_v113, main_v114, main_v115, main_v116, main_v117, main_v118, main_v119, main_v120, main_v121, main_v122, main_v123, main_c_15, main_v124, main_v125, main_c_16, main_v126, main_v127, main_v128, main_v129, main_v130, main_v131, main_v132, main_v133, main_cst_17, main_v134, main_v135, main_v136, main_v137, main_v138, main_v139, main_v140, main_v141, main_v142, main_v143, main_v144, main_c_18, main_v145, main_v146, main_c_19, main_v147, main_v148, main_v149, main_v150, main_v151, main_v152, main_v153, main_v154, main_cst_20, main_v155, main_v156, main_v157, main_v158, main_v159, main_v160, main_v161, main_v162, main_v163, main_v164, main_v165, main_c_21, main_v166, main_v167, main_c_22, main_v168, main_v169, main_v170, main_v171, main_v172, main_v173, main_v174, main_v175, main_cst_23, main_v176, main_v177, main_v178, main_v179, main_v180, main_v181, main_v182]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! # The run: @main's segments from the launch to the return

## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: the operations over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over `pin pcs a p` unifies with the pinned configuration only when unification may
-- unfold plain definitions in a metavariable's type
set_option backward.isDefEq.respectTransparency.types false in
/-- Region 0 (custom_call 0) over the thread state: entered from every unscoped buffer at `W1`, left at `W2`.
    Its arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 1 (custom_call 1) over the thread state: entered from every unscoped buffer at `W3`, left at `W4`.
    Its arrays split out of the unscoped buffers and put back at the exit contents; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 2 (custom_call 2) over the thread state: entered from every unscoped buffer at `W5`, left at `W6`.
    Its arrays split out of the unscoped buffers and put back at the exit contents; the generator register into the
    class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 3 (custom_call 3) over the thread state: entered from every unscoped buffer at `W7`, left at `W8`.
    Its arrays split out of the unscoped buffers and put back at the exit contents; the generator register into the
    class invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: its chain of items, then the segments' run against that chain by the kernel's
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state holds every unscoped TensorCore buffer at the last
    boundary's contents `W8`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- info: 'Cert.Kernel.Run.run_all' depends on axioms: [propext, Classical.choice, Quot.sound] -/
#guard_msgs in #print axioms run_all

end Cert.Kernel.Run

end
-- ==== Proof.Kernel.SegmentsArgs.lean ====
import proofs.«145608_j2035814499086_1_alg».proof.Proof.Kernel.Segments

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # The arguments end as launched

No host operation writes an argument (each writes its one result, none of which is an argument), and no region
writes one (a region reads it through an input window, which its write-backs leave as entered, or bypasses it), so the
fold at an argument's buffer walks back to the launch memory. -/

/-! ## What each host stretch leaves unchanged: every reference it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## Each argument, boundary by boundary -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := W7_of m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := W7_of m ρ c main_arg14 (by decide)
    _ = W5 m ρ c (Proc.devRef .tc main_arg14) := W6_of_ne m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := W7_of m ρ c main_arg15 (by decide)
    _ = W5 m ρ c (Proc.devRef .tc main_arg15) := W6_of_ne m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

theorem W8_main_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := W7_of m ρ c main_arg16 (by decide)
    _ = W5 m ρ c (Proc.devRef .tc main_arg16) := W6_of_ne m ρ c main_arg16 (by decide)
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl

theorem W8_main_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := W7_of m ρ c main_arg17 (by decide)
    _ = W5 m ρ c (Proc.devRef .tc main_arg17) := W6_of_ne m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of_ne m ρ c main_arg17 (by decide)
    _ = W0 m ρ c (Proc.devRef .tc main_arg17) := W1_of m ρ c main_arg17 (by decide)
    _ = m ((c : Thread nD τ).loc main_arg17) := rfl

theorem W8_main_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := W7_of m ρ c main_arg18 (by decide)
    _ = W5 m ρ c (Proc.devRef .tc main_arg18) := W6_of_ne m ρ c main_arg18 (by decide)
    _ = W4 m ρ c (Proc.devRef .tc main_arg18) := W5_of m ρ c main_arg18 (by decide)
    _ = W3 m ρ c (Proc.devRef .tc main_arg18) := W4_of_ne m ρ c main_arg18 (by decide)
    _ = W2 m ρ c (Proc.devRef .tc main_arg18) := W3_of m ρ c main_arg18 (by decide)
    _ = W1 m ρ c (Proc.devRef .tc main_arg18) := W2_of_ne m ρ c main_arg18 (by decide)
    _ = W0 m ρ c (Proc.devRef .tc main_arg18) := W1_of m ρ c main_arg18 (by decide)
    _ = m ((c : Thread nD τ).loc main_arg18) := rfl

theorem W8_main_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := W7_of m ρ c main_arg19 (by decide)
    _ = W5 m ρ c (Proc.devRef .tc main_arg19) := W6_of_ne m ρ c main_arg19 (by decide)
    _ = W4 m ρ c (Proc.devRef .tc main_arg19) := W5_of m ρ c main_arg19 (by decide)
    _ = W3 m ρ c (Proc.devRef .tc main_arg19) := W4_of_ne m ρ c main_arg19 (by decide)
    _ = W2 m ρ c (Proc.devRef .tc main_arg19) := W3_of m ρ c main_arg19 (by decide)
    _ = W1 m ρ c (Proc.devRef .tc main_arg19) := W2_of_ne m ρ c main_arg19 (by decide)
    _ = W0 m ρ c (Proc.devRef .tc main_arg19) := W1_of m ρ c main_arg19 (by decide)
    _ = m ((c : Thread nD τ).loc main_arg19) := rfl

theorem W8_main_arg20 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := W7_of m ρ c main_arg20 (by decide)
    _ = W5 m ρ c (Proc.devRef .tc main_arg20) := W6_of_ne m ρ c main_arg20 (by decide)
    _ = W4 m ρ c (Proc.devRef .tc main_arg20) := W5_of m ρ c main_arg20 (by decide)
    _ = W3 m ρ c (Proc.devRef .tc main_arg20) := W4_of_ne m ρ c main_arg20 (by decide)
    _ = W2 m ρ c (Proc.devRef .tc main_arg20) := W3_of m ρ c main_arg20 (by decide)
    _ = W1 m ρ c (Proc.devRef .tc main_arg20) := W2_of_ne m ρ c main_arg20 (by decide)
    _ = W0 m ρ c (Proc.devRef .tc main_arg20) := W1_of m ρ c main_arg20 (by decide)
    _ = m ((c : Thread nD τ).loc main_arg20) := rfl

theorem W8_main_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := W7_of m ρ c main_arg21 (by decide)
    _ = W5 m ρ c (Proc.devRef .tc main_arg21) := W6_of_ne m ρ c main_arg21 (by decide)
    _ = W4 m ρ c (Proc.devRef .tc main_arg21) := W5_of m ρ c main_arg21 (by decide)
    _ = W3 m ρ c (Proc.devRef .tc main_arg21) := W4_of_ne m ρ c main_arg21 (by decide)
    _ = W2 m ρ c (Proc.devRef .tc main_arg21) := W3_of m ρ c main_arg21 (by decide)
    _ = W1 m ρ c (Proc.devRef .tc main_arg21) := W2_of_ne m ρ c main_arg21 (by decide)
    _ = W0 m ρ c (Proc.devRef .tc main_arg21) := W1_of m ρ c main_arg21 (by decide)
    _ = m ((c : Thread nD τ).loc main_arg21) := rfl

theorem W8_main_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := W7_of m ρ c main_arg22 (by decide)
    _ = W5 m ρ c (Proc.devRef .tc main_arg22) := W6_of_ne m ρ c main_arg22 (by decide)
    _ = W4 m ρ c (Proc.devRef .tc main_arg22) := W5_of m ρ c main_arg22 (by decide)
    _ = W3 m ρ c (Proc.devRef .tc main_arg22) := W4_of_ne m ρ c main_arg22 (by decide)
    _ = W2 m ρ c (Proc.devRef .tc main_arg22) := W3_of m ρ c main_arg22 (by decide)
    _ = W1 m ρ c (Proc.devRef .tc main_arg22) := W2_of_ne m ρ c main_arg22 (by decide)
    _ = W0 m ρ c (Proc.devRef .tc main_arg22) := W1_of m ρ c main_arg22 (by decide)
    _ = m ((c : Thread nD τ).loc main_arg22) := rfl

theorem W8_main_arg23 (c : Dev nD) : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := W7_of m ρ c main_arg23 (by decide)
    _ = W5 m ρ c (Proc.devRef .tc main_arg23) := W6_of_ne m ρ c main_arg23 (by decide)
    _ = W4 m ρ c (Proc.devRef .tc main_arg23) := W5_of m ρ c main_arg23 (by decide)
    _ = W3 m ρ c (Proc.devRef .tc main_arg23) := W4_of_ne m ρ c main_arg23 (by decide)
    _ = W2 m ρ c (Proc.devRef .tc main_arg23) := W3_of m ρ c main_arg23 (by decide)
    _ = W1 m ρ c (Proc.devRef .tc main_arg23) := W2_of_ne m ρ c main_arg23 (by decide)
    _ = W0 m ρ c (Proc.devRef .tc main_arg23) := W1_of m ρ c main_arg23 (by decide)
    _ = m ((c : Thread nD τ).loc main_arg23) := rfl

theorem W8_main_arg24 (c : Dev nD) : W8 m ρ c (Proc.devRef .tc main_arg24) = m ((c : Thread nD τ).loc main_arg24) :=
  calc W8 m ρ c (Proc.devRef .tc main_arg24)
    _ = W7 m ρ c (Proc.devRef .tc main_arg24) := W8_of_ne m ρ c main_arg24 (by decide)
    _ = W6 m ρ c (Proc.devRef .tc main_arg24) := W7_of m ρ c main_arg24 (by decide)
    _ = W5 m ρ c (Proc.devRef .tc main_arg24) := W6_of_ne m ρ c main_arg24 (by decide)
    _ = W4 m ρ c (Proc.devRef .tc main_arg24) := W5_of m ρ c main_arg24 (by decide)
    _ = W3 m ρ c (Proc.devRef .tc main_arg24) := W4_of_ne m ρ c main_arg24 (by decide)
    _ = W2 m ρ c (Proc.devRef .tc main_arg24) := W3_of m ρ c main_arg24 (by decide)
    _ = W1 m ρ c (Proc.devRef .tc main_arg24) := W2_of_ne m ρ c main_arg24 (by decide)
    _ = W0 m ρ c (Proc.devRef .tc main_arg24) := W1_of m ρ c main_arg24 (by decide)
    _ = m ((c : Thread nD τ).loc main_arg24) := rfl

theorem W8_main_arg25 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := W7_of m ρ c main_arg25 (by decide)
    _ = W5 m ρ c (Proc.devRef .tc main_arg25) := W6_of_ne m ρ c main_arg25 (by decide)
    _ = W4 m ρ c (Proc.devRef .tc main_arg25) := W5_of m ρ c main_arg25 (by decide)
    _ = W3 m ρ c (Proc.devRef .tc main_arg25) := (W4_arr m ρ c 1).trans (((dat1 (V3 m ρ) c).arrAt_in 1 rfl _).trans (A_eq1 (V3 m ρ) c 1))
    _ = W2 m ρ c (Proc.devRef .tc main_arg25) := W3_of m ρ c main_arg25 (by decide)
    _ = W1 m ρ c (Proc.devRef .tc main_arg25) := W2_of_ne m ρ c main_arg25 (by decide)
    _ = W0 m ρ c (Proc.devRef .tc main_arg25) := W1_of m ρ c main_arg25 (by decide)
    _ = m ((c : Thread nD τ).loc main_arg25) := rfl

theorem W8_main_arg26 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := W7_of m ρ c main_arg26 (by decide)
    _ = W5 m ρ c (Proc.devRef .tc main_arg26) := W6_of_ne m ρ c main_arg26 (by decide)
    _ = W4 m ρ c (Proc.devRef .tc main_arg26) := W5_of m ρ c main_arg26 (by decide)
    _ = W3 m ρ c (Proc.devRef .tc main_arg26) := (W4_arr m ρ c 2).trans (((dat1 (V3 m ρ) c).arrAt_in 2 rfl _).trans (A_eq1 (V3 m ρ) c 2))
    _ = W2 m ρ c (Proc.devRef .tc main_arg26) := W3_of m ρ c main_arg26 (by decide)
    _ = W1 m ρ c (Proc.devRef .tc main_arg26) := W2_of_ne m ρ c main_arg26 (by decide)
    _ = W0 m ρ c (Proc.devRef .tc main_arg26) := W1_of m ρ c main_arg26 (by decide)
    _ = m ((c : Thread nD τ).loc main_arg26) := rfl

theorem W8_main_arg27 (c : Dev nD) : W8 m ρ c (Proc.devRef .tc main_arg27) = m ((c : Thread nD τ).loc main_arg27) :=
  calc W8 m ρ c (Proc.devRef .tc main_arg27)
    _ = W7 m ρ c (Proc.devRef .tc main_arg27) := (W8_arr m ρ c 1).trans (((dat3 (V7 m ρ) c).arrAt_in 1 rfl _).trans (A_eq3 (V7 m ρ) c 1))
    _ = W6 m ρ c (Proc.devRef .tc main_arg27) := W7_of m ρ c main_arg27 (by decide)
    _ = W5 m ρ c (Proc.devRef .tc main_arg27) := W6_of_ne m ρ c main_arg27 (by decide)
    _ = W4 m ρ c (Proc.devRef .tc main_arg27) := W5_of m ρ c main_arg27 (by decide)
    _ = W3 m ρ c (Proc.devRef .tc main_arg27) := W4_of_ne m ρ c main_arg27 (by decide)
    _ = W2 m ρ c (Proc.devRef .tc main_arg27) := W3_of m ρ c main_arg27 (by decide)
    _ = W1 m ρ c (Proc.devRef .tc main_arg27) := W2_of_ne m ρ c main_arg27 (by decide)
    _ = W0 m ρ c (Proc.devRef .tc main_arg27) := W1_of m ρ c main_arg27 (by decide)
    _ = m ((c : Thread nD τ).loc main_arg27) := rfl

theorem W8_main_arg28 (c : Dev nD) : W8 m ρ c (Proc.devRef .tc main_arg28) = m ((c : Thread nD τ).loc main_arg28) :=
  calc W8 m ρ c (Proc.devRef .tc main_arg28)
    _ = W7 m ρ c (Proc.devRef .tc main_arg28) := (W8_arr m ρ c 2).trans (((dat3 (V7 m ρ) c).arrAt_in 2 rfl _).trans (A_eq3 (V7 m ρ) c 2))
    _ = W6 m ρ c (Proc.devRef .tc main_arg28) := W7_of m ρ c main_arg28 (by decide)
    _ = W5 m ρ c (Proc.devRef .tc main_arg28) := W6_of_ne m ρ c main_arg28 (by decide)
    _ = W4 m ρ c (Proc.devRef .tc main_arg28) := W5_of m ρ c main_arg28 (by decide)
    _ = W3 m ρ c (Proc.devRef .tc main_arg28) := W4_of_ne m ρ c main_arg28 (by decide)
    _ = W2 m ρ c (Proc.devRef .tc main_arg28) := W3_of m ρ c main_arg28 (by decide)
    _ = W1 m ρ c (Proc.devRef .tc main_arg28) := W2_of_ne m ρ c main_arg28 (by decide)
    _ = W0 m ρ c (Proc.devRef .tc main_arg28) := W1_of m ρ c main_arg28 (by decide)
    _ = m ((c : Thread nD τ).loc main_arg28) := rfl

/-! ## The frame -/

/-- The frame claim at any `F`: at the compiled mesh, from any memory with zero counters, every weakly fair execution
    of @main on the TensorCores terminates, nothing faulting, and every final state has the argument arrays as
    launched: the run's final contents `W8`, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs (onTc (τ := τ) (main (F := F))) ⟨m, fun _ => 0, ρ⟩).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c),
      (h c _ (mem_uc main_arg20 (by decide))).trans (W8_main_arg20 m ρ c),
      (h c _ (mem_uc main_arg21 (by decide))).trans (W8_main_arg21 m ρ c),
      (h c _ (mem_uc main_arg22 (by decide))).trans (W8_main_arg22 m ρ c),
      (h c _ (mem_uc main_arg23 (by decide))).trans (W8_main_arg23 m ρ c),
      (h c _ (mem_uc main_arg24 (by decide))).trans (W8_main_arg24 m ρ c),
      (h c _ (mem_uc main_arg25 (by decide))).trans (W8_main_arg25 m ρ c),
      (h c _ (mem_uc main_arg26 (by decide))).trans (W8_main_arg26 m ρ c),
      (h c _ (mem_uc main_arg27 (by decide))).trans (W8_main_arg27 m ρ c),
      (h c _ (mem_uc main_arg28 (by decide))).trans (W8_main_arg28 m ρ c)⟩) (run_all m ρ)

/-- info: 'Cert.Kernel.Run.frame' depends on axioms: [propext, Classical.choice, Quot.sound] -/
#guard_msgs in #print axioms frame

end Cert.Kernel.Run

end
-- ==== Proof.KernelIdeal.Bodies.lean ====
import proofs.«145608_j2035814499086_1_alg».proof.Proof.Gen.KernelIdeal.Launch
import proofs.«145608_j2035814499086_1_alg».proof.Proof.Gen.KernelIdeal.Skeleton
import proofs.«145608_j2035814499086_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The four TensorCore kernels of `@main`, each as the body of its pipeline: at a parameter `V` (the
    TensorCore's buffer contents when the region is entered) the block every window holds at a grid point, the
    contents the body leaves in the output window's staging buffer as a function of the input blocks, the body's
    triple, the pipeline's proof data and the body obligation at every point. Regions 0 and 2 are the row-block
    matrix products (three windows: a 4096x128 row block, the whole 128x512 weight array, the 4096x512 output
    block); regions 1 and 3 are the row-block layer normalizations (four windows: a 4096x128 row block, the
    scale and the shift of 128 entries each, the 4096x128 output block). -/

-- membership in a rectangle of these extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 0 of @main: `cc0__linear_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block, fetched at every point) holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, fetched at the first point only: the block index never moves) holds its block at
    every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every window whole -/

abbrev r0_0 : Rect S4096x128 := Rect.unit (s := S4096x128) ![0, 0] S4096x128.size inb_S4096x128_S4096x128_0_0
abbrev r0_1 : Rect S128x512 := Rect.unit (s := S128x512) ![0, 0] S128x512.size inb_S128x512_S128x512_0_0
abbrev r0_2 : Rect S4096x512 := Rect.unit (s := S4096x512) ![0, 0] S4096x512.size inb_S4096x512_S4096x512_0_0

/-- The output window's staging buffer after the body, from the input windows' blocks: its one store, of the
    product of the row block by the weights (both rounded to bf16), over the whole buffer. -/
def out0_2 (x0 : Vec F S4096x128 .f32) (x1 : Vec F S128x512 .f32) : Vec F S4096x512 .f32 :=
  View.canon [⟨r0_2, k0_pay1 (View.ld x0 r0_0) (View.ld x1 r0_1)⟩]

/-- The store is of the whole buffer, so it covers it. -/
theorem cover0_2 (p0 : Vec F S4096x512 .f32) (y : S4096x512.Idx) :
    ∃ pc ∈ ([⟨r0_2, p0⟩] : List (View.Piece (Elt F) S4096x512 .f32)), y ∈ pc.1.set :=
  View.cover_of_tiled [⟨r0_2, p0⟩] S4096x512.size (by rfl) y

/-! ## The body's triple -/

set_option maxHeartbeats 1000000 in
/-- The kernel body on whole staging memrefs, the inputs' at read contents `x0`, `x1` and the output's at anything
    (the body reads it, then overwrites every entry of it), runs to the continuation holding the inputs' as they
    were and the output's at `out0_2` of the inputs'. -/
theorem sound_kernel0 (c : Dev nD) (E : Set ℕ) (i : grid0.Coords) (arg1 : Memref sig .tc .vmem S4096x128 .f32) (harg1 : arg1.IsWhole) (arg2 : Memref sig .tc .vmem S128x512 .f32) (harg2 : arg2.IsWhole) (arg3 : Memref sig .tc .vmem S4096x512 .f32) (harg3 : arg3.IsWhole)
    (x0 : Vec F S4096x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: `cc1__ln_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block, fetched at every point) holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the scale, fetched at the first point only: the block index never moves) holds its block at
    every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the shift, fetched at the first point only) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every window whole -/

abbrev r1_0 : Rect S4096x128 := Rect.unit (s := S4096x128) ![0, 0] S4096x128.size inb_S4096x128_S4096x128_0_0
abbrev r1_1 : Rect S128 := Rect.unit (s := S128) ![0] S128.size inb_S128_S128_0
abbrev r1_2 : Rect S128 := Rect.unit (s := S128) ![0] S128.size inb_S128_S128_0
abbrev r1_3 : Rect S4096x128 := Rect.unit (s := S4096x128) ![0, 0] S4096x128.size inb_S4096x128_S4096x128_0_0

/-- The output window's staging buffer after the body, from the input windows' blocks: its one store, of the
    row-wise normalization of the row block scaled by window 1 and shifted by window 2, over the whole buffer. -/
def out1_3 (x0 : Vec F S4096x128 .f32) (x1 : Vec F S128 .f32) (x2 : Vec F S128 .f32) : Vec F S4096x128 .f32 :=
  View.canon [⟨r1_3, k1_pay1 (View.ld x0 r1_0) (View.ld x1 r1_1) (View.ld x2 r1_2)⟩]

/-- The store is of the whole buffer, so it covers it. -/
theorem cover1_3 (p0 : Vec F S4096x128 .f32) (y : S4096x128.Idx) :
    ∃ pc ∈ ([⟨r1_3, p0⟩] : List (View.Piece (Elt F) S4096x128 .f32)), y ∈ pc.1.set :=
  View.cover_of_tiled [⟨r1_3, p0⟩] S4096x128.size (by rfl) y

/-! ## The body's triple -/

set_option maxHeartbeats 1000000 in
/-- The kernel body on whole staging memrefs, the inputs' at read contents `x0`, `x1`, `x2` and the output's at
    anything (the body reads it, then overwrites every entry of it), runs to the continuation holding the inputs' as
    they were and the output's at `out1_3` of the inputs'. -/
theorem sound_kernel1 (c : Dev nD) (E : Set ℕ) (i : grid1.Coords) (arg1 : Memref sig .tc .vmem S4096x128 .f32) (harg1 : arg1.IsWhole) (arg2 : Memref sig .tc .vmem S128 .f32) (harg2 : arg2.IsWhole) (arg3 : Memref sig .tc .vmem S128 .f32) (harg3 : arg3.IsWhole) (arg4 : Memref sig .tc .vmem S4096x128 .f32) (harg4 : arg4.IsWhole)
    (x0 : Vec F S4096x128 .f32) (x1 : Vec F S128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__ln_kernel i arg1 harg1 arg2 harg2 arg3 harg3 arg4 harg4) K := by
  simp only [cc1__ln_kernel_eq_skeleton]; unfold cc1__ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 of @main: `cc2__linear_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block, fetched at every point) holds its block at every point, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weights, fetched at the first point only: the block index never moves) holds its block at
    every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every window whole -/

abbrev r2_0 : Rect S4096x128 := Rect.unit (s := S4096x128) ![0, 0] S4096x128.size inb_S4096x128_S4096x128_0_0
abbrev r2_1 : Rect S128x512 := Rect.unit (s := S128x512) ![0, 0] S128x512.size inb_S128x512_S128x512_0_0
abbrev r2_2 : Rect S4096x512 := Rect.unit (s := S4096x512) ![0, 0] S4096x512.size inb_S4096x512_S4096x512_0_0

/-- The output window's staging buffer after the body, from the input windows' blocks: its one store, of the
    product of the row block by the weights (both rounded to bf16), over the whole buffer. -/
def out2_2 (x0 : Vec F S4096x128 .f32) (x1 : Vec F S128x512 .f32) : Vec F S4096x512 .f32 :=
  View.canon [⟨r2_2, k2_pay1 (View.ld x0 r2_0) (View.ld x1 r2_1)⟩]

/-- The store is of the whole buffer, so it covers it. -/
theorem cover2_2 (p0 : Vec F S4096x512 .f32) (y : S4096x512.Idx) :
    ∃ pc ∈ ([⟨r2_2, p0⟩] : List (View.Piece (Elt F) S4096x512 .f32)), y ∈ pc.1.set :=
  View.cover_of_tiled [⟨r2_2, p0⟩] S4096x512.size (by rfl) y

/-! ## The body's triple -/

set_option maxHeartbeats 1000000 in
/-- The kernel body on whole staging memrefs, the inputs' at read contents `x0`, `x1` and the output's at anything
    (the body reads it, then overwrites every entry of it), runs to the continuation holding the inputs' as they
    were and the output's at `out2_2` of the inputs'. -/
theorem sound_kernel2 (c : Dev nD) (E : Set ℕ) (i : grid2.Coords) (arg1 : Memref sig .tc .vmem S4096x128 .f32) (harg1 : arg1.IsWhole) (arg2 : Memref sig .tc .vmem S128x512 .f32) (harg2 : arg2.IsWhole) (arg3 : Memref sig .tc .vmem S4096x512 .f32) (harg3 : arg3.IsWhole)
    (x0 : Vec F S4096x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3 of @main: `cc3__ln_kernel` (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block, fetched at every point) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the scale, fetched at the first point only: the block index never moves) holds its block at
    every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the shift, fetched at the first point only) likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every window whole -/

abbrev r3_0 : Rect S4096x128 := Rect.unit (s := S4096x128) ![0, 0] S4096x128.size inb_S4096x128_S4096x128_0_0
abbrev r3_1 : Rect S128 := Rect.unit (s := S128) ![0] S128.size inb_S128_S128_0
abbrev r3_2 : Rect S128 := Rect.unit (s := S128) ![0] S128.size inb_S128_S128_0
abbrev r3_3 : Rect S4096x128 := Rect.unit (s := S4096x128) ![0, 0] S4096x128.size inb_S4096x128_S4096x128_0_0

/-- The output window's staging buffer after the body, from the input windows' blocks: its one store, of the
    row-wise normalization of the row block scaled by window 1 and shifted by window 2, over the whole buffer. -/
def out3_3 (x0 : Vec F S4096x128 .f32) (x1 : Vec F S128 .f32) (x2 : Vec F S128 .f32) : Vec F S4096x128 .f32 :=
  View.canon [⟨r3_3, k3_pay1 (View.ld x0 r3_0) (View.ld x1 r3_1) (View.ld x2 r3_2)⟩]

/-- The store is of the whole buffer, so it covers it. -/
theorem cover3_3 (p0 : Vec F S4096x128 .f32) (y : S4096x128.Idx) :
    ∃ pc ∈ ([⟨r3_3, p0⟩] : List (View.Piece (Elt F) S4096x128 .f32)), y ∈ pc.1.set :=
  View.cover_of_tiled [⟨r3_3, p0⟩] S4096x128.size (by rfl) y

/-! ## The body's triple -/

set_option maxHeartbeats 1000000 in
/-- The kernel body on whole staging memrefs, the inputs' at read contents `x0`, `x1`, `x2` and the output's at
    anything (the body reads it, then overwrites every entry of it), runs to the continuation holding the inputs' as
    they were and the output's at `out3_3` of the inputs'. -/
theorem sound_kernel3 (c : Dev nD) (E : Set ℕ) (i : grid3.Coords) (arg1 : Memref sig .tc .vmem S4096x128 .f32) (harg1 : arg1.IsWhole) (arg2 : Memref sig .tc .vmem S128 .f32) (harg2 : arg2.IsWhole) (arg3 : Memref sig .tc .vmem S128 .f32) (harg3 : arg3.IsWhole) (arg4 : Memref sig .tc .vmem S4096x128 .f32) (harg4 : arg4.IsWhole)
    (x0 : Vec F S4096x128 .f32) (x1 : Vec F S128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__ln_kernel i arg1 harg1 arg2 harg2 arg3 harg3 arg4 harg4) K := by
  simp only [cc3__ln_kernel_eq_skeleton]; unfold cc3__ln_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Run

end
-- ==== Proof.KernelIdeal.Segments.lean ====
import proofs.«145608_j2035814499086_1_alg».proof.Proof.Gen.KernelIdeal.Launch
import proofs.«145608_j2035814499086_1_alg».proof.Proof.Gen.KernelIdeal.Skeleton
import proofs.«145608_j2035814499086_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«145608_j2035814499086_1_alg».proof.Proof.KernelIdeal.Bodies

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the host stretches allocate and write -/

/-- No operation of `hostOps0` allocates a buffer. -/
theorem hostOps0_fresh : (hostOps0 : List (HloOp τ sig (Elt F))).Forall fun op => op.fresh = ∅ := by
  simp only [List.Forall]; repeat' constructor
/-- The references `hostOps0`'s operations write: each operation's one result, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The references `hostOps1`'s operations write: each operation's one result, in order. -/
abbrev hostOps1_W : List (Ref sig .tc) := [main_v2, main_v3, main_v4, main_v5, main_cst, main_v6, main_v7, main_v8, main_v9, main_v10, main_c, main_v11, main_v12, main_c_0, main_v13, main_v14, main_v15, main_v16, main_v17, main_v18, main_v19, main_v20, main_cst_1, main_v21, main_v22, main_v23, main_v24, main_v25, main_v26, main_v27, main_v28, main_v29, main_v30, main_v31, main_c_2, main_v32, main_v33, main_c_3, main_v34, main_v35, main_v36, main_v37, main_v38, main_v39, main_v40, main_v41, main_cst_4, main_v42, main_v43, main_v44, main_v45, main_v46, main_v47, main_v48, main_v49, main_v50, main_v51, main_v52, main_c_5, main_v53, main_v54, main_c_6, main_v55, main_v56, main_v57, main_v58, main_v59, main_v60, main_v61, main_v62, main_cst_7, main_v63, main_v64, main_v65, main_v66, main_v67, main_v68, main_v69, main_v70, main_v71, main_v72, main_v73, main_c_8, main_v74, main_v75, main_c_9, main_v76, main_v77, main_v78, main_v79, main_v80, main_v81, main_v82, main_v83, main_cst_10, main_v84, main_v85, main_v86, main_v87, main_v88, main_v89, main_v90]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- No operation of `hostOps2` allocates a buffer. -/
theorem hostOps2_fresh : (hostOps2 : List (HloOp τ sig (Elt F))).Forall fun op => op.fresh = ∅ := by
  simp only [List.Forall]; repeat' constructor
/-- The references `hostOps2`'s operations write: each operation's one result, in order. -/
abbrev hostOps2_W : List (Ref sig .tc) := [main_v92]
theorem hostOps2_writes : (hostOps2 : List (HloOp τ sig (Elt F))).Forall fun op => op.writes ⊆ (hostOps2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3` allocates a buffer. -/
theorem hostOps3_fresh : (hostOps3 : List (HloOp τ sig (Elt F))).Forall fun op => op.fresh = ∅ := by
  simp only [List.Forall]; repeat' constructor
/-- The references `hostOps3`'s operations write: each operation's one result, in order. -/
abbrev hostOps3_W : List (Ref sig .tc) := [main_v94, main_v95, main_v96, main_v97, main_cst_11, main_v98, main_v99, main_v100, main_v101, main_v102, main_c_12, main_v103, main_v104, main_c_13, main_v105, main_v106, main_v107, main_v108, main_v109, main_v110, main_v111, main_v112, main_cst_14, main_v113, main_v114, main_v115, main_v116, main_v117, main_v118, main_v119, main_v120, main_v121, main_v122, main_v123, main_c_15, main_v124, main_v125, main_c_16, main_v126, main_v127, main_v128, main_v129, main_v130, main_v131, main_v132, main_v133, main_cst_17, main_v134, main_v135, main_v136, main_v137, main_v138, main_v139, main_v140, main_v141, main_v142, main_v143, main_v144, main_c_18, main_v145, main_v146, main_c_19, main_v147, main_v148, main_v149, main_v150, main_v151, main_v152, main_v153, main_v154, main_cst_20, main_v155, main_v156, main_v157, main_v158, main_v159, main_v160, main_v161, main_v162, main_v163, main_v164, main_v165, main_c_21, main_v166, main_v167, main_c_22, main_v168, main_v169, main_v170, main_v171, main_v172, main_v173, main_v174, main_v175, main_cst_23, main_v176, main_v177, main_v178, main_v179, main_v180, main_v181, main_v182]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! # The run: @main's segments from the launch to the return

## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: the operations over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over `pin pcs a p` unifies with the pinned configuration only when unification may
-- unfold plain definitions in a metavariable's type
set_option backward.isDefEq.respectTransparency.types false in
/-- Region 0 (custom_call 0) over the thread state: entered from every unscoped buffer at `W1`, left at `W2`.
    Its arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 1 (custom_call 1) over the thread state: entered from every unscoped buffer at `W3`, left at `W4`.
    Its arrays split out of the unscoped buffers and put back at the exit contents; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 2 (custom_call 2) over the thread state: entered from every unscoped buffer at `W5`, left at `W6`.
    Its arrays split out of the unscoped buffers and put back at the exit contents; the generator register into the
    class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 3 (custom_call 3) over the thread state: entered from every unscoped buffer at `W7`, left at `W8`.
    Its arrays split out of the unscoped buffers and put back at the exit contents; the generator register into the
    class invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: its chain of items, then the segments' run against that chain by the kernel's
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state holds every unscoped TensorCore buffer at the last
    boundary's contents `W8`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- info: 'Cert.KernelIdeal.Run.run_all' depends on axioms: [propext, Classical.choice, Quot.sound] -/
#guard_msgs in #print axioms run_all

end Cert.KernelIdeal.Run

end
-- ==== Proof.KernelIdeal.SegmentsArgs.lean ====
import proofs.«145608_j2035814499086_1_alg».proof.Proof.KernelIdeal.Segments

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # The arguments end as launched

No host operation writes an argument (each writes its one result, none of which is an argument), and no region
writes one (a region reads it through an input window, which its write-backs leave as entered, or bypasses it), so the
fold at an argument's buffer walks back to the launch memory. -/

/-! ## What each host stretch leaves unchanged: every reference it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## Each argument, boundary by boundary -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := W7_of m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := W7_of m ρ c main_arg14 (by decide)
    _ = W5 m ρ c (Proc.devRef .tc main_arg14) := W6_of_ne m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := W7_of m ρ c main_arg15 (by decide)
    _ = W5 m ρ c (Proc.devRef .tc main_arg15) := W6_of_ne m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

theorem W8_main_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := W7_of m ρ c main_arg16 (by decide)
    _ = W5 m ρ c (Proc.devRef .tc main_arg16) := W6_of_ne m ρ c main_arg16 (by decide)
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl

theorem W8_main_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := W7_of m ρ c main_arg17 (by decide)
    _ = W5 m ρ c (Proc.devRef .tc main_arg17) := W6_of_ne m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of_ne m ρ c main_arg17 (by decide)
    _ = W0 m ρ c (Proc.devRef .tc main_arg17) := W1_of m ρ c main_arg17 (by decide)
    _ = m ((c : Thread nD τ).loc main_arg17) := rfl

theorem W8_main_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := W7_of m ρ c main_arg18 (by decide)
    _ = W5 m ρ c (Proc.devRef .tc main_arg18) := W6_of_ne m ρ c main_arg18 (by decide)
    _ = W4 m ρ c (Proc.devRef .tc main_arg18) := W5_of m ρ c main_arg18 (by decide)
    _ = W3 m ρ c (Proc.devRef .tc main_arg18) := W4_of_ne m ρ c main_arg18 (by decide)
    _ = W2 m ρ c (Proc.devRef .tc main_arg18) := W3_of m ρ c main_arg18 (by decide)
    _ = W1 m ρ c (Proc.devRef .tc main_arg18) := W2_of_ne m ρ c main_arg18 (by decide)
    _ = W0 m ρ c (Proc.devRef .tc main_arg18) := W1_of m ρ c main_arg18 (by decide)
    _ = m ((c : Thread nD τ).loc main_arg18) := rfl

theorem W8_main_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := W7_of m ρ c main_arg19 (by decide)
    _ = W5 m ρ c (Proc.devRef .tc main_arg19) := W6_of_ne m ρ c main_arg19 (by decide)
    _ = W4 m ρ c (Proc.devRef .tc main_arg19) := W5_of m ρ c main_arg19 (by decide)
    _ = W3 m ρ c (Proc.devRef .tc main_arg19) := W4_of_ne m ρ c main_arg19 (by decide)
    _ = W2 m ρ c (Proc.devRef .tc main_arg19) := W3_of m ρ c main_arg19 (by decide)
    _ = W1 m ρ c (Proc.devRef .tc main_arg19) := W2_of_ne m ρ c main_arg19 (by decide)
    _ = W0 m ρ c (Proc.devRef .tc main_arg19) := W1_of m ρ c main_arg19 (by decide)
    _ = m ((c : Thread nD τ).loc main_arg19) := rfl

theorem W8_main_arg20 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := W7_of m ρ c main_arg20 (by decide)
    _ = W5 m ρ c (Proc.devRef .tc main_arg20) := W6_of_ne m ρ c main_arg20 (by decide)
    _ = W4 m ρ c (Proc.devRef .tc main_arg20) := W5_of m ρ c main_arg20 (by decide)
    _ = W3 m ρ c (Proc.devRef .tc main_arg20) := W4_of_ne m ρ c main_arg20 (by decide)
    _ = W2 m ρ c (Proc.devRef .tc main_arg20) := W3_of m ρ c main_arg20 (by decide)
    _ = W1 m ρ c (Proc.devRef .tc main_arg20) := W2_of_ne m ρ c main_arg20 (by decide)
    _ = W0 m ρ c (Proc.devRef .tc main_arg20) := W1_of m ρ c main_arg20 (by decide)
    _ = m ((c : Thread nD τ).loc main_arg20) := rfl

theorem W8_main_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := W7_of m ρ c main_arg21 (by decide)
    _ = W5 m ρ c (Proc.devRef .tc main_arg21) := W6_of_ne m ρ c main_arg21 (by decide)
    _ = W4 m ρ c (Proc.devRef .tc main_arg21) := W5_of m ρ c main_arg21 (by decide)
    _ = W3 m ρ c (Proc.devRef .tc main_arg21) := W4_of_ne m ρ c main_arg21 (by decide)
    _ = W2 m ρ c (Proc.devRef .tc main_arg21) := W3_of m ρ c main_arg21 (by decide)
    _ = W1 m ρ c (Proc.devRef .tc main_arg21) := W2_of_ne m ρ c main_arg21 (by decide)
    _ = W0 m ρ c (Proc.devRef .tc main_arg21) := W1_of m ρ c main_arg21 (by decide)
    _ = m ((c : Thread nD τ).loc main_arg21) := rfl

theorem W8_main_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := W7_of m ρ c main_arg22 (by decide)
    _ = W5 m ρ c (Proc.devRef .tc main_arg22) := W6_of_ne m ρ c main_arg22 (by decide)
    _ = W4 m ρ c (Proc.devRef .tc main_arg22) := W5_of m ρ c main_arg22 (by decide)
    _ = W3 m ρ c (Proc.devRef .tc main_arg22) := W4_of_ne m ρ c main_arg22 (by decide)
    _ = W2 m ρ c (Proc.devRef .tc main_arg22) := W3_of m ρ c main_arg22 (by decide)
    _ = W1 m ρ c (Proc.devRef .tc main_arg22) := W2_of_ne m ρ c main_arg22 (by decide)
    _ = W0 m ρ c (Proc.devRef .tc main_arg22) := W1_of m ρ c main_arg22 (by decide)
    _ = m ((c : Thread nD τ).loc main_arg22) := rfl

theorem W8_main_arg23 (c : Dev nD) : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := W7_of m ρ c main_arg23 (by decide)
    _ = W5 m ρ c (Proc.devRef .tc main_arg23) := W6_of_ne m ρ c main_arg23 (by decide)
    _ = W4 m ρ c (Proc.devRef .tc main_arg23) := W5_of m ρ c main_arg23 (by decide)
    _ = W3 m ρ c (Proc.devRef .tc main_arg23) := W4_of_ne m ρ c main_arg23 (by decide)
    _ = W2 m ρ c (Proc.devRef .tc main_arg23) := W3_of m ρ c main_arg23 (by decide)
    _ = W1 m ρ c (Proc.devRef .tc main_arg23) := W2_of_ne m ρ c main_arg23 (by decide)
    _ = W0 m ρ c (Proc.devRef .tc main_arg23) := W1_of m ρ c main_arg23 (by decide)
    _ = m ((c : Thread nD τ).loc main_arg23) := rfl

theorem W8_main_arg24 (c : Dev nD) : W8 m ρ c (Proc.devRef .tc main_arg24) = m ((c : Thread nD τ).loc main_arg24) :=
  calc W8 m ρ c (Proc.devRef .tc main_arg24)
    _ = W7 m ρ c (Proc.devRef .tc main_arg24) := W8_of_ne m ρ c main_arg24 (by decide)
    _ = W6 m ρ c (Proc.devRef .tc main_arg24) := W7_of m ρ c main_arg24 (by decide)
    _ = W5 m ρ c (Proc.devRef .tc main_arg24) := W6_of_ne m ρ c main_arg24 (by decide)
    _ = W4 m ρ c (Proc.devRef .tc main_arg24) := W5_of m ρ c main_arg24 (by decide)
    _ = W3 m ρ c (Proc.devRef .tc main_arg24) := W4_of_ne m ρ c main_arg24 (by decide)
    _ = W2 m ρ c (Proc.devRef .tc main_arg24) := W3_of m ρ c main_arg24 (by decide)
    _ = W1 m ρ c (Proc.devRef .tc main_arg24) := W2_of_ne m ρ c main_arg24 (by decide)
    _ = W0 m ρ c (Proc.devRef .tc main_arg24) := W1_of m ρ c main_arg24 (by decide)
    _ = m ((c : Thread nD τ).loc main_arg24) := rfl

theorem W8_main_arg25 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := W7_of m ρ c main_arg25 (by decide)
    _ = W5 m ρ c (Proc.devRef .tc main_arg25) := W6_of_ne m ρ c main_arg25 (by decide)
    _ = W4 m ρ c (Proc.devRef .tc main_arg25) := W5_of m ρ c main_arg25 (by decide)
    _ = W3 m ρ c (Proc.devRef .tc main_arg25) := (W4_arr m ρ c 1).trans (((dat1 (V3 m ρ) c).arrAt_in 1 rfl _).trans (A_eq1 (V3 m ρ) c 1))
    _ = W2 m ρ c (Proc.devRef .tc main_arg25) := W3_of m ρ c main_arg25 (by decide)
    _ = W1 m ρ c (Proc.devRef .tc main_arg25) := W2_of_ne m ρ c main_arg25 (by decide)
    _ = W0 m ρ c (Proc.devRef .tc main_arg25) := W1_of m ρ c main_arg25 (by decide)
    _ = m ((c : Thread nD τ).loc main_arg25) := rfl

theorem W8_main_arg26 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := W7_of m ρ c main_arg26 (by decide)
    _ = W5 m ρ c (Proc.devRef .tc main_arg26) := W6_of_ne m ρ c main_arg26 (by decide)
    _ = W4 m ρ c (Proc.devRef .tc main_arg26) := W5_of m ρ c main_arg26 (by decide)
    _ = W3 m ρ c (Proc.devRef .tc main_arg26) := (W4_arr m ρ c 2).trans (((dat1 (V3 m ρ) c).arrAt_in 2 rfl _).trans (A_eq1 (V3 m ρ) c 2))
    _ = W2 m ρ c (Proc.devRef .tc main_arg26) := W3_of m ρ c main_arg26 (by decide)
    _ = W1 m ρ c (Proc.devRef .tc main_arg26) := W2_of_ne m ρ c main_arg26 (by decide)
    _ = W0 m ρ c (Proc.devRef .tc main_arg26) := W1_of m ρ c main_arg26 (by decide)
    _ = m ((c : Thread nD τ).loc main_arg26) := rfl

theorem W8_main_arg27 (c : Dev nD) : W8 m ρ c (Proc.devRef .tc main_arg27) = m ((c : Thread nD τ).loc main_arg27) :=
  calc W8 m ρ c (Proc.devRef .tc main_arg27)
    _ = W7 m ρ c (Proc.devRef .tc main_arg27) := (W8_arr m ρ c 1).trans (((dat3 (V7 m ρ) c).arrAt_in 1 rfl _).trans (A_eq3 (V7 m ρ) c 1))
    _ = W6 m ρ c (Proc.devRef .tc main_arg27) := W7_of m ρ c main_arg27 (by decide)
    _ = W5 m ρ c (Proc.devRef .tc main_arg27) := W6_of_ne m ρ c main_arg27 (by decide)
    _ = W4 m ρ c (Proc.devRef .tc main_arg27) := W5_of m ρ c main_arg27 (by decide)
    _ = W3 m ρ c (Proc.devRef .tc main_arg27) := W4_of_ne m ρ c main_arg27 (by decide)
    _ = W2 m ρ c (Proc.devRef .tc main_arg27) := W3_of m ρ c main_arg27 (by decide)
    _ = W1 m ρ c (Proc.devRef .tc main_arg27) := W2_of_ne m ρ c main_arg27 (by decide)
    _ = W0 m ρ c (Proc.devRef .tc main_arg27) := W1_of m ρ c main_arg27 (by decide)
    _ = m ((c : Thread nD τ).loc main_arg27) := rfl

theorem W8_main_arg28 (c : Dev nD) : W8 m ρ c (Proc.devRef .tc main_arg28) = m ((c : Thread nD τ).loc main_arg28) :=
  calc W8 m ρ c (Proc.devRef .tc main_arg28)
    _ = W7 m ρ c (Proc.devRef .tc main_arg28) := (W8_arr m ρ c 2).trans (((dat3 (V7 m ρ) c).arrAt_in 2 rfl _).trans (A_eq3 (V7 m ρ) c 2))
    _ = W6 m ρ c (Proc.devRef .tc main_arg28) := W7_of m ρ c main_arg28 (by decide)
    _ = W5 m ρ c (Proc.devRef .tc main_arg28) := W6_of_ne m ρ c main_arg28 (by decide)
    _ = W4 m ρ c (Proc.devRef .tc main_arg28) := W5_of m ρ c main_arg28 (by decide)
    _ = W3 m ρ c (Proc.devRef .tc main_arg28) := W4_of_ne m ρ c main_arg28 (by decide)
    _ = W2 m ρ c (Proc.devRef .tc main_arg28) := W3_of m ρ c main_arg28 (by decide)
    _ = W1 m ρ c (Proc.devRef .tc main_arg28) := W2_of_ne m ρ c main_arg28 (by decide)
    _ = W0 m ρ c (Proc.devRef .tc main_arg28) := W1_of m ρ c main_arg28 (by decide)
    _ = m ((c : Thread nD τ).loc main_arg28) := rfl

/-! ## The frame -/

/-- The frame claim at any `F`: at the compiled mesh, from any memory with zero counters, every weakly fair execution
    of @main on the TensorCores terminates, nothing faulting, and every final state has the argument arrays as
    launched: the run's final contents `W8`, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs (onTc (τ := τ) (main (F := F))) ⟨m, fun _ => 0, ρ⟩).mono (fun r h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c),
      (h c _ (mem_uc main_arg20 (by decide))).trans (W8_main_arg20 m ρ c),
      (h c _ (mem_uc main_arg21 (by decide))).trans (W8_main_arg21 m ρ c),
      (h c _ (mem_uc main_arg22 (by decide))).trans (W8_main_arg22 m ρ c),
      (h c _ (mem_uc main_arg23 (by decide))).trans (W8_main_arg23 m ρ c),
      (h c _ (mem_uc main_arg24 (by decide))).trans (W8_main_arg24 m ρ c),
      (h c _ (mem_uc main_arg25 (by decide))).trans (W8_main_arg25 m ρ c),
      (h c _ (mem_uc main_arg26 (by decide))).trans (W8_main_arg26 m ρ c),
      (h c _ (mem_uc main_arg27 (by decide))).trans (W8_main_arg27 m ρ c),
      (h c _ (mem_uc main_arg28 (by decide))).trans (W8_main_arg28 m ρ c)⟩) (run_all m ρ)

/-- info: 'Cert.KernelIdeal.Run.frame' depends on axioms: [propext, Classical.choice, Quot.sound] -/
#guard_msgs in #print axioms frame

end Cert.KernelIdeal.Run

end
-- ==== Proof.KernelIdeal.Blocks.lean ====
import proofs.«145608_j2035814499086_1_alg».proof.Proof.KernelIdeal.Bodies
import Idealize.ShloMosaic.Lib.Pipeline.Value
import Idealize.ShloMosaic.Lib.ValueIdx

/-! Each region's output array after its last grid point, as ONE function of the contents the region is entered with:
    the array is tiled by the 32 row blocks of 4096 rows, point `t` writes back the payload of row block `t` of the
    input table (with the whole weight, scale and shift arrays), and so row `r` of the output is the payload of row
    block `r / 4096` read at row `r % 4096`. The payloads themselves stay folded here. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx (ix2 eq_ix2)

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Rows `4096·t … 4096·t + 4095` of a node table. -/
def rowBlock (X : S131072x128.Idx → Elt F .f32) (t : Fin 32) : Vec F S4096x128 .f32 :=
  fun y => X (ix2 (⟨4096 * t.val + (y 0).val, by have h0 : (y 0).val < 4096 := (y 0).isLt; have := t.isLt; omega⟩ : Fin 131072) (y 1))

/-! # Region 0: the output array after the last point -/

/-- The output array of region 0 as one function of the region-entry contents of its row table `X` and its
    weights `W`: row `r` is the payload of row block `r / 4096` at row `r % 4096`. -/
def G0 (X : S131072x128.Idx → Elt F .f32) (W : S128x512.Idx → Elt F .f32) : S131072x512.Idx → Elt F .f32 :=
  fun i => k0_pay1 (rowBlock X ⟨(i 0).val / 4096, by have h0 : (i 0).val < 131072 := (i 0).isLt; omega⟩) W
    (ix2 (⟨(i 0).val % 4096, by omega⟩ : Fin 4096) (⟨(i 1).val, (i 1).isLt⟩ : Fin 512))

/-- `G0` at row `4096·t + j₀` is the payload of row block `t` at row `j₀`. -/
theorem G0_block (X : S131072x128.Idx → Elt F .f32) (W : S128x512.Idx → Elt F .f32) (t : Fin 32) (j : S4096x512.Idx)
    (i : S131072x512.Idx) (h0 : (i 0).val = 4096 * t.val + (j 0).val) (h1 : (i 1).val = (j 1).val) :
    G0 X W i = k0_pay1 (rowBlock X t) W j := by
  have hj0 : (j 0).val < 4096 := (j 0).isLt
  have ea : (⟨(i 0).val / 4096, by have h0 : (i 0).val < 131072 := (i 0).isLt; omega⟩ : Fin 32) = t := Fin.ext (by show (i 0).val / 4096 = t.val; omega)
  have eb : ix2 (⟨(i 0).val % 4096, by omega⟩ : Fin 4096) (⟨(i 1).val, (i 1).isLt⟩ : Fin 512) = j := by
    funext a
    match a with
    | ⟨0, _⟩ => exact Fin.ext (by show (i 0).val % 4096 = (j 0).val; omega)
    | ⟨1, _⟩ => exact Fin.ext h1
  unfold G0
  rw [ea, eb]

/-- The printed index maps, decided over the grid: the row windows move with the point along the rows; the weights'
    block is the whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt32_0 (t : Fin cfg0.N) : t.val < 32 := by have := t.isLt; have hN : cfg0.N = 32 := N_0; omega

/-- Window 0's block at point `t` is row block `t` of its array. -/
theorem iblk0_0_eq (c : Dev nD) (t : Fin cfg0.N) :
    (iblk0 V c 0 t : Vec F S4096x128 .f32) = rowBlock (V c main_arg0) ⟨t.val, lt32_0 t⟩ := by
  obtain ⟨e0, e1, -⟩ := idx_facts0 t
  funext y
  unfold iblk0 rowBlock
  rw [View.read_apply]
  show V c main_arg0 _ = V c main_arg0 _
  congr 1
  funext a
  apply Fin.ext
  match a with
  | ⟨0, _⟩ => show win0_0.index t (0 : Fin 2) * 4096 + 1 * (y 0).val = 4096 * t.val + (y 0).val; rw [e0]; omega
  | ⟨1, _⟩ => show win0_0.index t (1 : Fin 2) * 128 + 1 * (y 1).val = (y 1).val; rw [e1]; omega

/-- Window 1's block at every point is its whole array. -/
theorem iblk0_1_eq (c : Dev nD) (t : Fin cfg0.N) :
    (iblk0 V c 1 t : Vec F S128x512 .f32) = V c main_v0 := by
  obtain ⟨-, -, e2, e3, -⟩ := idx_facts0 t
  funext y
  unfold iblk0
  rw [View.read_apply]
  show V c main_v0 _ = V c main_v0 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 512 + 1 * (y 1).val = (y 1).val; rw [e3]; omega

/-- What point `t` writes back is block `t` of `G0` of the arrays as the region finds them. -/
theorem flushed0_eq (c : Dev nD) (t : Fin cfg0.N) :
    (dat0 V c).flushed 2 t = ((cfg0.win 2).blk t).view.read (Elt F) (G0 (V c main_arg0) (V c main_v0)) := by
  obtain ⟨-, -, -, -, e4, e5⟩ := idx_facts0 t
  show (cfg0.win 2).cut (grid0.coords t) ((dat0 V c).after 2 t) = _
  rw [after0_2]
  unfold out0_2
  rw [View.canon_unit_zero hz2]
  simp only [View.ld_unit_zero (S := S4096x128) hz2, View.ld_unit_zero (S := S128x512) hz2]
  rw [iblk0_0_eq, iblk0_1_eq]
  funext j
  show k0_pay1 _ _ j = G0 _ _ (((cfg0.win 2).blk t).view.emb j)
  refine (G0_block _ _ ⟨t.val, lt32_0 t⟩ j _ ?_ ?_).symm
  · show win0_2.index t (0 : Fin 2) * 4096 + 1 * (j 0).val = 4096 * t.val + (j 0).val; rw [e4]; omega
  · show win0_2.index t (1 : Fin 2) * 512 + 1 * (j 1).val = (j 1).val; rw [e5]; omega

/-- An index of the output array is in point `t`'s block iff each coordinate is in the block's range on its axis. -/
theorem mem_blk0 (t : Fin cfg0.N) (i : S131072x512.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v1).slice (win0_2.rect t)).set ↔ _
  rw [View.set_slice_whole, Rect.mem_set_unit]
  exact Iff.rfl

/-- Every index of the output array is in the block of the point its row falls in. -/
theorem cover0 (i : S131072x512.Idx) : ∃ t : Fin cfg0.N, (cfg0.win 2).flush t = true ∧ i ∈ ((cfg0.win 2).blk t).view.set := by
  have hi0 : (i 0).val < 131072 := (i 0).isLt
  have hi1 : (i 1).val < 512 := (i 1).isLt
  have hN : cfg0.N = 32 := N_0
  obtain ⟨t, ht⟩ : ∃ t : Fin cfg0.N, t.val = (i 0).val / 4096 := ⟨⟨(i 0).val / 4096, by omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 4096 ≤ (i 0).val ∧ (i 0).val < win0_2.index t (0 : Fin 2) * 4096 + 4096; rw [e4, ht]; omega
  | ⟨1, _⟩ => show win0_2.index t (1 : Fin 2) * 512 ≤ (i 1).val ∧ (i 1).val < win0_2.index t (1 : Fin 2) * 512 + 512; rw [e5]; omega

/-- The output array after the last point: `G0` of the region-entry contents. -/
theorem final0 (c : Dev nD) : (dat0 V c).arrAt 2 cfg0.N = fun i : S131072x512.Idx =>
    k0_pay1 (rowBlock (V c main_arg0) ⟨(i 0).val / 4096, by have h0 : (i 0).val < 131072 := (i 0).isLt; omega⟩) (V c main_v0)
      (ix2 (⟨(i 0).val % 4096, by omega⟩ : Fin 4096) (⟨(i 1).val, (i 1).isLt⟩ : Fin 512)) :=
  (dat0 V c).arrAt_eq_of_cover 2 (G0 (V c main_arg0) (V c main_v0)) (fun t _ => flushed0_eq V c t) cover0

/-! # Region 1: the output array after the last point -/

/-- The output array of region 1 as one function of the region-entry contents of its row table `X`, its scale
    `g` and its shift `b`: row `r` is the payload of row block `r / 4096` at row `r % 4096`. -/
def G1 (X : S131072x128.Idx → Elt F .f32) (g : S128.Idx → Elt F .f32) (b : S128.Idx → Elt F .f32) : S131072x128.Idx → Elt F .f32 :=
  fun i => k1_pay1 (rowBlock X ⟨(i 0).val / 4096, by have h0 : (i 0).val < 131072 := (i 0).isLt; omega⟩) g b
    (ix2 (⟨(i 0).val % 4096, by omega⟩ : Fin 4096) (⟨(i 1).val, (i 1).isLt⟩ : Fin 128))

/-- `G1` at row `4096·t + j₀` is the payload of row block `t` at row `j₀`. -/
theorem G1_block (X : S131072x128.Idx → Elt F .f32) (g : S128.Idx → Elt F .f32) (b : S128.Idx → Elt F .f32) (t : Fin 32) (j : S4096x128.Idx)
    (i : S131072x128.Idx) (h0 : (i 0).val = 4096 * t.val + (j 0).val) (h1 : (i 1).val = (j 1).val) :
    G1 X g b i = k1_pay1 (rowBlock X t) g b j := by
  have hj0 : (j 0).val < 4096 := (j 0).isLt
  have ea : (⟨(i 0).val / 4096, by have h0 : (i 0).val < 131072 := (i 0).isLt; omega⟩ : Fin 32) = t := Fin.ext (by show (i 0).val / 4096 = t.val; omega)
  have eb : ix2 (⟨(i 0).val % 4096, by omega⟩ : Fin 4096) (⟨(i 1).val, (i 1).isLt⟩ : Fin 128) = j := by
    funext a
    match a with
    | ⟨0, _⟩ => exact Fin.ext (by show (i 0).val % 4096 = (j 0).val; omega)
    | ⟨1, _⟩ => exact Fin.ext h1
  unfold G1
  rw [ea, eb]

/-- The printed index maps, decided over the grid: the row windows move with the point along the rows; the scale's and
    the shift's block is the whole array at every point. -/
theorem idx_facts1 : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

theorem lt32_1 (t : Fin cfg1.N) : t.val < 32 := by have := t.isLt; have hN : cfg1.N = 32 := N_1; omega

/-- Window 0's block at point `t` is row block `t` of its array. -/
theorem iblk1_0_eq (c : Dev nD) (t : Fin cfg1.N) :
    (iblk1 V c 0 t : Vec F S4096x128 .f32) = rowBlock (V c main_v90) ⟨t.val, lt32_1 t⟩ := by
  obtain ⟨e0, e1, -⟩ := idx_facts1 t
  funext y
  unfold iblk1 rowBlock
  rw [View.read_apply]
  show V c main_v90 _ = V c main_v90 _
  congr 1
  funext a
  apply Fin.ext
  match a with
  | ⟨0, _⟩ => show win1_0.index t (0 : Fin 2) * 4096 + 1 * (y 0).val = 4096 * t.val + (y 0).val; rw [e0]; omega
  | ⟨1, _⟩ => show win1_0.index t (1 : Fin 2) * 128 + 1 * (y 1).val = (y 1).val; rw [e1]; omega

/-- Window 1's block at every point is its whole array. -/
theorem iblk1_1_eq (c : Dev nD) (t : Fin cfg1.N) :
    (iblk1 V c 1 t : Vec F S128 .f32) = V c main_arg25 := by
  obtain ⟨-, -, e2, -⟩ := idx_facts1 t
  funext y
  unfold iblk1
  rw [View.read_apply]
  show V c main_arg25 _ = V c main_arg25 _
  congr 1
  funext a
  apply Fin.ext
  match a with
  | ⟨0, _⟩ => show win1_1.index t (0 : Fin 1) * 128 + 1 * (y 0).val = (y 0).val; rw [e2]; omega

/-- Window 2's block at every point is its whole array. -/
theorem iblk1_2_eq (c : Dev nD) (t : Fin cfg1.N) :
    (iblk1 V c 2 t : Vec F S128 .f32) = V c main_arg26 := by
  obtain ⟨-, -, -, e3, -⟩ := idx_facts1 t
  funext y
  unfold iblk1
  rw [View.read_apply]
  show V c main_arg26 _ = V c main_arg26 _
  congr 1
  funext a
  apply Fin.ext
  match a with
  | ⟨0, _⟩ => show win1_2.index t (0 : Fin 1) * 128 + 1 * (y 0).val = (y 0).val; rw [e3]; omega

/-- What point `t` writes back is block `t` of `G1` of the arrays as the region finds them. -/
theorem flushed1_eq (c : Dev nD) (t : Fin cfg1.N) :
    (dat1 V c).flushed 3 t = ((cfg1.win 3).blk t).view.read (Elt F) (G1 (V c main_v90) (V c main_arg25) (V c main_arg26)) := by
  obtain ⟨-, -, -, -, e4, e5⟩ := idx_facts1 t
  show (cfg1.win 3).cut (grid1.coords t) ((dat1 V c).after 3 t) = _
  rw [after1_3]
  unfold out1_3
  rw [View.canon_unit_zero hz2]
  simp only [View.ld_unit_zero (S := S4096x128) hz2, View.ld_unit_zero (S := S128) hz1]
  rw [iblk1_0_eq, iblk1_1_eq, iblk1_2_eq]
  funext j
  show k1_pay1 _ _ _ j = G1 _ _ _ (((cfg1.win 3).blk t).view.emb j)
  refine (G1_block _ _ _ ⟨t.val, lt32_1 t⟩ j _ ?_ ?_).symm
  · show win1_3.index t (0 : Fin 2) * 4096 + 1 * (j 0).val = 4096 * t.val + (j 0).val; rw [e4]; omega
  · show win1_3.index t (1 : Fin 2) * 128 + 1 * (j 1).val = (j 1).val; rw [e5]; omega

/-- An index of the output array is in point `t`'s block iff each coordinate is in the block's range on its axis. -/
theorem mem_blk1 (t : Fin cfg1.N) (i : S131072x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v91).slice (win1_3.rect t)).set ↔ _
  rw [View.set_slice_whole, Rect.mem_set_unit]
  exact Iff.rfl

/-- Every index of the output array is in the block of the point its row falls in. -/
theorem cover1 (i : S131072x128.Idx) : ∃ t : Fin cfg1.N, (cfg1.win 3).flush t = true ∧ i ∈ ((cfg1.win 3).blk t).view.set := by
  have hi0 : (i 0).val < 131072 := (i 0).isLt
  have hi1 : (i 1).val < 128 := (i 1).isLt
  have hN : cfg1.N = 32 := N_1
  obtain ⟨t, ht⟩ : ∃ t : Fin cfg1.N, t.val = (i 0).val / 4096 := ⟨⟨(i 0).val / 4096, by omega⟩, rfl⟩
  obtain ⟨-, -, -, -, e4, e5⟩ := idx_facts1 t
  refine ⟨t, flush1_3 t, ?_⟩
  rw [mem_blk1]
  intro a
  match a with
  | ⟨0, _⟩ => show win1_3.index t (0 : Fin 2) * 4096 ≤ (i 0).val ∧ (i 0).val < win1_3.index t (0 : Fin 2) * 4096 + 4096; rw [e4, ht]; omega
  | ⟨1, _⟩ => show win1_3.index t (1 : Fin 2) * 128 ≤ (i 1).val ∧ (i 1).val < win1_3.index t (1 : Fin 2) * 128 + 128; rw [e5]; omega

/-- The output array after the last point: `G1` of the region-entry contents. -/
theorem final1 (c : Dev nD) : (dat1 V c).arrAt 3 cfg1.N = fun i : S131072x128.Idx =>
    k1_pay1 (rowBlock (V c main_v90) ⟨(i 0).val / 4096, by have h0 : (i 0).val < 131072 := (i 0).isLt; omega⟩) (V c main_arg25) (V c main_arg26)
      (ix2 (⟨(i 0).val % 4096, by omega⟩ : Fin 4096) (⟨(i 1).val, (i 1).isLt⟩ : Fin 128)) :=
  (dat1 V c).arrAt_eq_of_cover 3 (G1 (V c main_v90) (V c main_arg25) (V c main_arg26)) (fun t _ => flushed1_eq V c t) cover1

/-! # Region 2: the output array after the last point -/

/-- The output array of region 2 as one function of the region-entry contents of its row table `X` and its
    weights `W`: row `r` is the payload of row block `r / 4096` at row `r % 4096`. -/
def G2 (X : S131072x128.Idx → Elt F .f32) (W : S128x512.Idx → Elt F .f32) : S131072x512.Idx → Elt F .f32 :=
  fun i => k2_pay1 (rowBlock X ⟨(i 0).val / 4096, by have h0 : (i 0).val < 131072 := (i 0).isLt; omega⟩) W
    (ix2 (⟨(i 0).val % 4096, by omega⟩ : Fin 4096) (⟨(i 1).val, (i 1).isLt⟩ : Fin 512))

/-- `G2` at row `4096·t + j₀` is the payload of row block `t` at row `j₀`. -/
theorem G2_block (X : S131072x128.Idx → Elt F .f32) (W : S128x512.Idx → Elt F .f32) (t : Fin 32) (j : S4096x512.Idx)
    (i : S131072x512.Idx) (h0 : (i 0).val = 4096 * t.val + (j 0).val) (h1 : (i 1).val = (j 1).val) :
    G2 X W i = k2_pay1 (rowBlock X t) W j := by
  have hj0 : (j 0).val < 4096 := (j 0).isLt
  have ea : (⟨(i 0).val / 4096, by have h0 : (i 0).val < 131072 := (i 0).isLt; omega⟩ : Fin 32) = t := Fin.ext (by show (i 0).val / 4096 = t.val; omega)
  have eb : ix2 (⟨(i 0).val % 4096, by omega⟩ : Fin 4096) (⟨(i 1).val, (i 1).isLt⟩ : Fin 512) = j := by
    funext a
    match a with
    | ⟨0, _⟩ => exact Fin.ext (by show (i 0).val % 4096 = (j 0).val; omega)
    | ⟨1, _⟩ => exact Fin.ext h1
  unfold G2
  rw [ea, eb]

/-- The printed index maps, decided over the grid: the row windows move with the point along the rows; the weights'
    block is the whole array at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt32_2 (t : Fin cfg2.N) : t.val < 32 := by have := t.isLt; have hN : cfg2.N = 32 := N_2; omega

/-- Window 0's block at point `t` is row block `t` of its array. -/
theorem iblk2_0_eq (c : Dev nD) (t : Fin cfg2.N) :
    (iblk2 V c 0 t : Vec F S4096x128 .f32) = rowBlock (V c main_v91) ⟨t.val, lt32_2 t⟩ := by
  obtain ⟨e0, e1, -⟩ := idx_facts2 t
  funext y
  unfold iblk2 rowBlock
  rw [View.read_apply]
  show V c main_v91 _ = V c main_v91 _
  congr 1
  funext a
  apply Fin.ext
  match a with
  | ⟨0, _⟩ => show win2_0.index t (0 : Fin 2) * 4096 + 1 * (y 0).val = 4096 * t.val + (y 0).val; rw [e0]; omega
  | ⟨1, _⟩ => show win2_0.index t (1 : Fin 2) * 128 + 1 * (y 1).val = (y 1).val; rw [e1]; omega

/-- Window 1's block at every point is its whole array. -/
theorem iblk2_1_eq (c : Dev nD) (t : Fin cfg2.N) :
    (iblk2 V c 1 t : Vec F S128x512 .f32) = V c main_v92 := by
  obtain ⟨-, -, e2, e3, -⟩ := idx_facts2 t
  funext y
  unfold iblk2
  rw [View.read_apply]
  show V c main_v92 _ = V c main_v92 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 512 + 1 * (y 1).val = (y 1).val; rw [e3]; omega

/-- What point `t` writes back is block `t` of `G2` of the arrays as the region finds them. -/
theorem flushed2_eq (c : Dev nD) (t : Fin cfg2.N) :
    (dat2 V c).flushed 2 t = ((cfg2.win 2).blk t).view.read (Elt F) (G2 (V c main_v91) (V c main_v92)) := by
  obtain ⟨-, -, -, -, e4, e5⟩ := idx_facts2 t
  show (cfg2.win 2).cut (grid2.coords t) ((dat2 V c).after 2 t) = _
  rw [after2_2]
  unfold out2_2
  rw [View.canon_unit_zero hz2]
  simp only [View.ld_unit_zero (S := S4096x128) hz2, View.ld_unit_zero (S := S128x512) hz2]
  rw [iblk2_0_eq, iblk2_1_eq]
  funext j
  show k2_pay1 _ _ j = G2 _ _ (((cfg2.win 2).blk t).view.emb j)
  refine (G2_block _ _ ⟨t.val, lt32_2 t⟩ j _ ?_ ?_).symm
  · show win2_2.index t (0 : Fin 2) * 4096 + 1 * (j 0).val = 4096 * t.val + (j 0).val; rw [e4]; omega
  · show win2_2.index t (1 : Fin 2) * 512 + 1 * (j 1).val = (j 1).val; rw [e5]; omega

/-- An index of the output array is in point `t`'s block iff each coordinate is in the block's range on its axis. -/
theorem mem_blk2 (t : Fin cfg2.N) (i : S131072x512.Idx) :
    i ∈ ((cfg2.win 2).blk t).view.set ↔ ∀ a : Fin 2, win2_2.index t a * S4096x512.size a ≤ (i a).val ∧ (i a).val < win2_2.index t a * S4096x512.size a + S4096x512.size a := by
  show i ∈ ((View.whole main_v93).slice (win2_2.rect t)).set ↔ _
  rw [View.set_slice_whole, Rect.mem_set_unit]
  exact Iff.rfl

/-- Every index of the output array is in the block of the point its row falls in. -/
theorem cover2 (i : S131072x512.Idx) : ∃ t : Fin cfg2.N, (cfg2.win 2).flush t = true ∧ i ∈ ((cfg2.win 2).blk t).view.set := by
  have hi0 : (i 0).val < 131072 := (i 0).isLt
  have hi1 : (i 1).val < 512 := (i 1).isLt
  have hN : cfg2.N = 32 := N_2
  obtain ⟨t, ht⟩ : ∃ t : Fin cfg2.N, t.val = (i 0).val / 4096 := ⟨⟨(i 0).val / 4096, by omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 4096 ≤ (i 0).val ∧ (i 0).val < win2_2.index t (0 : Fin 2) * 4096 + 4096; rw [e4, ht]; omega
  | ⟨1, _⟩ => show win2_2.index t (1 : Fin 2) * 512 ≤ (i 1).val ∧ (i 1).val < win2_2.index t (1 : Fin 2) * 512 + 512; rw [e5]; omega

/-- The output array after the last point: `G2` of the region-entry contents. -/
theorem final2 (c : Dev nD) : (dat2 V c).arrAt 2 cfg2.N = fun i : S131072x512.Idx =>
    k2_pay1 (rowBlock (V c main_v91) ⟨(i 0).val / 4096, by have h0 : (i 0).val < 131072 := (i 0).isLt; omega⟩) (V c main_v92)
      (ix2 (⟨(i 0).val % 4096, by omega⟩ : Fin 4096) (⟨(i 1).val, (i 1).isLt⟩ : Fin 512)) :=
  (dat2 V c).arrAt_eq_of_cover 2 (G2 (V c main_v91) (V c main_v92)) (fun t _ => flushed2_eq V c t) cover2

/-! # Region 3: the output array after the last point -/

/-- The output array of region 3 as one function of the region-entry contents of its row table `X`, its scale
    `g` and its shift `b`: row `r` is the payload of row block `r / 4096` at row `r % 4096`. -/
def G3 (X : S131072x128.Idx → Elt F .f32) (g : S128.Idx → Elt F .f32) (b : S128.Idx → Elt F .f32) : S131072x128.Idx → Elt F .f32 :=
  fun i => k3_pay1 (rowBlock X ⟨(i 0).val / 4096, by have h0 : (i 0).val < 131072 := (i 0).isLt; omega⟩) g b
    (ix2 (⟨(i 0).val % 4096, by omega⟩ : Fin 4096) (⟨(i 1).val, (i 1).isLt⟩ : Fin 128))

/-- `G3` at row `4096·t + j₀` is the payload of row block `t` at row `j₀`. -/
theorem G3_block (X : S131072x128.Idx → Elt F .f32) (g : S128.Idx → Elt F .f32) (b : S128.Idx → Elt F .f32) (t : Fin 32) (j : S4096x128.Idx)
    (i : S131072x128.Idx) (h0 : (i 0).val = 4096 * t.val + (j 0).val) (h1 : (i 1).val = (j 1).val) :
    G3 X g b i = k3_pay1 (rowBlock X t) g b j := by
  have hj0 : (j 0).val < 4096 := (j 0).isLt
  have ea : (⟨(i 0).val / 4096, by have h0 : (i 0).val < 131072 := (i 0).isLt; omega⟩ : Fin 32) = t := Fin.ext (by show (i 0).val / 4096 = t.val; omega)
  have eb : ix2 (⟨(i 0).val % 4096, by omega⟩ : Fin 4096) (⟨(i 1).val, (i 1).isLt⟩ : Fin 128) = j := by
    funext a
    match a with
    | ⟨0, _⟩ => exact Fin.ext (by show (i 0).val % 4096 = (j 0).val; omega)
    | ⟨1, _⟩ => exact Fin.ext h1
  unfold G3
  rw [ea, eb]

/-- The printed index maps, decided over the grid: the row windows move with the point along the rows; the scale's and
    the shift's block is the whole array at every point. -/
theorem idx_facts3 : ∀ t : Fin cfg3.N, win3_0.index t (0 : Fin 2) = t.val ∧ win3_0.index t (1 : Fin 2) = 0
    ∧ win3_1.index t (0 : Fin 1) = 0 ∧ win3_2.index t (0 : Fin 1) = 0
    ∧ win3_3.index t (0 : Fin 2) = t.val ∧ win3_3.index t (1 : Fin 2) = 0 :=
  (by decide +kernel : ∀ t : Fin grid3.N, _)

theorem lt32_3 (t : Fin cfg3.N) : t.val < 32 := by have := t.isLt; have hN : cfg3.N = 32 := N_3; omega

/-- Window 0's block at point `t` is row block `t` of its array. -/
theorem iblk3_0_eq (c : Dev nD) (t : Fin cfg3.N) :
    (iblk3 V c 0 t : Vec F S4096x128 .f32) = rowBlock (V c main_v182) ⟨t.val, lt32_3 t⟩ := by
  obtain ⟨e0, e1, -⟩ := idx_facts3 t
  funext y
  unfold iblk3 rowBlock
  rw [View.read_apply]
  show V c main_v182 _ = V c main_v182 _
  congr 1
  funext a
  apply Fin.ext
  match a with
  | ⟨0, _⟩ => show win3_0.index t (0 : Fin 2) * 4096 + 1 * (y 0).val = 4096 * t.val + (y 0).val; rw [e0]; omega
  | ⟨1, _⟩ => show win3_0.index t (1 : Fin 2) * 128 + 1 * (y 1).val = (y 1).val; rw [e1]; omega

/-- Window 1's block at every point is its whole array. -/
theorem iblk3_1_eq (c : Dev nD) (t : Fin cfg3.N) :
    (iblk3 V c 1 t : Vec F S128 .f32) = V c main_arg27 := by
  obtain ⟨-, -, e2, -⟩ := idx_facts3 t
  funext y
  unfold iblk3
  rw [View.read_apply]
  show V c main_arg27 _ = V c main_arg27 _
  congr 1
  funext a
  apply Fin.ext
  match a with
  | ⟨0, _⟩ => show win3_1.index t (0 : Fin 1) * 128 + 1 * (y 0).val = (y 0).val; rw [e2]; omega

/-- Window 2's block at every point is its whole array. -/
theorem iblk3_2_eq (c : Dev nD) (t : Fin cfg3.N) :
    (iblk3 V c 2 t : Vec F S128 .f32) = V c main_arg28 := by
  obtain ⟨-, -, -, e3, -⟩ := idx_facts3 t
  funext y
  unfold iblk3
  rw [View.read_apply]
  show V c main_arg28 _ = V c main_arg28 _
  congr 1
  funext a
  apply Fin.ext
  match a with
  | ⟨0, _⟩ => show win3_2.index t (0 : Fin 1) * 128 + 1 * (y 0).val = (y 0).val; rw [e3]; omega

/-- What point `t` writes back is block `t` of `G3` of the arrays as the region finds them. -/
theorem flushed3_eq (c : Dev nD) (t : Fin cfg3.N) :
    (dat3 V c).flushed 3 t = ((cfg3.win 3).blk t).view.read (Elt F) (G3 (V c main_v182) (V c main_arg27) (V c main_arg28)) := by
  obtain ⟨-, -, -, -, e4, e5⟩ := idx_facts3 t
  show (cfg3.win 3).cut (grid3.coords t) ((dat3 V c).after 3 t) = _
  rw [after3_3]
  unfold out3_3
  rw [View.canon_unit_zero hz2]
  simp only [View.ld_unit_zero (S := S4096x128) hz2, View.ld_unit_zero (S := S128) hz1]
  rw [iblk3_0_eq, iblk3_1_eq, iblk3_2_eq]
  funext j
  show k3_pay1 _ _ _ j = G3 _ _ _ (((cfg3.win 3).blk t).view.emb j)
  refine (G3_block _ _ _ ⟨t.val, lt32_3 t⟩ j _ ?_ ?_).symm
  · show win3_3.index t (0 : Fin 2) * 4096 + 1 * (j 0).val = 4096 * t.val + (j 0).val; rw [e4]; omega
  · show win3_3.index t (1 : Fin 2) * 128 + 1 * (j 1).val = (j 1).val; rw [e5]; omega

/-- An index of the output array is in point `t`'s block iff each coordinate is in the block's range on its axis. -/
theorem mem_blk3 (t : Fin cfg3.N) (i : S131072x128.Idx) :
    i ∈ ((cfg3.win 3).blk t).view.set ↔ ∀ a : Fin 2, win3_3.index t a * S4096x128.size a ≤ (i a).val ∧ (i a).val < win3_3.index t a * S4096x128.size a + S4096x128.size a := by
  show i ∈ ((View.whole main_v183).slice (win3_3.rect t)).set ↔ _
  rw [View.set_slice_whole, Rect.mem_set_unit]
  exact Iff.rfl

/-- Every index of the output array is in the block of the point its row falls in. -/
theorem cover3 (i : S131072x128.Idx) : ∃ t : Fin cfg3.N, (cfg3.win 3).flush t = true ∧ i ∈ ((cfg3.win 3).blk t).view.set := by
  have hi0 : (i 0).val < 131072 := (i 0).isLt
  have hi1 : (i 1).val < 128 := (i 1).isLt
  have hN : cfg3.N = 32 := N_3
  obtain ⟨t, ht⟩ : ∃ t : Fin cfg3.N, t.val = (i 0).val / 4096 := ⟨⟨(i 0).val / 4096, by omega⟩, rfl⟩
  obtain ⟨-, -, -, -, e4, e5⟩ := idx_facts3 t
  refine ⟨t, flush3_3 t, ?_⟩
  rw [mem_blk3]
  intro a
  match a with
  | ⟨0, _⟩ => show win3_3.index t (0 : Fin 2) * 4096 ≤ (i 0).val ∧ (i 0).val < win3_3.index t (0 : Fin 2) * 4096 + 4096; rw [e4, ht]; omega
  | ⟨1, _⟩ => show win3_3.index t (1 : Fin 2) * 128 ≤ (i 1).val ∧ (i 1).val < win3_3.index t (1 : Fin 2) * 128 + 128; rw [e5]; omega

/-- The output array after the last point: `G3` of the region-entry contents. -/
theorem final3 (c : Dev nD) : (dat3 V c).arrAt 3 cfg3.N = fun i : S131072x128.Idx =>
    k3_pay1 (rowBlock (V c main_v182) ⟨(i 0).val / 4096, by have h0 : (i 0).val < 131072 := (i 0).isLt; omega⟩) (V c main_arg27) (V c main_arg28)
      (ix2 (⟨(i 0).val % 4096, by omega⟩ : Fin 4096) (⟨(i 1).val, (i 1).isLt⟩ : Fin 128)) :=
  (dat3 V c).arrAt_eq_of_cover 3 (G3 (V c main_v182) (V c main_arg27) (V c main_arg28)) (fun t _ => flushed3_eq V c t) cover3

end Cert.KernelIdeal.Run

end
-- ==== Proof.Spec.lean ====
/-
  The mathematics shared by the two programs, stated once over literal shapes and independent of either program.

  One layer of the network sends, for each of four edge types t, a message along every edge: row src(e) of a
  node table H_t, scaled by the edge's weight, is added into row dst(e) of an all-zero table; a bias row b_t is
  added to every row of the result. The layer's pre-activation is the sum of the four results. The two programs
  add the eight terms (four scatter results, four biases) to a zero table in different groupings:
      ((((((((0 + S0) + B0) + S1) + B1) + S2) + B2) + S3) + B3      and      (((0 + (S0 + B0)) + (S1 + B1)) + (S2 + B2)) + (S3 + B3).
  Addition of extended reals is commutative and associative (with -inf absorbing), so the two are equal with no
  finiteness assumption. The message stage itself (index wrap-around, gather, scaling, scatter-add) is the same
  function on both sides and is never opened.
-/
import Idealize.ShloMosaic.PureOps.Ideal.Laws
import Idealize.ShloMosaic.Lib.ValueIdx

noncomputable section

namespace Cert.Spec

open Idealize.ShloMosaic Idealize.ShloMosaic.ValueIdx

/-! ## Shapes -/

abbrev SN128 : Shape := ⟨2, ![131072, 128]⟩
abbrev SN512 : Shape := ⟨2, ![131072, 512]⟩
abbrev SN1 : Shape := ⟨2, ![131072, 1]⟩
abbrev SN : Shape := ⟨1, ![131072]⟩
abbrev S2E : Shape := ⟨2, ![2, 524288]⟩
abbrev S1E : Shape := ⟨2, ![1, 524288]⟩
abbrev SE : Shape := ⟨1, ![524288]⟩
abbrev SE1 : Shape := ⟨2, ![524288, 1]⟩
abbrev SE128 : Shape := ⟨2, ![524288, 128]⟩
abbrev S128 : Shape := ⟨1, ![128]⟩
abbrev S1x128 : Shape := ⟨2, ![1, 128]⟩
abbrev S128x128 : Shape := ⟨2, ![128, 128]⟩
abbrev S128x512 : Shape := ⟨2, ![128, 512]⟩
abbrev S0 : Shape := ⟨0, ![]⟩

/-! ## Side conditions of the layout operations (all decided) -/

theorem slices_src : S2E.Slices ![0, 0] S1E := by decide
theorem slices_dst : S2E.Slices ![1, 0] S1E := by decide
theorem casts_row : S1E.ShapeCasts SE := by decide
theorem bcast_0_E : S0.BroadcastsInDim SE (![] : Fin 0 → Fin SE.rank) := by decide
theorem bcast_E_E1 : SE.BroadcastsInDim SE1 (![0] : Fin 1 → Fin SE1.rank) := by decide
theorem bcast_E1_E128 : SE1.BroadcastsInDim SE128 (![0, 1] : Fin 2 → Fin SE128.rank) := by decide
theorem bcast_0_N128 : S0.BroadcastsInDim SN128 (![] : Fin 0 → Fin SN128.rank) := by decide
theorem bcast_128_1x128 : S128.BroadcastsInDim S1x128 (![1] : Fin 1 → Fin S1x128.rank) := by decide
theorem bcast_1x128_N128 : S1x128.BroadcastsInDim SN128 (![0, 1] : Fin 2 → Fin SN128.rank) := by decide
theorem gather_wf : GatherDims.WF SN128 SE1 SE128 [1] [0] [] [0] [] 1 ![1, 128] := by decide
theorem scatter_wf : ScatterDims.WF SN128 SE1 SE128 [1] [0] [0] 1 := by decide

/-- Row gather: result row e is operand row idx(e). -/
def gatherRows : GatherDims SN128 SE1 SE128 where
  offsetDims := [1]
  collapsedSliceDims := [0]
  operandBatchingDims := []
  startIndicesBatchingDims := []
  startIndexMap := [0]
  indexVectorDim := 1
  sliceSizes := ![1, 128]
  wf := gather_wf

/-- Row scatter: update row e lands in operand row idx(e). -/
def scatterRows : ScatterDims SN128 SE1 SE128 where
  updateWindowDims := [1]
  insertedWindowDims := [0]
  scatterDimsToOperandDims := [0]
  indexVectorDim := 1
  wf := scatter_wf

section Chain
variable {F : FTy → Type} [FloatOps F]

/-- The all-zero node table. -/
def zeroN : FVec F SN128 .f32 := broadcastInDim SN128 ![] bcast_0_N128 (constant S0 .f32 0x00000000#32)

/-- Row 0 of the edge list: the source node of every edge. -/
def srcOf (ei : IVec S2E 32) : IVec SE 32 := shapeCast SE (extractStridedSlice S1E ![0, 0] ei slices_src) casts_row
/-- Row 1 of the edge list: the destination node of every edge. -/
def dstOf (ei : IVec S2E 32) : IVec SE 32 := shapeCast SE (extractStridedSlice S1E ![1, 0] ei slices_dst) casts_row

/-- A negative source index counts from the end: idx < 0 ↦ idx + 131072. -/
def wrapIdx (s : IVec SE 32) : IVec SE 32 :=
  select (cmpi .slt s (broadcastInDim SE ![] bcast_0_E (constantI S0 32 0#32)))
    (addi s (broadcastInDim SE ![] bcast_0_E (constantI S0 32 131072#32))) s

/-- One edge type's aggregated messages: for every edge e, row src(e) of `h` times the weight ew(e), added into
    row dst(e) of a zero table. -/
def msg (h : FVec F SN128 .f32) (ei : IVec S2E 32) (ew : FVec F SE .f32) : FVec F SN128 .f32 :=
  Host.scatterAdd scatterRows zeroN (broadcastInDim SE1 ![0] bcast_E_E1 (dstOf ei))
    (mulf (Host.gather gatherRows h (broadcastInDim SE1 ![0] bcast_E_E1 (wrapIdx (srcOf ei))))
      (broadcastInDim SE128 ![0, 1] bcast_E1_E128 (broadcastInDim SE1 ![0] bcast_E_E1 ew)))

/-- A bias row laid under every node. -/
def rowBias (b : FVec F S128 .f32) : FVec F SN128 .f32 :=
  broadcastInDim SN128 ![0, 1] bcast_1x128_N128 (broadcastInDim S1x128 ![1] bcast_128_1x128 b)

/-- The eight terms added one after the other to the zero table. -/
def accSeq (s0 s1 s2 s3 : FVec F SN128 .f32) (b0 b1 b2 b3 : FVec F S128 .f32) : FVec F SN128 .f32 :=
  addf (addf (addf (addf (addf (addf (addf (addf zeroN s0) (rowBias b0)) s1) (rowBias b1)) s2) (rowBias b2)) s3) (rowBias b3)

/-- Each edge type's result first joined with its bias, then the four added to the zero table. -/
def accPairs (s0 s1 s2 s3 : FVec F SN128 .f32) (b0 b1 b2 b3 : FVec F S128 .f32) : FVec F SN128 .f32 :=
  addf (addf (addf (addf zeroN (addf s0 (rowBias b0))) (addf s1 (rowBias b1))) (addf s2 (rowBias b2))) (addf s3 (rowBias b3))

end Chain

/-- The two groupings of the eight-term sum agree on the extended reals, entry by entry. -/
theorem accSeq_eq_accPairs (s0 s1 s2 s3 : FVec Ideal SN128 .f32) (b0 b1 b2 b3 : FVec Ideal S128 .f32) :
    accSeq s0 s1 s2 s3 b0 b1 b2 b3 = accPairs s0 s1 s2 s3 b0 b1 b2 b3 := by
  funext i
  simp only [accSeq, accPairs, addf, Ideal.addf_def]
  ac_rfl

/-! ## The dense stages on the host side: a table times a weight matrix, and LayerNorm over each row -/

theorem dot_wf : DotDims.WF SN128 S128x128 SN128 [1] [0] [0] [1] [] [] := by decide
theorem reduces_rows : SN128.ReducesTo [1] SN := by decide
theorem h_S0 : 0 < S0.numel := by decide
theorem bcast_N_N1 : SN.BroadcastsInDim SN1 (![0] : Fin 1 → Fin SN1.rank) := by decide
theorem bcast_0_N1 : S0.BroadcastsInDim SN1 (![] : Fin 0 → Fin SN1.rank) := by decide
theorem bcast_N1_N128 : SN1.BroadcastsInDim SN128 (![0, 1] : Fin 2 → Fin SN128.rank) := by decide

/-- [N,128] · [128,128]: contract the table's columns with the matrix's rows. -/
def rowsDot : DotDims SN128 S128x128 SN128 where
  lhsContracting := [1]
  rhsContracting := [0]
  lhsNonContracting := [0]
  rhsNonContracting := [1]
  lhsBatch := []
  rhsBatch := []
  wf := dot_wf

section Dense
variable {F : FTy → Type} [FloatOps F]

/-- A node table times one edge type's weight matrix. -/
def project (x : FVec F SN128 .f32) (w : FVec F S128x128 .f32) : FVec F SN128 .f32 :=
  Host.dotGeneral rowsDot none x w

/-- A scalar laid down a column [N,1]. -/
def colOf (v : FVec F S0 .f32) : FVec F SN1 .f32 := broadcastInDim SN1 ![] bcast_0_N1 v

/-- The sum of every row, as a column [N,1]. -/
def rowSums (x : FVec F SN128 .f32) : FVec F SN1 .f32 :=
  broadcastInDim SN1 ![0] bcast_N_N1 (Host.reduceAdd x (constant S0 .f32 0x00000000#32) reduces_rows h_S0)

/-- The mean of every row: the row sum over 128. -/
def rowMeans (x : FVec F SN128 .f32) : FVec F SN1 .f32 :=
  Host.divf (rowSums x) (colOf (constant S0 .f32 0x43000000#32))

/-- Every entry minus its row's mean. -/
def centred (x : FVec F SN128 .f32) : FVec F SN128 .f32 :=
  subf x (broadcastInDim SN128 ![0, 1] bcast_N1_N128 (rowMeans x))

/-- The divisor of the variance as the host computes it: 128 minus the (integer, zero) number of degrees of freedom
    given up. -/
def varDivisor : FVec F S0 .f32 :=
  subf (constant S0 .f32 0x43000000#32) (sitofp .f32 (constantI S0 32 0#32))

/-- The variance of every row as the host computes it: the sum of squared deviations over the divisor, kept where the
    divisor is positive and replaced by a not-a-number pattern where it is not (it always is positive). -/
def rowVars (x : FVec F SN128 .f32) : FVec F SN1 .f32 :=
  select (broadcastInDim SN1 ![] bcast_0_N1 (cmpf .ogt (varDivisor (F := F)) (constant S0 .f32 0x00000000#32)))
    (Host.divf (rowSums (mulf (centred x) (centred x))) (colOf varDivisor))
    (colOf (constant S0 .f32 0x7FC00000#32))

/-- LayerNorm of every row, on the host: (x − mean) · rsqrt(var + ε) · g + b, with ε the float nearest 1e-5. -/
def lnHost (x : FVec F SN128 .f32) (g b : FVec F S128 .f32) : FVec F SN128 .f32 :=
  addf (mulf (mulf (centred x)
        (broadcastInDim SN128 ![0, 1] bcast_N1_N128 (Host.rsqrt (addf (rowVars x) (colOf (constant S0 .f32 0x3727C5AC#32))))))
      (rowBias g)) (rowBias b)

end Dense

/-! ## One row of LayerNorm on the extended reals -/

/-- 128 as a float. -/
def c128 : EReal := Ideal.ofBits .f32 0x43000000#32
/-- The float nearest 1e-5. -/
def cEps : EReal := Ideal.ofBits .f32 0x3727C5AC#32

/-- The mean of a row of 128 extended reals. -/
def rowMean (row : Fin 128 → EReal) : EReal := Ideal.div (∑ k, row k) c128

/-- Entry q of the normalised row: (row q − μ) · rsqrt(Σ_k (row k − μ)² / 128 + ε) · g + b. -/
def lnEntry (row : Fin 128 → EReal) (gq bq : EReal) (q : Fin 128) : EReal :=
  (row q - rowMean row) * Ideal.rsqrt (Ideal.div (∑ k, (row k - rowMean row) * (row k - rowMean row)) c128 + cEps) * gq + bq

end Cert.Spec

end
-- ==== Proof.KernelIdeal.HostDefs.lean ====
/-
  The two layout steps around a projection kernel, as functions: the four 128 × 128 weight matrices of a layer laid side
  by side into one 128 × 512 matrix, and the four 128-column bands of the [N, 512] product cut apart again. Band j of
  (table · side-by-side weights) is table · weights_j.
-/
import proofs.«145608_j2035814499086_1_alg».proof.Proof.Gen.KernelIdeal

noncomputable section

namespace Cert.KernelIdeal.Run

open Cert.KernelIdeal Cert.KernelIdeal.Gen Idealize.ShloMosaic

variable {F : FTy → Type} [FloatOps F]

/-- Four weight matrices side by side. -/
def wcat (w0 w1 w2 w3 : FVec F S128x128 .f32) : FVec F S128x512 .f32 :=
  concatenate S128x512 1 [⟨S128x128, w0⟩, ⟨S128x128, w1⟩, ⟨S128x128, w2⟩, ⟨S128x128, w3⟩]
    concatenates_S128x128_S128x128_S128x128_S128x128_S128x512_d1

/-- Columns 0 … 127 of an [N, 512] table. -/
def cols0 (y : FVec F S131072x512 .f32) : FVec F S131072x128 .f32 :=
  extractStridedSlice S131072x128 ![0, 0] y slices_S131072x512_S131072x128_0_0
/-- Columns 128 … 255. -/
def cols1 (y : FVec F S131072x512 .f32) : FVec F S131072x128 .f32 :=
  extractStridedSlice S131072x128 ![0, 128] y slices_S131072x512_S131072x128_0_128
/-- Columns 256 … 383. -/
def cols2 (y : FVec F S131072x512 .f32) : FVec F S131072x128 .f32 :=
  extractStridedSlice S131072x128 ![0, 256] y slices_S131072x512_S131072x128_0_256
/-- Columns 384 … 511. -/
def cols3 (y : FVec F S131072x512 .f32) : FVec F S131072x128 .f32 :=
  extractStridedSlice S131072x128 ![0, 384] y slices_S131072x512_S131072x128_0_384

end Cert.KernelIdeal.Run

end
-- ==== Proof.KernelIdeal.HostStages.lean ====
import proofs.«145608_j2035814499086_1_alg».proof.Proof.KernelIdeal.SegmentsArgs
import proofs.«145608_j2035814499086_1_alg».proof.Proof.Spec
import proofs.«145608_j2035814499086_1_alg».proof.Proof.KernelIdeal.HostDefs
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # What the host stretches compute

Each host stretch read at the buffers the regions consume, over an arbitrary entry valuation first (the operations'
results composed, the gather and the scatter-add kept closed) and then at the run's boundary contents, where every
argument buffer holds its launch contents. -/

/-! ## Over an arbitrary entry valuation -/

/-- The first stretch leaves in `main_v0` the first layer's four weight matrices side by side. -/
theorem hostOps0_v0 (V : Valuation τ sig (Elt F)) :
    StableHlo.after (hostOps0 (F := F)) V (Proc.devRef .tc main_v0)
      = wcat (V (Proc.devRef .tc main_arg9)) (V (Proc.devRef .tc main_arg13)) (V (Proc.devRef .tc main_arg17)) (V (Proc.devRef .tc main_arg21)) := by
  after_results_simp
  rfl

/-- The third stretch leaves in `main_v92` the second layer's four weight matrices side by side. -/
theorem hostOps2_v92 (V : Valuation τ sig (Elt F)) :
    StableHlo.after (hostOps2 (F := F)) V (Proc.devRef .tc main_v92)
      = wcat (V (Proc.devRef .tc main_arg11)) (V (Proc.devRef .tc main_arg15)) (V (Proc.devRef .tc main_arg19)) (V (Proc.devRef .tc main_arg23)) := by
  after_results_simp
  rfl

-- the gather and the scatter-add stay closed: the two sides apply them to the same operands
set_option maxHeartbeats 8000000 in
attribute [local irreducible] Host.gather Host.scatterAdd in
/-- The second stretch leaves in `main_v90` the first layer's pre-activation: the four edge types' messages, each
    gathered from its column block of `main_v1`, and the four bias rows, added one after the other to the zero table. -/
theorem hostOps1_v90 (V : Valuation τ sig (Elt F)) :
    StableHlo.after (hostOps1 (F := F)) V (Proc.devRef .tc main_v90)
      = Cert.Spec.accSeq
        (Cert.Spec.msg (cols0 (V (Proc.devRef .tc main_v1))) (V (Proc.devRef .tc main_arg1)) (V (Proc.devRef .tc main_arg5)))
        (Cert.Spec.msg (cols1 (V (Proc.devRef .tc main_v1))) (V (Proc.devRef .tc main_arg2)) (V (Proc.devRef .tc main_arg6)))
        (Cert.Spec.msg (cols2 (V (Proc.devRef .tc main_v1))) (V (Proc.devRef .tc main_arg3)) (V (Proc.devRef .tc main_arg7)))
        (Cert.Spec.msg (cols3 (V (Proc.devRef .tc main_v1))) (V (Proc.devRef .tc main_arg4)) (V (Proc.devRef .tc main_arg8)))
        (V (Proc.devRef .tc main_arg10)) (V (Proc.devRef .tc main_arg14)) (V (Proc.devRef .tc main_arg18)) (V (Proc.devRef .tc main_arg22)) := by
  after_results_simp
  rfl

set_option maxHeartbeats 8000000 in
attribute [local irreducible] Host.gather Host.scatterAdd in
/-- The fourth stretch leaves in `main_v182` the second layer's pre-activation, the same sum over `main_v93`. -/
theorem hostOps3_v182 (V : Valuation τ sig (Elt F)) :
    StableHlo.after (hostOps3 (F := F)) V (Proc.devRef .tc main_v182)
      = Cert.Spec.accSeq
        (Cert.Spec.msg (cols0 (V (Proc.devRef .tc main_v93))) (V (Proc.devRef .tc main_arg1)) (V (Proc.devRef .tc main_arg5)))
        (Cert.Spec.msg (cols1 (V (Proc.devRef .tc main_v93))) (V (Proc.devRef .tc main_arg2)) (V (Proc.devRef .tc main_arg6)))
        (Cert.Spec.msg (cols2 (V (Proc.devRef .tc main_v93))) (V (Proc.devRef .tc main_arg3)) (V (Proc.devRef .tc main_arg7)))
        (Cert.Spec.msg (cols3 (V (Proc.devRef .tc main_v93))) (V (Proc.devRef .tc main_arg4)) (V (Proc.devRef .tc main_arg8)))
        (V (Proc.devRef .tc main_arg12)) (V (Proc.devRef .tc main_arg16)) (V (Proc.devRef .tc main_arg20)) (V (Proc.devRef .tc main_arg24)) := by
  after_results_simp
  rfl

/-! ## At the run's boundaries -/

/-- An argument no region windows and no stretch before region 1 writes holds its launch contents when region 0 exits. -/
theorem W2_arg (c : Dev nD) (r : Ref sig .tc) (h2 : ∀ w, Pipeline.arrRef spec0 w ≠ r) (h1 : r ∉ hostOps0_W) :
    W2 m ρ c (Proc.devRef .tc r) = m ((c : Thread nD τ).loc r) :=
  (W2_of_ne m ρ c r h2).trans ((W1_of m ρ c r h1).trans rfl)

/-- The same when region 2 exits. -/
theorem W6_arg (c : Dev nD) (r : Ref sig .tc) (h6 : ∀ w, Pipeline.arrRef spec2 w ≠ r) (h5 : r ∉ hostOps2_W)
    (h4 : ∀ w, Pipeline.arrRef spec1 w ≠ r) (h3 : r ∉ hostOps1_W) (h2 : ∀ w, Pipeline.arrRef spec0 w ≠ r) (h1 : r ∉ hostOps0_W) :
    W6 m ρ c (Proc.devRef .tc r) = m ((c : Thread nD τ).loc r) :=
  (W6_of_ne m ρ c r h6).trans <| (W5_of m ρ c r h5).trans <| (W4_of_ne m ρ c r h4).trans <| (W3_of m ρ c r h3).trans <| W2_arg m ρ c r h2 h1

/-- Region 0's weights: the first layer's four matrices side by side. -/
theorem W1_wcat (c : Dev nD) : W1 m ρ c (Proc.devRef .tc main_v0)
    = wcat (m ((c : Thread nD τ).loc main_arg9)) (m ((c : Thread nD τ).loc main_arg13)) (m ((c : Thread nD τ).loc main_arg17)) (m ((c : Thread nD τ).loc main_arg21)) :=
  hostOps0_v0 (W0 m ρ c)

/-- Region 0's input rows: the node features as launched. -/
theorem W1_main_arg0 (c : Dev nD) : W1 m ρ c (Proc.devRef .tc main_arg0) = m ((c : Thread nD τ).loc main_arg0) :=
  (W1_of m ρ c main_arg0 (by decide)).trans rfl

/-- Region 1's input: the first layer's pre-activation over region 0's output `main_v1`. -/
theorem W3_acc (c : Dev nD) : W3 m ρ c (Proc.devRef .tc main_v90)
    = Cert.Spec.accSeq
        (Cert.Spec.msg (cols0 (W2 m ρ c (Proc.devRef .tc main_v1))) (m ((c : Thread nD τ).loc main_arg1)) (m ((c : Thread nD τ).loc main_arg5)))
        (Cert.Spec.msg (cols1 (W2 m ρ c (Proc.devRef .tc main_v1))) (m ((c : Thread nD τ).loc main_arg2)) (m ((c : Thread nD τ).loc main_arg6)))
        (Cert.Spec.msg (cols2 (W2 m ρ c (Proc.devRef .tc main_v1))) (m ((c : Thread nD τ).loc main_arg3)) (m ((c : Thread nD τ).loc main_arg7)))
        (Cert.Spec.msg (cols3 (W2 m ρ c (Proc.devRef .tc main_v1))) (m ((c : Thread nD τ).loc main_arg4)) (m ((c : Thread nD τ).loc main_arg8)))
        (m ((c : Thread nD τ).loc main_arg10)) (m ((c : Thread nD τ).loc main_arg14)) (m ((c : Thread nD τ).loc main_arg18)) (m ((c : Thread nD τ).loc main_arg22)) := by
  have h := hostOps1_v90 (F := F) (W2 m ρ c)
  rw [W2_arg m ρ c main_arg1 (by decide) (by decide),
    W2_arg m ρ c main_arg2 (by decide) (by decide),
    W2_arg m ρ c main_arg3 (by decide) (by decide),
    W2_arg m ρ c main_arg4 (by decide) (by decide),
    W2_arg m ρ c main_arg5 (by decide) (by decide),
    W2_arg m ρ c main_arg6 (by decide) (by decide),
    W2_arg m ρ c main_arg7 (by decide) (by decide),
    W2_arg m ρ c main_arg8 (by decide) (by decide),
    W2_arg m ρ c main_arg10 (by decide) (by decide),
    W2_arg m ρ c main_arg14 (by decide) (by decide),
    W2_arg m ρ c main_arg18 (by decide) (by decide),
    W2_arg m ρ c main_arg22 (by decide) (by decide)] at h
  exact h

/-- Region 1's scale and shift rows as launched. -/
theorem W3_main_arg25 (c : Dev nD) : W3 m ρ c (Proc.devRef .tc main_arg25) = m ((c : Thread nD τ).loc main_arg25) :=
  (W3_of m ρ c main_arg25 (by decide)).trans (W2_arg m ρ c main_arg25 (by decide) (by decide))
theorem W3_main_arg26 (c : Dev nD) : W3 m ρ c (Proc.devRef .tc main_arg26) = m ((c : Thread nD τ).loc main_arg26) :=
  (W3_of m ρ c main_arg26 (by decide)).trans (W2_arg m ρ c main_arg26 (by decide) (by decide))

/-- Region 2's weights: the second layer's four matrices side by side. -/
theorem W5_wcat (c : Dev nD) : W5 m ρ c (Proc.devRef .tc main_v92)
    = wcat (m ((c : Thread nD τ).loc main_arg11)) (m ((c : Thread nD τ).loc main_arg15)) (m ((c : Thread nD τ).loc main_arg19)) (m ((c : Thread nD τ).loc main_arg23)) := by
  have h := hostOps2_v92 (F := F) (W4 m ρ c)
  rw [show W4 m ρ c (Proc.devRef .tc main_arg11) = m ((c : Thread nD τ).loc main_arg11) from
      (W4_of_ne m ρ c main_arg11 (by decide)).trans ((W3_of m ρ c main_arg11 (by decide)).trans (W2_arg m ρ c main_arg11 (by decide) (by decide))),
    show W4 m ρ c (Proc.devRef .tc main_arg15) = m ((c : Thread nD τ).loc main_arg15) from
      (W4_of_ne m ρ c main_arg15 (by decide)).trans ((W3_of m ρ c main_arg15 (by decide)).trans (W2_arg m ρ c main_arg15 (by decide) (by decide))),
    show W4 m ρ c (Proc.devRef .tc main_arg19) = m ((c : Thread nD τ).loc main_arg19) from
      (W4_of_ne m ρ c main_arg19 (by decide)).trans ((W3_of m ρ c main_arg19 (by decide)).trans (W2_arg m ρ c main_arg19 (by decide) (by decide))),
    show W4 m ρ c (Proc.devRef .tc main_arg23) = m ((c : Thread nD τ).loc main_arg23) from
      (W4_of_ne m ρ c main_arg23 (by decide)).trans ((W3_of m ρ c main_arg23 (by decide)).trans (W2_arg m ρ c main_arg23 (by decide) (by decide)))] at h
  exact h

/-- Region 2's input rows: region 1's output `main_v91`, which the third stretch leaves alone. -/
theorem W5_main_v91 (c : Dev nD) : W5 m ρ c (Proc.devRef .tc main_v91) = W4 m ρ c (Proc.devRef .tc main_v91) :=
  W5_of m ρ c main_v91 (by decide)

/-- Region 3's input: the second layer's pre-activation over region 2's output `main_v93`. -/
theorem W7_acc (c : Dev nD) : W7 m ρ c (Proc.devRef .tc main_v182)
    = Cert.Spec.accSeq
        (Cert.Spec.msg (cols0 (W6 m ρ c (Proc.devRef .tc main_v93))) (m ((c : Thread nD τ).loc main_arg1)) (m ((c : Thread nD τ).loc main_arg5)))
        (Cert.Spec.msg (cols1 (W6 m ρ c (Proc.devRef .tc main_v93))) (m ((c : Thread nD τ).loc main_arg2)) (m ((c : Thread nD τ).loc main_arg6)))
        (Cert.Spec.msg (cols2 (W6 m ρ c (Proc.devRef .tc main_v93))) (m ((c : Thread nD τ).loc main_arg3)) (m ((c : Thread nD τ).loc main_arg7)))
        (Cert.Spec.msg (cols3 (W6 m ρ c (Proc.devRef .tc main_v93))) (m ((c : Thread nD τ).loc main_arg4)) (m ((c : Thread nD τ).loc main_arg8)))
        (m ((c : Thread nD τ).loc main_arg12)) (m ((c : Thread nD τ).loc main_arg16)) (m ((c : Thread nD τ).loc main_arg20)) (m ((c : Thread nD τ).loc main_arg24)) := by
  have h := hostOps3_v182 (F := F) (W6 m ρ c)
  rw [W6_arg m ρ c main_arg1 (by decide) (by decide) (by decide) (by decide) (by decide) (by decide),
    W6_arg m ρ c main_arg2 (by decide) (by decide) (by decide) (by decide) (by decide) (by decide),
    W6_arg m ρ c main_arg3 (by decide) (by decide) (by decide) (by decide) (by decide) (by decide),
    W6_arg m ρ c main_arg4 (by decide) (by decide) (by decide) (by decide) (by decide) (by decide),
    W6_arg m ρ c main_arg5 (by decide) (by decide) (by decide) (by decide) (by decide) (by decide),
    W6_arg m ρ c main_arg6 (by decide) (by decide) (by decide) (by decide) (by decide) (by decide),
    W6_arg m ρ c main_arg7 (by decide) (by decide) (by decide) (by decide) (by decide) (by decide),
    W6_arg m ρ c main_arg8 (by decide) (by decide) (by decide) (by decide) (by decide) (by decide),
    W6_arg m ρ c main_arg12 (by decide) (by decide) (by decide) (by decide) (by decide) (by decide),
    W6_arg m ρ c main_arg16 (by decide) (by decide) (by decide) (by decide) (by decide) (by decide),
    W6_arg m ρ c main_arg20 (by decide) (by decide) (by decide) (by decide) (by decide) (by decide),
    W6_arg m ρ c main_arg24 (by decide) (by decide) (by decide) (by decide) (by decide) (by decide)] at h
  exact h

/-- Region 3's scale and shift rows as launched. -/
theorem W7_main_arg27 (c : Dev nD) : W7 m ρ c (Proc.devRef .tc main_arg27) = m ((c : Thread nD τ).loc main_arg27) :=
  (W7_of m ρ c main_arg27 (by decide)).trans (W6_arg m ρ c main_arg27 (by decide) (by decide) (by decide) (by decide) (by decide) (by decide))
theorem W7_main_arg28 (c : Dev nD) : W7 m ρ c (Proc.devRef .tc main_arg28) = m ((c : Thread nD τ).loc main_arg28) :=
  (W7_of m ρ c main_arg28 (by decide)).trans (W6_arg m ρ c main_arg28 (by decide) (by decide) (by decide) (by decide) (by decide) (by decide))

/-- info: 'Cert.KernelIdeal.Run.W7_acc' depends on axioms: [propext, Classical.choice, Quot.sound] -/
#guard_msgs in #print axioms W7_acc

end Cert.KernelIdeal.Run

end
-- ==== Proof.LibKeepdims.lean ====
/-
  The layout operations a keepdims reduction leaves around it, read at an index, and the two one-axis sums of a matrix.

  A column [a, 1] broadcast along its unit axis to [a, b] reads row p's one element at every (p, c); a single element
  [1, 1] broadcast to [a, b] reads that element everywhere; a column [n, 1] reshaped to a row [1, n] keeps the order of its
  elements. At the exact instance a sum of a matrix [a, b] along its second axis is, at row r, the sum of that row, and a
  sum of a column [a, 1] along its first axis is the sum of the column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

section Layout
variable {α : Type}

/-- A column [a, 1] broadcast to [a, b], read at (p, c), is the column at (p, 0). -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single element [1, 1] broadcast to [a, b], read anywhere, is that element. -/
theorem broadcastTo_unit_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

/-- A column [n, 1] reshaped to a row [1, n], read at (0, j), is the column at (j, 0). -/
theorem shapeCast_col_row_apply {n : ℕ} (x : (⟨2, ![n, 1]⟩ : Shape).Idx → α)
    (h : (⟨2, ![n, 1]⟩ : Shape).ShapeCasts ⟨2, ![1, n]⟩) (j : Fin n) :
    shapeCast ⟨2, ![1, n]⟩ x h (ix2 (0 : Fin 1) j) = x (ix2 j (0 : Fin 1)) := by
  refine shapeCast_apply x h _ _ ?_
  rw [Shape.rowMajor_val_two, Shape.rowMajor_val_two]
  show j.val * 1 + 0 = 0 * n + j.val
  omega

end Layout

section Sums

/-- The sum of a matrix [a, b] along its second axis, at row r: the sum of row r. -/
theorem sum_lanes_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.f32).bits) = FKind.add.neutral .f32 hφ) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext d
  apply Fin.ext
  match d with
  | ⟨0, _⟩ => rfl
  | ⟨1, _⟩ => rfl

/-- The sum of a column [a, 1] along its first axis: the sum of the column. -/
theorem sum_rows_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec (FTy.f32).bits) = FKind.add.neutral .f32 hφ) :
    multiReduction .add [0] ⟨1, ![1]⟩ src 0x00000000#32 h hφ hacc (ix1 (0 : Fin 1))
      = ∑ r : Fin a, src (ix2 r (0 : Fin 1)) := by
  refine (Ideal.multiReduction_add_single src 0x00000000#32 h hφ hacc (ix1 (0 : Fin 1))).trans ?_
  refine Finset.sum_congr rfl fun r _ => congrArg src ?_
  funext d
  apply Fin.ext
  match d with
  | ⟨0, _⟩ => rfl
  | ⟨1, _⟩ => rfl

end Sums

end Cert.LibKeepdims

end
-- ==== Proof.KernelIdeal.Payloads.lean ====
/-
  What one grid point of each kernel computes, read at one entry of its output block, on the extended reals.

  The LayerNorm body normalises each of the block's 4096 rows on its own: entry (r, q) of the result depends on
  row r of the input block and on position q of the scale and shift vectors only, through the same row formula the
  host's LayerNorm has. The projection body multiplies the block by the 128 × 512 weight matrix: entry (r, q) is the
  sum over k of block(r, k) · weights(k, q) — the roundings to bf16 on the way in are the identity here.
-/
import proofs.«145608_j2035814499086_1_alg».proof.Proof.Gen.KernelIdeal.Skeleton
import proofs.«145608_j2035814499086_1_alg».proof.Proof.Spec
import proofs.«145608_j2035814499086_1_alg».proof.Proof.LibKeepdims
import Idealize.ShloMosaic.Lib.ValueLayout
import Idealize.ShloMosaic.Lib.Pipeline.Value
import Idealize.ShloMosaic.PureOps.Ideal.Laws

noncomputable section

namespace Cert.KernelIdeal.Run

open Cert.KernelIdeal Cert.KernelIdeal.Gen Idealize.ShloMosaic Idealize.ShloMosaic.ValueIdx

/-- A vector [a] stood up as a column [a, 1], read at (r, 0): the vector at r. -/
theorem shapeCast_a_a1_apply {α : Type} {a : ℕ} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_two, Shape.rowMajor_val_one]
    show r.val = r.val * 1 + 0
    omega)

theorem rsqrt_apply {s : Shape} (x : FVec Ideal s .f32) (i : s.Idx) : rsqrt x i = Ideal.rsqrt (x i) := rfl

section LN
variable (v0 : Vec Ideal S4096x128 .f32) (g b : Vec Ideal S128 .f32)

/-- The row sums of a block as a column, at row r. -/
theorem laneSum_col (src : FVec Ideal S4096x128 .f32) (r : Fin 4096) :
    shapeCast S4096x1 (multiReduction .add [1] S4096 src 0x00000000#32 reduces_S4096x128_S4096 (.inl rfl) rfl)
        shapeCasts_S4096_S4096x1 (ix2 r (0 : Fin 1))
      = ∑ k : Fin 128, src (ix2 r k) := by
  rw [shapeCast_a_a1_apply]
  exact Cert.LibKeepdims.sum_lanes_apply src reduces_S4096x128_S4096 (.inl rfl) rfl r

/-- One point of the first LayerNorm kernel at entry (r, q): the normalised row r of the block at position q. -/
theorem ln_entry1 (r : Fin 4096) (q : Fin 128) :
    k1_pay1 (F := Ideal) v0 g b (ix2 r q) = Cert.Spec.lnEntry (fun k => v0 (ix2 r k)) (g (ix1 q)) (b (ix1 q)) q := by
  unfold k1_pay1 Cert.Spec.lnEntry Cert.Spec.rowMean
  simp only [shapeCast_self]
  simp only [addf_apply, mulf_apply, subf_apply, divf_apply, rsqrt_apply, broadcast_apply, broadcastTo_1b_ab_apply,
    shapeCast_a_1a_apply, Cert.LibKeepdims.broadcastTo_col_apply, Ideal.ofBits_def]
  rw [laneSum_col v0 r, laneSum_col _ r]
  simp only [mulf_apply, subf_apply, divf_apply, broadcast_apply, Cert.LibKeepdims.broadcastTo_col_apply]
  rw [laneSum_col v0 r]
  rfl

/-- The second LayerNorm kernel's point is the same function. -/
theorem ln_entry3 (r : Fin 4096) (q : Fin 128) :
    k3_pay1 (F := Ideal) v0 g b (ix2 r q) = Cert.Spec.lnEntry (fun k => v0 (ix2 r k)) (g (ix1 q)) (b (ix1 q)) q := by
  unfold k3_pay1 Cert.Spec.lnEntry Cert.Spec.rowMean
  simp only [shapeCast_self]
  simp only [addf_apply, mulf_apply, subf_apply, divf_apply, rsqrt_apply, broadcast_apply, broadcastTo_1b_ab_apply,
    shapeCast_a_1a_apply, Cert.LibKeepdims.broadcastTo_col_apply, Ideal.ofBits_def]
  rw [laneSum_col v0 r, laneSum_col _ r]
  simp only [mulf_apply, subf_apply, divf_apply, broadcast_apply, Cert.LibKeepdims.broadcastTo_col_apply]
  rw [laneSum_col v0 r]
  rfl

end LN

section Lin

/-- The block product's dimension record: [4096,128] · [128,512], the block's columns against the weights' rows. -/
abbrev blockDot : DotDims S4096x128 S128x512 S4096x512 := dot_S4096x128_S128x512_S4096x512_1_0_0_1_n_n

theorem blockDot_rank : blockDot.contr.rank = 1 := rfl
theorem blockDot_size : blockDot.contr.size ⟨0, by rw [blockDot_rank]; exact Nat.one_pos⟩ = 128 := rfl

/-- The left factor at contraction position k of entry (r, q) is block entry (r, k). -/
theorem blockDot_lhs (r : Fin 4096) (q : Fin 512) (k : Fin 128) :
    blockDot.lhsIdx (ix2 r q) ((contrEquiv1 blockDot 128 blockDot_rank blockDot_size).symm k) = ix2 r k := by
  funext a
  apply Fin.ext
  match a with
  | ⟨0, _⟩ => rfl
  | ⟨1, _⟩ =>
    refine (DotDims.lhsIdx_val_of_single (d := blockDot) (cl := (1 : Fin 2)) rfl _ _).trans ?_
    exact contrEquiv1_symm_val blockDot 128 blockDot_rank blockDot_size k

/-- The right factor at contraction position k of entry (r, q) is weight entry (k, q). -/
theorem blockDot_rhs (r : Fin 4096) (q : Fin 512) (k : Fin 128) :
    blockDot.rhsIdx (ix2 r q) ((contrEquiv1 blockDot 128 blockDot_rank blockDot_size).symm k) = ix2 k q := by
  funext a
  apply Fin.ext
  match a with
  | ⟨0, _⟩ =>
    refine (DotDims.rhsIdx_val_of_single (d := blockDot) (cr := (0 : Fin 2)) rfl _ _).trans ?_
    exact contrEquiv1_symm_val blockDot 128 blockDot_rank blockDot_size k
  | ⟨1, _⟩ => rfl

/-- A block times the weights into a zero accumulator, at entry (r, q). -/
theorem blockDot_apply (x : FVec Ideal S4096x128 .bf16) (w : FVec Ideal S128x512 .bf16) (r : Fin 4096) (q : Fin 512) :
    FloatOps.matmul blockDot none x w (constant S4096x512 .f32 0x00000000#32) (ix2 r q) = ∑ k : Fin 128, x (ix2 r k) * w (ix2 k q) := by
  rw [Ideal.matmul_constant_zero_apply]
  rw [← Equiv.sum_comp (contrEquiv1 blockDot 128 blockDot_rank blockDot_size).symm]
  exact Finset.sum_congr rfl fun k _ => by rw [blockDot_lhs, blockDot_rhs]

variable (v0 : Vec Ideal S4096x128 .f32) (w : Vec Ideal S128x512 .f32)

/-- One point of the first projection kernel at entry (r, q): Σ_k block(r, k) · weights(k, q). -/
theorem lin_entry0 (r : Fin 4096) (q : Fin 512) :
    k0_pay1 (F := Ideal) v0 w (ix2 r q) = ∑ k : Fin 128, v0 (ix2 r k) * w (ix2 k q) := by
  unfold k0_pay1
  simp only [shapeCast_self]
  exact blockDot_apply _ _ r q

/-- The second projection kernel's point is the same function. -/
theorem lin_entry2 (r : Fin 4096) (q : Fin 512) :
    k2_pay1 (F := Ideal) v0 w (ix2 r q) = ∑ k : Fin 128, v0 (ix2 r k) * w (ix2 k q) := by
  unfold k2_pay1
  simp only [shapeCast_self]
  exact blockDot_apply _ _ r q

end Lin

end Cert.KernelIdeal.Run

end
-- ==== Proof.SpecRows.lean ====
/-
  The host's dense stages read at one entry, on the extended reals.

  A node table times a weight matrix is, at entry (p, q), the sum over k of table(p, k) · matrix(k, q).
  LayerNorm of a table is, at entry (p, q), the normalised row p at position q: the row's mean and the mean of its
  squared deviations are sums over the row's 128 entries divided by 128; the host's variance passes through a
  guard that keeps it because its divisor 128 − 0 is positive.
-/
import proofs.«145608_j2035814499086_1_alg».proof.Proof.Spec
import Idealize.ShloMosaic.Lib.IdealHost
import Idealize.ShloMosaic.Lib.KernelVsHost
import Idealize.ShloMosaic.Lib.Pipeline.Value
import Idealize.ShloMosaic.Lib.ValueLayout

noncomputable section

namespace Cert.Spec

open Idealize.ShloMosaic Idealize.ShloMosaic.ValueIdx

/-! ## The matrix product at an entry -/

theorem rowsDot_rank : rowsDot.contr.rank = 1 := rfl
theorem rowsDot_size : rowsDot.contr.size ⟨0, by rw [rowsDot_rank]; exact Nat.one_pos⟩ = 128 := rfl

/-- The left factor at contraction position k of entry (p, q) is table entry (p, k). -/
theorem rowsDot_lhs (p : Fin 131072) (q : Fin 128) (k : Fin 128) :
    rowsDot.lhsIdx (ix2 p q) ((contrEquiv1 rowsDot 128 rowsDot_rank rowsDot_size).symm k) = ix2 p k := by
  funext a
  apply Fin.ext
  match a with
  | ⟨0, _⟩ => rfl
  | ⟨1, _⟩ =>
    refine (DotDims.lhsIdx_val_of_single (d := rowsDot) (cl := (1 : Fin 2)) rfl _ _).trans ?_
    exact contrEquiv1_symm_val rowsDot 128 rowsDot_rank rowsDot_size k

/-- The right factor at contraction position k of entry (p, q) is matrix entry (k, q). -/
theorem rowsDot_rhs (p : Fin 131072) (q : Fin 128) (k : Fin 128) :
    rowsDot.rhsIdx (ix2 p q) ((contrEquiv1 rowsDot 128 rowsDot_rank rowsDot_size).symm k) = ix2 k q := by
  funext a
  apply Fin.ext
  match a with
  | ⟨0, _⟩ =>
    refine (DotDims.rhsIdx_val_of_single (d := rowsDot) (cr := (0 : Fin 2)) rfl _ _).trans ?_
    exact contrEquiv1_symm_val rowsDot 128 rowsDot_rank rowsDot_size k
  | ⟨1, _⟩ => rfl

/-- A table times a matrix at entry (p, q): the sum over k of table(p, k) · matrix(k, q). -/
theorem project_apply (x : FVec Ideal SN128 .f32) (w : FVec Ideal S128x128 .f32) (p : Fin 131072) (q : Fin 128) :
    project x w (ix2 p q) = ∑ k : Fin 128, x (ix2 p k) * w (ix2 k q) := by
  unfold project
  simp only [Host.dotGeneral]
  rw [Ideal.dotGeneral_apply]
  rw [← Equiv.sum_comp (contrEquiv1 rowsDot 128 rowsDot_rank rowsDot_size).symm]
  exact Finset.sum_congr rfl fun k _ => by rw [rowsDot_lhs, rowsDot_rhs]

/-! ## The float constants of LayerNorm as extended reals -/

theorem ofBits_zero : Ideal.ofBits .f32 0x00000000#32 = 0 := by
  simp [Ideal.ofBits, Ideal.ieee]

theorem c128_eq : c128 = ((128 : ℝ) : EReal) := by
  unfold c128
  simp [Ideal.ofBits, Ideal.ieee, -EReal.coe_mul]; norm_num

theorem c128_pos : (0 : EReal) < c128 := by
  rw [c128_eq]; exact_mod_cast (by norm_num : (0 : ℝ) < 128)

/-! ## Layout operations of the LayerNorm chain at an entry -/

section Layout
variable {α : Type}

/-- A column [N,1] laid along 128 columns, read at (p, q): the column at row p. -/
theorem alongCols_apply (v : SN1.Idx → α) (p : Fin 131072) (q : Fin 128) :
    broadcastInDim SN128 ![0, 1] bcast_N1_N128 v (ix2 p q) = v (ix2 p (0 : Fin 1)) := by
  refine broadcastInDim_apply ![0, 1] bcast_N1_N128 v (ix2 p q) (ix2 p (0 : Fin 1)) fun a => ?_
  match a with
  | ⟨0, _⟩ => rfl
  | ⟨1, _⟩ => rfl

/-- A vector [N] stood up as a column [N,1], read at (p, 0): the vector at p. -/
theorem asCol_apply (v : SN.Idx → α) (p : Fin 131072) :
    broadcastInDim SN1 ![0] bcast_N_N1 v (ix2 p (0 : Fin 1)) = v (ix1 p) := by
  refine broadcastInDim_apply ![0] bcast_N_N1 v (ix2 p (0 : Fin 1)) (ix1 p) fun a => ?_
  match a with
  | ⟨0, _⟩ => rfl

/-- A row vector [128] laid under every node, read at (p, q): the vector at q. -/
theorem underRows_apply (v : S128.Idx → α) (p : Fin 131072) (q : Fin 128) :
    broadcastInDim SN128 ![0, 1] bcast_1x128_N128 (broadcastInDim S1x128 ![1] bcast_128_1x128 v) (ix2 p q) = v (ix1 q) := by
  refine (broadcastInDim_apply ![0, 1] bcast_1x128_N128 _ (ix2 p q) (ix2 (0 : Fin 1) q) fun a => ?_).trans ?_
  · match a with
    | ⟨0, _⟩ => rfl
    | ⟨1, _⟩ => rfl
  · refine broadcastInDim_apply ![1] bcast_128_1x128 v (ix2 (0 : Fin 1) q) (ix1 q) fun a => ?_
    match a with
    | ⟨0, _⟩ => rfl

end Layout

theorem rowBias_apply {F : FTy → Type} [FloatOps F] (b : FVec F S128 .f32) (p : Fin 131072) (q : Fin 128) :
    rowBias b (ix2 p q) = b (ix1 q) := underRows_apply b p q

theorem colOf_apply {F : FTy → Type} [FloatOps F] (v : FVec F S0 .f32) (j : SN1.Idx) : colOf v j = v ix0 :=
  broadcastInDim_scalar_apply bcast_0_N1 v j

/-! ## LayerNorm at an entry -/

theorem reduces_rows' : SN128.Reduces [1] SN := by decide

/-- The row sums at row p: the sum of the row's 128 entries. -/
theorem rowSums_apply (x : FVec Ideal SN128 .f32) (p : Fin 131072) :
    rowSums x (ix2 p (0 : Fin 1)) = ∑ k : Fin 128, x (ix2 p k) := by
  unfold rowSums
  rw [asCol_apply, hostReduceAdd_apply, Ideal.hostReduceAdd_single reduces_rows reduces_rows']
  rw [constant_apply, ofBits_zero, zero_add]
  refine Finset.sum_congr rfl fun k _ => congrArg x ?_
  funext d
  apply Fin.ext
  match d with
  | ⟨0, _⟩ => rfl
  | ⟨1, _⟩ => rfl

/-- The row means at row p. -/
theorem rowMeans_apply (x : FVec Ideal SN128 .f32) (p : Fin 131072) :
    rowMeans x (ix2 p (0 : Fin 1)) = rowMean fun k => x (ix2 p k) := by
  unfold rowMeans rowMean
  rw [hostDivf_apply, rowSums_apply, colOf_apply, constant_apply]
  rfl

/-- The deviations from the row mean at (p, q). -/
theorem centred_apply (x : FVec Ideal SN128 .f32) (p : Fin 131072) (q : Fin 128) :
    centred x (ix2 p q) = x (ix2 p q) - rowMean fun k => x (ix2 p k) := by
  unfold centred
  rw [subf_apply, alongCols_apply, rowMeans_apply]

/-- The variance's divisor is 128: nothing is given up. -/
theorem varDivisor_apply : varDivisor (F := Ideal) ix0 = c128 := by
  unfold varDivisor
  rw [subf_apply, constant_apply]
  show c128 - Scalar.sitofp (F := Ideal) .f32 (0#32) = c128
  rw [sitofp_zero, sub_zero]

/-- The guard on the variance's divisor holds. -/
theorem varGuard : Ideal.cmp .ogt c128 (Ideal.ofBits .f32 0x00000000#32) = 1#1 := by
  rw [ofBits_zero]
  unfold Ideal.cmp
  simp only [decide_eq_true c128_pos]
  rfl

/-- The row variances at row p: the mean of the squared deviations. -/
theorem rowVars_apply (x : FVec Ideal SN128 .f32) (p : Fin 131072) :
    rowVars x (ix2 p (0 : Fin 1))
      = Ideal.div (∑ k : Fin 128, (x (ix2 p k) - rowMean fun k => x (ix2 p k)) * (x (ix2 p k) - rowMean fun k => x (ix2 p k))) c128 := by
  unfold rowVars
  rw [select_apply, broadcastInDim_scalar_apply]
  have hg : cmpf .ogt (varDivisor (F := Ideal)) (constant S0 .f32 0x00000000#32) ix0 = 1#1 := by
    show Ideal.cmp .ogt (varDivisor (F := Ideal) ix0) (Ideal.ofBits .f32 0x00000000#32) = 1#1
    rw [varDivisor_apply]; exact varGuard
  rw [hg]
  show Host.divf _ _ _ = _
  rw [hostDivf_apply, rowSums_apply, colOf_apply, varDivisor_apply]
  refine congrArg (fun s => Ideal.div s c128) (Finset.sum_congr rfl fun k _ => ?_)
  rw [mulf_apply, centred_apply]

/-- LayerNorm on the host at entry (p, q): the normalised row p at position q. -/
theorem lnHost_apply (x : FVec Ideal SN128 .f32) (g b : FVec Ideal S128 .f32) (p : Fin 131072) (q : Fin 128) :
    lnHost x g b (ix2 p q) = lnEntry (fun k => x (ix2 p k)) (g (ix1 q)) (b (ix1 q)) q := by
  unfold lnHost lnEntry
  rw [addf_apply, mulf_apply, mulf_apply, rowBias_apply, rowBias_apply, centred_apply, alongCols_apply]
  show _ * Ideal.rsqrt (addf (rowVars x) (colOf (constant S0 .f32 0x3727C5AC#32)) (ix2 p (0 : Fin 1))) * _ + _ = _
  rw [addf_apply, rowVars_apply, colOf_apply, constant_apply]
  rfl

end Cert.Spec

end
-- ==== Proof.KernelIdeal.Dense.lean ====
import proofs.«145608_j2035814499086_1_alg».proof.Proof.KernelIdeal.Blocks
import proofs.«145608_j2035814499086_1_alg».proof.Proof.KernelIdeal.Payloads
import proofs.«145608_j2035814499086_1_alg».proof.Proof.KernelIdeal.HostDefs
import proofs.«145608_j2035814499086_1_alg».proof.Proof.SpecRows
import Idealize.ShloMosaic.Lib.ValueLayout
import Idealize.ShloMosaic.Lib.Pipeline.Value

/-! The four regions' output arrays on the extended reals, entry by entry, against the host's dense layers.

    A projection region multiplies the node table, row block by row block, by the four weight matrices laid side by
    side; column band `j` of its output is therefore the table times weight matrix `j`: entry `(p, 128·j + q)` is
    `Σ_k table(p, k) · weights_j(k, q)`, whichever row block row `p` falls in. A normalization region normalizes
    each row of the table on its own, so its output is the host's row-wise LayerNorm of the table. -/

set_option maxRecDepth 16384

noncomputable section

namespace Cert.KernelIdeal.Run

open Cert.KernelIdeal Cert.KernelIdeal.Gen
open Idealize.ShloMosaic Idealize.ShloMosaic.ValueIdx

/-- Column `0 + q` of the side-by-side weights is column `q` of matrix 0. -/
theorem wcat_apply0 {F : FTy → Type} [FloatOps F] (w0 w1 w2 w3 : FVec F S128x128 .f32) (k : Fin 128) (q : Fin 128) (col : Fin 512)
    (hcol : col.val = 0 + q.val) : wcat w0 w1 w2 w3 (ix2 k col) = w0 (ix2 k q) := by
  unfold wcat
  refine concatenate_apply_piece (t := S128x512) (a := (1 : Fin 2))
    (xs := [⟨S128x128, w0⟩, ⟨S128x128, w1⟩, ⟨S128x128, w2⟩, ⟨S128x128, w3⟩])
    (h := concatenates_S128x128_S128x128_S128x128_S128x128_S128x512_d1) (ix2 k col) 0 (by show 0 < 4; omega) S128x128 w0 rfl rfl 0 (by rfl) (ix2 k q) ?_ ?_
  · intro b hb
    match b with
    | ⟨0, _⟩ => rfl
    | ⟨1, _⟩ => exact absurd rfl hb
  · show 0 + q.val = col.val
    omega

/-- Column `128 + q` of the side-by-side weights is column `q` of matrix 1. -/
theorem wcat_apply1 {F : FTy → Type} [FloatOps F] (w0 w1 w2 w3 : FVec F S128x128 .f32) (k : Fin 128) (q : Fin 128) (col : Fin 512)
    (hcol : col.val = 128 + q.val) : wcat w0 w1 w2 w3 (ix2 k col) = w1 (ix2 k q) := by
  unfold wcat
  refine concatenate_apply_piece (t := S128x512) (a := (1 : Fin 2))
    (xs := [⟨S128x128, w0⟩, ⟨S128x128, w1⟩, ⟨S128x128, w2⟩, ⟨S128x128, w3⟩])
    (h := concatenates_S128x128_S128x128_S128x128_S128x128_S128x512_d1) (ix2 k col) 1 (by show 1 < 4; omega) S128x128 w1 rfl rfl 128 (by rfl) (ix2 k q) ?_ ?_
  · intro b hb
    match b with
    | ⟨0, _⟩ => rfl
    | ⟨1, _⟩ => exact absurd rfl hb
  · show 128 + q.val = col.val
    omega

/-- Column `256 + q` of the side-by-side weights is column `q` of matrix 2. -/
theorem wcat_apply2 {F : FTy → Type} [FloatOps F] (w0 w1 w2 w3 : FVec F S128x128 .f32) (k : Fin 128) (q : Fin 128) (col : Fin 512)
    (hcol : col.val = 256 + q.val) : wcat w0 w1 w2 w3 (ix2 k col) = w2 (ix2 k q) := by
  unfold wcat
  refine concatenate_apply_piece (t := S128x512) (a := (1 : Fin 2))
    (xs := [⟨S128x128, w0⟩, ⟨S128x128, w1⟩, ⟨S128x128, w2⟩, ⟨S128x128, w3⟩])
    (h := concatenates_S128x128_S128x128_S128x128_S128x128_S128x512_d1) (ix2 k col) 2 (by show 2 < 4; omega) S128x128 w2 rfl rfl 256 (by rfl) (ix2 k q) ?_ ?_
  · intro b hb
    match b with
    | ⟨0, _⟩ => rfl
    | ⟨1, _⟩ => exact absurd rfl hb
  · show 256 + q.val = col.val
    omega

/-- Column `384 + q` of the side-by-side weights is column `q` of matrix 3. -/
theorem wcat_apply3 {F : FTy → Type} [FloatOps F] (w0 w1 w2 w3 : FVec F S128x128 .f32) (k : Fin 128) (q : Fin 128) (col : Fin 512)
    (hcol : col.val = 384 + q.val) : wcat w0 w1 w2 w3 (ix2 k col) = w3 (ix2 k q) := by
  unfold wcat
  refine concatenate_apply_piece (t := S128x512) (a := (1 : Fin 2))
    (xs := [⟨S128x128, w0⟩, ⟨S128x128, w1⟩, ⟨S128x128, w2⟩, ⟨S128x128, w3⟩])
    (h := concatenates_S128x128_S128x128_S128x128_S128x128_S128x512_d1) (ix2 k col) 3 (by show 3 < 4; omega) S128x128 w3 rfl rfl 384 (by rfl) (ix2 k q) ?_ ?_
  · intro b hb
    match b with
    | ⟨0, _⟩ => rfl
    | ⟨1, _⟩ => exact absurd rfl hb
  · show 384 + q.val = col.val
    omega

/-! ## Region 0: the table times the side-by-side weights -/

/-- Row `p` of the table is row `p % 4096` of its row block `p / 4096`. -/
theorem G0_apply (X : FVec Ideal S131072x128 .f32) (W : FVec Ideal S128x512 .f32) (p : Fin 131072) (col : Fin 512) :
    G0 (F := Ideal) X W (ix2 p col) = ∑ k : Fin 128, X (ix2 p k) * W (ix2 k col) := by
  have hp : p.val < 131072 := p.isLt
  rw [G0_block (F := Ideal) X W ⟨p.val / 4096, by omega⟩ (ix2 (⟨p.val % 4096, by omega⟩ : Fin 4096) col) (ix2 p col)
    (by show p.val = 4096 * (p.val / 4096) + p.val % 4096; omega) rfl, lin_entry0]
  refine Finset.sum_congr rfl fun k _ => ?_
  have e : (⟨4096 * (p.val / 4096) + p.val % 4096, by omega⟩ : Fin 131072) = p := Fin.ext (show 4096 * (p.val / 4096) + p.val % 4096 = p.val by omega)
  show X (ix2 (⟨4096 * (p.val / 4096) + p.val % 4096, _⟩ : Fin 131072) k) * _ = _
  rw [e]

/-- Column band 0 of region 0's output is the table times weight matrix 0. -/
theorem G0_cols0 (X : FVec Ideal S131072x128 .f32) (W0 W1 W2 W3 : FVec Ideal S128x128 .f32) :
    cols0 (G0 X (wcat W0 W1 W2 W3)) = Cert.Spec.project X W0 := by
  funext i
  obtain ⟨p, q, rfl⟩ : ∃ (p : Fin 131072) (q : Fin 128), i = ix2 p q := ⟨i 0, i 1, eq_ix2 i⟩
  have hq : q.val < 128 := q.isLt
  unfold cols0
  rw [slice2_axis1_apply 0 _ _ p q (⟨0 + q.val, by omega⟩ : Fin 512) rfl, G0_apply, Cert.Spec.project_apply]
  exact Finset.sum_congr rfl fun k _ => by rw [wcat_apply0 W0 W1 W2 W3 k q _ rfl]

/-- Column band 1 of region 0's output is the table times weight matrix 1. -/
theorem G0_cols1 (X : FVec Ideal S131072x128 .f32) (W0 W1 W2 W3 : FVec Ideal S128x128 .f32) :
    cols1 (G0 X (wcat W0 W1 W2 W3)) = Cert.Spec.project X W1 := by
  funext i
  obtain ⟨p, q, rfl⟩ : ∃ (p : Fin 131072) (q : Fin 128), i = ix2 p q := ⟨i 0, i 1, eq_ix2 i⟩
  have hq : q.val < 128 := q.isLt
  unfold cols1
  rw [slice2_axis1_apply 128 _ _ p q (⟨128 + q.val, by omega⟩ : Fin 512) rfl, G0_apply, Cert.Spec.project_apply]
  exact Finset.sum_congr rfl fun k _ => by rw [wcat_apply1 W0 W1 W2 W3 k q _ rfl]

/-- Column band 2 of region 0's output is the table times weight matrix 2. -/
theorem G0_cols2 (X : FVec Ideal S131072x128 .f32) (W0 W1 W2 W3 : FVec Ideal S128x128 .f32) :
    cols2 (G0 X (wcat W0 W1 W2 W3)) = Cert.Spec.project X W2 := by
  funext i
  obtain ⟨p, q, rfl⟩ : ∃ (p : Fin 131072) (q : Fin 128), i = ix2 p q := ⟨i 0, i 1, eq_ix2 i⟩
  have hq : q.val < 128 := q.isLt
  unfold cols2
  rw [slice2_axis1_apply 256 _ _ p q (⟨256 + q.val, by omega⟩ : Fin 512) rfl, G0_apply, Cert.Spec.project_apply]
  exact Finset.sum_congr rfl fun k _ => by rw [wcat_apply2 W0 W1 W2 W3 k q _ rfl]

/-- Column band 3 of region 0's output is the table times weight matrix 3. -/
theorem G0_cols3 (X : FVec Ideal S131072x128 .f32) (W0 W1 W2 W3 : FVec Ideal S128x128 .f32) :
    cols3 (G0 X (wcat W0 W1 W2 W3)) = Cert.Spec.project X W3 := by
  funext i
  obtain ⟨p, q, rfl⟩ : ∃ (p : Fin 131072) (q : Fin 128), i = ix2 p q := ⟨i 0, i 1, eq_ix2 i⟩
  have hq : q.val < 128 := q.isLt
  unfold cols3
  rw [slice2_axis1_apply 384 _ _ p q (⟨384 + q.val, by omega⟩ : Fin 512) rfl, G0_apply, Cert.Spec.project_apply]
  exact Finset.sum_congr rfl fun k _ => by rw [wcat_apply3 W0 W1 W2 W3 k q _ rfl]

/-! ## Region 1: the row-wise normalization of the table -/

/-- Region 1's output is the host's LayerNorm of the table. -/
theorem G1_eq (X : FVec Ideal S131072x128 .f32) (g b : FVec Ideal S128 .f32) :
    G1 (F := Ideal) X g b = Cert.Spec.lnHost X g b := by
  funext i
  obtain ⟨p, q, rfl⟩ : ∃ (p : Fin 131072) (q : Fin 128), i = ix2 p q := ⟨i 0, i 1, eq_ix2 i⟩
  have hp : p.val < 131072 := p.isLt
  rw [G1_block (F := Ideal) X g b ⟨p.val / 4096, by omega⟩ (ix2 (⟨p.val % 4096, by omega⟩ : Fin 4096) q) (ix2 p q)
    (by show p.val = 4096 * (p.val / 4096) + p.val % 4096; omega) rfl, ln_entry1, Cert.Spec.lnHost_apply]
  have e : (⟨4096 * (p.val / 4096) + p.val % 4096, by omega⟩ : Fin 131072) = p := Fin.ext (show 4096 * (p.val / 4096) + p.val % 4096 = p.val by omega)
  have erow : (fun k : Fin 128 => rowBlock (F := Ideal) X ⟨p.val / 4096, by omega⟩ (ix2 (⟨p.val % 4096, by omega⟩ : Fin 4096) k)) = fun k => X (ix2 p k) := by
    funext k
    show X (ix2 (⟨4096 * (p.val / 4096) + p.val % 4096, _⟩ : Fin 131072) k) = _
    rw [e]
  rw [erow]

/-! ## Region 2: the table times the side-by-side weights -/

/-- Row `p` of the table is row `p % 4096` of its row block `p / 4096`. -/
theorem G2_apply (X : FVec Ideal S131072x128 .f32) (W : FVec Ideal S128x512 .f32) (p : Fin 131072) (col : Fin 512) :
    G2 (F := Ideal) X W (ix2 p col) = ∑ k : Fin 128, X (ix2 p k) * W (ix2 k col) := by
  have hp : p.val < 131072 := p.isLt
  rw [G2_block (F := Ideal) X W ⟨p.val / 4096, by omega⟩ (ix2 (⟨p.val % 4096, by omega⟩ : Fin 4096) col) (ix2 p col)
    (by show p.val = 4096 * (p.val / 4096) + p.val % 4096; omega) rfl, lin_entry2]
  refine Finset.sum_congr rfl fun k _ => ?_
  have e : (⟨4096 * (p.val / 4096) + p.val % 4096, by omega⟩ : Fin 131072) = p := Fin.ext (show 4096 * (p.val / 4096) + p.val % 4096 = p.val by omega)
  show X (ix2 (⟨4096 * (p.val / 4096) + p.val % 4096, _⟩ : Fin 131072) k) * _ = _
  rw [e]

/-- Column band 0 of region 2's output is the table times weight matrix 0. -/
theorem G2_cols0 (X : FVec Ideal S131072x128 .f32) (W0 W1 W2 W3 : FVec Ideal S128x128 .f32) :
    cols0 (G2 X (wcat W0 W1 W2 W3)) = Cert.Spec.project X W0 := by
  funext i
  obtain ⟨p, q, rfl⟩ : ∃ (p : Fin 131072) (q : Fin 128), i = ix2 p q := ⟨i 0, i 1, eq_ix2 i⟩
  have hq : q.val < 128 := q.isLt
  unfold cols0
  rw [slice2_axis1_apply 0 _ _ p q (⟨0 + q.val, by omega⟩ : Fin 512) rfl, G2_apply, Cert.Spec.project_apply]
  exact Finset.sum_congr rfl fun k _ => by rw [wcat_apply0 W0 W1 W2 W3 k q _ rfl]

/-- Column band 1 of region 2's output is the table times weight matrix 1. -/
theorem G2_cols1 (X : FVec Ideal S131072x128 .f32) (W0 W1 W2 W3 : FVec Ideal S128x128 .f32) :
    cols1 (G2 X (wcat W0 W1 W2 W3)) = Cert.Spec.project X W1 := by
  funext i
  obtain ⟨p, q, rfl⟩ : ∃ (p : Fin 131072) (q : Fin 128), i = ix2 p q := ⟨i 0, i 1, eq_ix2 i⟩
  have hq : q.val < 128 := q.isLt
  unfold cols1
  rw [slice2_axis1_apply 128 _ _ p q (⟨128 + q.val, by omega⟩ : Fin 512) rfl, G2_apply, Cert.Spec.project_apply]
  exact Finset.sum_congr rfl fun k _ => by rw [wcat_apply1 W0 W1 W2 W3 k q _ rfl]

/-- Column band 2 of region 2's output is the table times weight matrix 2. -/
theorem G2_cols2 (X : FVec Ideal S131072x128 .f32) (W0 W1 W2 W3 : FVec Ideal S128x128 .f32) :
    cols2 (G2 X (wcat W0 W1 W2 W3)) = Cert.Spec.project X W2 := by
  funext i
  obtain ⟨p, q, rfl⟩ : ∃ (p : Fin 131072) (q : Fin 128), i = ix2 p q := ⟨i 0, i 1, eq_ix2 i⟩
  have hq : q.val < 128 := q.isLt
  unfold cols2
  rw [slice2_axis1_apply 256 _ _ p q (⟨256 + q.val, by omega⟩ : Fin 512) rfl, G2_apply, Cert.Spec.project_apply]
  exact Finset.sum_congr rfl fun k _ => by rw [wcat_apply2 W0 W1 W2 W3 k q _ rfl]

/-- Column band 3 of region 2's output is the table times weight matrix 3. -/
theorem G2_cols3 (X : FVec Ideal S131072x128 .f32) (W0 W1 W2 W3 : FVec Ideal S128x128 .f32) :
    cols3 (G2 X (wcat W0 W1 W2 W3)) = Cert.Spec.project X W3 := by
  funext i
  obtain ⟨p, q, rfl⟩ : ∃ (p : Fin 131072) (q : Fin 128), i = ix2 p q := ⟨i 0, i 1, eq_ix2 i⟩
  have hq : q.val < 128 := q.isLt
  unfold cols3
  rw [slice2_axis1_apply 384 _ _ p q (⟨384 + q.val, by omega⟩ : Fin 512) rfl, G2_apply, Cert.Spec.project_apply]
  exact Finset.sum_congr rfl fun k _ => by rw [wcat_apply3 W0 W1 W2 W3 k q _ rfl]

/-! ## Region 3: the row-wise normalization of the table -/

/-- Region 3's output is the host's LayerNorm of the table. -/
theorem G3_eq (X : FVec Ideal S131072x128 .f32) (g b : FVec Ideal S128 .f32) :
    G3 (F := Ideal) X g b = Cert.Spec.lnHost X g b := by
  funext i
  obtain ⟨p, q, rfl⟩ : ∃ (p : Fin 131072) (q : Fin 128), i = ix2 p q := ⟨i 0, i 1, eq_ix2 i⟩
  have hp : p.val < 131072 := p.isLt
  rw [G3_block (F := Ideal) X g b ⟨p.val / 4096, by omega⟩ (ix2 (⟨p.val % 4096, by omega⟩ : Fin 4096) q) (ix2 p q)
    (by show p.val = 4096 * (p.val / 4096) + p.val % 4096; omega) rfl, ln_entry3, Cert.Spec.lnHost_apply]
  have e : (⟨4096 * (p.val / 4096) + p.val % 4096, by omega⟩ : Fin 131072) = p := Fin.ext (show 4096 * (p.val / 4096) + p.val % 4096 = p.val by omega)
  have erow : (fun k : Fin 128 => rowBlock (F := Ideal) X ⟨p.val / 4096, by omega⟩ (ix2 (⟨p.val % 4096, by omega⟩ : Fin 4096) k)) = fun k => X (ix2 p k) := by
    funext k
    show X (ix2 (⟨4096 * (p.val / 4096) + p.val % 4096, _⟩ : Fin 131072) k) = _
    rw [e]
  rw [erow]

end Cert.KernelIdeal.Run

end
-- ==== Proof.SpecNet.lean ====
/-
  The whole network as one function of its 29 arguments: two layers, each the four edge types' messages over the node
  table projected by that type's weights, summed with their biases, then normalised row by row.
-/
import proofs.«145608_j2035814499086_1_alg».proof.Proof.Spec

noncomputable section

namespace Cert.Spec

open Idealize.ShloMosaic

variable {F : FTy → Type} [FloatOps F]

/-- One layer: project the node table by each edge type's weights, aggregate each type's messages, add the four results
    with their biases, normalise every row. -/
def layer (x : FVec F SN128 .f32) (w0 w1 w2 w3 : FVec F S128x128 .f32) (e0 e1 e2 e3 : IVec S2E 32)
    (ew0 ew1 ew2 ew3 : FVec F SE .f32) (b0 b1 b2 b3 g be : FVec F S128 .f32) : FVec F SN128 .f32 :=
  lnHost (accPairs (msg (project x w0) e0 ew0) (msg (project x w1) e1 ew1) (msg (project x w2) e2 ew2)
    (msg (project x w3) e3 ew3) b0 b1 b2 b3) g be

/-- The two layers, over the programs' 29 arguments in their order: the node features; the four edge lists; the four
    edge-weight vectors; per edge type (first-layer weights, first-layer bias, second-layer weights, second-layer bias);
    the two LayerNorms' scale and shift. -/
def network (x : FVec F SN128 .f32) (e0 e1 e2 e3 : IVec S2E 32) (ew0 ew1 ew2 ew3 : FVec F SE .f32)
    (w10 : FVec F S128x128 .f32) (b10 : FVec F S128 .f32) (w20 : FVec F S128x128 .f32) (b20 : FVec F S128 .f32)
    (w11 : FVec F S128x128 .f32) (b11 : FVec F S128 .f32) (w21 : FVec F S128x128 .f32) (b21 : FVec F S128 .f32)
    (w12 : FVec F S128x128 .f32) (b12 : FVec F S128 .f32) (w22 : FVec F S128x128 .f32) (b22 : FVec F S128 .f32)
    (w13 : FVec F S128x128 .f32) (b13 : FVec F S128 .f32) (w23 : FVec F S128x128 .f32) (b23 : FVec F S128 .f32)
    (g1 be1 g2 be2 : FVec F S128 .f32) : FVec F SN128 .f32 :=
  layer (layer x w10 w11 w12 w13 e0 e1 e2 e3 ew0 ew1 ew2 ew3 b10 b11 b12 b13 g1 be1)
    w20 w21 w22 w23 e0 e1 e2 e3 ew0 ew1 ew2 ew3 b20 b21 b22 b23 g2 be2

end Cert.Spec

end
-- ==== Proof.KernelIdeal.Value.lean ====
/-
  What the idealized kernel program leaves in its result, as the network's function of the launch contents.

  Region by region: the first projection kernel's output is (node features) · (first-layer weights side by side), whose
  four column bands are the four projections; the host stretch turns them into the layer's pre-activation (the eight-term
  sum in the kernel program's grouping, regrouped here); the first LayerNorm kernel's output is the host's LayerNorm of it,
  that is, the first layer; the second projection, stretch and LayerNorm repeat this on the first layer's result.
-/
import proofs.«145608_j2035814499086_1_alg».proof.Proof.KernelIdeal.SegmentsArgs
import proofs.«145608_j2035814499086_1_alg».proof.Proof.KernelIdeal.Blocks
import proofs.«145608_j2035814499086_1_alg».proof.Proof.KernelIdeal.HostStages
import proofs.«145608_j2035814499086_1_alg».proof.Proof.KernelIdeal.Dense
import proofs.«145608_j2035814499086_1_alg».proof.Proof.SpecNet

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first layer, of the launch contents. -/
def layer1 (c : Dev nD) : FVec Ideal Cert.Spec.SN128 .f32 :=
  Cert.Spec.layer (F := Ideal) (m ((c : Thread nD τ).loc main_arg0)) (m ((c : Thread nD τ).loc main_arg9)) (m ((c : Thread nD τ).loc main_arg13)) (m ((c : Thread nD τ).loc main_arg17)) (m ((c : Thread nD τ).loc main_arg21)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg14)) (m ((c : Thread nD τ).loc main_arg18)) (m ((c : Thread nD τ).loc main_arg22)) (m ((c : Thread nD τ).loc main_arg25)) (m ((c : Thread nD τ).loc main_arg26))

/-- Region 0 leaves (node features) · (first-layer weights side by side). -/
theorem region0_out (c : Dev nD) :
    W2 m ρ c (Proc.devRef .tc main_v1) = G0 (F := Ideal) (m ((c : Thread nD τ).loc main_arg0)) (wcat (F := Ideal) (m ((c : Thread nD τ).loc main_arg9)) (m ((c : Thread nD τ).loc main_arg13)) (m ((c : Thread nD τ).loc main_arg17)) (m ((c : Thread nD τ).loc main_arg21))) := by
  have e0 : V1 m ρ c main_arg0 = (m ((c : Thread nD τ).loc main_arg0)) := W1_main_arg0 m ρ c
  have e1 : V1 m ρ c main_v0 = wcat (F := Ideal) (m ((c : Thread nD τ).loc main_arg9)) (m ((c : Thread nD τ).loc main_arg13)) (m ((c : Thread nD τ).loc main_arg17)) (m ((c : Thread nD τ).loc main_arg21)) := W1_wcat m ρ c
  have h := (W2_arr m ρ c 2).trans (final0 (V1 m ρ) c)
  rw [e0, e1] at h
  exact h

/-- Region 1 leaves the first layer. -/
theorem region1_out (c : Dev nD) : W4 m ρ c (Proc.devRef .tc main_v91) = layer1 m c := by
  have e0 : V3 m ρ c main_v90 = _ := W3_acc m ρ c
  have e1 : V3 m ρ c main_arg25 = (m ((c : Thread nD τ).loc main_arg25)) := W3_main_arg25 m ρ c
  have e2 : V3 m ρ c main_arg26 = (m ((c : Thread nD τ).loc main_arg26)) := W3_main_arg26 m ρ c
  have h := (W4_arr m ρ c 3).trans (final1 (V3 m ρ) c)
  rw [e0, e1, e2, region0_out m ρ c, G0_cols0, G0_cols1, G0_cols2, G0_cols3, Cert.Spec.accSeq_eq_accPairs] at h
  exact h.trans (G1_eq _ _ _)

/-- Region 2 leaves (first layer) · (second-layer weights side by side). -/
theorem region2_out (c : Dev nD) :
    W6 m ρ c (Proc.devRef .tc main_v93) = G2 (F := Ideal) (layer1 m c) (wcat (F := Ideal) (m ((c : Thread nD τ).loc main_arg11)) (m ((c : Thread nD τ).loc main_arg15)) (m ((c : Thread nD τ).loc main_arg19)) (m ((c : Thread nD τ).loc main_arg23))) := by
  have e0 : V5 m ρ c main_v91 = layer1 m c := (W5_main_v91 m ρ c).trans (region1_out m ρ c)
  have e1 : V5 m ρ c main_v92 = wcat (F := Ideal) (m ((c : Thread nD τ).loc main_arg11)) (m ((c : Thread nD τ).loc main_arg15)) (m ((c : Thread nD τ).loc main_arg19)) (m ((c : Thread nD τ).loc main_arg23)) := W5_wcat m ρ c
  have h := (W6_arr m ρ c 2).trans (final2 (V5 m ρ) c)
  rw [e0, e1] at h
  exact h

/-- Region 3 leaves the network's value. -/
theorem region3_out (c : Dev nD) :
    W8 m ρ c (Proc.devRef .tc main_v183) = Cert.Spec.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  have e0 : V7 m ρ c main_v182 = _ := W7_acc m ρ c
  have e1 : V7 m ρ c main_arg27 = (m ((c : Thread nD τ).loc main_arg27)) := W7_main_arg27 m ρ c
  have e2 : V7 m ρ c main_arg28 = (m ((c : Thread nD τ).loc main_arg28)) := W7_main_arg28 m ρ c
  have h := (W8_arr m ρ c 3).trans (final3 (V7 m ρ) c)
  rw [e0, e1, e2, region2_out m ρ c, G2_cols0, G2_cols1, G2_cols2, G2_cols3, Cert.Spec.accSeq_eq_accPairs] at h
  exact h.trans (G3_eq _ _ _)

/-- Every weakly fair execution of the idealized kernel program ends with the network's value in its result and its
    arguments as launched. -/
theorem value_run : θ_run defs (onTc (τ := τ) (main (F := Ideal))) ⟨m, fun _ => 0, ρ⟩ (fun r => ∀ c : Dev nD,
      r.2.mem ((c.tc : Thread nD τ).loc main_v183) = Cert.Spec.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_v183 (by decide))).trans (region3_out m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c),
      (h c _ (mem_uc main_arg20 (by decide))).trans (W8_main_arg20 m ρ c),
      (h c _ (mem_uc main_arg21 (by decide))).trans (W8_main_arg21 m ρ c),
      (h c _ (mem_uc main_arg22 (by decide))).trans (W8_main_arg22 m ρ c),
      (h c _ (mem_uc main_arg23 (by decide))).trans (W8_main_arg23 m ρ c),
      (h c _ (mem_uc main_arg24 (by decide))).trans (W8_main_arg24 m ρ c),
      (h c _ (mem_uc main_arg25 (by decide))).trans (W8_main_arg25 m ρ c),
      (h c _ (mem_uc main_arg26 (by decide))).trans (W8_main_arg26 m ρ c),
      (h c _ (mem_uc main_arg27 (by decide))).trans (W8_main_arg27 m ρ c),
      (h c _ (mem_uc main_arg28 (by decide))).trans (W8_main_arg28 m ρ c)⟩)
    (run_all m ρ)

end Cert.KernelIdeal.Run

end
-- ==== Proof.ReferenceIdeal.Run.Part0.lean ====
/- The reference program's @main, window 0 of 5: its host operations 1 … 60 of 292 as a list, the window equal to running
   that list in order, every buffer the list touches a TensorCore reference, and the list of the buffers it writes. -/
import proofs.«145608_j2035814499086_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in program order. -/
abbrev ops0 : List (HloOp τ sig (Elt F)) :=
  [ StableHlo.unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v0 main_v1 rfl shapeCasts_S1x524288_S524288,
    StableHlo.unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v2 main_v3 rfl shapeCasts_S1x524288_S524288,
    StableHlo.binary main_arg0 main_arg9 main_v4 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c (constantI S_ 32 0#32),
    StableHlo.unary main_c main_v5 (broadcastInDim S524288 ![] bcast_S_S524288 : (⟨S_, .i32⟩ : BufTy).Contents (Elt F) → (⟨S524288, .i32⟩ : BufTy).Contents (Elt F)),
    StableHlo.binary main_v1 main_v5 main_v6 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 131072#32),
    StableHlo.unary main_c_0 main_v7 (broadcastInDim S524288 ![] bcast_S_S524288 : (⟨S_, .i32⟩ : BufTy).Contents (Elt F) → (⟨S524288, .i32⟩ : BufTy).Contents (Elt F)),
    StableHlo.binary main_v1 main_v7 main_v8 (addi : (⟨S524288, .i32⟩ : BufTy).Contents (Elt F) → (⟨S524288, .i32⟩ : BufTy).Contents (Elt F) → (⟨S524288, .i32⟩ : BufTy).Contents (Elt F)),
    StableHlo.ternary main_v6 main_v8 main_v1 main_v9 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v9 main_v10 (broadcastInDim S524288x1 ![0] bcast_S524288_S524288x1_0 : (⟨S524288, .i32⟩ : BufTy).Contents (Elt F) → (⟨S524288x1, .i32⟩ : BufTy).Contents (Elt F)),
    StableHlo.binary main_v4 main_v10 main_v11 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg5 main_v12 (broadcastInDim S524288x1 ![0] bcast_S524288_S524288x1_0 : (⟨S524288, .f32⟩ : BufTy).Contents (Elt F) → (⟨S524288x1, .f32⟩ : BufTy).Contents (Elt F)),
    StableHlo.unary main_v12 main_v13 (broadcastInDim S524288x128 ![0, 1] bcast_S524288x1_S524288x128_0_1 : (⟨S524288x1, .f32⟩ : BufTy).Contents (Elt F) → (⟨S524288x128, .f32⟩ : BufTy).Contents (Elt F)),
    StableHlo.binary main_v11 main_v13 main_v14 (mulf : (⟨S524288x128, .f32⟩ : BufTy).Contents (Elt F) → (⟨S524288x128, .f32⟩ : BufTy).Contents (Elt F) → (⟨S524288x128, .f32⟩ : BufTy).Contents (Elt F)),
    StableHlo.nullary main_cst (constant S_ .f32 0x00000000#32),
    StableHlo.unary main_cst main_v15 (broadcastInDim S131072x128 ![] bcast_S_S131072x128 : (⟨S_, .f32⟩ : BufTy).Contents (Elt F) → (⟨S131072x128, .f32⟩ : BufTy).Contents (Elt F)),
    StableHlo.unary main_v3 main_v16 (broadcastInDim S524288x1 ![0] bcast_S524288_S524288x1_0 : (⟨S524288, .i32⟩ : BufTy).Contents (Elt F) → (⟨S524288x1, .i32⟩ : BufTy).Contents (Elt F)),
    StableHlo.ternary main_v15 main_v16 main_v14 main_v17 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg10 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S131072x128 ![0, 1] bcast_S1x128_S131072x128_0_1 : (⟨S1x128, .f32⟩ : BufTy).Contents (Elt F) → (⟨S131072x128, .f32⟩ : BufTy).Contents (Elt F)),
    StableHlo.binary main_v17 main_v19 main_v20 (addf : (⟨S131072x128, .f32⟩ : BufTy).Contents (Elt F) → (⟨S131072x128, .f32⟩ : BufTy).Contents (Elt F) → (⟨S131072x128, .f32⟩ : BufTy).Contents (Elt F)),
    StableHlo.nullary main_cst_1 (constant S_ .f32 0x00000000#32),
    StableHlo.unary main_cst_1 main_v21 (broadcastInDim S131072x128 ![] bcast_S_S131072x128 : (⟨S_, .f32⟩ : BufTy).Contents (Elt F) → (⟨S131072x128, .f32⟩ : BufTy).Contents (Elt F)),
    StableHlo.binary main_v21 main_v20 main_v22 (addf : (⟨S131072x128, .f32⟩ : BufTy).Contents (Elt F) → (⟨S131072x128, .f32⟩ : BufTy).Contents (Elt F) → (⟨S131072x128, .f32⟩ : BufTy).Contents (Elt F)),
    StableHlo.unary main_arg2 main_v23 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v23 main_v24 rfl shapeCasts_S1x524288_S524288,
    StableHlo.unary main_arg2 main_v25 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v25 main_v26 rfl shapeCasts_S1x524288_S524288,
    StableHlo.binary main_arg0 main_arg13 main_v27 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_2 (constantI S_ 32 0#32),
    StableHlo.unary main_c_2 main_v28 (broadcastInDim S524288 ![] bcast_S_S524288 : (⟨S_, .i32⟩ : BufTy).Contents (Elt F) → (⟨S524288, .i32⟩ : BufTy).Contents (Elt F)),
    StableHlo.binary main_v24 main_v28 main_v29 (cmpi .slt : (⟨S524288, .i32⟩ : BufTy).Contents (Elt F) → (⟨S524288, .i32⟩ : BufTy).Contents (Elt F) → (⟨S524288, .i1⟩ : BufTy).Contents (Elt F)),
    StableHlo.nullary main_c_3 (constantI S_ 32 131072#32),
    StableHlo.unary main_c_3 main_v30 (broadcastInDim S524288 ![] bcast_S_S524288 : (⟨S_, .i32⟩ : BufTy).Contents (Elt F) → (⟨S524288, .i32⟩ : BufTy).Contents (Elt F)),
    StableHlo.binary main_v24 main_v30 main_v31 (addi : (⟨S524288, .i32⟩ : BufTy).Contents (Elt F) → (⟨S524288, .i32⟩ : BufTy).Contents (Elt F) → (⟨S524288, .i32⟩ : BufTy).Contents (Elt F)),
    StableHlo.ternary main_v29 main_v31 main_v24 main_v32 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v32 main_v33 (broadcastInDim S524288x1 ![0] bcast_S524288_S524288x1_0 : (⟨S524288, .i32⟩ : BufTy).Contents (Elt F) → (⟨S524288x1, .i32⟩ : BufTy).Contents (Elt F)),
    StableHlo.binary main_v27 main_v33 main_v34 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg6 main_v35 (broadcastInDim S524288x1 ![0] bcast_S524288_S524288x1_0 : (⟨S524288, .f32⟩ : BufTy).Contents (Elt F) → (⟨S524288x1, .f32⟩ : BufTy).Contents (Elt F)),
    StableHlo.unary main_v35 main_v36 (broadcastInDim S524288x128 ![0, 1] bcast_S524288x1_S524288x128_0_1 : (⟨S524288x1, .f32⟩ : BufTy).Contents (Elt F) → (⟨S524288x128, .f32⟩ : BufTy).Contents (Elt F)),
    StableHlo.binary main_v34 main_v36 main_v37 (mulf : (⟨S524288x128, .f32⟩ : BufTy).Contents (Elt F) → (⟨S524288x128, .f32⟩ : BufTy).Contents (Elt F) → (⟨S524288x128, .f32⟩ : BufTy).Contents (Elt F)),
    StableHlo.nullary main_cst_4 (constant S_ .f32 0x00000000#32),
    StableHlo.unary main_cst_4 main_v38 (broadcastInDim S131072x128 ![] bcast_S_S131072x128 : (⟨S_, .f32⟩ : BufTy).Contents (Elt F) → (⟨S131072x128, .f32⟩ : BufTy).Contents (Elt F)),
    StableHlo.unary main_v26 main_v39 (broadcastInDim S524288x1 ![0] bcast_S524288_S524288x1_0 : (⟨S524288, .i32⟩ : BufTy).Contents (Elt F) → (⟨S524288x1, .i32⟩ : BufTy).Contents (Elt F)),
    StableHlo.ternary main_v38 main_v39 main_v37 main_v40 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg14 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S131072x128 ![0, 1] bcast_S1x128_S131072x128_0_1 : (⟨S1x128, .f32⟩ : BufTy).Contents (Elt F) → (⟨S131072x128, .f32⟩ : BufTy).Contents (Elt F)),
    StableHlo.binary main_v40 main_v42 main_v43 (addf : (⟨S131072x128, .f32⟩ : BufTy).Contents (Elt F) → (⟨S131072x128, .f32⟩ : BufTy).Contents (Elt F) → (⟨S131072x128, .f32⟩ : BufTy).Contents (Elt F)),
    StableHlo.binary main_v22 main_v43 main_v44 (addf : (⟨S131072x128, .f32⟩ : BufTy).Contents (Elt F) → (⟨S131072x128, .f32⟩ : BufTy).Contents (Elt F) → (⟨S131072x128, .f32⟩ : BufTy).Contents (Elt F)),
    StableHlo.unary main_arg3 main_v45 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v45 main_v46 rfl shapeCasts_S1x524288_S524288,
    StableHlo.unary main_arg3 main_v47 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v47 main_v48 rfl shapeCasts_S1x524288_S524288,
    StableHlo.binary main_arg0 main_arg17 main_v49 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_5 (constantI S_ 32 0#32),
    StableHlo.unary main_c_5 main_v50 (broadcastInDim S524288 ![] bcast_S_S524288 : (⟨S_, .i32⟩ : BufTy).Contents (Elt F) → (⟨S524288, .i32⟩ : BufTy).Contents (Elt F)),
    StableHlo.binary main_v46 main_v50 main_v51 (cmpi .slt : (⟨S524288, .i32⟩ : BufTy).Contents (Elt F) → (⟨S524288, .i32⟩ : BufTy).Contents (Elt F) → (⟨S524288, .i1⟩ : BufTy).Contents (Elt F)) ]

set_option maxRecDepth 8192 in
/-- The window is its operations run in order. -/
theorem main_part0_eq (c : Dev nD) : main_part0 (F := F) c = seq ops0 := rfl

set_option maxRecDepth 8192 in
/-- Every buffer the window's operations touch is a TensorCore reference. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub ..⟩

/-- The buffers the window's operations write, in order. -/
abbrev ops0_W : List (Ref sig .tc) := [main_v0, main_v1, main_v2, main_v3, main_v4, main_c, main_v5, main_v6, main_c_0, main_v7, main_v8, main_v9, main_v10, main_v11, main_v12, main_v13, main_v14, main_cst, main_v15, main_v16, main_v17, main_v18, main_v19, main_v20, main_cst_1, main_v21, main_v22, main_v23, main_v24, main_v25, main_v26, main_v27, main_c_2, main_v28, main_v29, main_c_3, main_v30, main_v31, main_v32, main_v33, main_v34, main_v35, main_v36, main_v37, main_cst_4, main_v38, main_v39, main_v40, main_v41, main_v42, main_v43, main_v44, main_v45, main_v46, main_v47, main_v48, main_v49, main_c_5, main_v50, main_v51]
set_option maxRecDepth 8192 in
/-- Each operation writes its own result buffer and nothing else. -/
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.ReferenceIdeal.Run.Part1.lean ====
/- The reference program's @main, window 1 of 5: its host operations 61 … 142 of 292 as a list (the call of the
   variance function unfolded at its call site into the operations of its body, and of the selection it calls in turn, over the
   call's own buffers), the window equal to running
   that list in order, every buffer the list touches a TensorCore reference, and the list of the buffers it writes. -/
import proofs.«145608_j2035814499086_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in program order. -/
abbrev ops1 : List (HloOp τ sig (Elt F)) :=
  [ StableHlo.nullary main_c_6 (constantI S_ 32 131072#32),
    StableHlo.unary main_c_6 main_v52 (broadcastInDim S524288 ![] bcast_S_S524288 : (⟨S_, .i32⟩ : BufTy).Contents (Elt F) → (⟨S524288, .i32⟩ : BufTy).Contents (Elt F)),
    StableHlo.binary main_v46 main_v52 main_v53 (addi : (⟨S524288, .i32⟩ : BufTy).Contents (Elt F) → (⟨S524288, .i32⟩ : BufTy).Contents (Elt F) → (⟨S524288, .i32⟩ : BufTy).Contents (Elt F)),
    StableHlo.ternary main_v51 main_v53 main_v46 main_v54 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v54 main_v55 (broadcastInDim S524288x1 ![0] bcast_S524288_S524288x1_0 : (⟨S524288, .i32⟩ : BufTy).Contents (Elt F) → (⟨S524288x1, .i32⟩ : BufTy).Contents (Elt F)),
    StableHlo.binary main_v49 main_v55 main_v56 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg7 main_v57 (broadcastInDim S524288x1 ![0] bcast_S524288_S524288x1_0 : (⟨S524288, .f32⟩ : BufTy).Contents (Elt F) → (⟨S524288x1, .f32⟩ : BufTy).Contents (Elt F)),
    StableHlo.unary main_v57 main_v58 (broadcastInDim S524288x128 ![0, 1] bcast_S524288x1_S524288x128_0_1 : (⟨S524288x1, .f32⟩ : BufTy).Contents (Elt F) → (⟨S524288x128, .f32⟩ : BufTy).Contents (Elt F)),
    StableHlo.binary main_v56 main_v58 main_v59 (mulf : (⟨S524288x128, .f32⟩ : BufTy).Contents (Elt F) → (⟨S524288x128, .f32⟩ : BufTy).Contents (Elt F) → (⟨S524288x128, .f32⟩ : BufTy).Contents (Elt F)),
    StableHlo.nullary main_cst_7 (constant S_ .f32 0x00000000#32),
    StableHlo.unary main_cst_7 main_v60 (broadcastInDim S131072x128 ![] bcast_S_S131072x128 : (⟨S_, .f32⟩ : BufTy).Contents (Elt F) → (⟨S131072x128, .f32⟩ : BufTy).Contents (Elt F)),
    StableHlo.unary main_v48 main_v61 (broadcastInDim S524288x1 ![0] bcast_S524288_S524288x1_0 : (⟨S524288, .i32⟩ : BufTy).Contents (Elt F) → (⟨S524288x1, .i32⟩ : BufTy).Contents (Elt F)),
    StableHlo.ternary main_v60 main_v61 main_v59 main_v62 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg18 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S131072x128 ![0, 1] bcast_S1x128_S131072x128_0_1 : (⟨S1x128, .f32⟩ : BufTy).Contents (Elt F) → (⟨S131072x128, .f32⟩ : BufTy).Contents (Elt F)),
    StableHlo.binary main_v62 main_v64 main_v65 (addf : (⟨S131072x128, .f32⟩ : BufTy).Contents (Elt F) → (⟨S131072x128, .f32⟩ : BufTy).Contents (Elt F) → (⟨S131072x128, .f32⟩ : BufTy).Contents (Elt F)),
    StableHlo.binary main_v44 main_v65 main_v66 (addf : (⟨S131072x128, .f32⟩ : BufTy).Contents (Elt F) → (⟨S131072x128, .f32⟩ : BufTy).Contents (Elt F) → (⟨S131072x128, .f32⟩ : BufTy).Contents (Elt F)),
    StableHlo.unary main_arg4 main_v67 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v67 main_v68 rfl shapeCasts_S1x524288_S524288,
    StableHlo.unary main_arg4 main_v69 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v69 main_v70 rfl shapeCasts_S1x524288_S524288,
    StableHlo.binary main_arg0 main_arg21 main_v71 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_8 (constantI S_ 32 0#32),
    StableHlo.unary main_c_8 main_v72 (broadcastInDim S524288 ![] bcast_S_S524288 : (⟨S_, .i32⟩ : BufTy).Contents (Elt F) → (⟨S524288, .i32⟩ : BufTy).Contents (Elt F)),
    StableHlo.binary main_v68 main_v72 main_v73 (cmpi .slt : (⟨S524288, .i32⟩ : BufTy).Contents (Elt F) → (⟨S524288, .i32⟩ : BufTy).Contents (Elt F) → (⟨S524288, .i1⟩ : BufTy).Contents (Elt F)),
    StableHlo.nullary main_c_9 (constantI S_ 32 131072#32),
    StableHlo.unary main_c_9 main_v74 (broadcastInDim S524288 ![] bcast_S_S524288 : (⟨S_, .i32⟩ : BufTy).Contents (Elt F) → (⟨S524288, .i32⟩ : BufTy).Contents (Elt F)),
    StableHlo.binary main_v68 main_v74 main_v75 (addi : (⟨S524288, .i32⟩ : BufTy).Contents (Elt F) → (⟨S524288, .i32⟩ : BufTy).Contents (Elt F) → (⟨S524288, .i32⟩ : BufTy).Contents (Elt F)),
    StableHlo.ternary main_v73 main_v75 main_v68 main_v76 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v76 main_v77 (broadcastInDim S524288x1 ![0] bcast_S524288_S524288x1_0 : (⟨S524288, .i32⟩ : BufTy).Contents (Elt F) → (⟨S524288x1, .i32⟩ : BufTy).Contents (Elt F)),
    StableHlo.binary main_v71 main_v77 main_v78 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg8 main_v79 (broadcastInDim S524288x1 ![0] bcast_S524288_S524288x1_0 : (⟨S524288, .f32⟩ : BufTy).Contents (Elt F) → (⟨S524288x1, .f32⟩ : BufTy).Contents (Elt F)),
    StableHlo.unary main_v79 main_v80 (broadcastInDim S524288x128 ![0, 1] bcast_S524288x1_S524288x128_0_1 : (⟨S524288x1, .f32⟩ : BufTy).Contents (Elt F) → (⟨S524288x128, .f32⟩ : BufTy).Contents (Elt F)),
    StableHlo.binary main_v78 main_v80 main_v81 (mulf : (⟨S524288x128, .f32⟩ : BufTy).Contents (Elt F) → (⟨S524288x128, .f32⟩ : BufTy).Contents (Elt F) → (⟨S524288x128, .f32⟩ : BufTy).Contents (Elt F)),
    StableHlo.nullary main_cst_10 (constant S_ .f32 0x00000000#32),
    StableHlo.unary main_cst_10 main_v82 (broadcastInDim S131072x128 ![] bcast_S_S131072x128 : (⟨S_, .f32⟩ : BufTy).Contents (Elt F) → (⟨S131072x128, .f32⟩ : BufTy).Contents (Elt F)),
    StableHlo.unary main_v70 main_v83 (broadcastInDim S524288x1 ![0] bcast_S524288_S524288x1_0 : (⟨S524288, .i32⟩ : BufTy).Contents (Elt F) → (⟨S524288x1, .i32⟩ : BufTy).Contents (Elt F)),
    StableHlo.ternary main_v82 main_v83 main_v81 main_v84 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg22 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S131072x128 ![0, 1] bcast_S1x128_S131072x128_0_1 : (⟨S1x128, .f32⟩ : BufTy).Contents (Elt F) → (⟨S131072x128, .f32⟩ : BufTy).Contents (Elt F)),
    StableHlo.binary main_v84 main_v86 main_v87 (addf : (⟨S131072x128, .f32⟩ : BufTy).Contents (Elt F) → (⟨S131072x128, .f32⟩ : BufTy).Contents (Elt F) → (⟨S131072x128, .f32⟩ : BufTy).Contents (Elt F)),
    StableHlo.binary main_v66 main_v87 main_v88 (addf : (⟨S131072x128, .f32⟩ : BufTy).Contents (Elt F) → (⟨S131072x128, .f32⟩ : BufTy).Contents (Elt F) → (⟨S131072x128, .f32⟩ : BufTy).Contents (Elt F)),
    StableHlo.nullary main_cst_11 (constant S_ .f32 0x00000000#32),
    StableHlo.binary main_v88 main_cst_11 main_v89 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    StableHlo.unary main_v89 main_v90 (broadcastInDim S131072x1 ![0] bcast_S131072_S131072x1_0 : (⟨S131072, .f32⟩ : BufTy).Contents (Elt F) → (⟨S131072x1, .f32⟩ : BufTy).Contents (Elt F)),
    StableHlo.nullary main_cst_12 (constant S_ .f32 0x43000000#32),
    StableHlo.unary main_cst_12 main_v91 (broadcastInDim S131072x1 ![] bcast_S_S131072x1 : (⟨S_, .f32⟩ : BufTy).Contents (Elt F) → (⟨S131072x1, .f32⟩ : BufTy).Contents (Elt F)),
    StableHlo.binary main_v90 main_v91 main_v92 (Host.divf : (⟨S131072x1, .f32⟩ : BufTy).Contents (Elt F) → (⟨S131072x1, .f32⟩ : BufTy).Contents (Elt F) → (⟨S131072x1, .f32⟩ : BufTy).Contents (Elt F)),
    StableHlo.nullary main_c_13 (constantI S_ 32 0#32),
    StableHlo.TRef.nullary main_call0.cst (constant S_ .f32 0x00000000#32),
    StableHlo.TRef.binary (.of main_v88) main_call0.cst main_call0.v0 (fun x v => Host.reduceAdd x v reducesTo_S131072x128_S131072_d1 h_S_),
    StableHlo.TRef.unary main_call0.v0 main_call0.v1 (broadcastInDim S131072x1 ![0] bcast_S131072_S131072x1_0),
    StableHlo.TRef.nullary main_call0.cst_0 (constant S_ .f32 0x43000000#32),
    StableHlo.TRef.unary main_call0.cst_0 main_call0.v2 (broadcastInDim S131072x1 ![] bcast_S_S131072x1),
    StableHlo.TRef.binary main_call0.v1 main_call0.v2 main_call0.v3 Host.divf,
    StableHlo.TRef.unary main_call0.v3 main_call0.v4 (broadcastInDim S131072x128 ![0, 1] bcast_S131072x1_S131072x128_0_1),
    StableHlo.TRef.binary (.of main_v88) main_call0.v4 main_call0.v5 subf,
    StableHlo.TRef.binary main_call0.v5 main_call0.v5 main_call0.v6 mulf,
    StableHlo.TRef.unary (.of main_c_13) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S131072x128_S131072_d1 h_S_),
    StableHlo.TRef.unary main_call0.v9 main_call0.v10 (broadcastInDim S131072x1 ![0] bcast_S131072_S131072x1_0),
    StableHlo.TRef.unary main_call0.v8 main_call0.v11 (broadcastInDim S131072x1 ![] bcast_S_S131072x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S131072x1 ![] bcast_S_S131072x1),
    StableHlo.TRef.ternary main_call0.v13 main_call0.v12 main_call0.call0.v1 main_call0.call0.v2 (fun p a b => select (broadcastInDim S131072x1 ![] bcast_S_S131072x1 p) a b),
    StableHlo.unary main_v92 main_v94 (broadcastInDim S131072x128 ![0, 1] bcast_S131072x1_S131072x128_0_1 : (⟨S131072x1, .f32⟩ : BufTy).Contents (Elt F) → (⟨S131072x128, .f32⟩ : BufTy).Contents (Elt F)),
    StableHlo.binary main_v88 main_v94 main_v95 (subf : (⟨S131072x128, .f32⟩ : BufTy).Contents (Elt F) → (⟨S131072x128, .f32⟩ : BufTy).Contents (Elt F) → (⟨S131072x128, .f32⟩ : BufTy).Contents (Elt F)),
    StableHlo.nullary main_cst_14 (constant S_ .f32 0x3727C5AC#32),
    StableHlo.unary main_cst_14 main_v96 (broadcastInDim S131072x1 ![] bcast_S_S131072x1 : (⟨S_, .f32⟩ : BufTy).Contents (Elt F) → (⟨S131072x1, .f32⟩ : BufTy).Contents (Elt F)),
    StableHlo.binary main_v93 main_v96 main_v97 (addf : (⟨S131072x1, .f32⟩ : BufTy).Contents (Elt F) → (⟨S131072x1, .f32⟩ : BufTy).Contents (Elt F) → (⟨S131072x1, .f32⟩ : BufTy).Contents (Elt F)),
    StableHlo.unary main_v97 main_v98 (Host.rsqrt : (⟨S131072x1, .f32⟩ : BufTy).Contents (Elt F) → (⟨S131072x1, .f32⟩ : BufTy).Contents (Elt F)),
    StableHlo.unary main_v98 main_v99 (broadcastInDim S131072x128 ![0, 1] bcast_S131072x1_S131072x128_0_1 : (⟨S131072x1, .f32⟩ : BufTy).Contents (Elt F) → (⟨S131072x128, .f32⟩ : BufTy).Contents (Elt F)),
    StableHlo.binary main_v95 main_v99 main_v100 (mulf : (⟨S131072x128, .f32⟩ : BufTy).Contents (Elt F) → (⟨S131072x128, .f32⟩ : BufTy).Contents (Elt F) → (⟨S131072x128, .f32⟩ : BufTy).Contents (Elt F)),
    StableHlo.unary main_arg25 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S131072x128 ![0, 1] bcast_S1x128_S131072x128_0_1 : (⟨S1x128, .f32⟩ : BufTy).Contents (Elt F) → (⟨S131072x128, .f32⟩ : BufTy).Contents (Elt F)) ]

set_option maxRecDepth 8192 in
/-- The window is its operations run in order: the called functions unfold at the call, and sequencing reassociates. -/
theorem main_part1_eq (c : Dev nD) : main_part1 (F := F) c = seq ops1 := by
  simp only [main_part1, fn_var.body, fn_where.body, seq, bind_assoc, pure_bind]
  rfl

set_option maxRecDepth 8192 in
/-- Every buffer the window's operations touch is a TensorCore reference. -/
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub ..⟩

/-- The buffers the window's operations write, in order. -/
abbrev ops1_W : List (Ref sig .tc) := [main_c_6, main_v52, main_v53, main_v54, main_v55, main_v56, main_v57, main_v58, main_v59, main_cst_7, main_v60, main_v61, main_v62, main_v63, main_v64, main_v65, main_v66, main_v67, main_v68, main_v69, main_v70, main_v71, main_c_8, main_v72, main_v73, main_c_9, main_v74, main_v75, main_v76, main_v77, main_v78, main_v79, main_v80, main_v81, main_cst_10, main_v82, main_v83, main_v84, main_v85, main_v86, main_v87, main_v88, main_cst_11, main_v89, main_v90, main_cst_12, main_v91, main_v92, main_c_13, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v93, main_v94, main_v95, main_cst_14, main_v96, main_v97, main_v98, main_v99, main_v100, main_v101, main_v102]
set_option maxRecDepth 8192 in
/-- Each operation writes its own result buffer and nothing else. -/
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.ReferenceIdeal.Run.Part2.lean ====
/- The reference program's @main, window 2 of 5: its host operations 143 … 202 of 292 as a list, the window equal to running
   that list in order, every buffer the list touches a TensorCore reference, and the list of the buffers it writes. -/
import proofs.«145608_j2035814499086_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in program order. -/
abbrev ops2 : List (HloOp τ sig (Elt F)) :=
  [ StableHlo.binary main_v100 main_v102 main_v103 (mulf : (⟨S131072x128, .f32⟩ : BufTy).Contents (Elt F) → (⟨S131072x128, .f32⟩ : BufTy).Contents (Elt F) → (⟨S131072x128, .f32⟩ : BufTy).Contents (Elt F)),
    StableHlo.unary main_arg26 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S131072x128 ![0, 1] bcast_S1x128_S131072x128_0_1 : (⟨S1x128, .f32⟩ : BufTy).Contents (Elt F) → (⟨S131072x128, .f32⟩ : BufTy).Contents (Elt F)),
    StableHlo.binary main_v103 main_v105 main_v106 (addf : (⟨S131072x128, .f32⟩ : BufTy).Contents (Elt F) → (⟨S131072x128, .f32⟩ : BufTy).Contents (Elt F) → (⟨S131072x128, .f32⟩ : BufTy).Contents (Elt F)),
    StableHlo.unary main_arg1 main_v107 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v107 main_v108 rfl shapeCasts_S1x524288_S524288,
    StableHlo.unary main_arg1 main_v109 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v109 main_v110 rfl shapeCasts_S1x524288_S524288,
    StableHlo.binary main_v106 main_arg11 main_v111 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_15 (constantI S_ 32 0#32),
    StableHlo.unary main_c_15 main_v112 (broadcastInDim S524288 ![] bcast_S_S524288 : (⟨S_, .i32⟩ : BufTy).Contents (Elt F) → (⟨S524288, .i32⟩ : BufTy).Contents (Elt F)),
    StableHlo.binary main_v108 main_v112 main_v113 (cmpi .slt : (⟨S524288, .i32⟩ : BufTy).Contents (Elt F) → (⟨S524288, .i32⟩ : BufTy).Contents (Elt F) → (⟨S524288, .i1⟩ : BufTy).Contents (Elt F)),
    StableHlo.nullary main_c_16 (constantI S_ 32 131072#32),
    StableHlo.unary main_c_16 main_v114 (broadcastInDim S524288 ![] bcast_S_S524288 : (⟨S_, .i32⟩ : BufTy).Contents (Elt F) → (⟨S524288, .i32⟩ : BufTy).Contents (Elt F)),
    StableHlo.binary main_v108 main_v114 main_v115 (addi : (⟨S524288, .i32⟩ : BufTy).Contents (Elt F) → (⟨S524288, .i32⟩ : BufTy).Contents (Elt F) → (⟨S524288, .i32⟩ : BufTy).Contents (Elt F)),
    StableHlo.ternary main_v113 main_v115 main_v108 main_v116 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v116 main_v117 (broadcastInDim S524288x1 ![0] bcast_S524288_S524288x1_0 : (⟨S524288, .i32⟩ : BufTy).Contents (Elt F) → (⟨S524288x1, .i32⟩ : BufTy).Contents (Elt F)),
    StableHlo.binary main_v111 main_v117 main_v118 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg5 main_v119 (broadcastInDim S524288x1 ![0] bcast_S524288_S524288x1_0 : (⟨S524288, .f32⟩ : BufTy).Contents (Elt F) → (⟨S524288x1, .f32⟩ : BufTy).Contents (Elt F)),
    StableHlo.unary main_v119 main_v120 (broadcastInDim S524288x128 ![0, 1] bcast_S524288x1_S524288x128_0_1 : (⟨S524288x1, .f32⟩ : BufTy).Contents (Elt F) → (⟨S524288x128, .f32⟩ : BufTy).Contents (Elt F)),
    StableHlo.binary main_v118 main_v120 main_v121 (mulf : (⟨S524288x128, .f32⟩ : BufTy).Contents (Elt F) → (⟨S524288x128, .f32⟩ : BufTy).Contents (Elt F) → (⟨S524288x128, .f32⟩ : BufTy).Contents (Elt F)),
    StableHlo.nullary main_cst_17 (constant S_ .f32 0x00000000#32),
    StableHlo.unary main_cst_17 main_v122 (broadcastInDim S131072x128 ![] bcast_S_S131072x128 : (⟨S_, .f32⟩ : BufTy).Contents (Elt F) → (⟨S131072x128, .f32⟩ : BufTy).Contents (Elt F)),
    StableHlo.unary main_v110 main_v123 (broadcastInDim S524288x1 ![0] bcast_S524288_S524288x1_0 : (⟨S524288, .i32⟩ : BufTy).Contents (Elt F) → (⟨S524288x1, .i32⟩ : BufTy).Contents (Elt F)),
    StableHlo.ternary main_v122 main_v123 main_v121 main_v124 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg12 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S131072x128 ![0, 1] bcast_S1x128_S131072x128_0_1 : (⟨S1x128, .f32⟩ : BufTy).Contents (Elt F) → (⟨S131072x128, .f32⟩ : BufTy).Contents (Elt F)),
    StableHlo.binary main_v124 main_v126 main_v127 (addf : (⟨S131072x128, .f32⟩ : BufTy).Contents (Elt F) → (⟨S131072x128, .f32⟩ : BufTy).Contents (Elt F) → (⟨S131072x128, .f32⟩ : BufTy).Contents (Elt F)),
    StableHlo.nullary main_cst_18 (constant S_ .f32 0x00000000#32),
    StableHlo.unary main_cst_18 main_v128 (broadcastInDim S131072x128 ![] bcast_S_S131072x128 : (⟨S_, .f32⟩ : BufTy).Contents (Elt F) → (⟨S131072x128, .f32⟩ : BufTy).Contents (Elt F)),
    StableHlo.binary main_v128 main_v127 main_v129 (addf : (⟨S131072x128, .f32⟩ : BufTy).Contents (Elt F) → (⟨S131072x128, .f32⟩ : BufTy).Contents (Elt F) → (⟨S131072x128, .f32⟩ : BufTy).Contents (Elt F)),
    StableHlo.unary main_arg2 main_v130 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v130 main_v131 rfl shapeCasts_S1x524288_S524288,
    StableHlo.unary main_arg2 main_v132 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v132 main_v133 rfl shapeCasts_S1x524288_S524288,
    StableHlo.binary main_v106 main_arg15 main_v134 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_19 (constantI S_ 32 0#32),
    StableHlo.unary main_c_19 main_v135 (broadcastInDim S524288 ![] bcast_S_S524288 : (⟨S_, .i32⟩ : BufTy).Contents (Elt F) → (⟨S524288, .i32⟩ : BufTy).Contents (Elt F)),
    StableHlo.binary main_v131 main_v135 main_v136 (cmpi .slt : (⟨S524288, .i32⟩ : BufTy).Contents (Elt F) → (⟨S524288, .i32⟩ : BufTy).Contents (Elt F) → (⟨S524288, .i1⟩ : BufTy).Contents (Elt F)),
    StableHlo.nullary main_c_20 (constantI S_ 32 131072#32),
    StableHlo.unary main_c_20 main_v137 (broadcastInDim S524288 ![] bcast_S_S524288 : (⟨S_, .i32⟩ : BufTy).Contents (Elt F) → (⟨S524288, .i32⟩ : BufTy).Contents (Elt F)),
    StableHlo.binary main_v131 main_v137 main_v138 (addi : (⟨S524288, .i32⟩ : BufTy).Contents (Elt F) → (⟨S524288, .i32⟩ : BufTy).Contents (Elt F) → (⟨S524288, .i32⟩ : BufTy).Contents (Elt F)),
    StableHlo.ternary main_v136 main_v138 main_v131 main_v139 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v139 main_v140 (broadcastInDim S524288x1 ![0] bcast_S524288_S524288x1_0 : (⟨S524288, .i32⟩ : BufTy).Contents (Elt F) → (⟨S524288x1, .i32⟩ : BufTy).Contents (Elt F)),
    StableHlo.binary main_v134 main_v140 main_v141 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg6 main_v142 (broadcastInDim S524288x1 ![0] bcast_S524288_S524288x1_0 : (⟨S524288, .f32⟩ : BufTy).Contents (Elt F) → (⟨S524288x1, .f32⟩ : BufTy).Contents (Elt F)),
    StableHlo.unary main_v142 main_v143 (broadcastInDim S524288x128 ![0, 1] bcast_S524288x1_S524288x128_0_1 : (⟨S524288x1, .f32⟩ : BufTy).Contents (Elt F) → (⟨S524288x128, .f32⟩ : BufTy).Contents (Elt F)),
    StableHlo.binary main_v141 main_v143 main_v144 (mulf : (⟨S524288x128, .f32⟩ : BufTy).Contents (Elt F) → (⟨S524288x128, .f32⟩ : BufTy).Contents (Elt F) → (⟨S524288x128, .f32⟩ : BufTy).Contents (Elt F)),
    StableHlo.nullary main_cst_21 (constant S_ .f32 0x00000000#32),
    StableHlo.unary main_cst_21 main_v145 (broadcastInDim S131072x128 ![] bcast_S_S131072x128 : (⟨S_, .f32⟩ : BufTy).Contents (Elt F) → (⟨S131072x128, .f32⟩ : BufTy).Contents (Elt F)),
    StableHlo.unary main_v133 main_v146 (broadcastInDim S524288x1 ![0] bcast_S524288_S524288x1_0 : (⟨S524288, .i32⟩ : BufTy).Contents (Elt F) → (⟨S524288x1, .i32⟩ : BufTy).Contents (Elt F)),
    StableHlo.ternary main_v145 main_v146 main_v144 main_v147 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg16 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S131072x128 ![0, 1] bcast_S1x128_S131072x128_0_1 : (⟨S1x128, .f32⟩ : BufTy).Contents (Elt F) → (⟨S131072x128, .f32⟩ : BufTy).Contents (Elt F)),
    StableHlo.binary main_v147 main_v149 main_v150 (addf : (⟨S131072x128, .f32⟩ : BufTy).Contents (Elt F) → (⟨S131072x128, .f32⟩ : BufTy).Contents (Elt F) → (⟨S131072x128, .f32⟩ : BufTy).Contents (Elt F)),
    StableHlo.binary main_v129 main_v150 main_v151 (addf : (⟨S131072x128, .f32⟩ : BufTy).Contents (Elt F) → (⟨S131072x128, .f32⟩ : BufTy).Contents (Elt F) → (⟨S131072x128, .f32⟩ : BufTy).Contents (Elt F)),
    StableHlo.unary main_arg3 main_v152 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v152 main_v153 rfl shapeCasts_S1x524288_S524288,
    StableHlo.unary main_arg3 main_v154 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v154 main_v155 rfl shapeCasts_S1x524288_S524288 ]

set_option maxRecDepth 8192 in
/-- The window is its operations run in order. -/
theorem main_part2_eq (c : Dev nD) : main_part2 (F := F) c = seq ops2 := rfl

set_option maxRecDepth 8192 in
/-- Every buffer the window's operations touch is a TensorCore reference. -/
theorem ops2_sub : (ops2 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub ..⟩

/-- The buffers the window's operations write, in order. -/
abbrev ops2_W : List (Ref sig .tc) := [main_v103, main_v104, main_v105, main_v106, main_v107, main_v108, main_v109, main_v110, main_v111, main_c_15, main_v112, main_v113, main_c_16, main_v114, main_v115, main_v116, main_v117, main_v118, main_v119, main_v120, main_v121, main_cst_17, main_v122, main_v123, main_v124, main_v125, main_v126, main_v127, main_cst_18, main_v128, main_v129, main_v130, main_v131, main_v132, main_v133, main_v134, main_c_19, main_v135, main_v136, main_c_20, main_v137, main_v138, main_v139, main_v140, main_v141, main_v142, main_v143, main_v144, main_cst_21, main_v145, main_v146, main_v147, main_v148, main_v149, main_v150, main_v151, main_v152, main_v153, main_v154, main_v155]
set_option maxRecDepth 8192 in
/-- Each operation writes its own result buffer and nothing else. -/
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.ReferenceIdeal.Run.Part3.lean ====
/- The reference program's @main, window 3 of 5: its host operations 203 … 284 of 292 as a list (the call of the
   variance function unfolded at its call site into the operations of its body, and of the selection it calls in turn, over the
   call's own buffers), the window equal to running
   that list in order, every buffer the list touches a TensorCore reference, and the list of the buffers it writes. -/
import proofs.«145608_j2035814499086_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in program order. -/
abbrev ops3 : List (HloOp τ sig (Elt F)) :=
  [ StableHlo.binary main_v106 main_arg19 main_v156 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_22 (constantI S_ 32 0#32),
    StableHlo.unary main_c_22 main_v157 (broadcastInDim S524288 ![] bcast_S_S524288 : (⟨S_, .i32⟩ : BufTy).Contents (Elt F) → (⟨S524288, .i32⟩ : BufTy).Contents (Elt F)),
    StableHlo.binary main_v153 main_v157 main_v158 (cmpi .slt : (⟨S524288, .i32⟩ : BufTy).Contents (Elt F) → (⟨S524288, .i32⟩ : BufTy).Contents (Elt F) → (⟨S524288, .i1⟩ : BufTy).Contents (Elt F)),
    StableHlo.nullary main_c_23 (constantI S_ 32 131072#32),
    StableHlo.unary main_c_23 main_v159 (broadcastInDim S524288 ![] bcast_S_S524288 : (⟨S_, .i32⟩ : BufTy).Contents (Elt F) → (⟨S524288, .i32⟩ : BufTy).Contents (Elt F)),
    StableHlo.binary main_v153 main_v159 main_v160 (addi : (⟨S524288, .i32⟩ : BufTy).Contents (Elt F) → (⟨S524288, .i32⟩ : BufTy).Contents (Elt F) → (⟨S524288, .i32⟩ : BufTy).Contents (Elt F)),
    StableHlo.ternary main_v158 main_v160 main_v153 main_v161 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v161 main_v162 (broadcastInDim S524288x1 ![0] bcast_S524288_S524288x1_0 : (⟨S524288, .i32⟩ : BufTy).Contents (Elt F) → (⟨S524288x1, .i32⟩ : BufTy).Contents (Elt F)),
    StableHlo.binary main_v156 main_v162 main_v163 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg7 main_v164 (broadcastInDim S524288x1 ![0] bcast_S524288_S524288x1_0 : (⟨S524288, .f32⟩ : BufTy).Contents (Elt F) → (⟨S524288x1, .f32⟩ : BufTy).Contents (Elt F)),
    StableHlo.unary main_v164 main_v165 (broadcastInDim S524288x128 ![0, 1] bcast_S524288x1_S524288x128_0_1 : (⟨S524288x1, .f32⟩ : BufTy).Contents (Elt F) → (⟨S524288x128, .f32⟩ : BufTy).Contents (Elt F)),
    StableHlo.binary main_v163 main_v165 main_v166 (mulf : (⟨S524288x128, .f32⟩ : BufTy).Contents (Elt F) → (⟨S524288x128, .f32⟩ : BufTy).Contents (Elt F) → (⟨S524288x128, .f32⟩ : BufTy).Contents (Elt F)),
    StableHlo.nullary main_cst_24 (constant S_ .f32 0x00000000#32),
    StableHlo.unary main_cst_24 main_v167 (broadcastInDim S131072x128 ![] bcast_S_S131072x128 : (⟨S_, .f32⟩ : BufTy).Contents (Elt F) → (⟨S131072x128, .f32⟩ : BufTy).Contents (Elt F)),
    StableHlo.unary main_v155 main_v168 (broadcastInDim S524288x1 ![0] bcast_S524288_S524288x1_0 : (⟨S524288, .i32⟩ : BufTy).Contents (Elt F) → (⟨S524288x1, .i32⟩ : BufTy).Contents (Elt F)),
    StableHlo.ternary main_v167 main_v168 main_v166 main_v169 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg20 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S131072x128 ![0, 1] bcast_S1x128_S131072x128_0_1 : (⟨S1x128, .f32⟩ : BufTy).Contents (Elt F) → (⟨S131072x128, .f32⟩ : BufTy).Contents (Elt F)),
    StableHlo.binary main_v169 main_v171 main_v172 (addf : (⟨S131072x128, .f32⟩ : BufTy).Contents (Elt F) → (⟨S131072x128, .f32⟩ : BufTy).Contents (Elt F) → (⟨S131072x128, .f32⟩ : BufTy).Contents (Elt F)),
    StableHlo.binary main_v151 main_v172 main_v173 (addf : (⟨S131072x128, .f32⟩ : BufTy).Contents (Elt F) → (⟨S131072x128, .f32⟩ : BufTy).Contents (Elt F) → (⟨S131072x128, .f32⟩ : BufTy).Contents (Elt F)),
    StableHlo.unary main_arg4 main_v174 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v174 main_v175 rfl shapeCasts_S1x524288_S524288,
    StableHlo.unary main_arg4 main_v176 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v176 main_v177 rfl shapeCasts_S1x524288_S524288,
    StableHlo.binary main_v106 main_arg23 main_v178 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_25 (constantI S_ 32 0#32),
    StableHlo.unary main_c_25 main_v179 (broadcastInDim S524288 ![] bcast_S_S524288 : (⟨S_, .i32⟩ : BufTy).Contents (Elt F) → (⟨S524288, .i32⟩ : BufTy).Contents (Elt F)),
    StableHlo.binary main_v175 main_v179 main_v180 (cmpi .slt : (⟨S524288, .i32⟩ : BufTy).Contents (Elt F) → (⟨S524288, .i32⟩ : BufTy).Contents (Elt F) → (⟨S524288, .i1⟩ : BufTy).Contents (Elt F)),
    StableHlo.nullary main_c_26 (constantI S_ 32 131072#32),
    StableHlo.unary main_c_26 main_v181 (broadcastInDim S524288 ![] bcast_S_S524288 : (⟨S_, .i32⟩ : BufTy).Contents (Elt F) → (⟨S524288, .i32⟩ : BufTy).Contents (Elt F)),
    StableHlo.binary main_v175 main_v181 main_v182 (addi : (⟨S524288, .i32⟩ : BufTy).Contents (Elt F) → (⟨S524288, .i32⟩ : BufTy).Contents (Elt F) → (⟨S524288, .i32⟩ : BufTy).Contents (Elt F)),
    StableHlo.ternary main_v180 main_v182 main_v175 main_v183 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v183 main_v184 (broadcastInDim S524288x1 ![0] bcast_S524288_S524288x1_0 : (⟨S524288, .i32⟩ : BufTy).Contents (Elt F) → (⟨S524288x1, .i32⟩ : BufTy).Contents (Elt F)),
    StableHlo.binary main_v178 main_v184 main_v185 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg8 main_v186 (broadcastInDim S524288x1 ![0] bcast_S524288_S524288x1_0 : (⟨S524288, .f32⟩ : BufTy).Contents (Elt F) → (⟨S524288x1, .f32⟩ : BufTy).Contents (Elt F)),
    StableHlo.unary main_v186 main_v187 (broadcastInDim S524288x128 ![0, 1] bcast_S524288x1_S524288x128_0_1 : (⟨S524288x1, .f32⟩ : BufTy).Contents (Elt F) → (⟨S524288x128, .f32⟩ : BufTy).Contents (Elt F)),
    StableHlo.binary main_v185 main_v187 main_v188 (mulf : (⟨S524288x128, .f32⟩ : BufTy).Contents (Elt F) → (⟨S524288x128, .f32⟩ : BufTy).Contents (Elt F) → (⟨S524288x128, .f32⟩ : BufTy).Contents (Elt F)),
    StableHlo.nullary main_cst_27 (constant S_ .f32 0x00000000#32),
    StableHlo.unary main_cst_27 main_v189 (broadcastInDim S131072x128 ![] bcast_S_S131072x128 : (⟨S_, .f32⟩ : BufTy).Contents (Elt F) → (⟨S131072x128, .f32⟩ : BufTy).Contents (Elt F)),
    StableHlo.unary main_v177 main_v190 (broadcastInDim S524288x1 ![0] bcast_S524288_S524288x1_0 : (⟨S524288, .i32⟩ : BufTy).Contents (Elt F) → (⟨S524288x1, .i32⟩ : BufTy).Contents (Elt F)),
    StableHlo.ternary main_v189 main_v190 main_v188 main_v191 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg24 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S131072x128 ![0, 1] bcast_S1x128_S131072x128_0_1 : (⟨S1x128, .f32⟩ : BufTy).Contents (Elt F) → (⟨S131072x128, .f32⟩ : BufTy).Contents (Elt F)),
    StableHlo.binary main_v191 main_v193 main_v194 (addf : (⟨S131072x128, .f32⟩ : BufTy).Contents (Elt F) → (⟨S131072x128, .f32⟩ : BufTy).Contents (Elt F) → (⟨S131072x128, .f32⟩ : BufTy).Contents (Elt F)),
    StableHlo.binary main_v173 main_v194 main_v195 (addf : (⟨S131072x128, .f32⟩ : BufTy).Contents (Elt F) → (⟨S131072x128, .f32⟩ : BufTy).Contents (Elt F) → (⟨S131072x128, .f32⟩ : BufTy).Contents (Elt F)),
    StableHlo.nullary main_cst_28 (constant S_ .f32 0x00000000#32),
    StableHlo.binary main_v195 main_cst_28 main_v196 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    StableHlo.unary main_v196 main_v197 (broadcastInDim S131072x1 ![0] bcast_S131072_S131072x1_0 : (⟨S131072, .f32⟩ : BufTy).Contents (Elt F) → (⟨S131072x1, .f32⟩ : BufTy).Contents (Elt F)),
    StableHlo.nullary main_cst_29 (constant S_ .f32 0x43000000#32),
    StableHlo.unary main_cst_29 main_v198 (broadcastInDim S131072x1 ![] bcast_S_S131072x1 : (⟨S_, .f32⟩ : BufTy).Contents (Elt F) → (⟨S131072x1, .f32⟩ : BufTy).Contents (Elt F)),
    StableHlo.binary main_v197 main_v198 main_v199 (Host.divf : (⟨S131072x1, .f32⟩ : BufTy).Contents (Elt F) → (⟨S131072x1, .f32⟩ : BufTy).Contents (Elt F) → (⟨S131072x1, .f32⟩ : BufTy).Contents (Elt F)),
    StableHlo.nullary main_c_30 (constantI S_ 32 0#32),
    StableHlo.TRef.nullary main_call1.cst (constant S_ .f32 0x00000000#32),
    StableHlo.TRef.binary (.of main_v195) main_call1.cst main_call1.v0 (fun x v => Host.reduceAdd x v reducesTo_S131072x128_S131072_d1 h_S_),
    StableHlo.TRef.unary main_call1.v0 main_call1.v1 (broadcastInDim S131072x1 ![0] bcast_S131072_S131072x1_0),
    StableHlo.TRef.nullary main_call1.cst_0 (constant S_ .f32 0x43000000#32),
    StableHlo.TRef.unary main_call1.cst_0 main_call1.v2 (broadcastInDim S131072x1 ![] bcast_S_S131072x1),
    StableHlo.TRef.binary main_call1.v1 main_call1.v2 main_call1.v3 Host.divf,
    StableHlo.TRef.unary main_call1.v3 main_call1.v4 (broadcastInDim S131072x128 ![0, 1] bcast_S131072x1_S131072x128_0_1),
    StableHlo.TRef.binary (.of main_v195) main_call1.v4 main_call1.v5 subf,
    StableHlo.TRef.binary main_call1.v5 main_call1.v5 main_call1.v6 mulf,
    StableHlo.TRef.unary (.of main_c_30) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S131072x128_S131072_d1 h_S_),
    StableHlo.TRef.unary main_call1.v9 main_call1.v10 (broadcastInDim S131072x1 ![0] bcast_S131072_S131072x1_0),
    StableHlo.TRef.unary main_call1.v8 main_call1.v11 (broadcastInDim S131072x1 ![] bcast_S_S131072x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S131072x1 ![] bcast_S_S131072x1),
    StableHlo.TRef.ternary main_call1.v13 main_call1.v12 main_call1.call0.v1 main_call1.call0.v2 (fun p a b => select (broadcastInDim S131072x1 ![] bcast_S_S131072x1 p) a b),
    StableHlo.unary main_v199 main_v201 (broadcastInDim S131072x128 ![0, 1] bcast_S131072x1_S131072x128_0_1 : (⟨S131072x1, .f32⟩ : BufTy).Contents (Elt F) → (⟨S131072x128, .f32⟩ : BufTy).Contents (Elt F)),
    StableHlo.binary main_v195 main_v201 main_v202 (subf : (⟨S131072x128, .f32⟩ : BufTy).Contents (Elt F) → (⟨S131072x128, .f32⟩ : BufTy).Contents (Elt F) → (⟨S131072x128, .f32⟩ : BufTy).Contents (Elt F)),
    StableHlo.nullary main_cst_31 (constant S_ .f32 0x3727C5AC#32),
    StableHlo.unary main_cst_31 main_v203 (broadcastInDim S131072x1 ![] bcast_S_S131072x1 : (⟨S_, .f32⟩ : BufTy).Contents (Elt F) → (⟨S131072x1, .f32⟩ : BufTy).Contents (Elt F)),
    StableHlo.binary main_v200 main_v203 main_v204 (addf : (⟨S131072x1, .f32⟩ : BufTy).Contents (Elt F) → (⟨S131072x1, .f32⟩ : BufTy).Contents (Elt F) → (⟨S131072x1, .f32⟩ : BufTy).Contents (Elt F)),
    StableHlo.unary main_v204 main_v205 (Host.rsqrt : (⟨S131072x1, .f32⟩ : BufTy).Contents (Elt F) → (⟨S131072x1, .f32⟩ : BufTy).Contents (Elt F)) ]

set_option maxRecDepth 8192 in
/-- The window is its operations run in order: the called functions unfold at the call, and sequencing reassociates. -/
theorem main_part3_eq (c : Dev nD) : main_part3 (F := F) c = seq ops3 := by
  simp only [main_part3, fn_var.body, fn_where.body, seq, bind_assoc, pure_bind]
  rfl

set_option maxRecDepth 8192 in
/-- Every buffer the window's operations touch is a TensorCore reference. -/
theorem ops3_sub : (ops3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub ..⟩

/-- The buffers the window's operations write, in order. -/
abbrev ops3_W : List (Ref sig .tc) := [main_v156, main_c_22, main_v157, main_v158, main_c_23, main_v159, main_v160, main_v161, main_v162, main_v163, main_v164, main_v165, main_v166, main_cst_24, main_v167, main_v168, main_v169, main_v170, main_v171, main_v172, main_v173, main_v174, main_v175, main_v176, main_v177, main_v178, main_c_25, main_v179, main_v180, main_c_26, main_v181, main_v182, main_v183, main_v184, main_v185, main_v186, main_v187, main_v188, main_cst_27, main_v189, main_v190, main_v191, main_v192, main_v193, main_v194, main_v195, main_cst_28, main_v196, main_v197, main_cst_29, main_v198, main_v199, main_c_30, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v200, main_v201, main_v202, main_cst_31, main_v203, main_v204, main_v205]
set_option maxRecDepth 8192 in
/-- Each operation writes its own result buffer and nothing else. -/
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.ReferenceIdeal.Run.Part4.lean ====
/- The reference program's @main, window 4 of 5: its host operations 285 … 292 of 292 as a list, the window equal to running
   that list in order, every buffer the list touches a TensorCore reference, and the list of the buffers it writes. -/
import proofs.«145608_j2035814499086_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in program order. -/
abbrev ops4 : List (HloOp τ sig (Elt F)) :=
  [ StableHlo.unary main_v205 main_v206 (broadcastInDim S131072x128 ![0, 1] bcast_S131072x1_S131072x128_0_1 : (⟨S131072x1, .f32⟩ : BufTy).Contents (Elt F) → (⟨S131072x128, .f32⟩ : BufTy).Contents (Elt F)),
    StableHlo.binary main_v202 main_v206 main_v207 (mulf : (⟨S131072x128, .f32⟩ : BufTy).Contents (Elt F) → (⟨S131072x128, .f32⟩ : BufTy).Contents (Elt F) → (⟨S131072x128, .f32⟩ : BufTy).Contents (Elt F)),
    StableHlo.unary main_arg27 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S131072x128 ![0, 1] bcast_S1x128_S131072x128_0_1 : (⟨S1x128, .f32⟩ : BufTy).Contents (Elt F) → (⟨S131072x128, .f32⟩ : BufTy).Contents (Elt F)),
    StableHlo.binary main_v207 main_v209 main_v210 (mulf : (⟨S131072x128, .f32⟩ : BufTy).Contents (Elt F) → (⟨S131072x128, .f32⟩ : BufTy).Contents (Elt F) → (⟨S131072x128, .f32⟩ : BufTy).Contents (Elt F)),
    StableHlo.unary main_arg28 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S131072x128 ![0, 1] bcast_S1x128_S131072x128_0_1 : (⟨S1x128, .f32⟩ : BufTy).Contents (Elt F) → (⟨S131072x128, .f32⟩ : BufTy).Contents (Elt F)),
    StableHlo.binary main_v210 main_v212 main_v213 (addf : (⟨S131072x128, .f32⟩ : BufTy).Contents (Elt F) → (⟨S131072x128, .f32⟩ : BufTy).Contents (Elt F) → (⟨S131072x128, .f32⟩ : BufTy).Contents (Elt F)) ]

set_option maxRecDepth 8192 in
/-- The window is its operations run in order. -/
theorem main_part4_eq (c : Dev nD) : main_part4 (F := F) c = seq ops4 := rfl

set_option maxRecDepth 8192 in
/-- Every buffer the window's operations touch is a TensorCore reference. -/
theorem ops4_sub : (ops4 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub ..⟩

/-- The buffers the window's operations write, in order. -/
abbrev ops4_W : List (Ref sig .tc) := [main_v206, main_v207, main_v208, main_v209, main_v210, main_v211, main_v212, main_v213]
set_option maxRecDepth 8192 in
/-- Each operation writes its own result buffer and nothing else. -/
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer the window does not write keeps its contents through it. -/
theorem keep4 (V : Valuation τ sig (Elt F)) (r : Ref sig .tc) (h : r ∉ ops4_W) :
    after ops4 V (Proc.devRef .tc r) = V (Proc.devRef .tc r) :=
  after_of_writes_sub ops4 V ops4_writes h

end Cert.ReferenceIdeal.RefRun

end
-- ==== Proof.ReferenceIdeal.Run.lean ====
/- The run of the reference program: @main is its 292 host operations run in order (the five windows' lists joined; the two calls of
   the variance function unfolded where they stand), every weakly fair execution of it terminates with each TensorCore buffer at the
   operations' fold over the launch contents, and no operation writes an argument buffer. -/
import proofs.«145608_j2035814499086_1_alg».proof.Proof.ReferenceIdeal.Run.Part0
import proofs.«145608_j2035814499086_1_alg».proof.Proof.ReferenceIdeal.Run.Part1
import proofs.«145608_j2035814499086_1_alg».proof.Proof.ReferenceIdeal.Run.Part2
import proofs.«145608_j2035814499086_1_alg».proof.Proof.ReferenceIdeal.Run.Part3
import proofs.«145608_j2035814499086_1_alg».proof.Proof.ReferenceIdeal.Run.Part4
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 292 operations, in program order: the five windows' lists joined. -/
abbrev ops : List (HloOp τ sig (Elt F)) :=
  ops0 ++ (ops1 ++ (ops2 ++ (ops3 ++ ops4)))

set_option maxRecDepth 8192 in
/-- @main is its windows in turn, each its list run in order; lists run one after the other are their concatenation run as one. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every buffer an operation of @main touches is a TensorCore reference: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h]

set_option maxRecDepth 8192 in
theorem ops0_fresh : (ops0 : List (HloOp τ sig (Elt F))).Forall fun op => op.fresh = ∅ := by
  simp only [List.Forall]; repeat' constructor
set_option maxRecDepth 8192 in
theorem ops1_fresh : (ops1 : List (HloOp τ sig (Elt F))).Forall fun op => op.fresh = ∅ := by
  simp only [List.Forall]; repeat' constructor
set_option maxRecDepth 8192 in
theorem ops2_fresh : (ops2 : List (HloOp τ sig (Elt F))).Forall fun op => op.fresh = ∅ := by
  simp only [List.Forall]; repeat' constructor
set_option maxRecDepth 8192 in
theorem ops3_fresh : (ops3 : List (HloOp τ sig (Elt F))).Forall fun op => op.fresh = ∅ := by
  simp only [List.Forall]; repeat' constructor
set_option maxRecDepth 8192 in
theorem ops4_fresh : (ops4 : List (HloOp τ sig (Elt F))).Forall fun op => op.fresh = ∅ := by
  simp only [List.Forall]; repeat' constructor

/-- Every operation determines the buffer it writes: none leaves one with arbitrary contents. -/
theorem ops_fresh : ∀ op ∈ (ops : List (HloOp τ sig (Elt F))), op.fresh = ∅ := fun op h => by
  simp only [ops, List.mem_append] at h
  rcases h with h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h]

/-- At the compiled mesh, for any float values, from any memory with zero counters: every weakly fair execution of @main on the
    TensorCores terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over the whole list is the windows' folds in turn. -/
theorem after_ops (V : Valuation τ sig (Elt F)) :
    after ops V = after ops4 (after ops3 (after ops2 (after ops1 (after ops0 V)))) := by
  simp only [ops, after_append]

/-- A buffer that no window writes holds at the end what it held at launch. -/
theorem keep (V : Valuation τ sig (Elt F)) (r : Ref sig .tc) (h0 : r ∉ ops0_W) (h1 : r ∉ ops1_W) (h2 : r ∉ ops2_W)
    (h3 : r ∉ ops3_W) (h4 : r ∉ ops4_W) : after ops V (Proc.devRef .tc r) = V (Proc.devRef .tc r) := by
  rw [after_ops, keep4 _ r h4, keep3 _ r h3, keep2 _ r h2, keep1 _ r h1, keep0 _ r h0]

/-! ## No operation writes an argument -/

theorem arg0_eq (V : Valuation τ sig (Elt F)) : after ops V (main_arg0 : DevRef τ sig) = V (main_arg0 : DevRef τ sig) :=
  keep V main_arg0 (by decide) (by decide) (by decide) (by decide) (by decide)
theorem arg1_eq (V : Valuation τ sig (Elt F)) : after ops V (main_arg1 : DevRef τ sig) = V (main_arg1 : DevRef τ sig) :=
  keep V main_arg1 (by decide) (by decide) (by decide) (by decide) (by decide)
theorem arg2_eq (V : Valuation τ sig (Elt F)) : after ops V (main_arg2 : DevRef τ sig) = V (main_arg2 : DevRef τ sig) :=
  keep V main_arg2 (by decide) (by decide) (by decide) (by decide) (by decide)
theorem arg3_eq (V : Valuation τ sig (Elt F)) : after ops V (main_arg3 : DevRef τ sig) = V (main_arg3 : DevRef τ sig) :=
  keep V main_arg3 (by decide) (by decide) (by decide) (by decide) (by decide)
theorem arg4_eq (V : Valuation τ sig (Elt F)) : after ops V (main_arg4 : DevRef τ sig) = V (main_arg4 : DevRef τ sig) :=
  keep V main_arg4 (by decide) (by decide) (by decide) (by decide) (by decide)
theorem arg5_eq (V : Valuation τ sig (Elt F)) : after ops V (main_arg5 : DevRef τ sig) = V (main_arg5 : DevRef τ sig) :=
  keep V main_arg5 (by decide) (by decide) (by decide) (by decide) (by decide)
theorem arg6_eq (V : Valuation τ sig (Elt F)) : after ops V (main_arg6 : DevRef τ sig) = V (main_arg6 : DevRef τ sig) :=
  keep V main_arg6 (by decide) (by decide) (by decide) (by decide) (by decide)
theorem arg7_eq (V : Valuation τ sig (Elt F)) : after ops V (main_arg7 : DevRef τ sig) = V (main_arg7 : DevRef τ sig) :=
  keep V main_arg7 (by decide) (by decide) (by decide) (by decide) (by decide)
theorem arg8_eq (V : Valuation τ sig (Elt F)) : after ops V (main_arg8 : DevRef τ sig) = V (main_arg8 : DevRef τ sig) :=
  keep V main_arg8 (by decide) (by decide) (by decide) (by decide) (by decide)
theorem arg9_eq (V : Valuation τ sig (Elt F)) : after ops V (main_arg9 : DevRef τ sig) = V (main_arg9 : DevRef τ sig) :=
  keep V main_arg9 (by decide) (by decide) (by decide) (by decide) (by decide)
theorem arg10_eq (V : Valuation τ sig (Elt F)) : after ops V (main_arg10 : DevRef τ sig) = V (main_arg10 : DevRef τ sig) :=
  keep V main_arg10 (by decide) (by decide) (by decide) (by decide) (by decide)
theorem arg11_eq (V : Valuation τ sig (Elt F)) : after ops V (main_arg11 : DevRef τ sig) = V (main_arg11 : DevRef τ sig) :=
  keep V main_arg11 (by decide) (by decide) (by decide) (by decide) (by decide)
theorem arg12_eq (V : Valuation τ sig (Elt F)) : after ops V (main_arg12 : DevRef τ sig) = V (main_arg12 : DevRef τ sig) :=
  keep V main_arg12 (by decide) (by decide) (by decide) (by decide) (by decide)
theorem arg13_eq (V : Valuation τ sig (Elt F)) : after ops V (main_arg13 : DevRef τ sig) = V (main_arg13 : DevRef τ sig) :=
  keep V main_arg13 (by decide) (by decide) (by decide) (by decide) (by decide)
theorem arg14_eq (V : Valuation τ sig (Elt F)) : after ops V (main_arg14 : DevRef τ sig) = V (main_arg14 : DevRef τ sig) :=
  keep V main_arg14 (by decide) (by decide) (by decide) (by decide) (by decide)
theorem arg15_eq (V : Valuation τ sig (Elt F)) : after ops V (main_arg15 : DevRef τ sig) = V (main_arg15 : DevRef τ sig) :=
  keep V main_arg15 (by decide) (by decide) (by decide) (by decide) (by decide)
theorem arg16_eq (V : Valuation τ sig (Elt F)) : after ops V (main_arg16 : DevRef τ sig) = V (main_arg16 : DevRef τ sig) :=
  keep V main_arg16 (by decide) (by decide) (by decide) (by decide) (by decide)
theorem arg17_eq (V : Valuation τ sig (Elt F)) : after ops V (main_arg17 : DevRef τ sig) = V (main_arg17 : DevRef τ sig) :=
  keep V main_arg17 (by decide) (by decide) (by decide) (by decide) (by decide)
theorem arg18_eq (V : Valuation τ sig (Elt F)) : after ops V (main_arg18 : DevRef τ sig) = V (main_arg18 : DevRef τ sig) :=
  keep V main_arg18 (by decide) (by decide) (by decide) (by decide) (by decide)
theorem arg19_eq (V : Valuation τ sig (Elt F)) : after ops V (main_arg19 : DevRef τ sig) = V (main_arg19 : DevRef τ sig) :=
  keep V main_arg19 (by decide) (by decide) (by decide) (by decide) (by decide)
theorem arg20_eq (V : Valuation τ sig (Elt F)) : after ops V (main_arg20 : DevRef τ sig) = V (main_arg20 : DevRef τ sig) :=
  keep V main_arg20 (by decide) (by decide) (by decide) (by decide) (by decide)
theorem arg21_eq (V : Valuation τ sig (Elt F)) : after ops V (main_arg21 : DevRef τ sig) = V (main_arg21 : DevRef τ sig) :=
  keep V main_arg21 (by decide) (by decide) (by decide) (by decide) (by decide)
theorem arg22_eq (V : Valuation τ sig (Elt F)) : after ops V (main_arg22 : DevRef τ sig) = V (main_arg22 : DevRef τ sig) :=
  keep V main_arg22 (by decide) (by decide) (by decide) (by decide) (by decide)
theorem arg23_eq (V : Valuation τ sig (Elt F)) : after ops V (main_arg23 : DevRef τ sig) = V (main_arg23 : DevRef τ sig) :=
  keep V main_arg23 (by decide) (by decide) (by decide) (by decide) (by decide)
theorem arg24_eq (V : Valuation τ sig (Elt F)) : after ops V (main_arg24 : DevRef τ sig) = V (main_arg24 : DevRef τ sig) :=
  keep V main_arg24 (by decide) (by decide) (by decide) (by decide) (by decide)
theorem arg25_eq (V : Valuation τ sig (Elt F)) : after ops V (main_arg25 : DevRef τ sig) = V (main_arg25 : DevRef τ sig) :=
  keep V main_arg25 (by decide) (by decide) (by decide) (by decide) (by decide)
theorem arg26_eq (V : Valuation τ sig (Elt F)) : after ops V (main_arg26 : DevRef τ sig) = V (main_arg26 : DevRef τ sig) :=
  keep V main_arg26 (by decide) (by decide) (by decide) (by decide) (by decide)
theorem arg27_eq (V : Valuation τ sig (Elt F)) : after ops V (main_arg27 : DevRef τ sig) = V (main_arg27 : DevRef τ sig) :=
  keep V main_arg27 (by decide) (by decide) (by decide) (by decide) (by decide)
theorem arg28_eq (V : Valuation τ sig (Elt F)) : after ops V (main_arg28 : DevRef τ sig) = V (main_arg28 : DevRef τ sig) :=
  keep V main_arg28 (by decide) (by decide) (by decide) (by decide) (by decide)

end Cert.ReferenceIdeal.RefRun

end
-- ==== Proof.ReferenceIdeal.Value.Segs.lean ====
/- The 292 operations of the reference program's @main cut again, at the ends of its ten stages: per layer, the four edge types'
   message stages (each ending at the running sum it extends) and the normalisation stage. The cut is the same list; for each
   segment, the buffers it writes and that a buffer it does not write keeps its contents through it. -/
import proofs.«145608_j2035814499086_1_alg».proof.Proof.ReferenceIdeal.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 1: operations 1 … 27 of 292, ending at `main_v22`. -/
abbrev seg1 : List (HloOp τ sig (Elt F)) :=
  [ StableHlo.unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v0 main_v1 rfl shapeCasts_S1x524288_S524288,
    StableHlo.unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v2 main_v3 rfl shapeCasts_S1x524288_S524288,
    StableHlo.binary main_arg0 main_arg9 main_v4 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c (constantI S_ 32 0#32),
    StableHlo.unary main_c main_v5 (broadcastInDim S524288 ![] bcast_S_S524288 : (⟨S_, .i32⟩ : BufTy).Contents (Elt F) → (⟨S524288, .i32⟩ : BufTy).Contents (Elt F)),
    StableHlo.binary main_v1 main_v5 main_v6 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 131072#32),
    StableHlo.unary main_c_0 main_v7 (broadcastInDim S524288 ![] bcast_S_S524288 : (⟨S_, .i32⟩ : BufTy).Contents (Elt F) → (⟨S524288, .i32⟩ : BufTy).Contents (Elt F)),
    StableHlo.binary main_v1 main_v7 main_v8 (addi : (⟨S524288, .i32⟩ : BufTy).Contents (Elt F) → (⟨S524288, .i32⟩ : BufTy).Contents (Elt F) → (⟨S524288, .i32⟩ : BufTy).Contents (Elt F)),
    StableHlo.ternary main_v6 main_v8 main_v1 main_v9 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v9 main_v10 (broadcastInDim S524288x1 ![0] bcast_S524288_S524288x1_0 : (⟨S524288, .i32⟩ : BufTy).Contents (Elt F) → (⟨S524288x1, .i32⟩ : BufTy).Contents (Elt F)),
    StableHlo.binary main_v4 main_v10 main_v11 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg5 main_v12 (broadcastInDim S524288x1 ![0] bcast_S524288_S524288x1_0 : (⟨S524288, .f32⟩ : BufTy).Contents (Elt F) → (⟨S524288x1, .f32⟩ : BufTy).Contents (Elt F)),
    StableHlo.unary main_v12 main_v13 (broadcastInDim S524288x128 ![0, 1] bcast_S524288x1_S524288x128_0_1 : (⟨S524288x1, .f32⟩ : BufTy).Contents (Elt F) → (⟨S524288x128, .f32⟩ : BufTy).Contents (Elt F)),
    StableHlo.binary main_v11 main_v13 main_v14 (mulf : (⟨S524288x128, .f32⟩ : BufTy).Contents (Elt F) → (⟨S524288x128, .f32⟩ : BufTy).Contents (Elt F) → (⟨S524288x128, .f32⟩ : BufTy).Contents (Elt F)),
    StableHlo.nullary main_cst (constant S_ .f32 0x00000000#32),
    StableHlo.unary main_cst main_v15 (broadcastInDim S131072x128 ![] bcast_S_S131072x128 : (⟨S_, .f32⟩ : BufTy).Contents (Elt F) → (⟨S131072x128, .f32⟩ : BufTy).Contents (Elt F)),
    StableHlo.unary main_v3 main_v16 (broadcastInDim S524288x1 ![0] bcast_S524288_S524288x1_0 : (⟨S524288, .i32⟩ : BufTy).Contents (Elt F) → (⟨S524288x1, .i32⟩ : BufTy).Contents (Elt F)),
    StableHlo.ternary main_v15 main_v16 main_v14 main_v17 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg10 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S131072x128 ![0, 1] bcast_S1x128_S131072x128_0_1 : (⟨S1x128, .f32⟩ : BufTy).Contents (Elt F) → (⟨S131072x128, .f32⟩ : BufTy).Contents (Elt F)),
    StableHlo.binary main_v17 main_v19 main_v20 (addf : (⟨S131072x128, .f32⟩ : BufTy).Contents (Elt F) → (⟨S131072x128, .f32⟩ : BufTy).Contents (Elt F) → (⟨S131072x128, .f32⟩ : BufTy).Contents (Elt F)),
    StableHlo.nullary main_cst_1 (constant S_ .f32 0x00000000#32),
    StableHlo.unary main_cst_1 main_v21 (broadcastInDim S131072x128 ![] bcast_S_S131072x128 : (⟨S_, .f32⟩ : BufTy).Contents (Elt F) → (⟨S131072x128, .f32⟩ : BufTy).Contents (Elt F)),
    StableHlo.binary main_v21 main_v20 main_v22 (addf : (⟨S131072x128, .f32⟩ : BufTy).Contents (Elt F) → (⟨S131072x128, .f32⟩ : BufTy).Contents (Elt F) → (⟨S131072x128, .f32⟩ : BufTy).Contents (Elt F)) ]

/-- Stage 2: operations 28 … 52 of 292, ending at `main_v44`. -/
abbrev seg2 : List (HloOp τ sig (Elt F)) :=
  [ StableHlo.unary main_arg2 main_v23 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v23 main_v24 rfl shapeCasts_S1x524288_S524288,
    StableHlo.unary main_arg2 main_v25 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v25 main_v26 rfl shapeCasts_S1x524288_S524288,
    StableHlo.binary main_arg0 main_arg13 main_v27 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_2 (constantI S_ 32 0#32),
    StableHlo.unary main_c_2 main_v28 (broadcastInDim S524288 ![] bcast_S_S524288 : (⟨S_, .i32⟩ : BufTy).Contents (Elt F) → (⟨S524288, .i32⟩ : BufTy).Contents (Elt F)),
    StableHlo.binary main_v24 main_v28 main_v29 (cmpi .slt : (⟨S524288, .i32⟩ : BufTy).Contents (Elt F) → (⟨S524288, .i32⟩ : BufTy).Contents (Elt F) → (⟨S524288, .i1⟩ : BufTy).Contents (Elt F)),
    StableHlo.nullary main_c_3 (constantI S_ 32 131072#32),
    StableHlo.unary main_c_3 main_v30 (broadcastInDim S524288 ![] bcast_S_S524288 : (⟨S_, .i32⟩ : BufTy).Contents (Elt F) → (⟨S524288, .i32⟩ : BufTy).Contents (Elt F)),
    StableHlo.binary main_v24 main_v30 main_v31 (addi : (⟨S524288, .i32⟩ : BufTy).Contents (Elt F) → (⟨S524288, .i32⟩ : BufTy).Contents (Elt F) → (⟨S524288, .i32⟩ : BufTy).Contents (Elt F)),
    StableHlo.ternary main_v29 main_v31 main_v24 main_v32 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v32 main_v33 (broadcastInDim S524288x1 ![0] bcast_S524288_S524288x1_0 : (⟨S524288, .i32⟩ : BufTy).Contents (Elt F) → (⟨S524288x1, .i32⟩ : BufTy).Contents (Elt F)),
    StableHlo.binary main_v27 main_v33 main_v34 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg6 main_v35 (broadcastInDim S524288x1 ![0] bcast_S524288_S524288x1_0 : (⟨S524288, .f32⟩ : BufTy).Contents (Elt F) → (⟨S524288x1, .f32⟩ : BufTy).Contents (Elt F)),
    StableHlo.unary main_v35 main_v36 (broadcastInDim S524288x128 ![0, 1] bcast_S524288x1_S524288x128_0_1 : (⟨S524288x1, .f32⟩ : BufTy).Contents (Elt F) → (⟨S524288x128, .f32⟩ : BufTy).Contents (Elt F)),
    StableHlo.binary main_v34 main_v36 main_v37 (mulf : (⟨S524288x128, .f32⟩ : BufTy).Contents (Elt F) → (⟨S524288x128, .f32⟩ : BufTy).Contents (Elt F) → (⟨S524288x128, .f32⟩ : BufTy).Contents (Elt F)),
    StableHlo.nullary main_cst_4 (constant S_ .f32 0x00000000#32),
    StableHlo.unary main_cst_4 main_v38 (broadcastInDim S131072x128 ![] bcast_S_S131072x128 : (⟨S_, .f32⟩ : BufTy).Contents (Elt F) → (⟨S131072x128, .f32⟩ : BufTy).Contents (Elt F)),
    StableHlo.unary main_v26 main_v39 (broadcastInDim S524288x1 ![0] bcast_S524288_S524288x1_0 : (⟨S524288, .i32⟩ : BufTy).Contents (Elt F) → (⟨S524288x1, .i32⟩ : BufTy).Contents (Elt F)),
    StableHlo.ternary main_v38 main_v39 main_v37 main_v40 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg14 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S131072x128 ![0, 1] bcast_S1x128_S131072x128_0_1 : (⟨S1x128, .f32⟩ : BufTy).Contents (Elt F) → (⟨S131072x128, .f32⟩ : BufTy).Contents (Elt F)),
    StableHlo.binary main_v40 main_v42 main_v43 (addf : (⟨S131072x128, .f32⟩ : BufTy).Contents (Elt F) → (⟨S131072x128, .f32⟩ : BufTy).Contents (Elt F) → (⟨S131072x128, .f32⟩ : BufTy).Contents (Elt F)),
    StableHlo.binary main_v22 main_v43 main_v44 (addf : (⟨S131072x128, .f32⟩ : BufTy).Contents (Elt F) → (⟨S131072x128, .f32⟩ : BufTy).Contents (Elt F) → (⟨S131072x128, .f32⟩ : BufTy).Contents (Elt F)) ]

/-- Stage 3: operations 53 … 77 of 292, ending at `main_v66`. -/
abbrev seg3 : List (HloOp τ sig (Elt F)) :=
  [ StableHlo.unary main_arg3 main_v45 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v45 main_v46 rfl shapeCasts_S1x524288_S524288,
    StableHlo.unary main_arg3 main_v47 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v47 main_v48 rfl shapeCasts_S1x524288_S524288,
    StableHlo.binary main_arg0 main_arg17 main_v49 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_5 (constantI S_ 32 0#32),
    StableHlo.unary main_c_5 main_v50 (broadcastInDim S524288 ![] bcast_S_S524288 : (⟨S_, .i32⟩ : BufTy).Contents (Elt F) → (⟨S524288, .i32⟩ : BufTy).Contents (Elt F)),
    StableHlo.binary main_v46 main_v50 main_v51 (cmpi .slt : (⟨S524288, .i32⟩ : BufTy).Contents (Elt F) → (⟨S524288, .i32⟩ : BufTy).Contents (Elt F) → (⟨S524288, .i1⟩ : BufTy).Contents (Elt F)),
    StableHlo.nullary main_c_6 (constantI S_ 32 131072#32),
    StableHlo.unary main_c_6 main_v52 (broadcastInDim S524288 ![] bcast_S_S524288 : (⟨S_, .i32⟩ : BufTy).Contents (Elt F) → (⟨S524288, .i32⟩ : BufTy).Contents (Elt F)),
    StableHlo.binary main_v46 main_v52 main_v53 (addi : (⟨S524288, .i32⟩ : BufTy).Contents (Elt F) → (⟨S524288, .i32⟩ : BufTy).Contents (Elt F) → (⟨S524288, .i32⟩ : BufTy).Contents (Elt F)),
    StableHlo.ternary main_v51 main_v53 main_v46 main_v54 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v54 main_v55 (broadcastInDim S524288x1 ![0] bcast_S524288_S524288x1_0 : (⟨S524288, .i32⟩ : BufTy).Contents (Elt F) → (⟨S524288x1, .i32⟩ : BufTy).Contents (Elt F)),
    StableHlo.binary main_v49 main_v55 main_v56 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg7 main_v57 (broadcastInDim S524288x1 ![0] bcast_S524288_S524288x1_0 : (⟨S524288, .f32⟩ : BufTy).Contents (Elt F) → (⟨S524288x1, .f32⟩ : BufTy).Contents (Elt F)),
    StableHlo.unary main_v57 main_v58 (broadcastInDim S524288x128 ![0, 1] bcast_S524288x1_S524288x128_0_1 : (⟨S524288x1, .f32⟩ : BufTy).Contents (Elt F) → (⟨S524288x128, .f32⟩ : BufTy).Contents (Elt F)),
    StableHlo.binary main_v56 main_v58 main_v59 (mulf : (⟨S524288x128, .f32⟩ : BufTy).Contents (Elt F) → (⟨S524288x128, .f32⟩ : BufTy).Contents (Elt F) → (⟨S524288x128, .f32⟩ : BufTy).Contents (Elt F)),
    StableHlo.nullary main_cst_7 (constant S_ .f32 0x00000000#32),
    StableHlo.unary main_cst_7 main_v60 (broadcastInDim S131072x128 ![] bcast_S_S131072x128 : (⟨S_, .f32⟩ : BufTy).Contents (Elt F) → (⟨S131072x128, .f32⟩ : BufTy).Contents (Elt F)),
    StableHlo.unary main_v48 main_v61 (broadcastInDim S524288x1 ![0] bcast_S524288_S524288x1_0 : (⟨S524288, .i32⟩ : BufTy).Contents (Elt F) → (⟨S524288x1, .i32⟩ : BufTy).Contents (Elt F)),
    StableHlo.ternary main_v60 main_v61 main_v59 main_v62 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg18 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S131072x128 ![0, 1] bcast_S1x128_S131072x128_0_1 : (⟨S1x128, .f32⟩ : BufTy).Contents (Elt F) → (⟨S131072x128, .f32⟩ : BufTy).Contents (Elt F)),
    StableHlo.binary main_v62 main_v64 main_v65 (addf : (⟨S131072x128, .f32⟩ : BufTy).Contents (Elt F) → (⟨S131072x128, .f32⟩ : BufTy).Contents (Elt F) → (⟨S131072x128, .f32⟩ : BufTy).Contents (Elt F)),
    StableHlo.binary main_v44 main_v65 main_v66 (addf : (⟨S131072x128, .f32⟩ : BufTy).Contents (Elt F) → (⟨S131072x128, .f32⟩ : BufTy).Contents (Elt F) → (⟨S131072x128, .f32⟩ : BufTy).Contents (Elt F)) ]

/-- Stage 4: operations 78 … 102 of 292, ending at `main_v88`. -/
abbrev seg4 : List (HloOp τ sig (Elt F)) :=
  [ StableHlo.unary main_arg4 main_v67 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v67 main_v68 rfl shapeCasts_S1x524288_S524288,
    StableHlo.unary main_arg4 main_v69 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v69 main_v70 rfl shapeCasts_S1x524288_S524288,
    StableHlo.binary main_arg0 main_arg21 main_v71 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_8 (constantI S_ 32 0#32),
    StableHlo.unary main_c_8 main_v72 (broadcastInDim S524288 ![] bcast_S_S524288 : (⟨S_, .i32⟩ : BufTy).Contents (Elt F) → (⟨S524288, .i32⟩ : BufTy).Contents (Elt F)),
    StableHlo.binary main_v68 main_v72 main_v73 (cmpi .slt : (⟨S524288, .i32⟩ : BufTy).Contents (Elt F) → (⟨S524288, .i32⟩ : BufTy).Contents (Elt F) → (⟨S524288, .i1⟩ : BufTy).Contents (Elt F)),
    StableHlo.nullary main_c_9 (constantI S_ 32 131072#32),
    StableHlo.unary main_c_9 main_v74 (broadcastInDim S524288 ![] bcast_S_S524288 : (⟨S_, .i32⟩ : BufTy).Contents (Elt F) → (⟨S524288, .i32⟩ : BufTy).Contents (Elt F)),
    StableHlo.binary main_v68 main_v74 main_v75 (addi : (⟨S524288, .i32⟩ : BufTy).Contents (Elt F) → (⟨S524288, .i32⟩ : BufTy).Contents (Elt F) → (⟨S524288, .i32⟩ : BufTy).Contents (Elt F)),
    StableHlo.ternary main_v73 main_v75 main_v68 main_v76 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v76 main_v77 (broadcastInDim S524288x1 ![0] bcast_S524288_S524288x1_0 : (⟨S524288, .i32⟩ : BufTy).Contents (Elt F) → (⟨S524288x1, .i32⟩ : BufTy).Contents (Elt F)),
    StableHlo.binary main_v71 main_v77 main_v78 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg8 main_v79 (broadcastInDim S524288x1 ![0] bcast_S524288_S524288x1_0 : (⟨S524288, .f32⟩ : BufTy).Contents (Elt F) → (⟨S524288x1, .f32⟩ : BufTy).Contents (Elt F)),
    StableHlo.unary main_v79 main_v80 (broadcastInDim S524288x128 ![0, 1] bcast_S524288x1_S524288x128_0_1 : (⟨S524288x1, .f32⟩ : BufTy).Contents (Elt F) → (⟨S524288x128, .f32⟩ : BufTy).Contents (Elt F)),
    StableHlo.binary main_v78 main_v80 main_v81 (mulf : (⟨S524288x128, .f32⟩ : BufTy).Contents (Elt F) → (⟨S524288x128, .f32⟩ : BufTy).Contents (Elt F) → (⟨S524288x128, .f32⟩ : BufTy).Contents (Elt F)),
    StableHlo.nullary main_cst_10 (constant S_ .f32 0x00000000#32),
    StableHlo.unary main_cst_10 main_v82 (broadcastInDim S131072x128 ![] bcast_S_S131072x128 : (⟨S_, .f32⟩ : BufTy).Contents (Elt F) → (⟨S131072x128, .f32⟩ : BufTy).Contents (Elt F)),
    StableHlo.unary main_v70 main_v83 (broadcastInDim S524288x1 ![0] bcast_S524288_S524288x1_0 : (⟨S524288, .i32⟩ : BufTy).Contents (Elt F) → (⟨S524288x1, .i32⟩ : BufTy).Contents (Elt F)),
    StableHlo.ternary main_v82 main_v83 main_v81 main_v84 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg22 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S131072x128 ![0, 1] bcast_S1x128_S131072x128_0_1 : (⟨S1x128, .f32⟩ : BufTy).Contents (Elt F) → (⟨S131072x128, .f32⟩ : BufTy).Contents (Elt F)),
    StableHlo.binary main_v84 main_v86 main_v87 (addf : (⟨S131072x128, .f32⟩ : BufTy).Contents (Elt F) → (⟨S131072x128, .f32⟩ : BufTy).Contents (Elt F) → (⟨S131072x128, .f32⟩ : BufTy).Contents (Elt F)),
    StableHlo.binary main_v66 main_v87 main_v88 (addf : (⟨S131072x128, .f32⟩ : BufTy).Contents (Elt F) → (⟨S131072x128, .f32⟩ : BufTy).Contents (Elt F) → (⟨S131072x128, .f32⟩ : BufTy).Contents (Elt F)) ]

/-- Stage 5: operations 103 … 146 of 292, ending at `main_v106`. -/
abbrev seg5 : List (HloOp τ sig (Elt F)) :=
  [ StableHlo.nullary main_cst_11 (constant S_ .f32 0x00000000#32),
    StableHlo.binary main_v88 main_cst_11 main_v89 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    StableHlo.unary main_v89 main_v90 (broadcastInDim S131072x1 ![0] bcast_S131072_S131072x1_0 : (⟨S131072, .f32⟩ : BufTy).Contents (Elt F) → (⟨S131072x1, .f32⟩ : BufTy).Contents (Elt F)),
    StableHlo.nullary main_cst_12 (constant S_ .f32 0x43000000#32),
    StableHlo.unary main_cst_12 main_v91 (broadcastInDim S131072x1 ![] bcast_S_S131072x1 : (⟨S_, .f32⟩ : BufTy).Contents (Elt F) → (⟨S131072x1, .f32⟩ : BufTy).Contents (Elt F)),
    StableHlo.binary main_v90 main_v91 main_v92 (Host.divf : (⟨S131072x1, .f32⟩ : BufTy).Contents (Elt F) → (⟨S131072x1, .f32⟩ : BufTy).Contents (Elt F) → (⟨S131072x1, .f32⟩ : BufTy).Contents (Elt F)),
    StableHlo.nullary main_c_13 (constantI S_ 32 0#32),
    StableHlo.TRef.nullary main_call0.cst (constant S_ .f32 0x00000000#32),
    StableHlo.TRef.binary (.of main_v88) main_call0.cst main_call0.v0 (fun x v => Host.reduceAdd x v reducesTo_S131072x128_S131072_d1 h_S_),
    StableHlo.TRef.unary main_call0.v0 main_call0.v1 (broadcastInDim S131072x1 ![0] bcast_S131072_S131072x1_0),
    StableHlo.TRef.nullary main_call0.cst_0 (constant S_ .f32 0x43000000#32),
    StableHlo.TRef.unary main_call0.cst_0 main_call0.v2 (broadcastInDim S131072x1 ![] bcast_S_S131072x1),
    StableHlo.TRef.binary main_call0.v1 main_call0.v2 main_call0.v3 Host.divf,
    StableHlo.TRef.unary main_call0.v3 main_call0.v4 (broadcastInDim S131072x128 ![0, 1] bcast_S131072x1_S131072x128_0_1),
    StableHlo.TRef.binary (.of main_v88) main_call0.v4 main_call0.v5 subf,
    StableHlo.TRef.binary main_call0.v5 main_call0.v5 main_call0.v6 mulf,
    StableHlo.TRef.unary (.of main_c_13) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S131072x128_S131072_d1 h_S_),
    StableHlo.TRef.unary main_call0.v9 main_call0.v10 (broadcastInDim S131072x1 ![0] bcast_S131072_S131072x1_0),
    StableHlo.TRef.unary main_call0.v8 main_call0.v11 (broadcastInDim S131072x1 ![] bcast_S_S131072x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S131072x1 ![] bcast_S_S131072x1),
    StableHlo.TRef.ternary main_call0.v13 main_call0.v12 main_call0.call0.v1 main_call0.call0.v2 (fun p a b => select (broadcastInDim S131072x1 ![] bcast_S_S131072x1 p) a b),
    StableHlo.unary main_v92 main_v94 (broadcastInDim S131072x128 ![0, 1] bcast_S131072x1_S131072x128_0_1 : (⟨S131072x1, .f32⟩ : BufTy).Contents (Elt F) → (⟨S131072x128, .f32⟩ : BufTy).Contents (Elt F)),
    StableHlo.binary main_v88 main_v94 main_v95 (subf : (⟨S131072x128, .f32⟩ : BufTy).Contents (Elt F) → (⟨S131072x128, .f32⟩ : BufTy).Contents (Elt F) → (⟨S131072x128, .f32⟩ : BufTy).Contents (Elt F)),
    StableHlo.nullary main_cst_14 (constant S_ .f32 0x3727C5AC#32),
    StableHlo.unary main_cst_14 main_v96 (broadcastInDim S131072x1 ![] bcast_S_S131072x1 : (⟨S_, .f32⟩ : BufTy).Contents (Elt F) → (⟨S131072x1, .f32⟩ : BufTy).Contents (Elt F)),
    StableHlo.binary main_v93 main_v96 main_v97 (addf : (⟨S131072x1, .f32⟩ : BufTy).Contents (Elt F) → (⟨S131072x1, .f32⟩ : BufTy).Contents (Elt F) → (⟨S131072x1, .f32⟩ : BufTy).Contents (Elt F)),
    StableHlo.unary main_v97 main_v98 (Host.rsqrt : (⟨S131072x1, .f32⟩ : BufTy).Contents (Elt F) → (⟨S131072x1, .f32⟩ : BufTy).Contents (Elt F)),
    StableHlo.unary main_v98 main_v99 (broadcastInDim S131072x128 ![0, 1] bcast_S131072x1_S131072x128_0_1 : (⟨S131072x1, .f32⟩ : BufTy).Contents (Elt F) → (⟨S131072x128, .f32⟩ : BufTy).Contents (Elt F)),
    StableHlo.binary main_v95 main_v99 main_v100 (mulf : (⟨S131072x128, .f32⟩ : BufTy).Contents (Elt F) → (⟨S131072x128, .f32⟩ : BufTy).Contents (Elt F) → (⟨S131072x128, .f32⟩ : BufTy).Contents (Elt F)),
    StableHlo.unary main_arg25 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S131072x128 ![0, 1] bcast_S1x128_S131072x128_0_1 : (⟨S1x128, .f32⟩ : BufTy).Contents (Elt F) → (⟨S131072x128, .f32⟩ : BufTy).Contents (Elt F)),
    StableHlo.binary main_v100 main_v102 main_v103 (mulf : (⟨S131072x128, .f32⟩ : BufTy).Contents (Elt F) → (⟨S131072x128, .f32⟩ : BufTy).Contents (Elt F) → (⟨S131072x128, .f32⟩ : BufTy).Contents (Elt F)),
    StableHlo.unary main_arg26 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S131072x128 ![0, 1] bcast_S1x128_S131072x128_0_1 : (⟨S1x128, .f32⟩ : BufTy).Contents (Elt F) → (⟨S131072x128, .f32⟩ : BufTy).Contents (Elt F)),
    StableHlo.binary main_v103 main_v105 main_v106 (addf : (⟨S131072x128, .f32⟩ : BufTy).Contents (Elt F) → (⟨S131072x128, .f32⟩ : BufTy).Contents (Elt F) → (⟨S131072x128, .f32⟩ : BufTy).Contents (Elt F)) ]

/-- Stage 6: operations 147 … 173 of 292, ending at `main_v129`. -/
abbrev seg6 : List (HloOp τ sig (Elt F)) :=
  [ StableHlo.unary main_arg1 main_v107 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v107 main_v108 rfl shapeCasts_S1x524288_S524288,
    StableHlo.unary main_arg1 main_v109 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v109 main_v110 rfl shapeCasts_S1x524288_S524288,
    StableHlo.binary main_v106 main_arg11 main_v111 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_15 (constantI S_ 32 0#32),
    StableHlo.unary main_c_15 main_v112 (broadcastInDim S524288 ![] bcast_S_S524288 : (⟨S_, .i32⟩ : BufTy).Contents (Elt F) → (⟨S524288, .i32⟩ : BufTy).Contents (Elt F)),
    StableHlo.binary main_v108 main_v112 main_v113 (cmpi .slt : (⟨S524288, .i32⟩ : BufTy).Contents (Elt F) → (⟨S524288, .i32⟩ : BufTy).Contents (Elt F) → (⟨S524288, .i1⟩ : BufTy).Contents (Elt F)),
    StableHlo.nullary main_c_16 (constantI S_ 32 131072#32),
    StableHlo.unary main_c_16 main_v114 (broadcastInDim S524288 ![] bcast_S_S524288 : (⟨S_, .i32⟩ : BufTy).Contents (Elt F) → (⟨S524288, .i32⟩ : BufTy).Contents (Elt F)),
    StableHlo.binary main_v108 main_v114 main_v115 (addi : (⟨S524288, .i32⟩ : BufTy).Contents (Elt F) → (⟨S524288, .i32⟩ : BufTy).Contents (Elt F) → (⟨S524288, .i32⟩ : BufTy).Contents (Elt F)),
    StableHlo.ternary main_v113 main_v115 main_v108 main_v116 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v116 main_v117 (broadcastInDim S524288x1 ![0] bcast_S524288_S524288x1_0 : (⟨S524288, .i32⟩ : BufTy).Contents (Elt F) → (⟨S524288x1, .i32⟩ : BufTy).Contents (Elt F)),
    StableHlo.binary main_v111 main_v117 main_v118 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg5 main_v119 (broadcastInDim S524288x1 ![0] bcast_S524288_S524288x1_0 : (⟨S524288, .f32⟩ : BufTy).Contents (Elt F) → (⟨S524288x1, .f32⟩ : BufTy).Contents (Elt F)),
    StableHlo.unary main_v119 main_v120 (broadcastInDim S524288x128 ![0, 1] bcast_S524288x1_S524288x128_0_1 : (⟨S524288x1, .f32⟩ : BufTy).Contents (Elt F) → (⟨S524288x128, .f32⟩ : BufTy).Contents (Elt F)),
    StableHlo.binary main_v118 main_v120 main_v121 (mulf : (⟨S524288x128, .f32⟩ : BufTy).Contents (Elt F) → (⟨S524288x128, .f32⟩ : BufTy).Contents (Elt F) → (⟨S524288x128, .f32⟩ : BufTy).Contents (Elt F)),
    StableHlo.nullary main_cst_17 (constant S_ .f32 0x00000000#32),
    StableHlo.unary main_cst_17 main_v122 (broadcastInDim S131072x128 ![] bcast_S_S131072x128 : (⟨S_, .f32⟩ : BufTy).Contents (Elt F) → (⟨S131072x128, .f32⟩ : BufTy).Contents (Elt F)),
    StableHlo.unary main_v110 main_v123 (broadcastInDim S524288x1 ![0] bcast_S524288_S524288x1_0 : (⟨S524288, .i32⟩ : BufTy).Contents (Elt F) → (⟨S524288x1, .i32⟩ : BufTy).Contents (Elt F)),
    StableHlo.ternary main_v122 main_v123 main_v121 main_v124 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg12 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S131072x128 ![0, 1] bcast_S1x128_S131072x128_0_1 : (⟨S1x128, .f32⟩ : BufTy).Contents (Elt F) → (⟨S131072x128, .f32⟩ : BufTy).Contents (Elt F)),
    StableHlo.binary main_v124 main_v126 main_v127 (addf : (⟨S131072x128, .f32⟩ : BufTy).Contents (Elt F) → (⟨S131072x128, .f32⟩ : BufTy).Contents (Elt F) → (⟨S131072x128, .f32⟩ : BufTy).Contents (Elt F)),
    StableHlo.nullary main_cst_18 (constant S_ .f32 0x00000000#32),
    StableHlo.unary main_cst_18 main_v128 (broadcastInDim S131072x128 ![] bcast_S_S131072x128 : (⟨S_, .f32⟩ : BufTy).Contents (Elt F) → (⟨S131072x128, .f32⟩ : BufTy).Contents (Elt F)),
    StableHlo.binary main_v128 main_v127 main_v129 (addf : (⟨S131072x128, .f32⟩ : BufTy).Contents (Elt F) → (⟨S131072x128, .f32⟩ : BufTy).Contents (Elt F) → (⟨S131072x128, .f32⟩ : BufTy).Contents (Elt F)) ]

/-- Stage 7: operations 174 … 198 of 292, ending at `main_v151`. -/
abbrev seg7 : List (HloOp τ sig (Elt F)) :=
  [ StableHlo.unary main_arg2 main_v130 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v130 main_v131 rfl shapeCasts_S1x524288_S524288,
    StableHlo.unary main_arg2 main_v132 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v132 main_v133 rfl shapeCasts_S1x524288_S524288,
    StableHlo.binary main_v106 main_arg15 main_v134 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_19 (constantI S_ 32 0#32),
    StableHlo.unary main_c_19 main_v135 (broadcastInDim S524288 ![] bcast_S_S524288 : (⟨S_, .i32⟩ : BufTy).Contents (Elt F) → (⟨S524288, .i32⟩ : BufTy).Contents (Elt F)),
    StableHlo.binary main_v131 main_v135 main_v136 (cmpi .slt : (⟨S524288, .i32⟩ : BufTy).Contents (Elt F) → (⟨S524288, .i32⟩ : BufTy).Contents (Elt F) → (⟨S524288, .i1⟩ : BufTy).Contents (Elt F)),
    StableHlo.nullary main_c_20 (constantI S_ 32 131072#32),
    StableHlo.unary main_c_20 main_v137 (broadcastInDim S524288 ![] bcast_S_S524288 : (⟨S_, .i32⟩ : BufTy).Contents (Elt F) → (⟨S524288, .i32⟩ : BufTy).Contents (Elt F)),
    StableHlo.binary main_v131 main_v137 main_v138 (addi : (⟨S524288, .i32⟩ : BufTy).Contents (Elt F) → (⟨S524288, .i32⟩ : BufTy).Contents (Elt F) → (⟨S524288, .i32⟩ : BufTy).Contents (Elt F)),
    StableHlo.ternary main_v136 main_v138 main_v131 main_v139 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v139 main_v140 (broadcastInDim S524288x1 ![0] bcast_S524288_S524288x1_0 : (⟨S524288, .i32⟩ : BufTy).Contents (Elt F) → (⟨S524288x1, .i32⟩ : BufTy).Contents (Elt F)),
    StableHlo.binary main_v134 main_v140 main_v141 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg6 main_v142 (broadcastInDim S524288x1 ![0] bcast_S524288_S524288x1_0 : (⟨S524288, .f32⟩ : BufTy).Contents (Elt F) → (⟨S524288x1, .f32⟩ : BufTy).Contents (Elt F)),
    StableHlo.unary main_v142 main_v143 (broadcastInDim S524288x128 ![0, 1] bcast_S524288x1_S524288x128_0_1 : (⟨S524288x1, .f32⟩ : BufTy).Contents (Elt F) → (⟨S524288x128, .f32⟩ : BufTy).Contents (Elt F)),
    StableHlo.binary main_v141 main_v143 main_v144 (mulf : (⟨S524288x128, .f32⟩ : BufTy).Contents (Elt F) → (⟨S524288x128, .f32⟩ : BufTy).Contents (Elt F) → (⟨S524288x128, .f32⟩ : BufTy).Contents (Elt F)),
    StableHlo.nullary main_cst_21 (constant S_ .f32 0x00000000#32),
    StableHlo.unary main_cst_21 main_v145 (broadcastInDim S131072x128 ![] bcast_S_S131072x128 : (⟨S_, .f32⟩ : BufTy).Contents (Elt F) → (⟨S131072x128, .f32⟩ : BufTy).Contents (Elt F)),
    StableHlo.unary main_v133 main_v146 (broadcastInDim S524288x1 ![0] bcast_S524288_S524288x1_0 : (⟨S524288, .i32⟩ : BufTy).Contents (Elt F) → (⟨S524288x1, .i32⟩ : BufTy).Contents (Elt F)),
    StableHlo.ternary main_v145 main_v146 main_v144 main_v147 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg16 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S131072x128 ![0, 1] bcast_S1x128_S131072x128_0_1 : (⟨S1x128, .f32⟩ : BufTy).Contents (Elt F) → (⟨S131072x128, .f32⟩ : BufTy).Contents (Elt F)),
    StableHlo.binary main_v147 main_v149 main_v150 (addf : (⟨S131072x128, .f32⟩ : BufTy).Contents (Elt F) → (⟨S131072x128, .f32⟩ : BufTy).Contents (Elt F) → (⟨S131072x128, .f32⟩ : BufTy).Contents (Elt F)),
    StableHlo.binary main_v129 main_v150 main_v151 (addf : (⟨S131072x128, .f32⟩ : BufTy).Contents (Elt F) → (⟨S131072x128, .f32⟩ : BufTy).Contents (Elt F) → (⟨S131072x128, .f32⟩ : BufTy).Contents (Elt F)) ]

/-- Stage 8: operations 199 … 223 of 292, ending at `main_v173`. -/
abbrev seg8 : List (HloOp τ sig (Elt F)) :=
  [ StableHlo.unary main_arg3 main_v152 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v152 main_v153 rfl shapeCasts_S1x524288_S524288,
    StableHlo.unary main_arg3 main_v154 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v154 main_v155 rfl shapeCasts_S1x524288_S524288,
    StableHlo.binary main_v106 main_arg19 main_v156 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_22 (constantI S_ 32 0#32),
    StableHlo.unary main_c_22 main_v157 (broadcastInDim S524288 ![] bcast_S_S524288 : (⟨S_, .i32⟩ : BufTy).Contents (Elt F) → (⟨S524288, .i32⟩ : BufTy).Contents (Elt F)),
    StableHlo.binary main_v153 main_v157 main_v158 (cmpi .slt : (⟨S524288, .i32⟩ : BufTy).Contents (Elt F) → (⟨S524288, .i32⟩ : BufTy).Contents (Elt F) → (⟨S524288, .i1⟩ : BufTy).Contents (Elt F)),
    StableHlo.nullary main_c_23 (constantI S_ 32 131072#32),
    StableHlo.unary main_c_23 main_v159 (broadcastInDim S524288 ![] bcast_S_S524288 : (⟨S_, .i32⟩ : BufTy).Contents (Elt F) → (⟨S524288, .i32⟩ : BufTy).Contents (Elt F)),
    StableHlo.binary main_v153 main_v159 main_v160 (addi : (⟨S524288, .i32⟩ : BufTy).Contents (Elt F) → (⟨S524288, .i32⟩ : BufTy).Contents (Elt F) → (⟨S524288, .i32⟩ : BufTy).Contents (Elt F)),
    StableHlo.ternary main_v158 main_v160 main_v153 main_v161 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v161 main_v162 (broadcastInDim S524288x1 ![0] bcast_S524288_S524288x1_0 : (⟨S524288, .i32⟩ : BufTy).Contents (Elt F) → (⟨S524288x1, .i32⟩ : BufTy).Contents (Elt F)),
    StableHlo.binary main_v156 main_v162 main_v163 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg7 main_v164 (broadcastInDim S524288x1 ![0] bcast_S524288_S524288x1_0 : (⟨S524288, .f32⟩ : BufTy).Contents (Elt F) → (⟨S524288x1, .f32⟩ : BufTy).Contents (Elt F)),
    StableHlo.unary main_v164 main_v165 (broadcastInDim S524288x128 ![0, 1] bcast_S524288x1_S524288x128_0_1 : (⟨S524288x1, .f32⟩ : BufTy).Contents (Elt F) → (⟨S524288x128, .f32⟩ : BufTy).Contents (Elt F)),
    StableHlo.binary main_v163 main_v165 main_v166 (mulf : (⟨S524288x128, .f32⟩ : BufTy).Contents (Elt F) → (⟨S524288x128, .f32⟩ : BufTy).Contents (Elt F) → (⟨S524288x128, .f32⟩ : BufTy).Contents (Elt F)),
    StableHlo.nullary main_cst_24 (constant S_ .f32 0x00000000#32),
    StableHlo.unary main_cst_24 main_v167 (broadcastInDim S131072x128 ![] bcast_S_S131072x128 : (⟨S_, .f32⟩ : BufTy).Contents (Elt F) → (⟨S131072x128, .f32⟩ : BufTy).Contents (Elt F)),
    StableHlo.unary main_v155 main_v168 (broadcastInDim S524288x1 ![0] bcast_S524288_S524288x1_0 : (⟨S524288, .i32⟩ : BufTy).Contents (Elt F) → (⟨S524288x1, .i32⟩ : BufTy).Contents (Elt F)),
    StableHlo.ternary main_v167 main_v168 main_v166 main_v169 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg20 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S131072x128 ![0, 1] bcast_S1x128_S131072x128_0_1 : (⟨S1x128, .f32⟩ : BufTy).Contents (Elt F) → (⟨S131072x128, .f32⟩ : BufTy).Contents (Elt F)),
    StableHlo.binary main_v169 main_v171 main_v172 (addf : (⟨S131072x128, .f32⟩ : BufTy).Contents (Elt F) → (⟨S131072x128, .f32⟩ : BufTy).Contents (Elt F) → (⟨S131072x128, .f32⟩ : BufTy).Contents (Elt F)),
    StableHlo.binary main_v151 main_v172 main_v173 (addf : (⟨S131072x128, .f32⟩ : BufTy).Contents (Elt F) → (⟨S131072x128, .f32⟩ : BufTy).Contents (Elt F) → (⟨S131072x128, .f32⟩ : BufTy).Contents (Elt F)) ]

/-- Stage 9: operations 224 … 248 of 292, ending at `main_v195`. -/
abbrev seg9 : List (HloOp τ sig (Elt F)) :=
  [ StableHlo.unary main_arg4 main_v174 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v174 main_v175 rfl shapeCasts_S1x524288_S524288,
    StableHlo.unary main_arg4 main_v176 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v176 main_v177 rfl shapeCasts_S1x524288_S524288,
    StableHlo.binary main_v106 main_arg23 main_v178 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    StableHlo.nullary main_c_25 (constantI S_ 32 0#32),
    StableHlo.unary main_c_25 main_v179 (broadcastInDim S524288 ![] bcast_S_S524288 : (⟨S_, .i32⟩ : BufTy).Contents (Elt F) → (⟨S524288, .i32⟩ : BufTy).Contents (Elt F)),
    StableHlo.binary main_v175 main_v179 main_v180 (cmpi .slt : (⟨S524288, .i32⟩ : BufTy).Contents (Elt F) → (⟨S524288, .i32⟩ : BufTy).Contents (Elt F) → (⟨S524288, .i1⟩ : BufTy).Contents (Elt F)),
    StableHlo.nullary main_c_26 (constantI S_ 32 131072#32),
    StableHlo.unary main_c_26 main_v181 (broadcastInDim S524288 ![] bcast_S_S524288 : (⟨S_, .i32⟩ : BufTy).Contents (Elt F) → (⟨S524288, .i32⟩ : BufTy).Contents (Elt F)),
    StableHlo.binary main_v175 main_v181 main_v182 (addi : (⟨S524288, .i32⟩ : BufTy).Contents (Elt F) → (⟨S524288, .i32⟩ : BufTy).Contents (Elt F) → (⟨S524288, .i32⟩ : BufTy).Contents (Elt F)),
    StableHlo.ternary main_v180 main_v182 main_v175 main_v183 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v183 main_v184 (broadcastInDim S524288x1 ![0] bcast_S524288_S524288x1_0 : (⟨S524288, .i32⟩ : BufTy).Contents (Elt F) → (⟨S524288x1, .i32⟩ : BufTy).Contents (Elt F)),
    StableHlo.binary main_v178 main_v184 main_v185 ((fun x i => Host.gather gather_S131072x128_S524288x1_S524288x128_1_0_n_n_0_1_1128 x i) : (⟨S131072x128, .f32⟩ : BufTy).Contents (Elt F) → (⟨S524288x1, .i32⟩ : BufTy).Contents (Elt F) → (⟨S524288x128, .f32⟩ : BufTy).Contents (Elt F)),
    StableHlo.unary main_arg8 main_v186 (broadcastInDim S524288x1 ![0] bcast_S524288_S524288x1_0 : (⟨S524288, .f32⟩ : BufTy).Contents (Elt F) → (⟨S524288x1, .f32⟩ : BufTy).Contents (Elt F)),
    StableHlo.unary main_v186 main_v187 (broadcastInDim S524288x128 ![0, 1] bcast_S524288x1_S524288x128_0_1 : (⟨S524288x1, .f32⟩ : BufTy).Contents (Elt F) → (⟨S524288x128, .f32⟩ : BufTy).Contents (Elt F)),
    StableHlo.binary main_v185 main_v187 main_v188 (mulf : (⟨S524288x128, .f32⟩ : BufTy).Contents (Elt F) → (⟨S524288x128, .f32⟩ : BufTy).Contents (Elt F) → (⟨S524288x128, .f32⟩ : BufTy).Contents (Elt F)),
    StableHlo.nullary main_cst_27 (constant S_ .f32 0x00000000#32),
    StableHlo.unary main_cst_27 main_v189 (broadcastInDim S131072x128 ![] bcast_S_S131072x128 : (⟨S_, .f32⟩ : BufTy).Contents (Elt F) → (⟨S131072x128, .f32⟩ : BufTy).Contents (Elt F)),
    StableHlo.unary main_v177 main_v190 (broadcastInDim S524288x1 ![0] bcast_S524288_S524288x1_0 : (⟨S524288, .i32⟩ : BufTy).Contents (Elt F) → (⟨S524288x1, .i32⟩ : BufTy).Contents (Elt F)),
    StableHlo.ternary main_v189 main_v190 main_v188 main_v191 ((fun x i u => Host.scatterAdd scatter_S131072x128_S524288x1_S524288x128_1_0_0_1 x i u) : (⟨S131072x128, .f32⟩ : BufTy).Contents (Elt F) → (⟨S524288x1, .i32⟩ : BufTy).Contents (Elt F) → (⟨S524288x128, .f32⟩ : BufTy).Contents (Elt F) → (⟨S131072x128, .f32⟩ : BufTy).Contents (Elt F)),
    StableHlo.unary main_arg24 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S131072x128 ![0, 1] bcast_S1x128_S131072x128_0_1 : (⟨S1x128, .f32⟩ : BufTy).Contents (Elt F) → (⟨S131072x128, .f32⟩ : BufTy).Contents (Elt F)),
    StableHlo.binary main_v191 main_v193 main_v194 (addf : (⟨S131072x128, .f32⟩ : BufTy).Contents (Elt F) → (⟨S131072x128, .f32⟩ : BufTy).Contents (Elt F) → (⟨S131072x128, .f32⟩ : BufTy).Contents (Elt F)),
    StableHlo.binary main_v173 main_v194 main_v195 (addf : (⟨S131072x128, .f32⟩ : BufTy).Contents (Elt F) → (⟨S131072x128, .f32⟩ : BufTy).Contents (Elt F) → (⟨S131072x128, .f32⟩ : BufTy).Contents (Elt F)) ]

/-- Stage 10: operations 249 … 292 of 292, ending at `main_v213`. -/
abbrev seg10 : List (HloOp τ sig (Elt F)) :=
  [ StableHlo.nullary main_cst_28 (constant S_ .f32 0x00000000#32),
    StableHlo.binary main_v195 main_cst_28 main_v196 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    StableHlo.unary main_v196 main_v197 (broadcastInDim S131072x1 ![0] bcast_S131072_S131072x1_0 : (⟨S131072, .f32⟩ : BufTy).Contents (Elt F) → (⟨S131072x1, .f32⟩ : BufTy).Contents (Elt F)),
    StableHlo.nullary main_cst_29 (constant S_ .f32 0x43000000#32),
    StableHlo.unary main_cst_29 main_v198 (broadcastInDim S131072x1 ![] bcast_S_S131072x1 : (⟨S_, .f32⟩ : BufTy).Contents (Elt F) → (⟨S131072x1, .f32⟩ : BufTy).Contents (Elt F)),
    StableHlo.binary main_v197 main_v198 main_v199 (Host.divf : (⟨S131072x1, .f32⟩ : BufTy).Contents (Elt F) → (⟨S131072x1, .f32⟩ : BufTy).Contents (Elt F) → (⟨S131072x1, .f32⟩ : BufTy).Contents (Elt F)),
    StableHlo.nullary main_c_30 (constantI S_ 32 0#32),
    StableHlo.TRef.nullary main_call1.cst (constant S_ .f32 0x00000000#32),
    StableHlo.TRef.binary (.of main_v195) main_call1.cst main_call1.v0 (fun x v => Host.reduceAdd x v reducesTo_S131072x128_S131072_d1 h_S_),
    StableHlo.TRef.unary main_call1.v0 main_call1.v1 (broadcastInDim S131072x1 ![0] bcast_S131072_S131072x1_0),
    StableHlo.TRef.nullary main_call1.cst_0 (constant S_ .f32 0x43000000#32),
    StableHlo.TRef.unary main_call1.cst_0 main_call1.v2 (broadcastInDim S131072x1 ![] bcast_S_S131072x1),
    StableHlo.TRef.binary main_call1.v1 main_call1.v2 main_call1.v3 Host.divf,
    StableHlo.TRef.unary main_call1.v3 main_call1.v4 (broadcastInDim S131072x128 ![0, 1] bcast_S131072x1_S131072x128_0_1),
    StableHlo.TRef.binary (.of main_v195) main_call1.v4 main_call1.v5 subf,
    StableHlo.TRef.binary main_call1.v5 main_call1.v5 main_call1.v6 mulf,
    StableHlo.TRef.unary (.of main_c_30) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S131072x128_S131072_d1 h_S_),
    StableHlo.TRef.unary main_call1.v9 main_call1.v10 (broadcastInDim S131072x1 ![0] bcast_S131072_S131072x1_0),
    StableHlo.TRef.unary main_call1.v8 main_call1.v11 (broadcastInDim S131072x1 ![] bcast_S_S131072x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S131072x1 ![] bcast_S_S131072x1),
    StableHlo.TRef.ternary main_call1.v13 main_call1.v12 main_call1.call0.v1 main_call1.call0.v2 (fun p a b => select (broadcastInDim S131072x1 ![] bcast_S_S131072x1 p) a b),
    StableHlo.unary main_v199 main_v201 (broadcastInDim S131072x128 ![0, 1] bcast_S131072x1_S131072x128_0_1 : (⟨S131072x1, .f32⟩ : BufTy).Contents (Elt F) → (⟨S131072x128, .f32⟩ : BufTy).Contents (Elt F)),
    StableHlo.binary main_v195 main_v201 main_v202 (subf : (⟨S131072x128, .f32⟩ : BufTy).Contents (Elt F) → (⟨S131072x128, .f32⟩ : BufTy).Contents (Elt F) → (⟨S131072x128, .f32⟩ : BufTy).Contents (Elt F)),
    StableHlo.nullary main_cst_31 (constant S_ .f32 0x3727C5AC#32),
    StableHlo.unary main_cst_31 main_v203 (broadcastInDim S131072x1 ![] bcast_S_S131072x1 : (⟨S_, .f32⟩ : BufTy).Contents (Elt F) → (⟨S131072x1, .f32⟩ : BufTy).Contents (Elt F)),
    StableHlo.binary main_v200 main_v203 main_v204 (addf : (⟨S131072x1, .f32⟩ : BufTy).Contents (Elt F) → (⟨S131072x1, .f32⟩ : BufTy).Contents (Elt F) → (⟨S131072x1, .f32⟩ : BufTy).Contents (Elt F)),
    StableHlo.unary main_v204 main_v205 (Host.rsqrt : (⟨S131072x1, .f32⟩ : BufTy).Contents (Elt F) → (⟨S131072x1, .f32⟩ : BufTy).Contents (Elt F)),
    StableHlo.unary main_v205 main_v206 (broadcastInDim S131072x128 ![0, 1] bcast_S131072x1_S131072x128_0_1 : (⟨S131072x1, .f32⟩ : BufTy).Contents (Elt F) → (⟨S131072x128, .f32⟩ : BufTy).Contents (Elt F)),
    StableHlo.binary main_v202 main_v206 main_v207 (mulf : (⟨S131072x128, .f32⟩ : BufTy).Contents (Elt F) → (⟨S131072x128, .f32⟩ : BufTy).Contents (Elt F) → (⟨S131072x128, .f32⟩ : BufTy).Contents (Elt F)),
    StableHlo.unary main_arg27 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S131072x128 ![0, 1] bcast_S1x128_S131072x128_0_1 : (⟨S1x128, .f32⟩ : BufTy).Contents (Elt F) → (⟨S131072x128, .f32⟩ : BufTy).Contents (Elt F)),
    StableHlo.binary main_v207 main_v209 main_v210 (mulf : (⟨S131072x128, .f32⟩ : BufTy).Contents (Elt F) → (⟨S131072x128, .f32⟩ : BufTy).Contents (Elt F) → (⟨S131072x128, .f32⟩ : BufTy).Contents (Elt F)),
    StableHlo.unary main_arg28 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S131072x128 ![0, 1] bcast_S1x128_S131072x128_0_1 : (⟨S1x128, .f32⟩ : BufTy).Contents (Elt F) → (⟨S131072x128, .f32⟩ : BufTy).Contents (Elt F)),
    StableHlo.binary main_v210 main_v212 main_v213 (addf : (⟨S131072x128, .f32⟩ : BufTy).Contents (Elt F) → (⟨S131072x128, .f32⟩ : BufTy).Contents (Elt F) → (⟨S131072x128, .f32⟩ : BufTy).Contents (Elt F)) ]

set_option maxRecDepth 8192 in
/-- The ten stages, joined, are @main's operations: the same literal list cut at other places. -/
theorem ops_eq_segs : (ops : List (HloOp τ sig (Elt F))) = seg1 ++ (seg2 ++ (seg3 ++ (seg4 ++ (seg5 ++ (seg6 ++ (seg7 ++ (seg8 ++ (seg9 ++ (seg10))))))))) := rfl

/-- The buffers stage 1's operations write, in order. -/
abbrev seg1_W : List (Ref sig .tc) := [main_v0, main_v1, main_v2, main_v3, main_v4, main_c, main_v5, main_v6, main_c_0, main_v7, main_v8, main_v9, main_v10, main_v11, main_v12, main_v13, main_v14, main_cst, main_v15, main_v16, main_v17, main_v18, main_v19, main_v20, main_cst_1, main_v21, main_v22]
set_option maxRecDepth 8192 in
theorem seg1_writes : (seg1 : List (HloOp τ sig (Elt F))).Forall fun op => op.writes ⊆ (seg1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 1 does not write keeps its contents through it. -/
theorem keepS1 (V : Valuation τ sig (Elt F)) (r : Ref sig .tc) (h : r ∉ seg1_W) :
    after seg1 V (Proc.devRef .tc r) = V (Proc.devRef .tc r) :=
  after_of_writes_sub seg1 V seg1_writes h

/-- The buffers stage 2's operations write, in order. -/
abbrev seg2_W : List (Ref sig .tc) := [main_v23, main_v24, main_v25, main_v26, main_v27, main_c_2, main_v28, main_v29, main_c_3, main_v30, main_v31, main_v32, main_v33, main_v34, main_v35, main_v36, main_v37, main_cst_4, main_v38, main_v39, main_v40, main_v41, main_v42, main_v43, main_v44]
set_option maxRecDepth 8192 in
theorem seg2_writes : (seg2 : List (HloOp τ sig (Elt F))).Forall fun op => op.writes ⊆ (seg2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 2 does not write keeps its contents through it. -/
theorem keepS2 (V : Valuation τ sig (Elt F)) (r : Ref sig .tc) (h : r ∉ seg2_W) :
    after seg2 V (Proc.devRef .tc r) = V (Proc.devRef .tc r) :=
  after_of_writes_sub seg2 V seg2_writes h

/-- The buffers stage 3's operations write, in order. -/
abbrev seg3_W : List (Ref sig .tc) := [main_v45, main_v46, main_v47, main_v48, main_v49, main_c_5, main_v50, main_v51, main_c_6, main_v52, main_v53, main_v54, main_v55, main_v56, main_v57, main_v58, main_v59, main_cst_7, main_v60, main_v61, main_v62, main_v63, main_v64, main_v65, main_v66]
set_option maxRecDepth 8192 in
theorem seg3_writes : (seg3 : List (HloOp τ sig (Elt F))).Forall fun op => op.writes ⊆ (seg3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 3 does not write keeps its contents through it. -/
theorem keepS3 (V : Valuation τ sig (Elt F)) (r : Ref sig .tc) (h : r ∉ seg3_W) :
    after seg3 V (Proc.devRef .tc r) = V (Proc.devRef .tc r) :=
  after_of_writes_sub seg3 V seg3_writes h

/-- The buffers stage 4's operations write, in order. -/
abbrev seg4_W : List (Ref sig .tc) := [main_v67, main_v68, main_v69, main_v70, main_v71, main_c_8, main_v72, main_v73, main_c_9, main_v74, main_v75, main_v76, main_v77, main_v78, main_v79, main_v80, main_v81, main_cst_10, main_v82, main_v83, main_v84, main_v85, main_v86, main_v87, main_v88]
set_option maxRecDepth 8192 in
theorem seg4_writes : (seg4 : List (HloOp τ sig (Elt F))).Forall fun op => op.writes ⊆ (seg4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 4 does not write keeps its contents through it. -/
theorem keepS4 (V : Valuation τ sig (Elt F)) (r : Ref sig .tc) (h : r ∉ seg4_W) :
    after seg4 V (Proc.devRef .tc r) = V (Proc.devRef .tc r) :=
  after_of_writes_sub seg4 V seg4_writes h

/-- The buffers stage 5's operations write, in order. -/
abbrev seg5_W : List (Ref sig .tc) := [main_cst_11, main_v89, main_v90, main_cst_12, main_v91, main_v92, main_c_13, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v93, main_v94, main_v95, main_cst_14, main_v96, main_v97, main_v98, main_v99, main_v100, main_v101, main_v102, main_v103, main_v104, main_v105, main_v106]
set_option maxRecDepth 8192 in
theorem seg5_writes : (seg5 : List (HloOp τ sig (Elt F))).Forall fun op => op.writes ⊆ (seg5_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 5 does not write keeps its contents through it. -/
theorem keepS5 (V : Valuation τ sig (Elt F)) (r : Ref sig .tc) (h : r ∉ seg5_W) :
    after seg5 V (Proc.devRef .tc r) = V (Proc.devRef .tc r) :=
  after_of_writes_sub seg5 V seg5_writes h

/-- The buffers stage 6's operations write, in order. -/
abbrev seg6_W : List (Ref sig .tc) := [main_v107, main_v108, main_v109, main_v110, main_v111, main_c_15, main_v112, main_v113, main_c_16, main_v114, main_v115, main_v116, main_v117, main_v118, main_v119, main_v120, main_v121, main_cst_17, main_v122, main_v123, main_v124, main_v125, main_v126, main_v127, main_cst_18, main_v128, main_v129]
set_option maxRecDepth 8192 in
theorem seg6_writes : (seg6 : List (HloOp τ sig (Elt F))).Forall fun op => op.writes ⊆ (seg6_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 6 does not write keeps its contents through it. -/
theorem keepS6 (V : Valuation τ sig (Elt F)) (r : Ref sig .tc) (h : r ∉ seg6_W) :
    after seg6 V (Proc.devRef .tc r) = V (Proc.devRef .tc r) :=
  after_of_writes_sub seg6 V seg6_writes h

/-- The buffers stage 7's operations write, in order. -/
abbrev seg7_W : List (Ref sig .tc) := [main_v130, main_v131, main_v132, main_v133, main_v134, main_c_19, main_v135, main_v136, main_c_20, main_v137, main_v138, main_v139, main_v140, main_v141, main_v142, main_v143, main_v144, main_cst_21, main_v145, main_v146, main_v147, main_v148, main_v149, main_v150, main_v151]
set_option maxRecDepth 8192 in
theorem seg7_writes : (seg7 : List (HloOp τ sig (Elt F))).Forall fun op => op.writes ⊆ (seg7_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 7 does not write keeps its contents through it. -/
theorem keepS7 (V : Valuation τ sig (Elt F)) (r : Ref sig .tc) (h : r ∉ seg7_W) :
    after seg7 V (Proc.devRef .tc r) = V (Proc.devRef .tc r) :=
  after_of_writes_sub seg7 V seg7_writes h

/-- The buffers stage 8's operations write, in order. -/
abbrev seg8_W : List (Ref sig .tc) := [main_v152, main_v153, main_v154, main_v155, main_v156, main_c_22, main_v157, main_v158, main_c_23, main_v159, main_v160, main_v161, main_v162, main_v163, main_v164, main_v165, main_v166, main_cst_24, main_v167, main_v168, main_v169, main_v170, main_v171, main_v172, main_v173]
set_option maxRecDepth 8192 in
theorem seg8_writes : (seg8 : List (HloOp τ sig (Elt F))).Forall fun op => op.writes ⊆ (seg8_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 8 does not write keeps its contents through it. -/
theorem keepS8 (V : Valuation τ sig (Elt F)) (r : Ref sig .tc) (h : r ∉ seg8_W) :
    after seg8 V (Proc.devRef .tc r) = V (Proc.devRef .tc r) :=
  after_of_writes_sub seg8 V seg8_writes h

/-- The buffers stage 9's operations write, in order. -/
abbrev seg9_W : List (Ref sig .tc) := [main_v174, main_v175, main_v176, main_v177, main_v178, main_c_25, main_v179, main_v180, main_c_26, main_v181, main_v182, main_v183, main_v184, main_v185, main_v186, main_v187, main_v188, main_cst_27, main_v189, main_v190, main_v191, main_v192, main_v193, main_v194, main_v195]
set_option maxRecDepth 8192 in
theorem seg9_writes : (seg9 : List (HloOp τ sig (Elt F))).Forall fun op => op.writes ⊆ (seg9_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 9 does not write keeps its contents through it. -/
theorem keepS9 (V : Valuation τ sig (Elt F)) (r : Ref sig .tc) (h : r ∉ seg9_W) :
    after seg9 V (Proc.devRef .tc r) = V (Proc.devRef .tc r) :=
  after_of_writes_sub seg9 V seg9_writes h

/-- The buffers stage 10's operations write, in order. -/
abbrev seg10_W : List (Ref sig .tc) := [main_cst_28, main_v196, main_v197, main_cst_29, main_v198, main_v199, main_c_30, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v200, main_v201, main_v202, main_cst_31, main_v203, main_v204, main_v205, main_v206, main_v207, main_v208, main_v209, main_v210, main_v211, main_v212, main_v213]
set_option maxRecDepth 8192 in
theorem seg10_writes : (seg10 : List (HloOp τ sig (Elt F))).Forall fun op => op.writes ⊆ (seg10_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 10 does not write keeps its contents through it. -/
theorem keepS10 (V : Valuation τ sig (Elt F)) (r : Ref sig .tc) (h : r ∉ seg10_W) :
    after seg10 V (Proc.devRef .tc r) = V (Proc.devRef .tc r) :=
  after_of_writes_sub seg10 V seg10_writes h

end Cert.ReferenceIdeal.RefRun

end
-- ==== Proof.ReferenceIdeal.Value.Layer1.lean ====
/- The five stages of the reference program's first layer, each read from arbitrary entry contents as a term of the specification. -/
import proofs.«145608_j2035814499086_1_alg».proof.Proof.ReferenceIdeal.Value.Segs
import proofs.«145608_j2035814499086_1_alg».proof.Proof.Spec

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
attribute [local irreducible] Host.gather Host.scatterAdd Host.reduceAdd in
/-- Stage 1, from any entry contents: the two index rows, the product with the weight matrix, the wrapped gather, the scaling by the edge
    weights, the scatter-add into a zero table and the bias row compose to the specification's message term, added to the zero table. -/
theorem seg1_out (V : Valuation τ sig (Elt F)) :
    after seg1 V (main_v22 : DevRef τ sig) =
      addf Cert.Spec.zeroN (addf (Cert.Spec.msg (Cert.Spec.project (V main_arg0) (V main_arg9)) (V main_arg1) (V main_arg5)) (Cert.Spec.rowBias (V main_arg10))) := by
  after_results_simp
  rfl

set_option maxRecDepth 8192 in
set_option maxHeartbeats 4000000 in
attribute [local irreducible] Host.gather Host.scatterAdd Host.reduceAdd in
/-- Stage 2, from any entry contents: the two index rows, the product with the weight matrix, the wrapped gather, the scaling by the edge
    weights, the scatter-add into a zero table and the bias row compose to the specification's message term, added to the running sum. -/
theorem seg2_out (V : Valuation τ sig (Elt F)) :
    after seg2 V (main_v44 : DevRef τ sig) =
      addf (V main_v22) (addf (Cert.Spec.msg (Cert.Spec.project (V main_arg0) (V main_arg13)) (V main_arg2) (V main_arg6)) (Cert.Spec.rowBias (V main_arg14))) := by
  after_results_simp
  rfl

set_option maxRecDepth 8192 in
set_option maxHeartbeats 4000000 in
attribute [local irreducible] Host.gather Host.scatterAdd Host.reduceAdd in
/-- Stage 3, from any entry contents: the two index rows, the product with the weight matrix, the wrapped gather, the scaling by the edge
    weights, the scatter-add into a zero table and the bias row compose to the specification's message term, added to the running sum. -/
theorem seg3_out (V : Valuation τ sig (Elt F)) :
    after seg3 V (main_v66 : DevRef τ sig) =
      addf (V main_v44) (addf (Cert.Spec.msg (Cert.Spec.project (V main_arg0) (V main_arg17)) (V main_arg3) (V main_arg7)) (Cert.Spec.rowBias (V main_arg18))) := by
  after_results_simp
  rfl

set_option maxRecDepth 8192 in
set_option maxHeartbeats 4000000 in
attribute [local irreducible] Host.gather Host.scatterAdd Host.reduceAdd in
/-- Stage 4, from any entry contents: the two index rows, the product with the weight matrix, the wrapped gather, the scaling by the edge
    weights, the scatter-add into a zero table and the bias row compose to the specification's message term, added to the running sum. -/
theorem seg4_out (V : Valuation τ sig (Elt F)) :
    after seg4 V (main_v88 : DevRef τ sig) =
      addf (V main_v66) (addf (Cert.Spec.msg (Cert.Spec.project (V main_arg0) (V main_arg21)) (V main_arg4) (V main_arg8)) (Cert.Spec.rowBias (V main_arg22))) := by
  after_results_simp
  rfl

set_option maxRecDepth 8192 in
set_option maxHeartbeats 4000000 in
attribute [local irreducible] Host.gather Host.scatterAdd Host.reduceAdd in
/-- Stage 5, from any entry contents: the row sums, the means, the call of the variance function (its squared deviations, its divisor
    128 − 0, its guarded quotient), the reciprocal square root, the scale and the shift compose to the specification's LayerNorm of the
    running sum the stage starts from. -/
theorem seg5_out (V : Valuation τ sig (Elt F)) :
    after seg5 V (main_v106 : DevRef τ sig) =
      Cert.Spec.lnHost (V main_v88) (V main_arg25) (V main_arg26) := by
  after_results_simp
  rfl

end Cert.ReferenceIdeal.RefRun

end
-- ==== Proof.ReferenceIdeal.Value.Layer2.lean ====
/- The five stages of the reference program's second layer, each read from arbitrary entry contents as a term of the specification. -/
import proofs.«145608_j2035814499086_1_alg».proof.Proof.ReferenceIdeal.Value.Segs
import proofs.«145608_j2035814499086_1_alg».proof.Proof.Spec

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
attribute [local irreducible] Host.gather Host.scatterAdd Host.reduceAdd in
/-- Stage 6, from any entry contents: the two index rows, the product with the weight matrix, the wrapped gather, the scaling by the edge
    weights, the scatter-add into a zero table and the bias row compose to the specification's message term, added to the zero table. -/
theorem seg6_out (V : Valuation τ sig (Elt F)) :
    after seg6 V (main_v129 : DevRef τ sig) =
      addf Cert.Spec.zeroN (addf (Cert.Spec.msg (Cert.Spec.project (V main_v106) (V main_arg11)) (V main_arg1) (V main_arg5)) (Cert.Spec.rowBias (V main_arg12))) := by
  after_results_simp
  rfl

set_option maxRecDepth 8192 in
set_option maxHeartbeats 4000000 in
attribute [local irreducible] Host.gather Host.scatterAdd Host.reduceAdd in
/-- Stage 7, from any entry contents: the two index rows, the product with the weight matrix, the wrapped gather, the scaling by the edge
    weights, the scatter-add into a zero table and the bias row compose to the specification's message term, added to the running sum. -/
theorem seg7_out (V : Valuation τ sig (Elt F)) :
    after seg7 V (main_v151 : DevRef τ sig) =
      addf (V main_v129) (addf (Cert.Spec.msg (Cert.Spec.project (V main_v106) (V main_arg15)) (V main_arg2) (V main_arg6)) (Cert.Spec.rowBias (V main_arg16))) := by
  after_results_simp
  rfl

set_option maxRecDepth 8192 in
set_option maxHeartbeats 4000000 in
attribute [local irreducible] Host.gather Host.scatterAdd Host.reduceAdd in
/-- Stage 8, from any entry contents: the two index rows, the product with the weight matrix, the wrapped gather, the scaling by the edge
    weights, the scatter-add into a zero table and the bias row compose to the specification's message term, added to the running sum. -/
theorem seg8_out (V : Valuation τ sig (Elt F)) :
    after seg8 V (main_v173 : DevRef τ sig) =
      addf (V main_v151) (addf (Cert.Spec.msg (Cert.Spec.project (V main_v106) (V main_arg19)) (V main_arg3) (V main_arg7)) (Cert.Spec.rowBias (V main_arg20))) := by
  after_results_simp
  rfl

set_option maxRecDepth 8192 in
set_option maxHeartbeats 4000000 in
attribute [local irreducible] Host.gather Host.scatterAdd Host.reduceAdd in
/-- Stage 9, from any entry contents: the two index rows, the product with the weight matrix, the wrapped gather, the scaling by the edge
    weights, the scatter-add into a zero table and the bias row compose to the specification's message term, added to the running sum. -/
theorem seg9_out (V : Valuation τ sig (Elt F)) :
    after seg9 V (main_v195 : DevRef τ sig) =
      addf (V main_v173) (addf (Cert.Spec.msg (Cert.Spec.project (V main_v106) (V main_arg23)) (V main_arg4) (V main_arg8)) (Cert.Spec.rowBias (V main_arg24))) := by
  after_results_simp
  rfl

set_option maxRecDepth 8192 in
set_option maxHeartbeats 4000000 in
attribute [local irreducible] Host.gather Host.scatterAdd Host.reduceAdd in
/-- Stage 10, from any entry contents: the row sums, the means, the call of the variance function (its squared deviations, its divisor
    128 − 0, its guarded quotient), the reciprocal square root, the scale and the shift compose to the specification's LayerNorm of the
    running sum the stage starts from. -/
theorem seg10_out (V : Valuation τ sig (Elt F)) :
    after seg10 V (main_v213 : DevRef τ sig) =
      Cert.Spec.lnHost (V main_v195) (V main_arg27) (V main_arg28) := by
  after_results_simp
  rfl

end Cert.ReferenceIdeal.RefRun

end
-- ==== Proof.ReferenceIdeal.Value.lean ====
/- The value of the reference program: after its 292 operations the result buffer holds, as a term of the launch contents of the 29
   argument buffers, two layers of (four message terms and their bias rows added to a zero table, then LayerNorm), the second layer
   reading the first's result. Read stage by stage: the contents after the first k stages, each stage's result there as the
   specification's term of the stages before it, every other buffer a stage reads carried unchanged from where it was written. -/
import proofs.«145608_j2035814499086_1_alg».proof.Proof.ReferenceIdeal.Value.Layer1
import proofs.«145608_j2035814499086_1_alg».proof.Proof.ReferenceIdeal.Value.Layer2
import proofs.«145608_j2035814499086_1_alg».proof.Proof.SpecNet

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The contents after the first k stages -/

/-- The device's buffer contents after the first 1 stage. -/
def U1 (V : Valuation τ sig (Elt F)) : Valuation τ sig (Elt F) := after seg1 V
/-- The device's buffer contents after the first 2 stages. -/
def U2 (V : Valuation τ sig (Elt F)) : Valuation τ sig (Elt F) := after seg2 (U1 V)
/-- The device's buffer contents after the first 3 stages. -/
def U3 (V : Valuation τ sig (Elt F)) : Valuation τ sig (Elt F) := after seg3 (U2 V)
/-- The device's buffer contents after the first 4 stages. -/
def U4 (V : Valuation τ sig (Elt F)) : Valuation τ sig (Elt F) := after seg4 (U3 V)
/-- The device's buffer contents after the first 5 stages. -/
def U5 (V : Valuation τ sig (Elt F)) : Valuation τ sig (Elt F) := after seg5 (U4 V)
/-- The device's buffer contents after the first 6 stages. -/
def U6 (V : Valuation τ sig (Elt F)) : Valuation τ sig (Elt F) := after seg6 (U5 V)
/-- The device's buffer contents after the first 7 stages. -/
def U7 (V : Valuation τ sig (Elt F)) : Valuation τ sig (Elt F) := after seg7 (U6 V)
/-- The device's buffer contents after the first 8 stages. -/
def U8 (V : Valuation τ sig (Elt F)) : Valuation τ sig (Elt F) := after seg8 (U7 V)
/-- The device's buffer contents after the first 9 stages. -/
def U9 (V : Valuation τ sig (Elt F)) : Valuation τ sig (Elt F) := after seg9 (U8 V)
/-- The device's buffer contents after the first 10 stages. -/
def U10 (V : Valuation τ sig (Elt F)) : Valuation τ sig (Elt F) := after seg10 (U9 V)

/-- The fold over the whole list is the ten stages' folds in turn. -/
theorem after_ops_U (V : Valuation τ sig (Elt F)) : after ops V = U10 V := by
  rw [ops_eq_segs]
  simp only [after_append]
  rfl

/-! ## Each stage's result as a term of the launch contents -/

/-- `main_v22` after the run, as a term of the arguments' launch contents. -/
def val1 (V : Valuation τ sig (Elt F)) : FVec F Cert.Spec.SN128 .f32 :=
  addf Cert.Spec.zeroN (addf (Cert.Spec.msg (Cert.Spec.project (V main_arg0) (V main_arg9)) (V main_arg1) (V main_arg5)) (Cert.Spec.rowBias (V main_arg10)))

/-- `main_v44` after the run, as a term of the arguments' launch contents. -/
def val2 (V : Valuation τ sig (Elt F)) : FVec F Cert.Spec.SN128 .f32 :=
  addf (val1 V) (addf (Cert.Spec.msg (Cert.Spec.project (V main_arg0) (V main_arg13)) (V main_arg2) (V main_arg6)) (Cert.Spec.rowBias (V main_arg14)))

/-- `main_v66` after the run, as a term of the arguments' launch contents. -/
def val3 (V : Valuation τ sig (Elt F)) : FVec F Cert.Spec.SN128 .f32 :=
  addf (val2 V) (addf (Cert.Spec.msg (Cert.Spec.project (V main_arg0) (V main_arg17)) (V main_arg3) (V main_arg7)) (Cert.Spec.rowBias (V main_arg18)))

/-- `main_v88` after the run, as a term of the arguments' launch contents. -/
def val4 (V : Valuation τ sig (Elt F)) : FVec F Cert.Spec.SN128 .f32 :=
  addf (val3 V) (addf (Cert.Spec.msg (Cert.Spec.project (V main_arg0) (V main_arg21)) (V main_arg4) (V main_arg8)) (Cert.Spec.rowBias (V main_arg22)))

/-- `main_v106` after the run, as a term of the arguments' launch contents. -/
def val5 (V : Valuation τ sig (Elt F)) : FVec F Cert.Spec.SN128 .f32 :=
  Cert.Spec.lnHost (val4 V) (V main_arg25) (V main_arg26)

/-- `main_v129` after the run, as a term of the arguments' launch contents. -/
def val6 (V : Valuation τ sig (Elt F)) : FVec F Cert.Spec.SN128 .f32 :=
  addf Cert.Spec.zeroN (addf (Cert.Spec.msg (Cert.Spec.project (val5 V) (V main_arg11)) (V main_arg1) (V main_arg5)) (Cert.Spec.rowBias (V main_arg12)))

/-- `main_v151` after the run, as a term of the arguments' launch contents. -/
def val7 (V : Valuation τ sig (Elt F)) : FVec F Cert.Spec.SN128 .f32 :=
  addf (val6 V) (addf (Cert.Spec.msg (Cert.Spec.project (val5 V) (V main_arg15)) (V main_arg2) (V main_arg6)) (Cert.Spec.rowBias (V main_arg16)))

/-- `main_v173` after the run, as a term of the arguments' launch contents. -/
def val8 (V : Valuation τ sig (Elt F)) : FVec F Cert.Spec.SN128 .f32 :=
  addf (val7 V) (addf (Cert.Spec.msg (Cert.Spec.project (val5 V) (V main_arg19)) (V main_arg3) (V main_arg7)) (Cert.Spec.rowBias (V main_arg20)))

/-- `main_v195` after the run, as a term of the arguments' launch contents. -/
def val9 (V : Valuation τ sig (Elt F)) : FVec F Cert.Spec.SN128 .f32 :=
  addf (val8 V) (addf (Cert.Spec.msg (Cert.Spec.project (val5 V) (V main_arg23)) (V main_arg4) (V main_arg8)) (Cert.Spec.rowBias (V main_arg24)))

/-- `main_v213` after the run, as a term of the arguments' launch contents. -/
def val10 (V : Valuation τ sig (Elt F)) : FVec F Cert.Spec.SN128 .f32 :=
  Cert.Spec.lnHost (val9 V) (V main_arg27) (V main_arg28)

/-! ## What each stage reads, where it reads it -/

/-- Stage 1's result after the first 1 stages. -/
theorem U1_out (V : Valuation τ sig (Elt F)) : U1 V (main_v22 : DevRef τ sig) = val1 V := by
  unfold U1 val1
  rw [seg1_out]
theorem U1_main_arg2 (V : Valuation τ sig (Elt F)) : U1 V (main_arg2 : DevRef τ sig) = V main_arg2 :=
  keepS1 V main_arg2 (by decide)
theorem U1_main_arg0 (V : Valuation τ sig (Elt F)) : U1 V (main_arg0 : DevRef τ sig) = V main_arg0 :=
  keepS1 V main_arg0 (by decide)
theorem U1_main_arg13 (V : Valuation τ sig (Elt F)) : U1 V (main_arg13 : DevRef τ sig) = V main_arg13 :=
  keepS1 V main_arg13 (by decide)
theorem U1_main_arg6 (V : Valuation τ sig (Elt F)) : U1 V (main_arg6 : DevRef τ sig) = V main_arg6 :=
  keepS1 V main_arg6 (by decide)
theorem U1_main_arg14 (V : Valuation τ sig (Elt F)) : U1 V (main_arg14 : DevRef τ sig) = V main_arg14 :=
  keepS1 V main_arg14 (by decide)
/-- Stage 2's result after the first 2 stages. -/
theorem U2_out (V : Valuation τ sig (Elt F)) : U2 V (main_v44 : DevRef τ sig) = val2 V := by
  unfold U2 val2
  rw [seg2_out, U1_main_arg2, U1_main_arg0, U1_main_arg13, U1_main_arg6, U1_main_arg14, U1_out]
theorem U1_main_arg3 (V : Valuation τ sig (Elt F)) : U1 V (main_arg3 : DevRef τ sig) = V main_arg3 :=
  keepS1 V main_arg3 (by decide)
theorem U2_main_arg3 (V : Valuation τ sig (Elt F)) : U2 V (main_arg3 : DevRef τ sig) = V main_arg3 :=
  (keepS2 (U1 V) main_arg3 (by decide)).trans (U1_main_arg3 V)
theorem U2_main_arg0 (V : Valuation τ sig (Elt F)) : U2 V (main_arg0 : DevRef τ sig) = V main_arg0 :=
  (keepS2 (U1 V) main_arg0 (by decide)).trans (U1_main_arg0 V)
theorem U1_main_arg17 (V : Valuation τ sig (Elt F)) : U1 V (main_arg17 : DevRef τ sig) = V main_arg17 :=
  keepS1 V main_arg17 (by decide)
theorem U2_main_arg17 (V : Valuation τ sig (Elt F)) : U2 V (main_arg17 : DevRef τ sig) = V main_arg17 :=
  (keepS2 (U1 V) main_arg17 (by decide)).trans (U1_main_arg17 V)
theorem U1_main_arg7 (V : Valuation τ sig (Elt F)) : U1 V (main_arg7 : DevRef τ sig) = V main_arg7 :=
  keepS1 V main_arg7 (by decide)
theorem U2_main_arg7 (V : Valuation τ sig (Elt F)) : U2 V (main_arg7 : DevRef τ sig) = V main_arg7 :=
  (keepS2 (U1 V) main_arg7 (by decide)).trans (U1_main_arg7 V)
theorem U1_main_arg18 (V : Valuation τ sig (Elt F)) : U1 V (main_arg18 : DevRef τ sig) = V main_arg18 :=
  keepS1 V main_arg18 (by decide)
theorem U2_main_arg18 (V : Valuation τ sig (Elt F)) : U2 V (main_arg18 : DevRef τ sig) = V main_arg18 :=
  (keepS2 (U1 V) main_arg18 (by decide)).trans (U1_main_arg18 V)
/-- Stage 3's result after the first 3 stages. -/
theorem U3_out (V : Valuation τ sig (Elt F)) : U3 V (main_v66 : DevRef τ sig) = val3 V := by
  unfold U3 val3
  rw [seg3_out, U2_main_arg3, U2_main_arg0, U2_main_arg17, U2_main_arg7, U2_main_arg18, U2_out]
theorem U1_main_arg4 (V : Valuation τ sig (Elt F)) : U1 V (main_arg4 : DevRef τ sig) = V main_arg4 :=
  keepS1 V main_arg4 (by decide)
theorem U2_main_arg4 (V : Valuation τ sig (Elt F)) : U2 V (main_arg4 : DevRef τ sig) = V main_arg4 :=
  (keepS2 (U1 V) main_arg4 (by decide)).trans (U1_main_arg4 V)
theorem U3_main_arg4 (V : Valuation τ sig (Elt F)) : U3 V (main_arg4 : DevRef τ sig) = V main_arg4 :=
  (keepS3 (U2 V) main_arg4 (by decide)).trans (U2_main_arg4 V)
theorem U3_main_arg0 (V : Valuation τ sig (Elt F)) : U3 V (main_arg0 : DevRef τ sig) = V main_arg0 :=
  (keepS3 (U2 V) main_arg0 (by decide)).trans (U2_main_arg0 V)
theorem U1_main_arg21 (V : Valuation τ sig (Elt F)) : U1 V (main_arg21 : DevRef τ sig) = V main_arg21 :=
  keepS1 V main_arg21 (by decide)
theorem U2_main_arg21 (V : Valuation τ sig (Elt F)) : U2 V (main_arg21 : DevRef τ sig) = V main_arg21 :=
  (keepS2 (U1 V) main_arg21 (by decide)).trans (U1_main_arg21 V)
theorem U3_main_arg21 (V : Valuation τ sig (Elt F)) : U3 V (main_arg21 : DevRef τ sig) = V main_arg21 :=
  (keepS3 (U2 V) main_arg21 (by decide)).trans (U2_main_arg21 V)
theorem U1_main_arg8 (V : Valuation τ sig (Elt F)) : U1 V (main_arg8 : DevRef τ sig) = V main_arg8 :=
  keepS1 V main_arg8 (by decide)
theorem U2_main_arg8 (V : Valuation τ sig (Elt F)) : U2 V (main_arg8 : DevRef τ sig) = V main_arg8 :=
  (keepS2 (U1 V) main_arg8 (by decide)).trans (U1_main_arg8 V)
theorem U3_main_arg8 (V : Valuation τ sig (Elt F)) : U3 V (main_arg8 : DevRef τ sig) = V main_arg8 :=
  (keepS3 (U2 V) main_arg8 (by decide)).trans (U2_main_arg8 V)
theorem U1_main_arg22 (V : Valuation τ sig (Elt F)) : U1 V (main_arg22 : DevRef τ sig) = V main_arg22 :=
  keepS1 V main_arg22 (by decide)
theorem U2_main_arg22 (V : Valuation τ sig (Elt F)) : U2 V (main_arg22 : DevRef τ sig) = V main_arg22 :=
  (keepS2 (U1 V) main_arg22 (by decide)).trans (U1_main_arg22 V)
theorem U3_main_arg22 (V : Valuation τ sig (Elt F)) : U3 V (main_arg22 : DevRef τ sig) = V main_arg22 :=
  (keepS3 (U2 V) main_arg22 (by decide)).trans (U2_main_arg22 V)
/-- Stage 4's result after the first 4 stages. -/
theorem U4_out (V : Valuation τ sig (Elt F)) : U4 V (main_v88 : DevRef τ sig) = val4 V := by
  unfold U4 val4
  rw [seg4_out, U3_main_arg4, U3_main_arg0, U3_main_arg21, U3_main_arg8, U3_main_arg22, U3_out]
theorem U1_main_arg25 (V : Valuation τ sig (Elt F)) : U1 V (main_arg25 : DevRef τ sig) = V main_arg25 :=
  keepS1 V main_arg25 (by decide)
theorem U2_main_arg25 (V : Valuation τ sig (Elt F)) : U2 V (main_arg25 : DevRef τ sig) = V main_arg25 :=
  (keepS2 (U1 V) main_arg25 (by decide)).trans (U1_main_arg25 V)
theorem U3_main_arg25 (V : Valuation τ sig (Elt F)) : U3 V (main_arg25 : DevRef τ sig) = V main_arg25 :=
  (keepS3 (U2 V) main_arg25 (by decide)).trans (U2_main_arg25 V)
theorem U4_main_arg25 (V : Valuation τ sig (Elt F)) : U4 V (main_arg25 : DevRef τ sig) = V main_arg25 :=
  (keepS4 (U3 V) main_arg25 (by decide)).trans (U3_main_arg25 V)
theorem U1_main_arg26 (V : Valuation τ sig (Elt F)) : U1 V (main_arg26 : DevRef τ sig) = V main_arg26 :=
  keepS1 V main_arg26 (by decide)
theorem U2_main_arg26 (V : Valuation τ sig (Elt F)) : U2 V (main_arg26 : DevRef τ sig) = V main_arg26 :=
  (keepS2 (U1 V) main_arg26 (by decide)).trans (U1_main_arg26 V)
theorem U3_main_arg26 (V : Valuation τ sig (Elt F)) : U3 V (main_arg26 : DevRef τ sig) = V main_arg26 :=
  (keepS3 (U2 V) main_arg26 (by decide)).trans (U2_main_arg26 V)
theorem U4_main_arg26 (V : Valuation τ sig (Elt F)) : U4 V (main_arg26 : DevRef τ sig) = V main_arg26 :=
  (keepS4 (U3 V) main_arg26 (by decide)).trans (U3_main_arg26 V)
/-- Stage 5's result after the first 5 stages. -/
theorem U5_out (V : Valuation τ sig (Elt F)) : U5 V (main_v106 : DevRef τ sig) = val5 V := by
  unfold U5 val5
  rw [seg5_out, U4_out, U4_main_arg25, U4_main_arg26]
theorem U1_main_arg1 (V : Valuation τ sig (Elt F)) : U1 V (main_arg1 : DevRef τ sig) = V main_arg1 :=
  keepS1 V main_arg1 (by decide)
theorem U2_main_arg1 (V : Valuation τ sig (Elt F)) : U2 V (main_arg1 : DevRef τ sig) = V main_arg1 :=
  (keepS2 (U1 V) main_arg1 (by decide)).trans (U1_main_arg1 V)
theorem U3_main_arg1 (V : Valuation τ sig (Elt F)) : U3 V (main_arg1 : DevRef τ sig) = V main_arg1 :=
  (keepS3 (U2 V) main_arg1 (by decide)).trans (U2_main_arg1 V)
theorem U4_main_arg1 (V : Valuation τ sig (Elt F)) : U4 V (main_arg1 : DevRef τ sig) = V main_arg1 :=
  (keepS4 (U3 V) main_arg1 (by decide)).trans (U3_main_arg1 V)
theorem U5_main_arg1 (V : Valuation τ sig (Elt F)) : U5 V (main_arg1 : DevRef τ sig) = V main_arg1 :=
  (keepS5 (U4 V) main_arg1 (by decide)).trans (U4_main_arg1 V)
theorem U1_main_arg11 (V : Valuation τ sig (Elt F)) : U1 V (main_arg11 : DevRef τ sig) = V main_arg11 :=
  keepS1 V main_arg11 (by decide)
theorem U2_main_arg11 (V : Valuation τ sig (Elt F)) : U2 V (main_arg11 : DevRef τ sig) = V main_arg11 :=
  (keepS2 (U1 V) main_arg11 (by decide)).trans (U1_main_arg11 V)
theorem U3_main_arg11 (V : Valuation τ sig (Elt F)) : U3 V (main_arg11 : DevRef τ sig) = V main_arg11 :=
  (keepS3 (U2 V) main_arg11 (by decide)).trans (U2_main_arg11 V)
theorem U4_main_arg11 (V : Valuation τ sig (Elt F)) : U4 V (main_arg11 : DevRef τ sig) = V main_arg11 :=
  (keepS4 (U3 V) main_arg11 (by decide)).trans (U3_main_arg11 V)
theorem U5_main_arg11 (V : Valuation τ sig (Elt F)) : U5 V (main_arg11 : DevRef τ sig) = V main_arg11 :=
  (keepS5 (U4 V) main_arg11 (by decide)).trans (U4_main_arg11 V)
theorem U1_main_arg5 (V : Valuation τ sig (Elt F)) : U1 V (main_arg5 : DevRef τ sig) = V main_arg5 :=
  keepS1 V main_arg5 (by decide)
theorem U2_main_arg5 (V : Valuation τ sig (Elt F)) : U2 V (main_arg5 : DevRef τ sig) = V main_arg5 :=
  (keepS2 (U1 V) main_arg5 (by decide)).trans (U1_main_arg5 V)
theorem U3_main_arg5 (V : Valuation τ sig (Elt F)) : U3 V (main_arg5 : DevRef τ sig) = V main_arg5 :=
  (keepS3 (U2 V) main_arg5 (by decide)).trans (U2_main_arg5 V)
theorem U4_main_arg5 (V : Valuation τ sig (Elt F)) : U4 V (main_arg5 : DevRef τ sig) = V main_arg5 :=
  (keepS4 (U3 V) main_arg5 (by decide)).trans (U3_main_arg5 V)
theorem U5_main_arg5 (V : Valuation τ sig (Elt F)) : U5 V (main_arg5 : DevRef τ sig) = V main_arg5 :=
  (keepS5 (U4 V) main_arg5 (by decide)).trans (U4_main_arg5 V)
theorem U1_main_arg12 (V : Valuation τ sig (Elt F)) : U1 V (main_arg12 : DevRef τ sig) = V main_arg12 :=
  keepS1 V main_arg12 (by decide)
theorem U2_main_arg12 (V : Valuation τ sig (Elt F)) : U2 V (main_arg12 : DevRef τ sig) = V main_arg12 :=
  (keepS2 (U1 V) main_arg12 (by decide)).trans (U1_main_arg12 V)
theorem U3_main_arg12 (V : Valuation τ sig (Elt F)) : U3 V (main_arg12 : DevRef τ sig) = V main_arg12 :=
  (keepS3 (U2 V) main_arg12 (by decide)).trans (U2_main_arg12 V)
theorem U4_main_arg12 (V : Valuation τ sig (Elt F)) : U4 V (main_arg12 : DevRef τ sig) = V main_arg12 :=
  (keepS4 (U3 V) main_arg12 (by decide)).trans (U3_main_arg12 V)
theorem U5_main_arg12 (V : Valuation τ sig (Elt F)) : U5 V (main_arg12 : DevRef τ sig) = V main_arg12 :=
  (keepS5 (U4 V) main_arg12 (by decide)).trans (U4_main_arg12 V)
/-- Stage 6's result after the first 6 stages. -/
theorem U6_out (V : Valuation τ sig (Elt F)) : U6 V (main_v129 : DevRef τ sig) = val6 V := by
  unfold U6 val6
  rw [seg6_out, U5_main_arg1, U5_out, U5_main_arg11, U5_main_arg5, U5_main_arg12]
theorem U2_main_arg2 (V : Valuation τ sig (Elt F)) : U2 V (main_arg2 : DevRef τ sig) = V main_arg2 :=
  (keepS2 (U1 V) main_arg2 (by decide)).trans (U1_main_arg2 V)
theorem U3_main_arg2 (V : Valuation τ sig (Elt F)) : U3 V (main_arg2 : DevRef τ sig) = V main_arg2 :=
  (keepS3 (U2 V) main_arg2 (by decide)).trans (U2_main_arg2 V)
theorem U4_main_arg2 (V : Valuation τ sig (Elt F)) : U4 V (main_arg2 : DevRef τ sig) = V main_arg2 :=
  (keepS4 (U3 V) main_arg2 (by decide)).trans (U3_main_arg2 V)
theorem U5_main_arg2 (V : Valuation τ sig (Elt F)) : U5 V (main_arg2 : DevRef τ sig) = V main_arg2 :=
  (keepS5 (U4 V) main_arg2 (by decide)).trans (U4_main_arg2 V)
theorem U6_main_arg2 (V : Valuation τ sig (Elt F)) : U6 V (main_arg2 : DevRef τ sig) = V main_arg2 :=
  (keepS6 (U5 V) main_arg2 (by decide)).trans (U5_main_arg2 V)
theorem U6_main_v106 (V : Valuation τ sig (Elt F)) : U6 V (main_v106 : DevRef τ sig) = val5 V :=
  (keepS6 (U5 V) main_v106 (by decide)).trans (U5_out V)
theorem U1_main_arg15 (V : Valuation τ sig (Elt F)) : U1 V (main_arg15 : DevRef τ sig) = V main_arg15 :=
  keepS1 V main_arg15 (by decide)
theorem U2_main_arg15 (V : Valuation τ sig (Elt F)) : U2 V (main_arg15 : DevRef τ sig) = V main_arg15 :=
  (keepS2 (U1 V) main_arg15 (by decide)).trans (U1_main_arg15 V)
theorem U3_main_arg15 (V : Valuation τ sig (Elt F)) : U3 V (main_arg15 : DevRef τ sig) = V main_arg15 :=
  (keepS3 (U2 V) main_arg15 (by decide)).trans (U2_main_arg15 V)
theorem U4_main_arg15 (V : Valuation τ sig (Elt F)) : U4 V (main_arg15 : DevRef τ sig) = V main_arg15 :=
  (keepS4 (U3 V) main_arg15 (by decide)).trans (U3_main_arg15 V)
theorem U5_main_arg15 (V : Valuation τ sig (Elt F)) : U5 V (main_arg15 : DevRef τ sig) = V main_arg15 :=
  (keepS5 (U4 V) main_arg15 (by decide)).trans (U4_main_arg15 V)
theorem U6_main_arg15 (V : Valuation τ sig (Elt F)) : U6 V (main_arg15 : DevRef τ sig) = V main_arg15 :=
  (keepS6 (U5 V) main_arg15 (by decide)).trans (U5_main_arg15 V)
theorem U2_main_arg6 (V : Valuation τ sig (Elt F)) : U2 V (main_arg6 : DevRef τ sig) = V main_arg6 :=
  (keepS2 (U1 V) main_arg6 (by decide)).trans (U1_main_arg6 V)
theorem U3_main_arg6 (V : Valuation τ sig (Elt F)) : U3 V (main_arg6 : DevRef τ sig) = V main_arg6 :=
  (keepS3 (U2 V) main_arg6 (by decide)).trans (U2_main_arg6 V)
theorem U4_main_arg6 (V : Valuation τ sig (Elt F)) : U4 V (main_arg6 : DevRef τ sig) = V main_arg6 :=
  (keepS4 (U3 V) main_arg6 (by decide)).trans (U3_main_arg6 V)
theorem U5_main_arg6 (V : Valuation τ sig (Elt F)) : U5 V (main_arg6 : DevRef τ sig) = V main_arg6 :=
  (keepS5 (U4 V) main_arg6 (by decide)).trans (U4_main_arg6 V)
theorem U6_main_arg6 (V : Valuation τ sig (Elt F)) : U6 V (main_arg6 : DevRef τ sig) = V main_arg6 :=
  (keepS6 (U5 V) main_arg6 (by decide)).trans (U5_main_arg6 V)
theorem U1_main_arg16 (V : Valuation τ sig (Elt F)) : U1 V (main_arg16 : DevRef τ sig) = V main_arg16 :=
  keepS1 V main_arg16 (by decide)
theorem U2_main_arg16 (V : Valuation τ sig (Elt F)) : U2 V (main_arg16 : DevRef τ sig) = V main_arg16 :=
  (keepS2 (U1 V) main_arg16 (by decide)).trans (U1_main_arg16 V)
theorem U3_main_arg16 (V : Valuation τ sig (Elt F)) : U3 V (main_arg16 : DevRef τ sig) = V main_arg16 :=
  (keepS3 (U2 V) main_arg16 (by decide)).trans (U2_main_arg16 V)
theorem U4_main_arg16 (V : Valuation τ sig (Elt F)) : U4 V (main_arg16 : DevRef τ sig) = V main_arg16 :=
  (keepS4 (U3 V) main_arg16 (by decide)).trans (U3_main_arg16 V)
theorem U5_main_arg16 (V : Valuation τ sig (Elt F)) : U5 V (main_arg16 : DevRef τ sig) = V main_arg16 :=
  (keepS5 (U4 V) main_arg16 (by decide)).trans (U4_main_arg16 V)
theorem U6_main_arg16 (V : Valuation τ sig (Elt F)) : U6 V (main_arg16 : DevRef τ sig) = V main_arg16 :=
  (keepS6 (U5 V) main_arg16 (by decide)).trans (U5_main_arg16 V)
/-- Stage 7's result after the first 7 stages. -/
theorem U7_out (V : Valuation τ sig (Elt F)) : U7 V (main_v151 : DevRef τ sig) = val7 V := by
  unfold U7 val7
  rw [seg7_out, U6_main_arg2, U6_main_v106, U6_main_arg15, U6_main_arg6, U6_main_arg16, U6_out]
theorem U3_main_arg3 (V : Valuation τ sig (Elt F)) : U3 V (main_arg3 : DevRef τ sig) = V main_arg3 :=
  (keepS3 (U2 V) main_arg3 (by decide)).trans (U2_main_arg3 V)
theorem U4_main_arg3 (V : Valuation τ sig (Elt F)) : U4 V (main_arg3 : DevRef τ sig) = V main_arg3 :=
  (keepS4 (U3 V) main_arg3 (by decide)).trans (U3_main_arg3 V)
theorem U5_main_arg3 (V : Valuation τ sig (Elt F)) : U5 V (main_arg3 : DevRef τ sig) = V main_arg3 :=
  (keepS5 (U4 V) main_arg3 (by decide)).trans (U4_main_arg3 V)
theorem U6_main_arg3 (V : Valuation τ sig (Elt F)) : U6 V (main_arg3 : DevRef τ sig) = V main_arg3 :=
  (keepS6 (U5 V) main_arg3 (by decide)).trans (U5_main_arg3 V)
theorem U7_main_arg3 (V : Valuation τ sig (Elt F)) : U7 V (main_arg3 : DevRef τ sig) = V main_arg3 :=
  (keepS7 (U6 V) main_arg3 (by decide)).trans (U6_main_arg3 V)
theorem U7_main_v106 (V : Valuation τ sig (Elt F)) : U7 V (main_v106 : DevRef τ sig) = val5 V :=
  (keepS7 (U6 V) main_v106 (by decide)).trans (U6_main_v106 V)
theorem U1_main_arg19 (V : Valuation τ sig (Elt F)) : U1 V (main_arg19 : DevRef τ sig) = V main_arg19 :=
  keepS1 V main_arg19 (by decide)
theorem U2_main_arg19 (V : Valuation τ sig (Elt F)) : U2 V (main_arg19 : DevRef τ sig) = V main_arg19 :=
  (keepS2 (U1 V) main_arg19 (by decide)).trans (U1_main_arg19 V)
theorem U3_main_arg19 (V : Valuation τ sig (Elt F)) : U3 V (main_arg19 : DevRef τ sig) = V main_arg19 :=
  (keepS3 (U2 V) main_arg19 (by decide)).trans (U2_main_arg19 V)
theorem U4_main_arg19 (V : Valuation τ sig (Elt F)) : U4 V (main_arg19 : DevRef τ sig) = V main_arg19 :=
  (keepS4 (U3 V) main_arg19 (by decide)).trans (U3_main_arg19 V)
theorem U5_main_arg19 (V : Valuation τ sig (Elt F)) : U5 V (main_arg19 : DevRef τ sig) = V main_arg19 :=
  (keepS5 (U4 V) main_arg19 (by decide)).trans (U4_main_arg19 V)
theorem U6_main_arg19 (V : Valuation τ sig (Elt F)) : U6 V (main_arg19 : DevRef τ sig) = V main_arg19 :=
  (keepS6 (U5 V) main_arg19 (by decide)).trans (U5_main_arg19 V)
theorem U7_main_arg19 (V : Valuation τ sig (Elt F)) : U7 V (main_arg19 : DevRef τ sig) = V main_arg19 :=
  (keepS7 (U6 V) main_arg19 (by decide)).trans (U6_main_arg19 V)
theorem U3_main_arg7 (V : Valuation τ sig (Elt F)) : U3 V (main_arg7 : DevRef τ sig) = V main_arg7 :=
  (keepS3 (U2 V) main_arg7 (by decide)).trans (U2_main_arg7 V)
theorem U4_main_arg7 (V : Valuation τ sig (Elt F)) : U4 V (main_arg7 : DevRef τ sig) = V main_arg7 :=
  (keepS4 (U3 V) main_arg7 (by decide)).trans (U3_main_arg7 V)
theorem U5_main_arg7 (V : Valuation τ sig (Elt F)) : U5 V (main_arg7 : DevRef τ sig) = V main_arg7 :=
  (keepS5 (U4 V) main_arg7 (by decide)).trans (U4_main_arg7 V)
theorem U6_main_arg7 (V : Valuation τ sig (Elt F)) : U6 V (main_arg7 : DevRef τ sig) = V main_arg7 :=
  (keepS6 (U5 V) main_arg7 (by decide)).trans (U5_main_arg7 V)
theorem U7_main_arg7 (V : Valuation τ sig (Elt F)) : U7 V (main_arg7 : DevRef τ sig) = V main_arg7 :=
  (keepS7 (U6 V) main_arg7 (by decide)).trans (U6_main_arg7 V)
theorem U1_main_arg20 (V : Valuation τ sig (Elt F)) : U1 V (main_arg20 : DevRef τ sig) = V main_arg20 :=
  keepS1 V main_arg20 (by decide)
theorem U2_main_arg20 (V : Valuation τ sig (Elt F)) : U2 V (main_arg20 : DevRef τ sig) = V main_arg20 :=
  (keepS2 (U1 V) main_arg20 (by decide)).trans (U1_main_arg20 V)
theorem U3_main_arg20 (V : Valuation τ sig (Elt F)) : U3 V (main_arg20 : DevRef τ sig) = V main_arg20 :=
  (keepS3 (U2 V) main_arg20 (by decide)).trans (U2_main_arg20 V)
theorem U4_main_arg20 (V : Valuation τ sig (Elt F)) : U4 V (main_arg20 : DevRef τ sig) = V main_arg20 :=
  (keepS4 (U3 V) main_arg20 (by decide)).trans (U3_main_arg20 V)
theorem U5_main_arg20 (V : Valuation τ sig (Elt F)) : U5 V (main_arg20 : DevRef τ sig) = V main_arg20 :=
  (keepS5 (U4 V) main_arg20 (by decide)).trans (U4_main_arg20 V)
theorem U6_main_arg20 (V : Valuation τ sig (Elt F)) : U6 V (main_arg20 : DevRef τ sig) = V main_arg20 :=
  (keepS6 (U5 V) main_arg20 (by decide)).trans (U5_main_arg20 V)
theorem U7_main_arg20 (V : Valuation τ sig (Elt F)) : U7 V (main_arg20 : DevRef τ sig) = V main_arg20 :=
  (keepS7 (U6 V) main_arg20 (by decide)).trans (U6_main_arg20 V)
/-- Stage 8's result after the first 8 stages. -/
theorem U8_out (V : Valuation τ sig (Elt F)) : U8 V (main_v173 : DevRef τ sig) = val8 V := by
  unfold U8 val8
  rw [seg8_out, U7_main_arg3, U7_main_v106, U7_main_arg19, U7_main_arg7, U7_main_arg20, U7_out]
theorem U4_main_arg4 (V : Valuation τ sig (Elt F)) : U4 V (main_arg4 : DevRef τ sig) = V main_arg4 :=
  (keepS4 (U3 V) main_arg4 (by decide)).trans (U3_main_arg4 V)
theorem U5_main_arg4 (V : Valuation τ sig (Elt F)) : U5 V (main_arg4 : DevRef τ sig) = V main_arg4 :=
  (keepS5 (U4 V) main_arg4 (by decide)).trans (U4_main_arg4 V)
theorem U6_main_arg4 (V : Valuation τ sig (Elt F)) : U6 V (main_arg4 : DevRef τ sig) = V main_arg4 :=
  (keepS6 (U5 V) main_arg4 (by decide)).trans (U5_main_arg4 V)
theorem U7_main_arg4 (V : Valuation τ sig (Elt F)) : U7 V (main_arg4 : DevRef τ sig) = V main_arg4 :=
  (keepS7 (U6 V) main_arg4 (by decide)).trans (U6_main_arg4 V)
theorem U8_main_arg4 (V : Valuation τ sig (Elt F)) : U8 V (main_arg4 : DevRef τ sig) = V main_arg4 :=
  (keepS8 (U7 V) main_arg4 (by decide)).trans (U7_main_arg4 V)
theorem U8_main_v106 (V : Valuation τ sig (Elt F)) : U8 V (main_v106 : DevRef τ sig) = val5 V :=
  (keepS8 (U7 V) main_v106 (by decide)).trans (U7_main_v106 V)
theorem U1_main_arg23 (V : Valuation τ sig (Elt F)) : U1 V (main_arg23 : DevRef τ sig) = V main_arg23 :=
  keepS1 V main_arg23 (by decide)
theorem U2_main_arg23 (V : Valuation τ sig (Elt F)) : U2 V (main_arg23 : DevRef τ sig) = V main_arg23 :=
  (keepS2 (U1 V) main_arg23 (by decide)).trans (U1_main_arg23 V)
theorem U3_main_arg23 (V : Valuation τ sig (Elt F)) : U3 V (main_arg23 : DevRef τ sig) = V main_arg23 :=
  (keepS3 (U2 V) main_arg23 (by decide)).trans (U2_main_arg23 V)
theorem U4_main_arg23 (V : Valuation τ sig (Elt F)) : U4 V (main_arg23 : DevRef τ sig) = V main_arg23 :=
  (keepS4 (U3 V) main_arg23 (by decide)).trans (U3_main_arg23 V)
theorem U5_main_arg23 (V : Valuation τ sig (Elt F)) : U5 V (main_arg23 : DevRef τ sig) = V main_arg23 :=
  (keepS5 (U4 V) main_arg23 (by decide)).trans (U4_main_arg23 V)
theorem U6_main_arg23 (V : Valuation τ sig (Elt F)) : U6 V (main_arg23 : DevRef τ sig) = V main_arg23 :=
  (keepS6 (U5 V) main_arg23 (by decide)).trans (U5_main_arg23 V)
theorem U7_main_arg23 (V : Valuation τ sig (Elt F)) : U7 V (main_arg23 : DevRef τ sig) = V main_arg23 :=
  (keepS7 (U6 V) main_arg23 (by decide)).trans (U6_main_arg23 V)
theorem U8_main_arg23 (V : Valuation τ sig (Elt F)) : U8 V (main_arg23 : DevRef τ sig) = V main_arg23 :=
  (keepS8 (U7 V) main_arg23 (by decide)).trans (U7_main_arg23 V)
theorem U4_main_arg8 (V : Valuation τ sig (Elt F)) : U4 V (main_arg8 : DevRef τ sig) = V main_arg8 :=
  (keepS4 (U3 V) main_arg8 (by decide)).trans (U3_main_arg8 V)
theorem U5_main_arg8 (V : Valuation τ sig (Elt F)) : U5 V (main_arg8 : DevRef τ sig) = V main_arg8 :=
  (keepS5 (U4 V) main_arg8 (by decide)).trans (U4_main_arg8 V)
theorem U6_main_arg8 (V : Valuation τ sig (Elt F)) : U6 V (main_arg8 : DevRef τ sig) = V main_arg8 :=
  (keepS6 (U5 V) main_arg8 (by decide)).trans (U5_main_arg8 V)
theorem U7_main_arg8 (V : Valuation τ sig (Elt F)) : U7 V (main_arg8 : DevRef τ sig) = V main_arg8 :=
  (keepS7 (U6 V) main_arg8 (by decide)).trans (U6_main_arg8 V)
theorem U8_main_arg8 (V : Valuation τ sig (Elt F)) : U8 V (main_arg8 : DevRef τ sig) = V main_arg8 :=
  (keepS8 (U7 V) main_arg8 (by decide)).trans (U7_main_arg8 V)
theorem U1_main_arg24 (V : Valuation τ sig (Elt F)) : U1 V (main_arg24 : DevRef τ sig) = V main_arg24 :=
  keepS1 V main_arg24 (by decide)
theorem U2_main_arg24 (V : Valuation τ sig (Elt F)) : U2 V (main_arg24 : DevRef τ sig) = V main_arg24 :=
  (keepS2 (U1 V) main_arg24 (by decide)).trans (U1_main_arg24 V)
theorem U3_main_arg24 (V : Valuation τ sig (Elt F)) : U3 V (main_arg24 : DevRef τ sig) = V main_arg24 :=
  (keepS3 (U2 V) main_arg24 (by decide)).trans (U2_main_arg24 V)
theorem U4_main_arg24 (V : Valuation τ sig (Elt F)) : U4 V (main_arg24 : DevRef τ sig) = V main_arg24 :=
  (keepS4 (U3 V) main_arg24 (by decide)).trans (U3_main_arg24 V)
theorem U5_main_arg24 (V : Valuation τ sig (Elt F)) : U5 V (main_arg24 : DevRef τ sig) = V main_arg24 :=
  (keepS5 (U4 V) main_arg24 (by decide)).trans (U4_main_arg24 V)
theorem U6_main_arg24 (V : Valuation τ sig (Elt F)) : U6 V (main_arg24 : DevRef τ sig) = V main_arg24 :=
  (keepS6 (U5 V) main_arg24 (by decide)).trans (U5_main_arg24 V)
theorem U7_main_arg24 (V : Valuation τ sig (Elt F)) : U7 V (main_arg24 : DevRef τ sig) = V main_arg24 :=
  (keepS7 (U6 V) main_arg24 (by decide)).trans (U6_main_arg24 V)
theorem U8_main_arg24 (V : Valuation τ sig (Elt F)) : U8 V (main_arg24 : DevRef τ sig) = V main_arg24 :=
  (keepS8 (U7 V) main_arg24 (by decide)).trans (U7_main_arg24 V)
/-- Stage 9's result after the first 9 stages. -/
theorem U9_out (V : Valuation τ sig (Elt F)) : U9 V (main_v195 : DevRef τ sig) = val9 V := by
  unfold U9 val9
  rw [seg9_out, U8_main_arg4, U8_main_v106, U8_main_arg23, U8_main_arg8, U8_main_arg24, U8_out]
theorem U1_main_arg27 (V : Valuation τ sig (Elt F)) : U1 V (main_arg27 : DevRef τ sig) = V main_arg27 :=
  keepS1 V main_arg27 (by decide)
theorem U2_main_arg27 (V : Valuation τ sig (Elt F)) : U2 V (main_arg27 : DevRef τ sig) = V main_arg27 :=
  (keepS2 (U1 V) main_arg27 (by decide)).trans (U1_main_arg27 V)
theorem U3_main_arg27 (V : Valuation τ sig (Elt F)) : U3 V (main_arg27 : DevRef τ sig) = V main_arg27 :=
  (keepS3 (U2 V) main_arg27 (by decide)).trans (U2_main_arg27 V)
theorem U4_main_arg27 (V : Valuation τ sig (Elt F)) : U4 V (main_arg27 : DevRef τ sig) = V main_arg27 :=
  (keepS4 (U3 V) main_arg27 (by decide)).trans (U3_main_arg27 V)
theorem U5_main_arg27 (V : Valuation τ sig (Elt F)) : U5 V (main_arg27 : DevRef τ sig) = V main_arg27 :=
  (keepS5 (U4 V) main_arg27 (by decide)).trans (U4_main_arg27 V)
theorem U6_main_arg27 (V : Valuation τ sig (Elt F)) : U6 V (main_arg27 : DevRef τ sig) = V main_arg27 :=
  (keepS6 (U5 V) main_arg27 (by decide)).trans (U5_main_arg27 V)
theorem U7_main_arg27 (V : Valuation τ sig (Elt F)) : U7 V (main_arg27 : DevRef τ sig) = V main_arg27 :=
  (keepS7 (U6 V) main_arg27 (by decide)).trans (U6_main_arg27 V)
theorem U8_main_arg27 (V : Valuation τ sig (Elt F)) : U8 V (main_arg27 : DevRef τ sig) = V main_arg27 :=
  (keepS8 (U7 V) main_arg27 (by decide)).trans (U7_main_arg27 V)
theorem U9_main_arg27 (V : Valuation τ sig (Elt F)) : U9 V (main_arg27 : DevRef τ sig) = V main_arg27 :=
  (keepS9 (U8 V) main_arg27 (by decide)).trans (U8_main_arg27 V)
theorem U1_main_arg28 (V : Valuation τ sig (Elt F)) : U1 V (main_arg28 : DevRef τ sig) = V main_arg28 :=
  keepS1 V main_arg28 (by decide)
theorem U2_main_arg28 (V : Valuation τ sig (Elt F)) : U2 V (main_arg28 : DevRef τ sig) = V main_arg28 :=
  (keepS2 (U1 V) main_arg28 (by decide)).trans (U1_main_arg28 V)
theorem U3_main_arg28 (V : Valuation τ sig (Elt F)) : U3 V (main_arg28 : DevRef τ sig) = V main_arg28 :=
  (keepS3 (U2 V) main_arg28 (by decide)).trans (U2_main_arg28 V)
theorem U4_main_arg28 (V : Valuation τ sig (Elt F)) : U4 V (main_arg28 : DevRef τ sig) = V main_arg28 :=
  (keepS4 (U3 V) main_arg28 (by decide)).trans (U3_main_arg28 V)
theorem U5_main_arg28 (V : Valuation τ sig (Elt F)) : U5 V (main_arg28 : DevRef τ sig) = V main_arg28 :=
  (keepS5 (U4 V) main_arg28 (by decide)).trans (U4_main_arg28 V)
theorem U6_main_arg28 (V : Valuation τ sig (Elt F)) : U6 V (main_arg28 : DevRef τ sig) = V main_arg28 :=
  (keepS6 (U5 V) main_arg28 (by decide)).trans (U5_main_arg28 V)
theorem U7_main_arg28 (V : Valuation τ sig (Elt F)) : U7 V (main_arg28 : DevRef τ sig) = V main_arg28 :=
  (keepS7 (U6 V) main_arg28 (by decide)).trans (U6_main_arg28 V)
theorem U8_main_arg28 (V : Valuation τ sig (Elt F)) : U8 V (main_arg28 : DevRef τ sig) = V main_arg28 :=
  (keepS8 (U7 V) main_arg28 (by decide)).trans (U7_main_arg28 V)
theorem U9_main_arg28 (V : Valuation τ sig (Elt F)) : U9 V (main_arg28 : DevRef τ sig) = V main_arg28 :=
  (keepS9 (U8 V) main_arg28 (by decide)).trans (U8_main_arg28 V)
/-- Stage 10's result after the first 10 stages. -/
theorem U10_out (V : Valuation τ sig (Elt F)) : U10 V (main_v213 : DevRef τ sig) = val10 V := by
  unfold U10 val10
  rw [seg10_out, U9_out, U9_main_arg27, U9_main_arg28]

/-! ## The result -/

/-- After the run the result buffer holds the specification's two-layer network of the 29 arguments' launch contents. -/
theorem out_eq (V : Valuation τ sig (Elt F)) :
    after ops V (main_v213 : DevRef τ sig) = Cert.Spec.network (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23) (V main_arg24) (V main_arg25) (V main_arg26) (V main_arg27) (V main_arg28) := by
  rw [after_ops_U, U10_out]
  rfl

/-- The first layer's output, where the run leaves it. -/
theorem layer1_eq (V : Valuation τ sig (Elt F)) :
    after ops V (main_v106 : DevRef τ sig) = Cert.Spec.layer (V main_arg0) (V main_arg9) (V main_arg13) (V main_arg17) (V main_arg21) (V main_arg1) (V main_arg2) (V main_arg3) (V main_arg4) (V main_arg5) (V main_arg6) (V main_arg7) (V main_arg8) (V main_arg10) (V main_arg14) (V main_arg18) (V main_arg22) (V main_arg25) (V main_arg26) := by
  rw [after_ops_U]
  exact (keepS10 _ main_v106 (by decide)).trans <| (keepS9 _ main_v106 (by decide)).trans <| (U8_main_v106 V).trans rfl

/-! ## The run, assembled -/

/-- From any memory with zero counters every weakly fair execution of @main terminates with the 29 argument buffers as launched. -/
theorem frame_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _),
      (h c main_arg23).trans (arg23_eq _),
      (h c main_arg24).trans (arg24_eq _),
      (h c main_arg25).trans (arg25_eq _),
      (h c main_arg26).trans (arg26_eq _),
      (h c main_arg27).trans (arg27_eq _),
      (h c main_arg28).trans (arg28_eq _)⟩)
    (run_all m ρ)

/-- From any memory with zero counters every weakly fair execution of @main terminates with the result buffer at the specification's
    network of the arguments' launch contents and the 29 argument buffers as launched. -/
theorem value_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v213) = Cert.Spec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨(h c main_v213).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _),
      (h c main_arg23).trans (arg23_eq _),
      (h c main_arg24).trans (arg24_eq _),
      (h c main_arg25).trans (arg25_eq _),
      (h c main_arg26).trans (arg26_eq _),
      (h c main_arg27).trans (arg27_eq _),
      (h c main_arg28).trans (arg28_eq _)⟩)
    (run_all m ρ)

end Cert.ReferenceIdeal.RefRun

end
-- ==== Proof.lean ====
/-
  The certificate's five claims.

  The network is two layers of a heterogeneous graph convolution over 131072 nodes: per layer, for each of four edge
  types, the node table is projected by that type's 128 × 128 weights, every edge sends its source row scaled by the
  edge weight to its destination row, a bias row is added, the four results are summed, and every row is normalised
  (LayerNorm). The kernel program computes the four projections of a layer as ONE product with the four weight matrices
  laid side by side, on 4096-row blocks, and cuts the [N, 512] result into its four 128-column bands; it normalises
  4096-row blocks in a second kernel; and it adds the four messages and four biases to a zero table one after the other.
  The reference computes four separate products, pairs each message with its bias before adding, and normalises on the
  host. On the extended reals these are one function of the 29 arguments (Cert.Spec.network):
    · band j of (table · side-by-side weights) is table · weights_j, entry by entry a sum over the 128 contracted
      positions of the same factors;
    · the eight-term sum is regrouped by commutativity and associativity of addition alone;
    · a block's LayerNorm is row-wise, so the blocks' results are the rows of the whole table's LayerNorm; the host's
      variance passes a guard on its divisor 128 − 0 > 0 that keeps it;
    · the message stage (index wrap-around, gather, scaling, scatter-add) is the same function on both sides.
  No step uses finiteness of the inputs. Each program's frame (termination, no fault, arguments unchanged) comes with its
  run: the kernel programs' from the four regions' launches over the staged blocks, the reference's from its straight
  line of host operations.
-/
import proofs.«145608_j2035814499086_1_alg».proof.Defs
import proofs.«145608_j2035814499086_1_alg».proof.Proof.Gen.Kernel
import proofs.«145608_j2035814499086_1_alg».proof.Proof.Gen.KernelIdeal
import proofs.«145608_j2035814499086_1_alg».proof.Proof.Gen.ReferenceIdeal
import proofs.«145608_j2035814499086_1_alg».proof.Proof.Gen.Pre_finite_inputs
import proofs.«145608_j2035814499086_1_alg».proof.Proof.Kernel.SegmentsArgs
import proofs.«145608_j2035814499086_1_alg».proof.Proof.KernelIdeal.SegmentsArgs
import proofs.«145608_j2035814499086_1_alg».proof.Proof.KernelIdeal.Value
import proofs.«145608_j2035814499086_1_alg».proof.Proof.ReferenceIdeal.Value

noncomputable section

namespace Cert.Proof

open Idealize.ShloMosaic Idealize.SL.Sem

/-- The word-level kernel program runs to the end and leaves its arguments as launched. -/
theorem frame_k : Cert.frame_Kernel := fun m ρ _ => Cert.Kernel.Run.frame m ρ

/-- So does its idealization. -/
theorem frame_ki : Cert.frame_KernelIdeal := fun m ρ _ => Cert.KernelIdeal.Run.frame m ρ

/-- So does the reference. -/
theorem frame_ri : Cert.frame_ReferenceIdeal := fun m ρ _ => Cert.ReferenceIdeal.RefRun.frame_run m ρ

/-- The ideal pass rewrote nothing. -/
theorem preserves : Cert.preserves_Kernel_KernelIdeal := trivial

/-- From memories agreeing on the 29 arguments both idealized programs end with the network's value of those arguments. -/
theorem algebraic : Cert.algebraic_KernelIdeal_ReferenceIdeal := by
  intro m ρ m' ρ' _ hagree
  refine ⟨_, Cert.KernelIdeal.Run.value_run m ρ, ?_⟩
  refine (θ_run Cert.ReferenceIdeal.defs _ _).mono (fun r h c => ?_) (Cert.ReferenceIdeal.RefRun.value_run m' ρ')
  obtain ⟨hv, hargs⟩ := h c
  refine ⟨hv.trans ?_, hargs⟩
  obtain ⟨e0, e1, e2, e3, e4, e5, e6, e7, e8, e9, e10, e11, e12, e13, e14, e15, e16, e17, e18, e19, e20, e21, e22, e23, e24, e25, e26, e27, e28⟩ := hagree c
  rw [e0, e1, e2, e3, e4, e5, e6, e7, e8, e9, e10, e11, e12, e13, e14, e15, e16, e17, e18, e19, e20, e21, e22, e23, e24, e25, e26, e27, e28]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
